-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x768 : Shape := ⟨3, ![32, 256, 768]⟩
abbrev S768x2304 : Shape := ⟨2, ![768, 2304]⟩
abbrev S768x768 : Shape := ⟨2, ![768, 768]⟩
abbrev S2304 : Shape := ⟨1, ![2304]⟩
abbrev S768 : Shape := ⟨1, ![768]⟩
abbrev S_ : Shape := ⟨0, ![]⟩

class Facts : Prop where
  bcast_S_S32x256x768 : S_.BroadcastsInDim S32x256x768 (![] : Fin 0 → Fin S32x256x768.rank)
  reducesTo_S32x256x768_S_d0_1_2 : S32x256x768.ReducesTo [0, 1, 2] S_
  h_S_ : 0 < S_.numel
  bcast_S_S768x2304 : S_.BroadcastsInDim S768x2304 (![] : Fin 0 → Fin S768x2304.rank)
  reducesTo_S768x2304_S_d0_1 : S768x2304.ReducesTo [0, 1] S_
  bcast_S_S768x768 : S_.BroadcastsInDim S768x768 (![] : Fin 0 → Fin S768x768.rank)
  reducesTo_S768x768_S_d0_1 : S768x768.ReducesTo [0, 1] S_
  bcast_S_S2304 : S_.BroadcastsInDim S2304 (![] : Fin 0 → Fin S2304.rank)
  reducesTo_S2304_S_d0 : S2304.ReducesTo [0] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S2304 1) : IVec S_ 1 :=
  let main_c_5 : IVec S_ 1 := constantI S_ 1 1#1
  let main_v17 : IVec S_ 1 := (fun x v => Host.reduce IntOp.andi x v reducesTo_S2304_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x256x768 .f32) (main_arg1 : FVec F S768x2304 .f32) (main_arg2 : FVec F S768x768 .f32) (main_arg3 : FVec F S2304 .f32) (main_arg4 : FVec F S768 .f32) : IVec S_ 1 :=
  let main_v0 : FVec F S32x256x768 .f32 := Host.absf main_arg0
  let main_cst : FVec F S_ .f32 := constant S_ .f32 0x7F800000#32
  let main_v1 : FVec F S32x256x768 .f32 := broadcastInDim S32x256x768 ![] bcast_S_S32x256x768 main_cst
  let main_v2 : IVec S32x256x768 1 := cmpf .olt main_v0 main_v1
  let main_c : IVec S_ 1 := constantI S_ 1 1#1
  let main_v3 : IVec S_ 1 := (fun x v => Host.reduce IntOp.andi x v reducesTo_S32x256x768_S_d0_1_2 h_S_) main_v2 main_c
  let main_v4 : FVec F S768x2304 .f32 := Host.absf main_arg1
  let main_cst_0 : FVec F S_ .f32 := constant S_ .f32 0x7F800000#32
  let main_v5 : FVec F S768x2304 .f32 := broadcastInDim S768x2304 ![] bcast_S_S768x2304 main_cst_0
  let main_v6 : IVec S768x2304 1 := cmpf .olt main_v4 main_v5
  let main_c_1 : IVec S_ 1 := constantI S_ 1 1#1
  let main_v7 : IVec S_ 1 := (fun x v => Host.reduce IntOp.andi x v reducesTo_S768x2304_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S2304 .f32 := Host.absf main_arg3
  let main_cst_4 : FVec F S_ .f32 := constant S_ .f32 0x7F800000#32
  let main_v15 : FVec F S2304 .f32 := broadcastInDim S2304 ![] bcast_S_S2304 main_cst_4
  let main_v16 : IVec S2304 1 := cmpf .olt main_v14 main_v15
  fn_part1 (F := F) main_arg4 main_v13 main_v16
-- ==== Kernel.lean ====
abbrev S32x256x768 : Shape := ⟨3, ![32, 256, 768]⟩
abbrev S768x2304 : Shape := ⟨2, ![768, 2304]⟩
abbrev S768x768 : Shape := ⟨2, ![768, 768]⟩
abbrev S2304 : Shape := ⟨1, ![2304]⟩
abbrev S768 : Shape := ⟨1, ![768]⟩
abbrev S1x2304 : Shape := ⟨2, ![1, 2304]⟩
abbrev S1x768 : Shape := ⟨2, ![1, 768]⟩
abbrev S1x256x768 : Shape := ⟨3, ![1, 256, 768]⟩
abbrev S256x768 : Shape := ⟨2, ![256, 768]⟩
abbrev S256x2304 : Shape := ⟨2, ![256, 2304]⟩
abbrev S256x64 : Shape := ⟨2, ![256, 64]⟩
abbrev S256x256 : Shape := ⟨2, ![256, 256]⟩
abbrev S256 : Shape := ⟨1, ![256]⟩
abbrev S256x1 : Shape := ⟨2, ![256, 1]⟩

abbrev nBuf : Space → Nat
  | .hbm => 11
  | .vmem => 8
  | .smem => 0
  | _ => 0

abbrev bufTy : (tb : Table) → Fin (tcTables nBuf tb) → BufTy
  | .hbm, ⟨0, _⟩ => ⟨S32x256x768, .f32⟩
  | .hbm, ⟨1, _⟩ => ⟨S768x2304, .f32⟩
  | .hbm, ⟨2, _⟩ => ⟨S768x768, .f32⟩
  | .hbm, ⟨3, _⟩ => ⟨S2304, .f32⟩
  | .hbm, ⟨4, _⟩ => ⟨S768, .f32⟩
  | .hbm, ⟨5, _⟩ => ⟨S32x256x768, .bf16⟩
  | .hbm, ⟨6, _⟩ => ⟨S768x2304, .bf16⟩
  | .hbm, ⟨7, _⟩ => ⟨S768x768, .bf16⟩
  | .hbm, ⟨8, _⟩ => ⟨S1x2304, .f32⟩
  | .hbm, ⟨9, _⟩ => ⟨S1x768, .f32⟩
  | .hbm, ⟨10, _⟩ => ⟨S32x256x768, .f32⟩
  | .local _ .vmem, ⟨0, _⟩ => ⟨S1x256x768, .bf16⟩
  | .local _ .vmem, ⟨1, _⟩ => ⟨S1x256x768, .bf16⟩
  | .local _ .vmem, ⟨2, _⟩ => ⟨S768x2304, .bf16⟩
  | .local _ .vmem, ⟨3, _⟩ => ⟨S1x2304, .f32⟩
  | .local _ .vmem, ⟨4, _⟩ => ⟨S768x768, .bf16⟩
  | .local _ .vmem, ⟨5, _⟩ => ⟨S1x768, .f32⟩
  | .local _ .vmem, ⟨6, _⟩ => ⟨S1x256x768, .f32⟩
  | .local _ .vmem, ⟨7, _⟩ => ⟨S1x256x768, .f32⟩
  | _, _ => ⟨S32x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S2304_S1x2304 : S2304.ShapeCasts S1x2304
  shapeCasts_S768_S1x768 : S768.ShapeCasts S1x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S1x2304_S1x2304_0_0 : ∀ a, (![0, 0] : Fin 2 → Nat) a + S1x2304.size a ≤ S1x2304.size a
  h_S1x2304 : 0 < S1x2304.numel
  shapeCasts_S1x2304_S1x2304 : S1x2304.ShapeCasts S1x2304
  broadcasts_S1x2304_S256x2304 : S1x2304.Broadcasts S256x2304
  slices_S256x2304_o0_0_S256x768 : S256x2304.Slices ![0, 0] S256x768
  slices_S256x2304_o0_768_S256x768 : S256x2304.Slices ![0, 768] S256x768
  slices_S256x2304_o0_1536_S256x768 : S256x2304.Slices ![0, 1536] S256x768
  slices_S256x768_o0_0_S256x64 : S256x768.Slices ![0, 0] S256x64
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  slices_S256x768_o0_64_S256x64 : S256x768.Slices ![0, 64] S256x64
  slices_S256x768_o0_128_S256x64 : S256x768.Slices ![0, 128] S256x64
  slices_S256x768_o0_192_S256x64 : S256x768.Slices ![0, 192] S256x64
  slices_S256x768_o0_256_S256x64 : S256x768.Slices ![0, 256] S256x64
  slices_S256x768_o0_320_S256x64 : S256x768.Slices ![0, 320] S256x64
  slices_S256x768_o0_384_S256x64 : S256x768.Slices ![0, 384] S256x64
  slices_S256x768_o0_448_S256x64 : S256x768.Slices ![0, 448] S256x64
  slices_S256x768_o0_512_S256x64 : S256x768.Slices ![0, 512] S256x64
  slices_S256x768_o0_576_S256x64 : S256x768.Slices ![0, 576] S256x64
  slices_S256x768_o0_640_S256x64 : S256x768.Slices ![0, 640] S256x64
  slices_S256x768_o0_704_S256x64 : S256x768.Slices ![0, 704] S256x64
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S256x768 : S1x768.Broadcasts S256x768
  shapeCasts_S256x768_S1x256x768 : S256x768.ShapeCasts S1x256x768
  dot_S256x768_S768x2304_S256x2304_1_0_0_1_n_n_wf : DotDims.WF S256x768 S768x2304 S256x2304 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  dot_S256x768_S768x768_S256x768_1_0_0_1_n_n_wf : DotDims.WF S256x768 S768x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x768.size a ≤ S32x256x768.size a
  hwx0_0 : ∀ i : grid0.Coords, EltTy.bits .bf16 = 32 ∨ (Rect.block (s := S32x256x768) S1x256x768.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2304.size a ≤ S1x2304.size a
  hwx0_2 : ∀ i : grid0.Coords, EltTy.bits .f32 = 32 ∨ (Rect.block (s := S1x2304) S1x2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x768.size a ≤ S32x256x768.size a
  hwx0_5 : ∀ i : grid0.Coords, EltTy.bits .f32 = 32 ∨ (Rect.block (s := S32x256x768) S1x256x768.size (cc0_transform_5 i) (hinb0_5 i)).WholeWords (EltTy.packing .f32)

variable [Facts₀]

def dot_S256x768_S768x2304_S256x2304_1_0_0_1_n_n : DotDims S256x768 S768x2304 S256x2304 where
  lhsContracting := [1]
  rhsContracting := [0]
  lhsNonContracting := [0]
  rhsNonContracting := [1]
  lhsBatch := []
  rhsBatch := []
  wf := dot_S256x768_S768x2304_S256x2304_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf
def dot_S256x768_S768x768_S256x768_1_0_0_1_n_n : DotDims S256x768 S768x768 S256x768 where
  lhsContracting := [1]
  rhsContracting := [0]
  lhsNonContracting := [0]
  rhsNonContracting := [1]
  lhsBatch := []
  rhsBatch := []
  wf := dot_S256x768_S768x768_S256x768_1_0_0_1_n_n_wf

abbrev win0_0 : Pipeline.Window sig grid0 :=
  Pipeline.Window.ofSpec (Memref.whole main_v0) S1x256x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x256x768 : Shape := ⟨3, ![32, 256, 768]⟩
abbrev S768x2304 : Shape := ⟨2, ![768, 2304]⟩
abbrev S768x768 : Shape := ⟨2, ![768, 768]⟩
abbrev S2304 : Shape := ⟨1, ![2304]⟩
abbrev S768 : Shape := ⟨1, ![768]⟩
abbrev S_ : Shape := ⟨0, ![]⟩
abbrev S1 : Shape := ⟨1, ![1]⟩
abbrev S2 : Shape := ⟨1, ![2]⟩
abbrev S4 : Shape := ⟨1, ![4]⟩
abbrev S4x1 : Shape := ⟨2, ![4, 1]⟩
abbrev S4x2 : Shape := ⟨2, ![4, 2]⟩
abbrev S1x2 : Shape := ⟨2, ![1, 2]⟩
abbrev S1x1 : Shape := ⟨2, ![1, 1]⟩
abbrev S2304x768 : Shape := ⟨2, ![2304, 768]⟩
abbrev S8192x768 : Shape := ⟨2, ![8192, 768]⟩
abbrev S1x2304 : Shape := ⟨2, ![1, 2304]⟩
abbrev S8192x2304 : Shape := ⟨2, ![8192, 2304]⟩
abbrev S512x256 : Shape := ⟨2, ![512, 256]⟩
abbrev S256x256 : Shape := ⟨2, ![256, 256]⟩
abbrev S1x256 : Shape := ⟨2, ![1, 256]⟩
abbrev S32x256x2304 : Shape := ⟨3, ![32, 256, 2304]⟩
abbrev S1x256x2304 : Shape := ⟨3, ![1, 256, 2304]⟩
abbrev S1x256x768 : Shape := ⟨3, ![1, 256, 768]⟩
abbrev S256x2304 : Shape := ⟨2, ![256, 2304]⟩
abbrev S256x768 : Shape := ⟨2, ![256, 768]⟩
abbrev S256x64 : Shape := ⟨2, ![256, 64]⟩
abbrev S256 : Shape := ⟨1, ![256]⟩
abbrev S256x1 : Shape := ⟨2, ![256, 1]⟩
abbrev S1x768 : Shape := ⟨2, ![1, 768]⟩

abbrev nBuf : Space → Nat
  | .hbm => 1318
  | .vmem => 22
  | .smem => 0
  | _ => 0

abbrev hbmTy0_0 (i : Nat) : BufTy := match i % 128 with
  | 0 => ⟨S32x256x768, .f32⟩
  | 1 => ⟨S768x2304, .f32⟩
  | 2 => ⟨S768x768, .f32⟩
  | 3 => ⟨S2304, .f32⟩
  | 4 => ⟨S768, .f32⟩
  | 5 => ⟨S_, .i32⟩
  | 6 => ⟨S_, .i32⟩
  | 7 => ⟨S_, .i32⟩
  | 8 => ⟨S_, .i32⟩
  | 9 => ⟨S1, .i32⟩
  | 10 => ⟨S_, .i32⟩
  | 11 => ⟨S_, .i32⟩
  | 12 => ⟨S_, .i32⟩
  | 13 => ⟨S1, .i32⟩
  | 14 => ⟨S2, .i32⟩
  | 15 => ⟨S1, .i32⟩
  | 16 => ⟨S_, .i32⟩
  | 17 => ⟨S1, .i32⟩
  | 18 => ⟨S_, .i32⟩
  | 19 => ⟨S4, .i64⟩
  | 20 => ⟨S_, .i64⟩
  | 21 => ⟨S4, .i64⟩
  | 22 => ⟨S4, .i64⟩
  | 23 => ⟨S_, .i64⟩
  | 24 => ⟨S4, .i64⟩
  | 25 => ⟨S4, .i64⟩
  | 26 => ⟨S4, .i32⟩
  | 27 => ⟨S4, .i32⟩
  | 28 => ⟨S_, .i32⟩
  | 29 => ⟨S_, .i32⟩
  | 30 => ⟨S_, .i32⟩
  | 31 => ⟨S4, .i32⟩
  | 32 => ⟨S4, .i32⟩
  | 33 => ⟨S4, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .i32⟩
  | 43 => ⟨S4, .i32⟩
  | 44 => ⟨S4, .i32⟩
  | 45 => ⟨S_, .i32⟩
  | 46 => ⟨S4, .i32⟩
  | 47 => ⟨S4, .i32⟩
  | 48 => ⟨S_, .i32⟩
  | 49 => ⟨S4, .i32⟩
  | 50 => ⟨S4, .i32⟩
  | 51 => ⟨S4, .i32⟩
  | 52 => ⟨S4, .i32⟩
  | 53 => ⟨S4, .i32⟩
  | 54 => ⟨S_, .i32⟩
  | 55 => ⟨S4, .i32⟩
  | 56 => ⟨S4, .i32⟩
  | 57 => ⟨S_, .i32⟩
  | 58 => ⟨S4, .i32⟩
  | 59 => ⟨S4, .i32⟩
  | 60 => ⟨S4, .i32⟩
  | 61 => ⟨S4, .i32⟩
  | 62 => ⟨S4, .i32⟩
  | 63 => ⟨S_, .i32⟩
  | 64 => ⟨S4, .i32⟩
  | 65 => ⟨S4, .i32⟩
  | 66 => ⟨S_, .i32⟩
  | 67 => ⟨S4, .i32⟩
  | 68 => ⟨S4, .i32⟩
  | 69 => ⟨S4, .i32⟩
  | 70 => ⟨S4, .i32⟩
  | 71 => ⟨S4, .i32⟩
  | 72 => ⟨S4, .i32⟩
  | 73 => ⟨S4, .i32⟩
  | 74 => ⟨S4, .i32⟩
  | 75 => ⟨S_, .i32⟩
  | 76 => ⟨S4, .i32⟩
  | 77 => ⟨S4, .i32⟩
  | 78 => ⟨S4, .i32⟩
  | 79 => ⟨S_, .i32⟩
  | 80 => ⟨S4, .i32⟩
  | 81 => ⟨S4, .i32⟩
  | 82 => ⟨S_, .i32⟩
  | 83 => ⟨S4, .i32⟩
  | 84 => ⟨S4, .i32⟩
  | 85 => ⟨S4, .i32⟩
  | 86 => ⟨S4, .i32⟩
  | 87 => ⟨S4, .i32⟩
  | 88 => ⟨S_, .i32⟩
  | 89 => ⟨S4, .i32⟩
  | 90 => ⟨S4, .i32⟩
  | 91 => ⟨S_, .i32⟩
  | 92 => ⟨S4, .i32⟩
  | 93 => ⟨S4, .i32⟩
  | 94 => ⟨S4, .i32⟩
  | 95 => ⟨S4, .i32⟩
  | 96 => ⟨S4, .i32⟩
  | 97 => ⟨S_, .i32⟩
  | 98 => ⟨S4, .i32⟩
  | 99 => ⟨S4, .i32⟩
  | 100 => ⟨S_, .i32⟩
  | 101 => ⟨S4, .i32⟩
  | 102 => ⟨S4, .i32⟩
  | 103 => ⟨S4, .i32⟩
  | 104 => ⟨S4, .i32⟩
  | 105 => ⟨S4, .i32⟩
  | 106 => ⟨S_, .i32⟩
  | 107 => ⟨S4, .i32⟩
  | 108 => ⟨S4, .i32⟩
  | 109 => ⟨S_, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S4, .i32⟩
  | 117 => ⟨S4, .i32⟩
  | 118 => ⟨S_, .i32⟩
  | 119 => ⟨S4, .i32⟩
  | 120 => ⟨S4, .i32⟩
  | 121 => ⟨S4, .i32⟩
  | 122 => ⟨S_, .i32⟩
  | 123 => ⟨S4, .i32⟩
  | 124 => ⟨S4, .i32⟩
  | 125 => ⟨S_, .i32⟩
  | 126 => ⟨S4, .i32⟩
  | 127 => ⟨S4, .i32⟩
  | _ => ⟨S32x256x768, .f32⟩

abbrev hbmTy0_1 (i : Nat) : BufTy := match i % 128 with
  | 0 => ⟨S4, .i32⟩
  | 1 => ⟨S4, .i32⟩
  | 2 => ⟨S4, .i32⟩
  | 3 => ⟨S_, .i32⟩
  | 4 => ⟨S4, .i32⟩
  | 5 => ⟨S4, .i32⟩
  | 6 => ⟨S_, .i32⟩
  | 7 => ⟨S4, .i32⟩
  | 8 => ⟨S4, .i32⟩
  | 9 => ⟨S4, .i32⟩
  | 10 => ⟨S4, .i32⟩
  | 11 => ⟨S4, .i32⟩
  | 12 => ⟨S_, .i32⟩
  | 13 => ⟨S4, .i32⟩
  | 14 => ⟨S4, .i32⟩
  | 15 => ⟨S_, .i32⟩
  | 16 => ⟨S4, .i32⟩
  | 17 => ⟨S4, .i32⟩
  | 18 => ⟨S4, .i32⟩
  | 19 => ⟨S4, .i32⟩
  | 20 => ⟨S4, .i32⟩
  | 21 => ⟨S_, .i32⟩
  | 22 => ⟨S4, .i32⟩
  | 23 => ⟨S4, .i32⟩
  | 24 => ⟨S_, .i32⟩
  | 25 => ⟨S4, .i32⟩
  | 26 => ⟨S4, .i32⟩
  | 27 => ⟨S4, .i32⟩
  | 28 => ⟨S4, .i32⟩
  | 29 => ⟨S4, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S4, .i32⟩
  | 42 => ⟨S4, .i32⟩
  | 43 => ⟨S4, .i32⟩
  | 44 => ⟨S4, .i32⟩
  | 45 => ⟨S4, .i32⟩
  | 46 => ⟨S_, .i32⟩
  | 47 => ⟨S4, .i32⟩
  | 48 => ⟨S4, .i32⟩
  | 49 => ⟨S_, .i32⟩
  | 50 => ⟨S4, .i32⟩
  | 51 => ⟨S4, .i32⟩
  | 52 => ⟨S4, .i32⟩
  | 53 => ⟨S4, .i32⟩
  | 54 => ⟨S4, .i32⟩
  | 55 => ⟨S_, .i32⟩
  | 56 => ⟨S4, .i32⟩
  | 57 => ⟨S4, .i32⟩
  | 58 => ⟨S_, .i32⟩
  | 59 => ⟨S4, .i32⟩
  | 60 => ⟨S4, .i32⟩
  | 61 => ⟨S4, .i32⟩
  | 62 => ⟨S4, .i32⟩
  | 63 => ⟨S4, .i32⟩
  | 64 => ⟨S_, .i32⟩
  | 65 => ⟨S4, .i32⟩
  | 66 => ⟨S4, .i32⟩
  | 67 => ⟨S_, .i32⟩
  | 68 => ⟨S4, .i32⟩
  | 69 => ⟨S4, .i32⟩
  | 70 => ⟨S4, .i32⟩
  | 71 => ⟨S4, .i32⟩
  | 72 => ⟨S4, .i32⟩
  | 73 => ⟨S4, .i32⟩
  | 74 => ⟨S4, .i32⟩
  | 75 => ⟨S4, .i32⟩
  | 76 => ⟨S_, .i32⟩
  | 77 => ⟨S4, .i32⟩
  | 78 => ⟨S4, .i32⟩
  | 79 => ⟨S4, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S4, .i32⟩
  | 87 => ⟨S4, .i32⟩
  | 88 => ⟨S4, .i32⟩
  | 89 => ⟨S_, .i32⟩
  | 90 => ⟨S4, .i32⟩
  | 91 => ⟨S4, .i32⟩
  | 92 => ⟨S_, .i32⟩
  | 93 => ⟨S4, .i32⟩
  | 94 => ⟨S4, .i32⟩
  | 95 => ⟨S4, .i32⟩
  | 96 => ⟨S4, .i32⟩
  | 97 => ⟨S4, .i32⟩
  | 98 => ⟨S_, .i32⟩
  | 99 => ⟨S4, .i32⟩
  | 100 => ⟨S4, .i32⟩
  | 101 => ⟨S_, .i32⟩
  | 102 => ⟨S4, .i32⟩
  | 103 => ⟨S4, .i32⟩
  | 104 => ⟨S4, .i32⟩
  | 105 => ⟨S4, .i32⟩
  | 106 => ⟨S4, .i32⟩
  | 107 => ⟨S_, .i32⟩
  | 108 => ⟨S4, .i32⟩
  | 109 => ⟨S4, .i32⟩
  | 110 => ⟨S_, .i32⟩
  | 111 => ⟨S4, .i32⟩
  | 112 => ⟨S4, .i32⟩
  | 113 => ⟨S4, .i32⟩
  | 114 => ⟨S4, .i32⟩
  | 115 => ⟨S4, .i32⟩
  | 116 => ⟨S4, .i32⟩
  | 117 => ⟨S4, .i32⟩
  | 118 => ⟨S4, .i32⟩
  | 119 => ⟨S_, .i32⟩
  | 120 => ⟨S4, .i32⟩
  | 121 => ⟨S4, .i32⟩
  | 122 => ⟨S4x1, .i32⟩
  | 123 => ⟨S4x1, .i32⟩
  | 124 => ⟨S4x2, .i32⟩
  | 125 => ⟨S1x2, .i32⟩
  | 126 => ⟨S2, .i32⟩
  | 127 => ⟨S1x2, .i32⟩
  | _ => ⟨S32x256x768, .f32⟩

abbrev hbmTy0_2 (i : Nat) : BufTy := match i % 128 with
  | 0 => ⟨S2, .i32⟩
  | 1 => ⟨S1x2, .i32⟩
  | 2 => ⟨S2, .i32⟩
  | 3 => ⟨S1x2, .i32⟩
  | 4 => ⟨S2, .i32⟩
  | 5 => ⟨S_, .f32⟩
  | 6 => ⟨S_, .f32⟩
  | 7 => ⟨S_, .f32⟩
  | 8 => ⟨S_, .f32⟩
  | 9 => ⟨S1x1, .f32⟩
  | 10 => ⟨S1x1, .f32⟩
  | 11 => ⟨S1, .i32⟩
  | 12 => ⟨S_, .i32⟩
  | 13 => ⟨S1, .i32⟩
  | 14 => ⟨S_, .i32⟩
  | 15 => ⟨S2304x768, .i64⟩
  | 16 => ⟨S2304x768, .i64⟩
  | 17 => ⟨S_, .i64⟩
  | 18 => ⟨S2304x768, .i64⟩
  | 19 => ⟨S2304x768, .i64⟩
  | 20 => ⟨S_, .i64⟩
  | 21 => ⟨S2304x768, .i64⟩
  | 22 => ⟨S2304x768, .i64⟩
  | 23 => ⟨S2304x768, .i64⟩
  | 24 => ⟨S_, .i64⟩
  | 25 => ⟨S2304x768, .i64⟩
  | 26 => ⟨S2304x768, .i64⟩
  | 27 => ⟨S2304x768, .i32⟩
  | 28 => ⟨S2304x768, .i32⟩
  | 29 => ⟨S_, .i32⟩
  | 30 => ⟨S_, .i32⟩
  | 31 => ⟨S_, .i32⟩
  | 32 => ⟨S2304x768, .i32⟩
  | 33 => ⟨S2304x768, .i32⟩
  | 34 => ⟨S2304x768, .i32⟩
  | 35 => ⟨S2304x768, .i32⟩
  | 36 => ⟨S2304x768, .i32⟩
  | 37 => ⟨S_, .i32⟩
  | 38 => ⟨S2304x768, .i32⟩
  | 39 => ⟨S2304x768, .i32⟩
  | 40 => ⟨S_, .i32⟩
  | 41 => ⟨S2304x768, .i32⟩
  | 42 => ⟨S2304x768, .i32⟩
  | 43 => ⟨S2304x768, .i32⟩
  | 44 => ⟨S2304x768, .i32⟩
  | 45 => ⟨S2304x768, .i32⟩
  | 46 => ⟨S_, .i32⟩
  | 47 => ⟨S2304x768, .i32⟩
  | 48 => ⟨S2304x768, .i32⟩
  | 49 => ⟨S_, .i32⟩
  | 50 => ⟨S2304x768, .i32⟩
  | 51 => ⟨S2304x768, .i32⟩
  | 52 => ⟨S2304x768, .i32⟩
  | 53 => ⟨S2304x768, .i32⟩
  | 54 => ⟨S2304x768, .i32⟩
  | 55 => ⟨S_, .i32⟩
  | 56 => ⟨S2304x768, .i32⟩
  | 57 => ⟨S2304x768, .i32⟩
  | 58 => ⟨S_, .i32⟩
  | 59 => ⟨S2304x768, .i32⟩
  | 60 => ⟨S2304x768, .i32⟩
  | 61 => ⟨S2304x768, .i32⟩
  | 62 => ⟨S2304x768, .i32⟩
  | 63 => ⟨S2304x768, .i32⟩
  | 64 => ⟨S_, .i32⟩
  | 65 => ⟨S2304x768, .i32⟩
  | 66 => ⟨S2304x768, .i32⟩
  | 67 => ⟨S_, .i32⟩
  | 68 => ⟨S2304x768, .i32⟩
  | 69 => ⟨S2304x768, .i32⟩
  | 70 => ⟨S2304x768, .i32⟩
  | 71 => ⟨S2304x768, .i32⟩
  | 72 => ⟨S2304x768, .i32⟩
  | 73 => ⟨S2304x768, .i32⟩
  | 74 => ⟨S2304x768, .i32⟩
  | 75 => ⟨S2304x768, .i32⟩
  | 76 => ⟨S_, .i32⟩
  | 77 => ⟨S2304x768, .i32⟩
  | 78 => ⟨S2304x768, .i32⟩
  | 79 => ⟨S2304x768, .i32⟩
  | 80 => ⟨S_, .i32⟩
  | 81 => ⟨S2304x768, .i32⟩
  | 82 => ⟨S2304x768, .i32⟩
  | 83 => ⟨S_, .i32⟩
  | 84 => ⟨S2304x768, .i32⟩
  | 85 => ⟨S2304x768, .i32⟩
  | 86 => ⟨S2304x768, .i32⟩
  | 87 => ⟨S2304x768, .i32⟩
  | 88 => ⟨S2304x768, .i32⟩
  | 89 => ⟨S_, .i32⟩
  | 90 => ⟨S2304x768, .i32⟩
  | 91 => ⟨S2304x768, .i32⟩
  | 92 => ⟨S_, .i32⟩
  | 93 => ⟨S2304x768, .i32⟩
  | 94 => ⟨S2304x768, .i32⟩
  | 95 => ⟨S2304x768, .i32⟩
  | 96 => ⟨S2304x768, .i32⟩
  | 97 => ⟨S2304x768, .i32⟩
  | 98 => ⟨S_, .i32⟩
  | 99 => ⟨S2304x768, .i32⟩
  | 100 => ⟨S2304x768, .i32⟩
  | 101 => ⟨S_, .i32⟩
  | 102 => ⟨S2304x768, .i32⟩
  | 103 => ⟨S2304x768, .i32⟩
  | 104 => ⟨S2304x768, .i32⟩
  | 105 => ⟨S2304x768, .i32⟩
  | 106 => ⟨S2304x768, .i32⟩
  | 107 => ⟨S_, .i32⟩
  | 108 => ⟨S2304x768, .i32⟩
  | 109 => ⟨S2304x768, .i32⟩
  | 110 => ⟨S_, .i32⟩
  | 111 => ⟨S2304x768, .i32⟩
  | 112 => ⟨S2304x768, .i32⟩
  | 113 => ⟨S2304x768, .i32⟩
  | 114 => ⟨S2304x768, .i32⟩
  | 115 => ⟨S2304x768, .i32⟩
  | 116 => ⟨S2304x768, .i32⟩
  | 117 => ⟨S2304x768, .i32⟩
  | 118 => ⟨S2304x768, .i32⟩
  | 119 => ⟨S_, .i32⟩
  | 120 => ⟨S2304x768, .i32⟩
  | 121 => ⟨S2304x768, .i32⟩
  | 122 => ⟨S2304x768, .i32⟩
  | 123 => ⟨S_, .i32⟩
  | 124 => ⟨S2304x768, .i32⟩
  | 125 => ⟨S2304x768, .i32⟩
  | 126 => ⟨S_, .i32⟩
  | 127 => ⟨S2304x768, .i32⟩
  | _ => ⟨S32x256x768, .f32⟩

abbrev hbmTy0_3 (i : Nat) : BufTy := match i % 128 with
  | 0 => ⟨S2304x768, .i32⟩
  | 1 => ⟨S2304x768, .i32⟩
  | 2 => ⟨S2304x768, .i32⟩
  | 3 => ⟨S2304x768, .i32⟩
  | 4 => ⟨S_, .i32⟩
  | 5 => ⟨S2304x768, .i32⟩
  | 6 => ⟨S2304x768, .i32⟩
  | 7 => ⟨S_, .i32⟩
  | 8 => ⟨S2304x768, .i32⟩
  | 9 => ⟨S2304x768, .i32⟩
  | 10 => ⟨S2304x768, .i32⟩
  | 11 => ⟨S2304x768, .i32⟩
  | 12 => ⟨S2304x768, .i32⟩
  | 13 => ⟨S_, .i32⟩
  | 14 => ⟨S2304x768, .i32⟩
  | 15 => ⟨S2304x768, .i32⟩
  | 16 => ⟨S_, .i32⟩
  | 17 => ⟨S2304x768, .i32⟩
  | 18 => ⟨S2304x768, .i32⟩
  | 19 => ⟨S2304x768, .i32⟩
  | 20 => ⟨S2304x768, .i32⟩
  | 21 => ⟨S2304x768, .i32⟩
  | 22 => ⟨S_, .i32⟩
  | 23 => ⟨S2304x768, .i32⟩
  | 24 => ⟨S2304x768, .i32⟩
  | 25 => ⟨S_, .i32⟩
  | 26 => ⟨S2304x768, .i32⟩
  | 27 => ⟨S2304x768, .i32⟩
  | 28 => ⟨S2304x768, .i32⟩
  | 29 => ⟨S2304x768, .i32⟩
  | 30 => ⟨S2304x768, .i32⟩
  | 31 => ⟨S2304x768, .i32⟩
  | 32 => ⟨S2304x768, .i32⟩
  | 33 => ⟨S2304x768, .i32⟩
  | 34 => ⟨S_, .i32⟩
  | 35 => ⟨S2304x768, .i32⟩
  | 36 => ⟨S2304x768, .i32⟩
  | 37 => ⟨S2304x768, .i32⟩
  | 38 => ⟨S_, .i32⟩
  | 39 => ⟨S2304x768, .i32⟩
  | 40 => ⟨S2304x768, .i32⟩
  | 41 => ⟨S_, .i32⟩
  | 42 => ⟨S2304x768, .i32⟩
  | 43 => ⟨S2304x768, .i32⟩
  | 44 => ⟨S2304x768, .i32⟩
  | 45 => ⟨S2304x768, .i32⟩
  | 46 => ⟨S2304x768, .i32⟩
  | 47 => ⟨S_, .i32⟩
  | 48 => ⟨S2304x768, .i32⟩
  | 49 => ⟨S2304x768, .i32⟩
  | 50 => ⟨S_, .i32⟩
  | 51 => ⟨S2304x768, .i32⟩
  | 52 => ⟨S2304x768, .i32⟩
  | 53 => ⟨S2304x768, .i32⟩
  | 54 => ⟨S2304x768, .i32⟩
  | 55 => ⟨S2304x768, .i32⟩
  | 56 => ⟨S_, .i32⟩
  | 57 => ⟨S2304x768, .i32⟩
  | 58 => ⟨S2304x768, .i32⟩
  | 59 => ⟨S_, .i32⟩
  | 60 => ⟨S2304x768, .i32⟩
  | 61 => ⟨S2304x768, .i32⟩
  | 62 => ⟨S2304x768, .i32⟩
  | 63 => ⟨S2304x768, .i32⟩
  | 64 => ⟨S2304x768, .i32⟩
  | 65 => ⟨S_, .i32⟩
  | 66 => ⟨S2304x768, .i32⟩
  | 67 => ⟨S2304x768, .i32⟩
  | 68 => ⟨S_, .i32⟩
  | 69 => ⟨S2304x768, .i32⟩
  | 70 => ⟨S2304x768, .i32⟩
  | 71 => ⟨S2304x768, .i32⟩
  | 72 => ⟨S2304x768, .i32⟩
  | 73 => ⟨S2304x768, .i32⟩
  | 74 => ⟨S2304x768, .i32⟩
  | 75 => ⟨S2304x768, .i32⟩
  | 76 => ⟨S2304x768, .i32⟩
  | 77 => ⟨S_, .i32⟩
  | 78 => ⟨S2304x768, .i32⟩
  | 79 => ⟨S2304x768, .i32⟩
  | 80 => ⟨S2304x768, .i32⟩
  | 81 => ⟨S_, .i32⟩
  | 82 => ⟨S2304x768, .i32⟩
  | 83 => ⟨S2304x768, .i32⟩
  | 84 => ⟨S_, .i32⟩
  | 85 => ⟨S2304x768, .i32⟩
  | 86 => ⟨S2304x768, .i32⟩
  | 87 => ⟨S2304x768, .i32⟩
  | 88 => ⟨S2304x768, .i32⟩
  | 89 => ⟨S2304x768, .i32⟩
  | 90 => ⟨S_, .i32⟩
  | 91 => ⟨S2304x768, .i32⟩
  | 92 => ⟨S2304x768, .i32⟩
  | 93 => ⟨S_, .i32⟩
  | 94 => ⟨S2304x768, .i32⟩
  | 95 => ⟨S2304x768, .i32⟩
  | 96 => ⟨S2304x768, .i32⟩
  | 97 => ⟨S2304x768, .i32⟩
  | 98 => ⟨S2304x768, .i32⟩
  | 99 => ⟨S_, .i32⟩
  | 100 => ⟨S2304x768, .i32⟩
  | 101 => ⟨S2304x768, .i32⟩
  | 102 => ⟨S_, .i32⟩
  | 103 => ⟨S2304x768, .i32⟩
  | 104 => ⟨S2304x768, .i32⟩
  | 105 => ⟨S2304x768, .i32⟩
  | 106 => ⟨S2304x768, .i32⟩
  | 107 => ⟨S2304x768, .i32⟩
  | 108 => ⟨S_, .i32⟩
  | 109 => ⟨S2304x768, .i32⟩
  | 110 => ⟨S2304x768, .i32⟩
  | 111 => ⟨S_, .i32⟩
  | 112 => ⟨S2304x768, .i32⟩
  | 113 => ⟨S2304x768, .i32⟩
  | 114 => ⟨S2304x768, .i32⟩
  | 115 => ⟨S2304x768, .i32⟩
  | 116 => ⟨S2304x768, .i32⟩
  | 117 => ⟨S2304x768, .i32⟩
  | 118 => ⟨S2304x768, .i32⟩
  | 119 => ⟨S2304x768, .i32⟩
  | 120 => ⟨S_, .i32⟩
  | 121 => ⟨S2304x768, .i32⟩
  | 122 => ⟨S2304x768, .i32⟩
  | 123 => ⟨S2304x768, .i32⟩
  | 124 => ⟨S_, .i32⟩
  | 125 => ⟨S2304x768, .i32⟩
  | 126 => ⟨S2304x768, .i32⟩
  | 127 => ⟨S_, .i32⟩
  | _ => ⟨S32x256x768, .f32⟩

abbrev hbmTy0_4 (i : Nat) : BufTy := match i % 128 with
  | 0 => ⟨S2304x768, .i32⟩
  | 1 => ⟨S2304x768, .i32⟩
  | 2 => ⟨S2304x768, .f32⟩
  | 3 => ⟨S_, .f32⟩
  | 4 => ⟨S2304x768, .f32⟩
  | 5 => ⟨S2304x768, .f32⟩
  | 6 => ⟨S1x1, .f32⟩
  | 7 => ⟨S2304x768, .f32⟩
  | 8 => ⟨S2304x768, .f32⟩
  | 9 => ⟨S2304x768, .f32⟩
  | 10 => ⟨S2304x768, .f32⟩
  | 11 => ⟨S2304x768, .f32⟩
  | 12 => ⟨S2304x768, .f32⟩
  | 13 => ⟨S_, .f32⟩
  | 14 => ⟨S_, .f32⟩
  | 15 => ⟨S_, .f32⟩
  | 16 => ⟨S_, .f32⟩
  | 17 => ⟨S1x1, .f32⟩
  | 18 => ⟨S1x1, .f32⟩
  | 19 => ⟨S1, .i32⟩
  | 20 => ⟨S_, .i32⟩
  | 21 => ⟨S1, .i32⟩
  | 22 => ⟨S_, .i32⟩
  | 23 => ⟨S768x768, .i64⟩
  | 24 => ⟨S768x768, .i64⟩
  | 25 => ⟨S_, .i64⟩
  | 26 => ⟨S768x768, .i64⟩
  | 27 => ⟨S768x768, .i64⟩
  | 28 => ⟨S_, .i64⟩
  | 29 => ⟨S768x768, .i64⟩
  | 30 => ⟨S768x768, .i64⟩
  | 31 => ⟨S768x768, .i64⟩
  | 32 => ⟨S_, .i64⟩
  | 33 => ⟨S768x768, .i64⟩
  | 34 => ⟨S768x768, .i64⟩
  | 35 => ⟨S768x768, .i32⟩
  | 36 => ⟨S768x768, .i32⟩
  | 37 => ⟨S_, .i32⟩
  | 38 => ⟨S_, .i32⟩
  | 39 => ⟨S_, .i32⟩
  | 40 => ⟨S768x768, .i32⟩
  | 41 => ⟨S768x768, .i32⟩
  | 42 => ⟨S768x768, .i32⟩
  | 43 => ⟨S768x768, .i32⟩
  | 44 => ⟨S768x768, .i32⟩
  | 45 => ⟨S_, .i32⟩
  | 46 => ⟨S768x768, .i32⟩
  | 47 => ⟨S768x768, .i32⟩
  | 48 => ⟨S_, .i32⟩
  | 49 => ⟨S768x768, .i32⟩
  | 50 => ⟨S768x768, .i32⟩
  | 51 => ⟨S768x768, .i32⟩
  | 52 => ⟨S768x768, .i32⟩
  | 53 => ⟨S768x768, .i32⟩
  | 54 => ⟨S_, .i32⟩
  | 55 => ⟨S768x768, .i32⟩
  | 56 => ⟨S768x768, .i32⟩
  | 57 => ⟨S_, .i32⟩
  | 58 => ⟨S768x768, .i32⟩
  | 59 => ⟨S768x768, .i32⟩
  | 60 => ⟨S768x768, .i32⟩
  | 61 => ⟨S768x768, .i32⟩
  | 62 => ⟨S768x768, .i32⟩
  | 63 => ⟨S_, .i32⟩
  | 64 => ⟨S768x768, .i32⟩
  | 65 => ⟨S768x768, .i32⟩
  | 66 => ⟨S_, .i32⟩
  | 67 => ⟨S768x768, .i32⟩
  | 68 => ⟨S768x768, .i32⟩
  | 69 => ⟨S768x768, .i32⟩
  | 70 => ⟨S768x768, .i32⟩
  | 71 => ⟨S768x768, .i32⟩
  | 72 => ⟨S_, .i32⟩
  | 73 => ⟨S768x768, .i32⟩
  | 74 => ⟨S768x768, .i32⟩
  | 75 => ⟨S_, .i32⟩
  | 76 => ⟨S768x768, .i32⟩
  | 77 => ⟨S768x768, .i32⟩
  | 78 => ⟨S768x768, .i32⟩
  | 79 => ⟨S768x768, .i32⟩
  | 80 => ⟨S768x768, .i32⟩
  | 81 => ⟨S768x768, .i32⟩
  | 82 => ⟨S768x768, .i32⟩
  | 83 => ⟨S768x768, .i32⟩
  | 84 => ⟨S_, .i32⟩
  | 85 => ⟨S768x768, .i32⟩
  | 86 => ⟨S768x768, .i32⟩
  | 87 => ⟨S768x768, .i32⟩
  | 88 => ⟨S_, .i32⟩
  | 89 => ⟨S768x768, .i32⟩
  | 90 => ⟨S768x768, .i32⟩
  | 91 => ⟨S_, .i32⟩
  | 92 => ⟨S768x768, .i32⟩
  | 93 => ⟨S768x768, .i32⟩
  | 94 => ⟨S768x768, .i32⟩
  | 95 => ⟨S768x768, .i32⟩
  | 96 => ⟨S768x768, .i32⟩
  | 97 => ⟨S_, .i32⟩
  | 98 => ⟨S768x768, .i32⟩
  | 99 => ⟨S768x768, .i32⟩
  | 100 => ⟨S_, .i32⟩
  | 101 => ⟨S768x768, .i32⟩
  | 102 => ⟨S768x768, .i32⟩
  | 103 => ⟨S768x768, .i32⟩
  | 104 => ⟨S768x768, .i32⟩
  | 105 => ⟨S768x768, .i32⟩
  | 106 => ⟨S_, .i32⟩
  | 107 => ⟨S768x768, .i32⟩
  | 108 => ⟨S768x768, .i32⟩
  | 109 => ⟨S_, .i32⟩
  | 110 => ⟨S768x768, .i32⟩
  | 111 => ⟨S768x768, .i32⟩
  | 112 => ⟨S768x768, .i32⟩
  | 113 => ⟨S768x768, .i32⟩
  | 114 => ⟨S768x768, .i32⟩
  | 115 => ⟨S_, .i32⟩
  | 116 => ⟨S768x768, .i32⟩
  | 117 => ⟨S768x768, .i32⟩
  | 118 => ⟨S_, .i32⟩
  | 119 => ⟨S768x768, .i32⟩
  | 120 => ⟨S768x768, .i32⟩
  | 121 => ⟨S768x768, .i32⟩
  | 122 => ⟨S768x768, .i32⟩
  | 123 => ⟨S768x768, .i32⟩
  | 124 => ⟨S768x768, .i32⟩
  | 125 => ⟨S768x768, .i32⟩
  | 126 => ⟨S768x768, .i32⟩
  | 127 => ⟨S_, .i32⟩
  | _ => ⟨S32x256x768, .f32⟩

abbrev hbmTy0_5 (i : Nat) : BufTy := match i % 128 with
  | 0 => ⟨S768x768, .i32⟩
  | 1 => ⟨S768x768, .i32⟩
  | 2 => ⟨S768x768, .i32⟩
  | 3 => ⟨S_, .i32⟩
  | 4 => ⟨S768x768, .i32⟩
  | 5 => ⟨S768x768, .i32⟩
  | 6 => ⟨S_, .i32⟩
  | 7 => ⟨S768x768, .i32⟩
  | 8 => ⟨S768x768, .i32⟩
  | 9 => ⟨S768x768, .i32⟩
  | 10 => ⟨S768x768, .i32⟩
  | 11 => ⟨S768x768, .i32⟩
  | 12 => ⟨S_, .i32⟩
  | 13 => ⟨S768x768, .i32⟩
  | 14 => ⟨S768x768, .i32⟩
  | 15 => ⟨S_, .i32⟩
  | 16 => ⟨S768x768, .i32⟩
  | 17 => ⟨S768x768, .i32⟩
  | 18 => ⟨S768x768, .i32⟩
  | 19 => ⟨S768x768, .i32⟩
  | 20 => ⟨S768x768, .i32⟩
  | 21 => ⟨S_, .i32⟩
  | 22 => ⟨S768x768, .i32⟩
  | 23 => ⟨S768x768, .i32⟩
  | 24 => ⟨S_, .i32⟩
  | 25 => ⟨S768x768, .i32⟩
  | 26 => ⟨S768x768, .i32⟩
  | 27 => ⟨S768x768, .i32⟩
  | 28 => ⟨S768x768, .i32⟩
  | 29 => ⟨S768x768, .i32⟩
  | 30 => ⟨S_, .i32⟩
  | 31 => ⟨S768x768, .i32⟩
  | 32 => ⟨S768x768, .i32⟩
  | 33 => ⟨S_, .i32⟩
  | 34 => ⟨S768x768, .i32⟩
  | 35 => ⟨S768x768, .i32⟩
  | 36 => ⟨S768x768, .i32⟩
  | 37 => ⟨S768x768, .i32⟩
  | 38 => ⟨S768x768, .i32⟩
  | 39 => ⟨S768x768, .i32⟩
  | 40 => ⟨S768x768, .i32⟩
  | 41 => ⟨S768x768, .i32⟩
  | 42 => ⟨S_, .i32⟩
  | 43 => ⟨S768x768, .i32⟩
  | 44 => ⟨S768x768, .i32⟩
  | 45 => ⟨S768x768, .i32⟩
  | 46 => ⟨S_, .i32⟩
  | 47 => ⟨S768x768, .i32⟩
  | 48 => ⟨S768x768, .i32⟩
  | 49 => ⟨S_, .i32⟩
  | 50 => ⟨S768x768, .i32⟩
  | 51 => ⟨S768x768, .i32⟩
  | 52 => ⟨S768x768, .i32⟩
  | 53 => ⟨S768x768, .i32⟩
  | 54 => ⟨S768x768, .i32⟩
  | 55 => ⟨S_, .i32⟩
  | 56 => ⟨S768x768, .i32⟩
  | 57 => ⟨S768x768, .i32⟩
  | 58 => ⟨S_, .i32⟩
  | 59 => ⟨S768x768, .i32⟩
  | 60 => ⟨S768x768, .i32⟩
  | 61 => ⟨S768x768, .i32⟩
  | 62 => ⟨S768x768, .i32⟩
  | 63 => ⟨S768x768, .i32⟩
  | 64 => ⟨S_, .i32⟩
  | 65 => ⟨S768x768, .i32⟩
  | 66 => ⟨S768x768, .i32⟩
  | 67 => ⟨S_, .i32⟩
  | 68 => ⟨S768x768, .i32⟩
  | 69 => ⟨S768x768, .i32⟩
  | 70 => ⟨S768x768, .i32⟩
  | 71 => ⟨S768x768, .i32⟩
  | 72 => ⟨S768x768, .i32⟩
  | 73 => ⟨S_, .i32⟩
  | 74 => ⟨S768x768, .i32⟩
  | 75 => ⟨S768x768, .i32⟩
  | 76 => ⟨S_, .i32⟩
  | 77 => ⟨S768x768, .i32⟩
  | 78 => ⟨S768x768, .i32⟩
  | 79 => ⟨S768x768, .i32⟩
  | 80 => ⟨S768x768, .i32⟩
  | 81 => ⟨S768x768, .i32⟩
  | 82 => ⟨S768x768, .i32⟩
  | 83 => ⟨S768x768, .i32⟩
  | 84 => ⟨S768x768, .i32⟩
  | 85 => ⟨S_, .i32⟩
  | 86 => ⟨S768x768, .i32⟩
  | 87 => ⟨S768x768, .i32⟩
  | 88 => ⟨S768x768, .i32⟩
  | 89 => ⟨S_, .i32⟩
  | 90 => ⟨S768x768, .i32⟩
  | 91 => ⟨S768x768, .i32⟩
  | 92 => ⟨S_, .i32⟩
  | 93 => ⟨S768x768, .i32⟩
  | 94 => ⟨S768x768, .i32⟩
  | 95 => ⟨S768x768, .i32⟩
  | 96 => ⟨S768x768, .i32⟩
  | 97 => ⟨S768x768, .i32⟩
  | 98 => ⟨S_, .i32⟩
  | 99 => ⟨S768x768, .i32⟩
  | 100 => ⟨S768x768, .i32⟩
  | 101 => ⟨S_, .i32⟩
  | 102 => ⟨S768x768, .i32⟩
  | 103 => ⟨S768x768, .i32⟩
  | 104 => ⟨S768x768, .i32⟩
  | 105 => ⟨S768x768, .i32⟩
  | 106 => ⟨S768x768, .i32⟩
  | 107 => ⟨S_, .i32⟩
  | 108 => ⟨S768x768, .i32⟩
  | 109 => ⟨S768x768, .i32⟩
  | 110 => ⟨S_, .i32⟩
  | 111 => ⟨S768x768, .i32⟩
  | 112 => ⟨S768x768, .i32⟩
  | 113 => ⟨S768x768, .i32⟩
  | 114 => ⟨S768x768, .i32⟩
  | 115 => ⟨S768x768, .i32⟩
  | 116 => ⟨S_, .i32⟩
  | 117 => ⟨S768x768, .i32⟩
  | 118 => ⟨S768x768, .i32⟩
  | 119 => ⟨S_, .i32⟩
  | 120 => ⟨S768x768, .i32⟩
  | 121 => ⟨S768x768, .i32⟩
  | 122 => ⟨S768x768, .i32⟩
  | 123 => ⟨S768x768, .i32⟩
  | 124 => ⟨S768x768, .i32⟩
  | 125 => ⟨S768x768, .i32⟩
  | 126 => ⟨S768x768, .i32⟩
  | 127 => ⟨S768x768, .i32⟩
  | _ => ⟨S32x256x768, .f32⟩

abbrev hbmTy0_6 (i : Nat) : BufTy := match i % 128 with
  | 0 => ⟨S_, .i32⟩
  | 1 => ⟨S768x768, .i32⟩
  | 2 => ⟨S768x768, .i32⟩
  | 3 => ⟨S768x768, .i32⟩
  | 4 => ⟨S_, .i32⟩
  | 5 => ⟨S768x768, .i32⟩
  | 6 => ⟨S768x768, .i32⟩
  | 7 => ⟨S_, .i32⟩
  | 8 => ⟨S768x768, .i32⟩
  | 9 => ⟨S768x768, .i32⟩
  | 10 => ⟨S768x768, .f32⟩
  | 11 => ⟨S_, .f32⟩
  | 12 => ⟨S768x768, .f32⟩
  | 13 => ⟨S768x768, .f32⟩
  | 14 => ⟨S1x1, .f32⟩
  | 15 => ⟨S768x768, .f32⟩
  | 16 => ⟨S768x768, .f32⟩
  | 17 => ⟨S768x768, .f32⟩
  | 18 => ⟨S768x768, .f32⟩
  | 19 => ⟨S768x768, .f32⟩
  | 20 => ⟨S768x768, .f32⟩
  | 21 => ⟨S768x2304, .f32⟩
  | 22 => ⟨S768x768, .f32⟩
  | 23 => ⟨S_, .f32⟩
  | 24 => ⟨S_, .f32⟩
  | 25 => ⟨S_, .f32⟩
  | 26 => ⟨S_, .f32⟩
  | 27 => ⟨S1, .f32⟩
  | 28 => ⟨S1, .f32⟩
  | 29 => ⟨S1, .i32⟩
  | 30 => ⟨S_, .i32⟩
  | 31 => ⟨S1, .i32⟩
  | 32 => ⟨S_, .i32⟩
  | 33 => ⟨S2304, .i64⟩
  | 34 => ⟨S_, .i64⟩
  | 35 => ⟨S2304, .i64⟩
  | 36 => ⟨S2304, .i64⟩
  | 37 => ⟨S_, .i64⟩
  | 38 => ⟨S2304, .i64⟩
  | 39 => ⟨S2304, .i64⟩
  | 40 => ⟨S2304, .i32⟩
  | 41 => ⟨S2304, .i32⟩
  | 42 => ⟨S_, .i32⟩
  | 43 => ⟨S_, .i32⟩
  | 44 => ⟨S_, .i32⟩
  | 45 => ⟨S2304, .i32⟩
  | 46 => ⟨S2304, .i32⟩
  | 47 => ⟨S2304, .i32⟩
  | 48 => ⟨S2304, .i32⟩
  | 49 => ⟨S2304, .i32⟩
  | 50 => ⟨S_, .i32⟩
  | 51 => ⟨S2304, .i32⟩
  | 52 => ⟨S2304, .i32⟩
  | 53 => ⟨S_, .i32⟩
  | 54 => ⟨S2304, .i32⟩
  | 55 => ⟨S2304, .i32⟩
  | 56 => ⟨S2304, .i32⟩
  | 57 => ⟨S2304, .i32⟩
  | 58 => ⟨S2304, .i32⟩
  | 59 => ⟨S_, .i32⟩
  | 60 => ⟨S2304, .i32⟩
  | 61 => ⟨S2304, .i32⟩
  | 62 => ⟨S_, .i32⟩
  | 63 => ⟨S2304, .i32⟩
  | 64 => ⟨S2304, .i32⟩
  | 65 => ⟨S2304, .i32⟩
  | 66 => ⟨S2304, .i32⟩
  | 67 => ⟨S2304, .i32⟩
  | 68 => ⟨S_, .i32⟩
  | 69 => ⟨S2304, .i32⟩
  | 70 => ⟨S2304, .i32⟩
  | 71 => ⟨S_, .i32⟩
  | 72 => ⟨S2304, .i32⟩
  | 73 => ⟨S2304, .i32⟩
  | 74 => ⟨S2304, .i32⟩
  | 75 => ⟨S2304, .i32⟩
  | 76 => ⟨S2304, .i32⟩
  | 77 => ⟨S_, .i32⟩
  | 78 => ⟨S2304, .i32⟩
  | 79 => ⟨S2304, .i32⟩
  | 80 => ⟨S_, .i32⟩
  | 81 => ⟨S2304, .i32⟩
  | 82 => ⟨S2304, .i32⟩
  | 83 => ⟨S2304, .i32⟩
  | 84 => ⟨S2304, .i32⟩
  | 85 => ⟨S2304, .i32⟩
  | 86 => ⟨S2304, .i32⟩
  | 87 => ⟨S2304, .i32⟩
  | 88 => ⟨S2304, .i32⟩
  | 89 => ⟨S_, .i32⟩
  | 90 => ⟨S2304, .i32⟩
  | 91 => ⟨S2304, .i32⟩
  | 92 => ⟨S2304, .i32⟩
  | 93 => ⟨S_, .i32⟩
  | 94 => ⟨S2304, .i32⟩
  | 95 => ⟨S2304, .i32⟩
  | 96 => ⟨S_, .i32⟩
  | 97 => ⟨S2304, .i32⟩
  | 98 => ⟨S2304, .i32⟩
  | 99 => ⟨S2304, .i32⟩
  | 100 => ⟨S2304, .i32⟩
  | 101 => ⟨S2304, .i32⟩
  | 102 => ⟨S_, .i32⟩
  | 103 => ⟨S2304, .i32⟩
  | 104 => ⟨S2304, .i32⟩
  | 105 => ⟨S_, .i32⟩
  | 106 => ⟨S2304, .i32⟩
  | 107 => ⟨S2304, .i32⟩
  | 108 => ⟨S2304, .i32⟩
  | 109 => ⟨S2304, .i32⟩
  | 110 => ⟨S2304, .i32⟩
  | 111 => ⟨S_, .i32⟩
  | 112 => ⟨S2304, .i32⟩
  | 113 => ⟨S2304, .i32⟩
  | 114 => ⟨S_, .i32⟩
  | 115 => ⟨S2304, .i32⟩
  | 116 => ⟨S2304, .i32⟩
  | 117 => ⟨S2304, .i32⟩
  | 118 => ⟨S2304, .i32⟩
  | 119 => ⟨S2304, .i32⟩
  | 120 => ⟨S_, .i32⟩
  | 121 => ⟨S2304, .i32⟩
  | 122 => ⟨S2304, .i32⟩
  | 123 => ⟨S_, .i32⟩
  | 124 => ⟨S2304, .i32⟩
  | 125 => ⟨S2304, .i32⟩
  | 126 => ⟨S2304, .i32⟩
  | 127 => ⟨S2304, .i32⟩
  | _ => ⟨S32x256x768, .f32⟩

abbrev hbmTy0_7 (i : Nat) : BufTy := match i % 128 with
  | 0 => ⟨S2304, .i32⟩
  | 1 => ⟨S2304, .i32⟩
  | 2 => ⟨S2304, .i32⟩
  | 3 => ⟨S2304, .i32⟩
  | 4 => ⟨S_, .i32⟩
  | 5 => ⟨S2304, .i32⟩
  | 6 => ⟨S2304, .i32⟩
  | 7 => ⟨S2304, .i32⟩
  | 8 => ⟨S_, .i32⟩
  | 9 => ⟨S2304, .i32⟩
  | 10 => ⟨S2304, .i32⟩
  | 11 => ⟨S_, .i32⟩
  | 12 => ⟨S2304, .i32⟩
  | 13 => ⟨S2304, .i32⟩
  | 14 => ⟨S2304, .i32⟩
  | 15 => ⟨S2304, .i32⟩
  | 16 => ⟨S2304, .i32⟩
  | 17 => ⟨S_, .i32⟩
  | 18 => ⟨S2304, .i32⟩
  | 19 => ⟨S2304, .i32⟩
  | 20 => ⟨S_, .i32⟩
  | 21 => ⟨S2304, .i32⟩
  | 22 => ⟨S2304, .i32⟩
  | 23 => ⟨S2304, .i32⟩
  | 24 => ⟨S2304, .i32⟩
  | 25 => ⟨S2304, .i32⟩
  | 26 => ⟨S_, .i32⟩
  | 27 => ⟨S2304, .i32⟩
  | 28 => ⟨S2304, .i32⟩
  | 29 => ⟨S_, .i32⟩
  | 30 => ⟨S2304, .i32⟩
  | 31 => ⟨S2304, .i32⟩
  | 32 => ⟨S2304, .i32⟩
  | 33 => ⟨S2304, .i32⟩
  | 34 => ⟨S2304, .i32⟩
  | 35 => ⟨S_, .i32⟩
  | 36 => ⟨S2304, .i32⟩
  | 37 => ⟨S2304, .i32⟩
  | 38 => ⟨S_, .i32⟩
  | 39 => ⟨S2304, .i32⟩
  | 40 => ⟨S2304, .i32⟩
  | 41 => ⟨S2304, .i32⟩
  | 42 => ⟨S2304, .i32⟩
  | 43 => ⟨S2304, .i32⟩
  | 44 => ⟨S2304, .i32⟩
  | 45 => ⟨S2304, .i32⟩
  | 46 => ⟨S2304, .i32⟩
  | 47 => ⟨S_, .i32⟩
  | 48 => ⟨S2304, .i32⟩
  | 49 => ⟨S2304, .i32⟩
  | 50 => ⟨S2304, .i32⟩
  | 51 => ⟨S_, .i32⟩
  | 52 => ⟨S2304, .i32⟩
  | 53 => ⟨S2304, .i32⟩
  | 54 => ⟨S_, .i32⟩
  | 55 => ⟨S2304, .i32⟩
  | 56 => ⟨S2304, .i32⟩
  | 57 => ⟨S2304, .i32⟩
  | 58 => ⟨S2304, .i32⟩
  | 59 => ⟨S2304, .i32⟩
  | 60 => ⟨S_, .i32⟩
  | 61 => ⟨S2304, .i32⟩
  | 62 => ⟨S2304, .i32⟩
  | 63 => ⟨S_, .i32⟩
  | 64 => ⟨S2304, .i32⟩
  | 65 => ⟨S2304, .i32⟩
  | 66 => ⟨S2304, .i32⟩
  | 67 => ⟨S2304, .i32⟩
  | 68 => ⟨S2304, .i32⟩
  | 69 => ⟨S_, .i32⟩
  | 70 => ⟨S2304, .i32⟩
  | 71 => ⟨S2304, .i32⟩
  | 72 => ⟨S_, .i32⟩
  | 73 => ⟨S2304, .i32⟩
  | 74 => ⟨S2304, .i32⟩
  | 75 => ⟨S2304, .i32⟩
  | 76 => ⟨S2304, .i32⟩
  | 77 => ⟨S2304, .i32⟩
  | 78 => ⟨S_, .i32⟩
  | 79 => ⟨S2304, .i32⟩
  | 80 => ⟨S2304, .i32⟩
  | 81 => ⟨S_, .i32⟩
  | 82 => ⟨S2304, .i32⟩
  | 83 => ⟨S2304, .i32⟩
  | 84 => ⟨S2304, .i32⟩
  | 85 => ⟨S2304, .i32⟩
  | 86 => ⟨S2304, .i32⟩
  | 87 => ⟨S2304, .i32⟩
  | 88 => ⟨S2304, .i32⟩
  | 89 => ⟨S2304, .i32⟩
  | 90 => ⟨S_, .i32⟩
  | 91 => ⟨S2304, .i32⟩
  | 92 => ⟨S2304, .i32⟩
  | 93 => ⟨S2304, .i32⟩
  | 94 => ⟨S_, .i32⟩
  | 95 => ⟨S2304, .i32⟩
  | 96 => ⟨S2304, .i32⟩
  | 97 => ⟨S_, .i32⟩
  | 98 => ⟨S2304, .i32⟩
  | 99 => ⟨S2304, .i32⟩
  | 100 => ⟨S2304, .i32⟩
  | 101 => ⟨S2304, .i32⟩
  | 102 => ⟨S2304, .i32⟩
  | 103 => ⟨S_, .i32⟩
  | 104 => ⟨S2304, .i32⟩
  | 105 => ⟨S2304, .i32⟩
  | 106 => ⟨S_, .i32⟩
  | 107 => ⟨S2304, .i32⟩
  | 108 => ⟨S2304, .i32⟩
  | 109 => ⟨S2304, .i32⟩
  | 110 => ⟨S2304, .i32⟩
  | 111 => ⟨S2304, .i32⟩
  | 112 => ⟨S_, .i32⟩
  | 113 => ⟨S2304, .i32⟩
  | 114 => ⟨S2304, .i32⟩
  | 115 => ⟨S_, .i32⟩
  | 116 => ⟨S2304, .i32⟩
  | 117 => ⟨S2304, .i32⟩
  | 118 => ⟨S2304, .i32⟩
  | 119 => ⟨S2304, .i32⟩
  | 120 => ⟨S2304, .i32⟩
  | 121 => ⟨S_, .i32⟩
  | 122 => ⟨S2304, .i32⟩
  | 123 => ⟨S2304, .i32⟩
  | 124 => ⟨S_, .i32⟩
  | 125 => ⟨S2304, .i32⟩
  | 126 => ⟨S2304, .i32⟩
  | 127 => ⟨S2304, .i32⟩
  | _ => ⟨S32x256x768, .f32⟩

abbrev hbmTy0_8 (i : Nat) : BufTy := match i % 128 with
  | 0 => ⟨S2304, .i32⟩
  | 1 => ⟨S2304, .i32⟩
  | 2 => ⟨S2304, .i32⟩
  | 3 => ⟨S2304, .i32⟩
  | 4 => ⟨S2304, .i32⟩
  | 5 => ⟨S_, .i32⟩
  | 6 => ⟨S2304, .i32⟩
  | 7 => ⟨S2304, .i32⟩
  | 8 => ⟨S2304, .i32⟩
  | 9 => ⟨S_, .i32⟩
  | 10 => ⟨S2304, .i32⟩
  | 11 => ⟨S2304, .i32⟩
  | 12 => ⟨S_, .i32⟩
  | 13 => ⟨S2304, .i32⟩
  | 14 => ⟨S2304, .i32⟩
  | 15 => ⟨S2304, .f32⟩
  | 16 => ⟨S_, .f32⟩
  | 17 => ⟨S2304, .f32⟩
  | 18 => ⟨S2304, .f32⟩
  | 19 => ⟨S1, .f32⟩
  | 20 => ⟨S2304, .f32⟩
  | 21 => ⟨S2304, .f32⟩
  | 22 => ⟨S2304, .f32⟩
  | 23 => ⟨S2304, .f32⟩
  | 24 => ⟨S2304, .f32⟩
  | 25 => ⟨S2304, .f32⟩
  | 26 => ⟨S_, .f32⟩
  | 27 => ⟨S_, .f32⟩
  | 28 => ⟨S_, .f32⟩
  | 29 => ⟨S_, .f32⟩
  | 30 => ⟨S1, .f32⟩
  | 31 => ⟨S1, .f32⟩
  | 32 => ⟨S1, .i32⟩
  | 33 => ⟨S_, .i32⟩
  | 34 => ⟨S1, .i32⟩
  | 35 => ⟨S_, .i32⟩
  | 36 => ⟨S768, .i64⟩
  | 37 => ⟨S_, .i64⟩
  | 38 => ⟨S768, .i64⟩
  | 39 => ⟨S768, .i64⟩
  | 40 => ⟨S_, .i64⟩
  | 41 => ⟨S768, .i64⟩
  | 42 => ⟨S768, .i64⟩
  | 43 => ⟨S768, .i32⟩
  | 44 => ⟨S768, .i32⟩
  | 45 => ⟨S_, .i32⟩
  | 46 => ⟨S_, .i32⟩
  | 47 => ⟨S_, .i32⟩
  | 48 => ⟨S768, .i32⟩
  | 49 => ⟨S768, .i32⟩
  | 50 => ⟨S768, .i32⟩
  | 51 => ⟨S768, .i32⟩
  | 52 => ⟨S768, .i32⟩
  | 53 => ⟨S_, .i32⟩
  | 54 => ⟨S768, .i32⟩
  | 55 => ⟨S768, .i32⟩
  | 56 => ⟨S_, .i32⟩
  | 57 => ⟨S768, .i32⟩
  | 58 => ⟨S768, .i32⟩
  | 59 => ⟨S768, .i32⟩
  | 60 => ⟨S768, .i32⟩
  | 61 => ⟨S768, .i32⟩
  | 62 => ⟨S_, .i32⟩
  | 63 => ⟨S768, .i32⟩
  | 64 => ⟨S768, .i32⟩
  | 65 => ⟨S_, .i32⟩
  | 66 => ⟨S768, .i32⟩
  | 67 => ⟨S768, .i32⟩
  | 68 => ⟨S768, .i32⟩
  | 69 => ⟨S768, .i32⟩
  | 70 => ⟨S768, .i32⟩
  | 71 => ⟨S_, .i32⟩
  | 72 => ⟨S768, .i32⟩
  | 73 => ⟨S768, .i32⟩
  | 74 => ⟨S_, .i32⟩
  | 75 => ⟨S768, .i32⟩
  | 76 => ⟨S768, .i32⟩
  | 77 => ⟨S768, .i32⟩
  | 78 => ⟨S768, .i32⟩
  | 79 => ⟨S768, .i32⟩
  | 80 => ⟨S_, .i32⟩
  | 81 => ⟨S768, .i32⟩
  | 82 => ⟨S768, .i32⟩
  | 83 => ⟨S_, .i32⟩
  | 84 => ⟨S768, .i32⟩
  | 85 => ⟨S768, .i32⟩
  | 86 => ⟨S768, .i32⟩
  | 87 => ⟨S768, .i32⟩
  | 88 => ⟨S768, .i32⟩
  | 89 => ⟨S768, .i32⟩
  | 90 => ⟨S768, .i32⟩
  | 91 => ⟨S768, .i32⟩
  | 92 => ⟨S_, .i32⟩
  | 93 => ⟨S768, .i32⟩
  | 94 => ⟨S768, .i32⟩
  | 95 => ⟨S768, .i32⟩
  | 96 => ⟨S_, .i32⟩
  | 97 => ⟨S768, .i32⟩
  | 98 => ⟨S768, .i32⟩
  | 99 => ⟨S_, .i32⟩
  | 100 => ⟨S768, .i32⟩
  | 101 => ⟨S768, .i32⟩
  | 102 => ⟨S768, .i32⟩
  | 103 => ⟨S768, .i32⟩
  | 104 => ⟨S768, .i32⟩
  | 105 => ⟨S_, .i32⟩
  | 106 => ⟨S768, .i32⟩
  | 107 => ⟨S768, .i32⟩
  | 108 => ⟨S_, .i32⟩
  | 109 => ⟨S768, .i32⟩
  | 110 => ⟨S768, .i32⟩
  | 111 => ⟨S768, .i32⟩
  | 112 => ⟨S768, .i32⟩
  | 113 => ⟨S768, .i32⟩
  | 114 => ⟨S_, .i32⟩
  | 115 => ⟨S768, .i32⟩
  | 116 => ⟨S768, .i32⟩
  | 117 => ⟨S_, .i32⟩
  | 118 => ⟨S768, .i32⟩
  | 119 => ⟨S768, .i32⟩
  | 120 => ⟨S768, .i32⟩
  | 121 => ⟨S768, .i32⟩
  | 122 => ⟨S768, .i32⟩
  | 123 => ⟨S_, .i32⟩
  | 124 => ⟨S768, .i32⟩
  | 125 => ⟨S768, .i32⟩
  | 126 => ⟨S_, .i32⟩
  | 127 => ⟨S768, .i32⟩
  | _ => ⟨S32x256x768, .f32⟩

abbrev hbmTy0_9 (i : Nat) : BufTy := match i % 128 with
  | 0 => ⟨S768, .i32⟩
  | 1 => ⟨S768, .i32⟩
  | 2 => ⟨S768, .i32⟩
  | 3 => ⟨S768, .i32⟩
  | 4 => ⟨S768, .i32⟩
  | 5 => ⟨S768, .i32⟩
  | 6 => ⟨S768, .i32⟩
  | 7 => ⟨S_, .i32⟩
  | 8 => ⟨S768, .i32⟩
  | 9 => ⟨S768, .i32⟩
  | 10 => ⟨S768, .i32⟩
  | 11 => ⟨S_, .i32⟩
  | 12 => ⟨S768, .i32⟩
  | 13 => ⟨S768, .i32⟩
  | 14 => ⟨S_, .i32⟩
  | 15 => ⟨S768, .i32⟩
  | 16 => ⟨S768, .i32⟩
  | 17 => ⟨S768, .i32⟩
  | 18 => ⟨S768, .i32⟩
  | 19 => ⟨S768, .i32⟩
  | 20 => ⟨S_, .i32⟩
  | 21 => ⟨S768, .i32⟩
  | 22 => ⟨S768, .i32⟩
  | 23 => ⟨S_, .i32⟩
  | 24 => ⟨S768, .i32⟩
  | 25 => ⟨S768, .i32⟩
  | 26 => ⟨S768, .i32⟩
  | 27 => ⟨S768, .i32⟩
  | 28 => ⟨S768, .i32⟩
  | 29 => ⟨S_, .i32⟩
  | 30 => ⟨S768, .i32⟩
  | 31 => ⟨S768, .i32⟩
  | 32 => ⟨S_, .i32⟩
  | 33 => ⟨S768, .i32⟩
  | 34 => ⟨S768, .i32⟩
  | 35 => ⟨S768, .i32⟩
  | 36 => ⟨S768, .i32⟩
  | 37 => ⟨S768, .i32⟩
  | 38 => ⟨S_, .i32⟩
  | 39 => ⟨S768, .i32⟩
  | 40 => ⟨S768, .i32⟩
  | 41 => ⟨S_, .i32⟩
  | 42 => ⟨S768, .i32⟩
  | 43 => ⟨S768, .i32⟩
  | 44 => ⟨S768, .i32⟩
  | 45 => ⟨S768, .i32⟩
  | 46 => ⟨S768, .i32⟩
  | 47 => ⟨S768, .i32⟩
  | 48 => ⟨S768, .i32⟩
  | 49 => ⟨S768, .i32⟩
  | 50 => ⟨S_, .i32⟩
  | 51 => ⟨S768, .i32⟩
  | 52 => ⟨S768, .i32⟩
  | 53 => ⟨S768, .i32⟩
  | 54 => ⟨S_, .i32⟩
  | 55 => ⟨S768, .i32⟩
  | 56 => ⟨S768, .i32⟩
  | 57 => ⟨S_, .i32⟩
  | 58 => ⟨S768, .i32⟩
  | 59 => ⟨S768, .i32⟩
  | 60 => ⟨S768, .i32⟩
  | 61 => ⟨S768, .i32⟩
  | 62 => ⟨S768, .i32⟩
  | 63 => ⟨S_, .i32⟩
  | 64 => ⟨S768, .i32⟩
  | 65 => ⟨S768, .i32⟩
  | 66 => ⟨S_, .i32⟩
  | 67 => ⟨S768, .i32⟩
  | 68 => ⟨S768, .i32⟩
  | 69 => ⟨S768, .i32⟩
  | 70 => ⟨S768, .i32⟩
  | 71 => ⟨S768, .i32⟩
  | 72 => ⟨S_, .i32⟩
  | 73 => ⟨S768, .i32⟩
  | 74 => ⟨S768, .i32⟩
  | 75 => ⟨S_, .i32⟩
  | 76 => ⟨S768, .i32⟩
  | 77 => ⟨S768, .i32⟩
  | 78 => ⟨S768, .i32⟩
  | 79 => ⟨S768, .i32⟩
  | 80 => ⟨S768, .i32⟩
  | 81 => ⟨S_, .i32⟩
  | 82 => ⟨S768, .i32⟩
  | 83 => ⟨S768, .i32⟩
  | 84 => ⟨S_, .i32⟩
  | 85 => ⟨S768, .i32⟩
  | 86 => ⟨S768, .i32⟩
  | 87 => ⟨S768, .i32⟩
  | 88 => ⟨S768, .i32⟩
  | 89 => ⟨S768, .i32⟩
  | 90 => ⟨S768, .i32⟩
  | 91 => ⟨S768, .i32⟩
  | 92 => ⟨S768, .i32⟩
  | 93 => ⟨S_, .i32⟩
  | 94 => ⟨S768, .i32⟩
  | 95 => ⟨S768, .i32⟩
  | 96 => ⟨S768, .i32⟩
  | 97 => ⟨S_, .i32⟩
  | 98 => ⟨S768, .i32⟩
  | 99 => ⟨S768, .i32⟩
  | 100 => ⟨S_, .i32⟩
  | 101 => ⟨S768, .i32⟩
  | 102 => ⟨S768, .i32⟩
  | 103 => ⟨S768, .i32⟩
  | 104 => ⟨S768, .i32⟩
  | 105 => ⟨S768, .i32⟩
  | 106 => ⟨S_, .i32⟩
  | 107 => ⟨S768, .i32⟩
  | 108 => ⟨S768, .i32⟩
  | 109 => ⟨S_, .i32⟩
  | 110 => ⟨S768, .i32⟩
  | 111 => ⟨S768, .i32⟩
  | 112 => ⟨S768, .i32⟩
  | 113 => ⟨S768, .i32⟩
  | 114 => ⟨S768, .i32⟩
  | 115 => ⟨S_, .i32⟩
  | 116 => ⟨S768, .i32⟩
  | 117 => ⟨S768, .i32⟩
  | 118 => ⟨S_, .i32⟩
  | 119 => ⟨S768, .i32⟩
  | 120 => ⟨S768, .i32⟩
  | 121 => ⟨S768, .i32⟩
  | 122 => ⟨S768, .i32⟩
  | 123 => ⟨S768, .i32⟩
  | 124 => ⟨S_, .i32⟩
  | 125 => ⟨S768, .i32⟩
  | 126 => ⟨S768, .i32⟩
  | 127 => ⟨S_, .i32⟩
  | _ => ⟨S32x256x768, .f32⟩

abbrev hbmTy0_10 (i : Nat) : BufTy := match i % 128 with
  | 0 => ⟨S768, .i32⟩
  | 1 => ⟨S768, .i32⟩
  | 2 => ⟨S768, .i32⟩
  | 3 => ⟨S768, .i32⟩
  | 4 => ⟨S768, .i32⟩
  | 5 => ⟨S768, .i32⟩
  | 6 => ⟨S768, .i32⟩
  | 7 => ⟨S768, .i32⟩
  | 8 => ⟨S_, .i32⟩
  | 9 => ⟨S768, .i32⟩
  | 10 => ⟨S768, .i32⟩
  | 11 => ⟨S768, .i32⟩
  | 12 => ⟨S_, .i32⟩
  | 13 => ⟨S768, .i32⟩
  | 14 => ⟨S768, .i32⟩
  | 15 => ⟨S_, .i32⟩
  | 16 => ⟨S768, .i32⟩
  | 17 => ⟨S768, .i32⟩
  | 18 => ⟨S768, .f32⟩
  | 19 => ⟨S_, .f32⟩
  | 20 => ⟨S768, .f32⟩
  | 21 => ⟨S768, .f32⟩
  | 22 => ⟨S1, .f32⟩
  | 23 => ⟨S768, .f32⟩
  | 24 => ⟨S768, .f32⟩
  | 25 => ⟨S768, .f32⟩
  | 26 => ⟨S768, .f32⟩
  | 27 => ⟨S768, .f32⟩
  | 28 => ⟨S768, .f32⟩
  | 29 => ⟨S8192x768, .f32⟩
  | 30 => ⟨S1x2304, .f32⟩
  | 31 => ⟨S8192x2304, .f32⟩
  | 32 => ⟨S32x256x2304, .f32⟩
  | 33 => ⟨S32x256x768, .f32⟩
  | 34 => ⟨S8192x768, .f32⟩
  | 35 => ⟨S1x768, .f32⟩
  | 36 => ⟨S8192x768, .f32⟩
  | 37 => ⟨S32x256x768, .f32⟩
  | _ => ⟨S32x256x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S32x256x768, .f32⟩

abbrev bufTy : (tb : Table) → Fin (tcTables nBuf tb) → BufTy
  | .hbm, ⟨i, _⟩ => hbmTy i
  | .local _ .vmem, ⟨0, _⟩ => ⟨S512x256, .f32⟩
  | .local _ .vmem, ⟨1, _⟩ => ⟨S512x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S1x256x2304, .f32⟩
  | .local _ .vmem, ⟨10, _⟩ => ⟨S1x256x2304, .f32⟩
  | .local _ .vmem, ⟨11, _⟩ => ⟨S1x256x768, .f32⟩
  | .local _ .vmem, ⟨12, _⟩ => ⟨S1x256x768, .f32⟩
  | .local _ .vmem, ⟨13, _⟩ => ⟨S512x256, .f32⟩
  | .local _ .vmem, ⟨14, _⟩ => ⟨S512x256, .f32⟩
  | .local _ .vmem, ⟨15, _⟩ => ⟨S256x256, .f32⟩
  | .local _ .vmem, ⟨16, _⟩ => ⟨S256x256, .f32⟩
  | .local _ .vmem, ⟨17, _⟩ => ⟨S1x256, .f32⟩
  | .local _ .vmem, ⟨18, _⟩ => ⟨S1x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | _, _ => ⟨S32x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_c : Ref sig .tc := ⟨.hbm, 20, rfl⟩
abbrev main_call0_v5 : Ref sig .tc := ⟨.hbm, 21, rfl⟩
abbrev main_call0_v6 : Ref sig .tc := ⟨.hbm, 22, rfl⟩
abbrev main_call0_c_0 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_call0_v0 : Ref sig .tc := ⟨.hbm, 28, rfl⟩
abbrev main_call0_call0_c : Ref sig .tc := ⟨.hbm, 29, rfl⟩
abbrev main_call0_call0_v1 : Ref sig .tc := ⟨.hbm, 30, rfl⟩
abbrev main_call0_call0_v2 : Ref sig .tc := ⟨.hbm, 31, rfl⟩
abbrev main_call0_call0_v3 : Ref sig .tc := ⟨.hbm, 32, rfl⟩
abbrev main_call0_call0_v4 : Ref sig .tc := ⟨.hbm, 33, rfl⟩
abbrev main_call0_call0_v5 : Ref sig .tc := ⟨.hbm, 34, rfl⟩
abbrev main_call0_call0_v6 : Ref sig .tc := ⟨.hbm, 35, rfl⟩
abbrev main_call0_call0_c_0 : Ref sig .tc := ⟨.hbm, 36, rfl⟩
abbrev main_call0_call0_v7 : Ref sig .tc := ⟨.hbm, 37, rfl⟩
abbrev main_call0_call0_v8 : Ref sig .tc := ⟨.hbm, 38, rfl⟩
abbrev main_call0_call0_c_1 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_call0_v12 : Ref sig .tc := ⟨.hbm, 43, rfl⟩
abbrev main_call0_call0_v13 : Ref sig .tc := ⟨.hbm, 44, rfl⟩
abbrev main_call0_call0_c_2 : Ref sig .tc := ⟨.hbm, 45, rfl⟩
abbrev main_call0_call0_v14 : Ref sig .tc := ⟨.hbm, 46, rfl⟩
abbrev main_call0_call0_v15 : Ref sig .tc := ⟨.hbm, 47, rfl⟩
abbrev main_call0_call0_c_3 : Ref sig .tc := ⟨.hbm, 48, rfl⟩
abbrev main_call0_call0_v16 : Ref sig .tc := ⟨.hbm, 49, rfl⟩
abbrev main_call0_call0_v17 : Ref sig .tc := ⟨.hbm, 50, rfl⟩
abbrev main_call0_call0_v18 : Ref sig .tc := ⟨.hbm, 51, rfl⟩
abbrev main_call0_call0_v19 : Ref sig .tc := ⟨.hbm, 52, rfl⟩
abbrev main_call0_call0_v20 : Ref sig .tc := ⟨.hbm, 53, rfl⟩
abbrev main_call0_call0_c_4 : Ref sig .tc := ⟨.hbm, 54, rfl⟩
abbrev main_call0_call0_v21 : Ref sig .tc := ⟨.hbm, 55, rfl⟩
abbrev main_call0_call0_v22 : Ref sig .tc := ⟨.hbm, 56, rfl⟩
abbrev main_call0_call0_c_5 : Ref sig .tc := ⟨.hbm, 57, rfl⟩
abbrev main_call0_call0_v23 : Ref sig .tc := ⟨.hbm, 58, rfl⟩
abbrev main_call0_call0_v24 : Ref sig .tc := ⟨.hbm, 59, rfl⟩
abbrev main_call0_call0_v25 : Ref sig .tc := ⟨.hbm, 60, rfl⟩
abbrev main_call0_call0_v26 : Ref sig .tc := ⟨.hbm, 61, rfl⟩
abbrev main_call0_call0_v27 : Ref sig .tc := ⟨.hbm, 62, rfl⟩
abbrev main_call0_call0_c_6 : Ref sig .tc := ⟨.hbm, 63, rfl⟩
abbrev main_call0_call0_v28 : Ref sig .tc := ⟨.hbm, 64, rfl⟩
abbrev main_call0_call0_v29 : Ref sig .tc := ⟨.hbm, 65, rfl⟩
abbrev main_call0_call0_c_7 : Ref sig .tc := ⟨.hbm, 66, rfl⟩
abbrev main_call0_call0_v30 : Ref sig .tc := ⟨.hbm, 67, rfl⟩
abbrev main_call0_call0_v31 : Ref sig .tc := ⟨.hbm, 68, rfl⟩
abbrev main_call0_call0_v32 : Ref sig .tc := ⟨.hbm, 69, rfl⟩
abbrev main_call0_call0_v33 : Ref sig .tc := ⟨.hbm, 70, rfl⟩
abbrev main_call0_call0_v34 : Ref sig .tc := ⟨.hbm, 71, rfl⟩
abbrev main_call0_call0_v35 : Ref sig .tc := ⟨.hbm, 72, rfl⟩
abbrev main_call0_call0_v36 : Ref sig .tc := ⟨.hbm, 73, rfl⟩
abbrev main_call0_call0_v37 : Ref sig .tc := ⟨.hbm, 74, rfl⟩
abbrev main_call0_call0_c_8 : Ref sig .tc := ⟨.hbm, 75, rfl⟩
abbrev main_call0_call0_v38 : Ref sig .tc := ⟨.hbm, 76, rfl⟩
abbrev main_call0_call0_v39 : Ref sig .tc := ⟨.hbm, 77, rfl⟩
abbrev main_call0_call0_v40 : Ref sig .tc := ⟨.hbm, 78, rfl⟩
abbrev main_call0_call0_c_9 : Ref sig .tc := ⟨.hbm, 79, rfl⟩
abbrev main_call0_call0_v41 : Ref sig .tc := ⟨.hbm, 80, rfl⟩
abbrev main_call0_call0_v42 : Ref sig .tc := ⟨.hbm, 81, rfl⟩
abbrev main_call0_call0_c_10 : Ref sig .tc := ⟨.hbm, 82, rfl⟩
abbrev main_call0_call0_v43 : Ref sig .tc := ⟨.hbm, 83, rfl⟩
abbrev main_call0_call0_v44 : Ref sig .tc := ⟨.hbm, 84, rfl⟩
abbrev main_call0_call0_v45 : Ref sig .tc := ⟨.hbm, 85, rfl⟩
abbrev main_call0_call0_v46 : Ref sig .tc := ⟨.hbm, 86, rfl⟩
abbrev main_call0_call0_v47 : Ref sig .tc := ⟨.hbm, 87, rfl⟩
abbrev main_call0_call0_c_11 : Ref sig .tc := ⟨.hbm, 88, rfl⟩
abbrev main_call0_call0_v48 : Ref sig .tc := ⟨.hbm, 89, rfl⟩
abbrev main_call0_call0_v49 : Ref sig .tc := ⟨.hbm, 90, rfl⟩
abbrev main_call0_call0_c_12 : Ref sig .tc := ⟨.hbm, 91, rfl⟩
abbrev main_call0_call0_v50 : Ref sig .tc := ⟨.hbm, 92, rfl⟩
abbrev main_call0_call0_v51 : Ref sig .tc := ⟨.hbm, 93, rfl⟩
abbrev main_call0_call0_v52 : Ref sig .tc := ⟨.hbm, 94, rfl⟩
abbrev main_call0_call0_v53 : Ref sig .tc := ⟨.hbm, 95, rfl⟩
abbrev main_call0_call0_v54 : Ref sig .tc := ⟨.hbm, 96, rfl⟩
abbrev main_call0_call0_c_13 : Ref sig .tc := ⟨.hbm, 97, rfl⟩
abbrev main_call0_call0_v55 : Ref sig .tc := ⟨.hbm, 98, rfl⟩
abbrev main_call0_call0_v56 : Ref sig .tc := ⟨.hbm, 99, rfl⟩
abbrev main_call0_call0_c_14 : Ref sig .tc := ⟨.hbm, 100, rfl⟩
abbrev main_call0_call0_v57 : Ref sig .tc := ⟨.hbm, 101, rfl⟩
abbrev main_call0_call0_v58 : Ref sig .tc := ⟨.hbm, 102, rfl⟩
abbrev main_call0_call0_v59 : Ref sig .tc := ⟨.hbm, 103, rfl⟩
abbrev main_call0_call0_v60 : Ref sig .tc := ⟨.hbm, 104, rfl⟩
abbrev main_call0_call0_v61 : Ref sig .tc := ⟨.hbm, 105, rfl⟩
abbrev main_call0_call0_c_15 : Ref sig .tc := ⟨.hbm, 106, rfl⟩
abbrev main_call0_call0_v62 : Ref sig .tc := ⟨.hbm, 107, rfl⟩
abbrev main_call0_call0_v63 : Ref sig .tc := ⟨.hbm, 108, rfl⟩
abbrev main_call0_call0_c_16 : Ref sig .tc := ⟨.hbm, 109, rfl⟩
abbrev main_call0_call0_v64 : Ref sig .tc := ⟨.hbm, 110, rfl⟩
abbrev main_call0_call0_v65 : Ref sig .tc := ⟨.hbm, 111, rfl⟩
abbrev main_call0_call0_v66 : Ref sig .tc := ⟨.hbm, 112, rfl⟩
abbrev main_call0_call0_v67 : Ref sig .tc := ⟨.hbm, 113, rfl⟩
abbrev main_call0_call0_v68 : Ref sig .tc := ⟨.hbm, 114, rfl⟩
abbrev main_call0_call0_v69 : Ref sig .tc := ⟨.hbm, 115, rfl⟩
abbrev main_call0_call0_v70 : Ref sig .tc := ⟨.hbm, 116, rfl⟩
abbrev main_call0_call0_v71 : Ref sig .tc := ⟨.hbm, 117, rfl⟩
abbrev main_call0_call0_c_17 : Ref sig .tc := ⟨.hbm, 118, rfl⟩
abbrev main_call0_call0_v72 : Ref sig .tc := ⟨.hbm, 119, rfl⟩
abbrev main_call0_call0_v73 : Ref sig .tc := ⟨.hbm, 120, rfl⟩
abbrev main_call0_call0_v74 : Ref sig .tc := ⟨.hbm, 121, rfl⟩
abbrev main_call0_call0_c_18 : Ref sig .tc := ⟨.hbm, 122, rfl⟩
abbrev main_call0_call0_v75 : Ref sig .tc := ⟨.hbm, 123, rfl⟩
abbrev main_call0_call0_v76 : Ref sig .tc := ⟨.hbm, 124, rfl⟩
abbrev main_call0_call0_c_19 : Ref sig .tc := ⟨.hbm, 125, rfl⟩
abbrev main_call0_call0_v77 : Ref sig .tc := ⟨.hbm, 126, rfl⟩
abbrev main_call0_call0_v78 : Ref sig .tc := ⟨.hbm, 127, rfl⟩
abbrev main_call0_call0_v79 : Ref sig .tc := ⟨.hbm, 128, rfl⟩
abbrev main_call0_call0_v80 : Ref sig .tc := ⟨.hbm, 129, rfl⟩
abbrev main_call0_call0_v81 : Ref sig .tc := ⟨.hbm, 130, rfl⟩
abbrev main_call0_call0_c_20 : Ref sig .tc := ⟨.hbm, 131, rfl⟩
abbrev main_call0_call0_v82 : Ref sig .tc := ⟨.hbm, 132, rfl⟩
abbrev main_call0_call0_v83 : Ref sig .tc := ⟨.hbm, 133, rfl⟩
abbrev main_call0_call0_c_21 : Ref sig .tc := ⟨.hbm, 134, rfl⟩
abbrev main_call0_call0_v84 : Ref sig .tc := ⟨.hbm, 135, rfl⟩
abbrev main_call0_call0_v85 : Ref sig .tc := ⟨.hbm, 136, rfl⟩
abbrev main_call0_call0_v86 : Ref sig .tc := ⟨.hbm, 137, rfl⟩
abbrev main_call0_call0_v87 : Ref sig .tc := ⟨.hbm, 138, rfl⟩
abbrev main_call0_call0_v88 : Ref sig .tc := ⟨.hbm, 139, rfl⟩
abbrev main_call0_call0_c_22 : Ref sig .tc := ⟨.hbm, 140, rfl⟩
abbrev main_call0_call0_v89 : Ref sig .tc := ⟨.hbm, 141, rfl⟩
abbrev main_call0_call0_v90 : Ref sig .tc := ⟨.hbm, 142, rfl⟩
abbrev main_call0_call0_c_23 : Ref sig .tc := ⟨.hbm, 143, rfl⟩
abbrev main_call0_call0_v91 : Ref sig .tc := ⟨.hbm, 144, rfl⟩
abbrev main_call0_call0_v92 : Ref sig .tc := ⟨.hbm, 145, rfl⟩
abbrev main_call0_call0_v93 : Ref sig .tc := ⟨.hbm, 146, rfl⟩
abbrev main_call0_call0_v94 : Ref sig .tc := ⟨.hbm, 147, rfl⟩
abbrev main_call0_call0_v95 : Ref sig .tc := ⟨.hbm, 148, rfl⟩
abbrev main_call0_call0_c_24 : Ref sig .tc := ⟨.hbm, 149, rfl⟩
abbrev main_call0_call0_v96 : Ref sig .tc := ⟨.hbm, 150, rfl⟩
abbrev main_call0_call0_v97 : Ref sig .tc := ⟨.hbm, 151, rfl⟩
abbrev main_call0_call0_c_25 : Ref sig .tc := ⟨.hbm, 152, rfl⟩
abbrev main_call0_call0_v98 : Ref sig .tc := ⟨.hbm, 153, rfl⟩
abbrev main_call0_call0_v99 : Ref sig .tc := ⟨.hbm, 154, rfl⟩
abbrev main_call0_call0_v100 : Ref sig .tc := ⟨.hbm, 155, rfl⟩
abbrev main_call0_call0_v101 : Ref sig .tc := ⟨.hbm, 156, rfl⟩
abbrev main_call0_call0_v102 : Ref sig .tc := ⟨.hbm, 157, rfl⟩
abbrev main_call0_call0_v103 : Ref sig .tc := ⟨.hbm, 158, rfl⟩
abbrev main_call0_call0_v104 : Ref sig .tc := ⟨.hbm, 159, rfl⟩
abbrev main_call0_call0_v105 : Ref sig .tc := ⟨.hbm, 160, rfl⟩
abbrev main_call0_call0_c_26 : Ref sig .tc := ⟨.hbm, 161, rfl⟩
abbrev main_call0_call0_v106 : Ref sig .tc := ⟨.hbm, 162, rfl⟩
abbrev main_call0_call0_v107 : Ref sig .tc := ⟨.hbm, 163, rfl⟩
abbrev main_call0_call0_v108 : Ref sig .tc := ⟨.hbm, 164, rfl⟩
abbrev main_call0_call0_c_27 : Ref sig .tc := ⟨.hbm, 165, rfl⟩
abbrev main_call0_call0_v109 : Ref sig .tc := ⟨.hbm, 166, rfl⟩
abbrev main_call0_call0_v110 : Ref sig .tc := ⟨.hbm, 167, rfl⟩
abbrev main_call0_call0_c_28 : Ref sig .tc := ⟨.hbm, 168, rfl⟩
abbrev main_call0_call0_v111 : Ref sig .tc := ⟨.hbm, 169, rfl⟩
abbrev main_call0_call0_v112 : Ref sig .tc := ⟨.hbm, 170, rfl⟩
abbrev main_call0_call0_v113 : Ref sig .tc := ⟨.hbm, 171, rfl⟩
abbrev main_call0_call0_v114 : Ref sig .tc := ⟨.hbm, 172, rfl⟩
abbrev main_call0_call0_v115 : Ref sig .tc := ⟨.hbm, 173, rfl⟩
abbrev main_call0_call0_c_29 : Ref sig .tc := ⟨.hbm, 174, rfl⟩
abbrev main_call0_call0_v116 : Ref sig .tc := ⟨.hbm, 175, rfl⟩
abbrev main_call0_call0_v117 : Ref sig .tc := ⟨.hbm, 176, rfl⟩
abbrev main_call0_call0_c_30 : Ref sig .tc := ⟨.hbm, 177, rfl⟩
abbrev main_call0_call0_v118 : Ref sig .tc := ⟨.hbm, 178, rfl⟩
abbrev main_call0_call0_v119 : Ref sig .tc := ⟨.hbm, 179, rfl⟩
abbrev main_call0_call0_v120 : Ref sig .tc := ⟨.hbm, 180, rfl⟩
abbrev main_call0_call0_v121 : Ref sig .tc := ⟨.hbm, 181, rfl⟩
abbrev main_call0_call0_v122 : Ref sig .tc := ⟨.hbm, 182, rfl⟩
abbrev main_call0_call0_c_31 : Ref sig .tc := ⟨.hbm, 183, rfl⟩
abbrev main_call0_call0_v123 : Ref sig .tc := ⟨.hbm, 184, rfl⟩
abbrev main_call0_call0_v124 : Ref sig .tc := ⟨.hbm, 185, rfl⟩
abbrev main_call0_call0_c_32 : Ref sig .tc := ⟨.hbm, 186, rfl⟩
abbrev main_call0_call0_v125 : Ref sig .tc := ⟨.hbm, 187, rfl⟩
abbrev main_call0_call0_v126 : Ref sig .tc := ⟨.hbm, 188, rfl⟩
abbrev main_call0_call0_v127 : Ref sig .tc := ⟨.hbm, 189, rfl⟩
abbrev main_call0_call0_v128 : Ref sig .tc := ⟨.hbm, 190, rfl⟩
abbrev main_call0_call0_v129 : Ref sig .tc := ⟨.hbm, 191, rfl⟩
abbrev main_call0_call0_c_33 : Ref sig .tc := ⟨.hbm, 192, rfl⟩
abbrev main_call0_call0_v130 : Ref sig .tc := ⟨.hbm, 193, rfl⟩
abbrev main_call0_call0_v131 : Ref sig .tc := ⟨.hbm, 194, rfl⟩
abbrev main_call0_call0_c_34 : Ref sig .tc := ⟨.hbm, 195, rfl⟩
abbrev main_call0_call0_v132 : Ref sig .tc := ⟨.hbm, 196, rfl⟩
abbrev main_call0_call0_v133 : Ref sig .tc := ⟨.hbm, 197, rfl⟩
abbrev main_call0_call0_v134 : Ref sig .tc := ⟨.hbm, 198, rfl⟩
abbrev main_call0_call0_v135 : Ref sig .tc := ⟨.hbm, 199, rfl⟩
abbrev main_call0_call0_v136 : Ref sig .tc := ⟨.hbm, 200, rfl⟩
abbrev main_call0_call0_v137 : Ref sig .tc := ⟨.hbm, 201, rfl⟩
abbrev main_call0_call0_v138 : Ref sig .tc := ⟨.hbm, 202, rfl⟩
abbrev main_call0_call0_v139 : Ref sig .tc := ⟨.hbm, 203, rfl⟩
abbrev main_call0_call0_c_35 : Ref sig .tc := ⟨.hbm, 204, rfl⟩
abbrev main_call0_call0_v140 : Ref sig .tc := ⟨.hbm, 205, rfl⟩
abbrev main_call0_call0_v141 : Ref sig .tc := ⟨.hbm, 206, rfl⟩
abbrev main_call0_call0_v142 : Ref sig .tc := ⟨.hbm, 207, rfl⟩
abbrev main_call0_call0_c_36 : Ref sig .tc := ⟨.hbm, 208, rfl⟩
abbrev main_call0_call0_v143 : Ref sig .tc := ⟨.hbm, 209, rfl⟩
abbrev main_call0_call0_v144 : Ref sig .tc := ⟨.hbm, 210, rfl⟩
abbrev main_call0_call0_c_37 : Ref sig .tc := ⟨.hbm, 211, rfl⟩
abbrev main_call0_call0_v145 : Ref sig .tc := ⟨.hbm, 212, rfl⟩
abbrev main_call0_call0_v146 : Ref sig .tc := ⟨.hbm, 213, rfl⟩
abbrev main_call0_call0_v147 : Ref sig .tc := ⟨.hbm, 214, rfl⟩
abbrev main_call0_call0_v148 : Ref sig .tc := ⟨.hbm, 215, rfl⟩
abbrev main_call0_call0_v149 : Ref sig .tc := ⟨.hbm, 216, rfl⟩
abbrev main_call0_call0_c_38 : Ref sig .tc := ⟨.hbm, 217, rfl⟩
abbrev main_call0_call0_v150 : Ref sig .tc := ⟨.hbm, 218, rfl⟩
abbrev main_call0_call0_v151 : Ref sig .tc := ⟨.hbm, 219, rfl⟩
abbrev main_call0_call0_c_39 : Ref sig .tc := ⟨.hbm, 220, rfl⟩
abbrev main_call0_call0_v152 : Ref sig .tc := ⟨.hbm, 221, rfl⟩
abbrev main_call0_call0_v153 : Ref sig .tc := ⟨.hbm, 222, rfl⟩
abbrev main_call0_call0_v154 : Ref sig .tc := ⟨.hbm, 223, rfl⟩
abbrev main_call0_call0_v155 : Ref sig .tc := ⟨.hbm, 224, rfl⟩
abbrev main_call0_call0_v156 : Ref sig .tc := ⟨.hbm, 225, rfl⟩
abbrev main_call0_call0_c_40 : Ref sig .tc := ⟨.hbm, 226, rfl⟩
abbrev main_call0_call0_v157 : Ref sig .tc := ⟨.hbm, 227, rfl⟩
abbrev main_call0_call0_v158 : Ref sig .tc := ⟨.hbm, 228, rfl⟩
abbrev main_call0_call0_c_41 : Ref sig .tc := ⟨.hbm, 229, rfl⟩
abbrev main_call0_call0_v159 : Ref sig .tc := ⟨.hbm, 230, rfl⟩
abbrev main_call0_call0_v160 : Ref sig .tc := ⟨.hbm, 231, rfl⟩
abbrev main_call0_call0_v161 : Ref sig .tc := ⟨.hbm, 232, rfl⟩
abbrev main_call0_call0_v162 : Ref sig .tc := ⟨.hbm, 233, rfl⟩
abbrev main_call0_call0_v163 : Ref sig .tc := ⟨.hbm, 234, rfl⟩
abbrev main_call0_call0_c_42 : Ref sig .tc := ⟨.hbm, 235, rfl⟩
abbrev main_call0_call0_v164 : Ref sig .tc := ⟨.hbm, 236, rfl⟩
abbrev main_call0_call0_v165 : Ref sig .tc := ⟨.hbm, 237, rfl⟩
abbrev main_call0_call0_c_43 : Ref sig .tc := ⟨.hbm, 238, rfl⟩
abbrev main_call0_call0_v166 : Ref sig .tc := ⟨.hbm, 239, rfl⟩
abbrev main_call0_call0_v167 : Ref sig .tc := ⟨.hbm, 240, rfl⟩
abbrev main_call0_call0_v168 : Ref sig .tc := ⟨.hbm, 241, rfl⟩
abbrev main_call0_call0_v169 : Ref sig .tc := ⟨.hbm, 242, rfl⟩
abbrev main_call0_call0_v170 : Ref sig .tc := ⟨.hbm, 243, rfl⟩
abbrev main_call0_v11_0 : Ref sig .tc := ⟨.hbm, 244, rfl⟩
abbrev main_call0_call0_v172 : Ref sig .tc := ⟨.hbm, 245, rfl⟩
abbrev main_call0_call0_v173 : Ref sig .tc := ⟨.hbm, 246, rfl⟩
abbrev main_call0_call0_c_44 : Ref sig .tc := ⟨.hbm, 247, rfl⟩
abbrev main_call0_call0_v174 : Ref sig .tc := ⟨.hbm, 248, rfl⟩
abbrev main_call0_v11_1 : Ref sig .tc := ⟨.hbm, 249, rfl⟩
abbrev main_call0_v12 : Ref sig .tc := ⟨.hbm, 250, rfl⟩
abbrev main_call0_v13 : Ref sig .tc := ⟨.hbm, 251, rfl⟩
abbrev main_v7 : Ref sig .tc := ⟨.hbm, 252, rfl⟩
abbrev main_v8 : Ref sig .tc := ⟨.hbm, 253, rfl⟩
abbrev main_v9 : Ref sig .tc := ⟨.hbm, 254, rfl⟩
abbrev main_v10 : Ref sig .tc := ⟨.hbm, 255, rfl⟩
abbrev main_v11 : Ref sig .tc := ⟨.hbm, 256, rfl⟩
abbrev main_v12 : Ref sig .tc := ⟨.hbm, 257, rfl⟩
abbrev main_v13 : Ref sig .tc := ⟨.hbm, 258, rfl⟩
abbrev main_v14 : Ref sig .tc := ⟨.hbm, 259, rfl⟩
abbrev main_v15 : Ref sig .tc := ⟨.hbm, 260, rfl⟩
abbrev main_cst : Ref sig .tc := ⟨.hbm, 261, rfl⟩
abbrev main_cst_2 : Ref sig .tc := ⟨.hbm, 262, rfl⟩
abbrev main_call1_v0 : Ref sig .tc := ⟨.hbm, 263, rfl⟩
abbrev main_call1_v1 : Ref sig .tc := ⟨.hbm, 264, rfl⟩
abbrev main_call1_v2 : Ref sig .tc := ⟨.hbm, 265, rfl⟩
abbrev main_call1_v3 : Ref sig .tc := ⟨.hbm, 266, rfl⟩
abbrev main_call1_v4 : Ref sig .tc := ⟨.hbm, 267, rfl⟩
abbrev main_call1_v5 : Ref sig .tc := ⟨.hbm, 268, rfl⟩
abbrev main_call1_v6 : Ref sig .tc := ⟨.hbm, 269, rfl⟩
abbrev main_call1_v7 : Ref sig .tc := ⟨.hbm, 270, rfl⟩
abbrev main_call1_v8 : Ref sig .tc := ⟨.hbm, 271, rfl⟩
abbrev main_call1_v9 : Ref sig .tc := ⟨.hbm, 272, rfl⟩
abbrev main_call1_c : Ref sig .tc := ⟨.hbm, 273, rfl⟩
abbrev main_call1_v10 : Ref sig .tc := ⟨.hbm, 274, rfl⟩
abbrev main_call1_v11 : Ref sig .tc := ⟨.hbm, 275, rfl⟩
abbrev main_call1_c_0 : Ref sig .tc := ⟨.hbm, 276, rfl⟩
abbrev main_call1_v12 : Ref sig .tc := ⟨.hbm, 277, rfl⟩
abbrev main_call1_v13 : Ref sig .tc := ⟨.hbm, 278, rfl⟩
abbrev main_call1_v14 : Ref sig .tc := ⟨.hbm, 279, rfl⟩
abbrev main_call1_c_1 : Ref sig .tc := ⟨.hbm, 280, rfl⟩
abbrev main_call1_v15 : Ref sig .tc := ⟨.hbm, 281, rfl⟩
abbrev main_call1_v16 : Ref sig .tc := ⟨.hbm, 282, rfl⟩
abbrev main_call1_v17 : Ref sig .tc := ⟨.hbm, 283, rfl⟩
abbrev main_call1_v18 : Ref sig .tc := ⟨.hbm, 284, rfl⟩
abbrev main_call1_call0_v0 : Ref sig .tc := ⟨.hbm, 285, rfl⟩
abbrev main_call1_call0_c : Ref sig .tc := ⟨.hbm, 286, rfl⟩
abbrev main_call1_call0_v1 : Ref sig .tc := ⟨.hbm, 287, rfl⟩
abbrev main_call1_call0_v2 : Ref sig .tc := ⟨.hbm, 288, rfl⟩
abbrev main_call1_call0_v3 : Ref sig .tc := ⟨.hbm, 289, rfl⟩
abbrev main_call1_call0_v4 : Ref sig .tc := ⟨.hbm, 290, rfl⟩
abbrev main_call1_call0_v5 : Ref sig .tc := ⟨.hbm, 291, rfl⟩
abbrev main_call1_call0_v6 : Ref sig .tc := ⟨.hbm, 292, rfl⟩
abbrev main_call1_call0_c_0 : Ref sig .tc := ⟨.hbm, 293, rfl⟩
abbrev main_call1_call0_v7 : Ref sig .tc := ⟨.hbm, 294, rfl⟩
abbrev main_call1_call0_v8 : Ref sig .tc := ⟨.hbm, 295, rfl⟩
abbrev main_call1_call0_c_1 : Ref sig .tc := ⟨.hbm, 296, rfl⟩
abbrev main_call1_call0_v9 : Ref sig .tc := ⟨.hbm, 297, rfl⟩
abbrev main_call1_call0_v10 : Ref sig .tc := ⟨.hbm, 298, rfl⟩
abbrev main_call1_call0_v11 : Ref sig .tc := ⟨.hbm, 299, rfl⟩
abbrev main_call1_call0_v12 : Ref sig .tc := ⟨.hbm, 300, rfl⟩
abbrev main_call1_call0_v13 : Ref sig .tc := ⟨.hbm, 301, rfl⟩
abbrev main_call1_call0_c_2 : Ref sig .tc := ⟨.hbm, 302, rfl⟩
abbrev main_call1_call0_v14 : Ref sig .tc := ⟨.hbm, 303, rfl⟩
abbrev main_call1_call0_v15 : Ref sig .tc := ⟨.hbm, 304, rfl⟩
abbrev main_call1_call0_c_3 : Ref sig .tc := ⟨.hbm, 305, rfl⟩
abbrev main_call1_call0_v16 : Ref sig .tc := ⟨.hbm, 306, rfl⟩
abbrev main_call1_call0_v17 : Ref sig .tc := ⟨.hbm, 307, rfl⟩
abbrev main_call1_call0_v18 : Ref sig .tc := ⟨.hbm, 308, rfl⟩
abbrev main_call1_call0_v19 : Ref sig .tc := ⟨.hbm, 309, rfl⟩
abbrev main_call1_call0_v20 : Ref sig .tc := ⟨.hbm, 310, rfl⟩
abbrev main_call1_call0_c_4 : Ref sig .tc := ⟨.hbm, 311, rfl⟩
abbrev main_call1_call0_v21 : Ref sig .tc := ⟨.hbm, 312, rfl⟩
abbrev main_call1_call0_v22 : Ref sig .tc := ⟨.hbm, 313, rfl⟩
abbrev main_call1_call0_c_5 : Ref sig .tc := ⟨.hbm, 314, rfl⟩
abbrev main_call1_call0_v23 : Ref sig .tc := ⟨.hbm, 315, rfl⟩
abbrev main_call1_call0_v24 : Ref sig .tc := ⟨.hbm, 316, rfl⟩
abbrev main_call1_call0_v25 : Ref sig .tc := ⟨.hbm, 317, rfl⟩
abbrev main_call1_call0_v26 : Ref sig .tc := ⟨.hbm, 318, rfl⟩
abbrev main_call1_call0_v27 : Ref sig .tc := ⟨.hbm, 319, rfl⟩
abbrev main_call1_call0_c_6 : Ref sig .tc := ⟨.hbm, 320, rfl⟩
abbrev main_call1_call0_v28 : Ref sig .tc := ⟨.hbm, 321, rfl⟩
abbrev main_call1_call0_v29 : Ref sig .tc := ⟨.hbm, 322, rfl⟩
abbrev main_call1_call0_c_7 : Ref sig .tc := ⟨.hbm, 323, rfl⟩
abbrev main_call1_call0_v30 : Ref sig .tc := ⟨.hbm, 324, rfl⟩
abbrev main_call1_call0_v31 : Ref sig .tc := ⟨.hbm, 325, rfl⟩
abbrev main_call1_call0_v32 : Ref sig .tc := ⟨.hbm, 326, rfl⟩
abbrev main_call1_call0_v33 : Ref sig .tc := ⟨.hbm, 327, rfl⟩
abbrev main_call1_call0_v34 : Ref sig .tc := ⟨.hbm, 328, rfl⟩
abbrev main_call1_call0_v35 : Ref sig .tc := ⟨.hbm, 329, rfl⟩
abbrev main_call1_call0_v36 : Ref sig .tc := ⟨.hbm, 330, rfl⟩
abbrev main_call1_call0_v37 : Ref sig .tc := ⟨.hbm, 331, rfl⟩
abbrev main_call1_call0_c_8 : Ref sig .tc := ⟨.hbm, 332, rfl⟩
abbrev main_call1_call0_v38 : Ref sig .tc := ⟨.hbm, 333, rfl⟩
abbrev main_call1_call0_v39 : Ref sig .tc := ⟨.hbm, 334, rfl⟩
abbrev main_call1_call0_v40 : Ref sig .tc := ⟨.hbm, 335, rfl⟩
abbrev main_call1_call0_c_9 : Ref sig .tc := ⟨.hbm, 336, rfl⟩
abbrev main_call1_call0_v41 : Ref sig .tc := ⟨.hbm, 337, rfl⟩
abbrev main_call1_call0_v42 : Ref sig .tc := ⟨.hbm, 338, rfl⟩
abbrev main_call1_call0_c_10 : Ref sig .tc := ⟨.hbm, 339, rfl⟩
abbrev main_call1_call0_v43 : Ref sig .tc := ⟨.hbm, 340, rfl⟩
abbrev main_call1_call0_v44 : Ref sig .tc := ⟨.hbm, 341, rfl⟩
abbrev main_call1_call0_v45 : Ref sig .tc := ⟨.hbm, 342, rfl⟩
abbrev main_call1_call0_v46 : Ref sig .tc := ⟨.hbm, 343, rfl⟩
abbrev main_call1_call0_v47 : Ref sig .tc := ⟨.hbm, 344, rfl⟩
abbrev main_call1_call0_c_11 : Ref sig .tc := ⟨.hbm, 345, rfl⟩
abbrev main_call1_call0_v48 : Ref sig .tc := ⟨.hbm, 346, rfl⟩
abbrev main_call1_call0_v49 : Ref sig .tc := ⟨.hbm, 347, rfl⟩
abbrev main_call1_call0_c_12 : Ref sig .tc := ⟨.hbm, 348, rfl⟩
abbrev main_call1_call0_v50 : Ref sig .tc := ⟨.hbm, 349, rfl⟩
abbrev main_call1_call0_v51 : Ref sig .tc := ⟨.hbm, 350, rfl⟩
abbrev main_call1_call0_v52 : Ref sig .tc := ⟨.hbm, 351, rfl⟩
abbrev main_call1_call0_v53 : Ref sig .tc := ⟨.hbm, 352, rfl⟩
abbrev main_call1_call0_v54 : Ref sig .tc := ⟨.hbm, 353, rfl⟩
abbrev main_call1_call0_c_13 : Ref sig .tc := ⟨.hbm, 354, rfl⟩
abbrev main_call1_call0_v55 : Ref sig .tc := ⟨.hbm, 355, rfl⟩
abbrev main_call1_call0_v56 : Ref sig .tc := ⟨.hbm, 356, rfl⟩
abbrev main_call1_call0_c_14 : Ref sig .tc := ⟨.hbm, 357, rfl⟩
abbrev main_call1_call0_v57 : Ref sig .tc := ⟨.hbm, 358, rfl⟩
abbrev main_call1_call0_v58 : Ref sig .tc := ⟨.hbm, 359, rfl⟩
abbrev main_call1_call0_v59 : Ref sig .tc := ⟨.hbm, 360, rfl⟩
abbrev main_call1_call0_v60 : Ref sig .tc := ⟨.hbm, 361, rfl⟩
abbrev main_call1_call0_v61 : Ref sig .tc := ⟨.hbm, 362, rfl⟩
abbrev main_call1_call0_c_15 : Ref sig .tc := ⟨.hbm, 363, rfl⟩
abbrev main_call1_call0_v62 : Ref sig .tc := ⟨.hbm, 364, rfl⟩
abbrev main_call1_call0_v63 : Ref sig .tc := ⟨.hbm, 365, rfl⟩
abbrev main_call1_call0_c_16 : Ref sig .tc := ⟨.hbm, 366, rfl⟩
abbrev main_call1_call0_v64 : Ref sig .tc := ⟨.hbm, 367, rfl⟩
abbrev main_call1_call0_v65 : Ref sig .tc := ⟨.hbm, 368, rfl⟩
abbrev main_call1_call0_v66 : Ref sig .tc := ⟨.hbm, 369, rfl⟩
abbrev main_call1_call0_v67 : Ref sig .tc := ⟨.hbm, 370, rfl⟩
abbrev main_call1_call0_v68 : Ref sig .tc := ⟨.hbm, 371, rfl⟩
abbrev main_call1_call0_v69 : Ref sig .tc := ⟨.hbm, 372, rfl⟩
abbrev main_call1_call0_v70 : Ref sig .tc := ⟨.hbm, 373, rfl⟩
abbrev main_call1_call0_v71 : Ref sig .tc := ⟨.hbm, 374, rfl⟩
abbrev main_call1_call0_c_17 : Ref sig .tc := ⟨.hbm, 375, rfl⟩
abbrev main_call1_call0_v72 : Ref sig .tc := ⟨.hbm, 376, rfl⟩
abbrev main_call1_call0_v73 : Ref sig .tc := ⟨.hbm, 377, rfl⟩
abbrev main_call1_call0_v74 : Ref sig .tc := ⟨.hbm, 378, rfl⟩
abbrev main_call1_call0_c_18 : Ref sig .tc := ⟨.hbm, 379, rfl⟩
abbrev main_call1_call0_v75 : Ref sig .tc := ⟨.hbm, 380, rfl⟩
abbrev main_call1_call0_v76 : Ref sig .tc := ⟨.hbm, 381, rfl⟩
abbrev main_call1_call0_c_19 : Ref sig .tc := ⟨.hbm, 382, rfl⟩
abbrev main_call1_call0_v77 : Ref sig .tc := ⟨.hbm, 383, rfl⟩
abbrev main_call1_call0_v78 : Ref sig .tc := ⟨.hbm, 384, rfl⟩
abbrev main_call1_call0_v79 : Ref sig .tc := ⟨.hbm, 385, rfl⟩
abbrev main_call1_call0_v80 : Ref sig .tc := ⟨.hbm, 386, rfl⟩
abbrev main_call1_call0_v81 : Ref sig .tc := ⟨.hbm, 387, rfl⟩
abbrev main_call1_call0_c_20 : Ref sig .tc := ⟨.hbm, 388, rfl⟩
abbrev main_call1_call0_v82 : Ref sig .tc := ⟨.hbm, 389, rfl⟩
abbrev main_call1_call0_v83 : Ref sig .tc := ⟨.hbm, 390, rfl⟩
abbrev main_call1_call0_c_21 : Ref sig .tc := ⟨.hbm, 391, rfl⟩
abbrev main_call1_call0_v84 : Ref sig .tc := ⟨.hbm, 392, rfl⟩
abbrev main_call1_call0_v85 : Ref sig .tc := ⟨.hbm, 393, rfl⟩
abbrev main_call1_call0_v86 : Ref sig .tc := ⟨.hbm, 394, rfl⟩
abbrev main_call1_call0_v87 : Ref sig .tc := ⟨.hbm, 395, rfl⟩
abbrev main_call1_call0_v88 : Ref sig .tc := ⟨.hbm, 396, rfl⟩
abbrev main_call1_call0_c_22 : Ref sig .tc := ⟨.hbm, 397, rfl⟩
abbrev main_call1_call0_v89 : Ref sig .tc := ⟨.hbm, 398, rfl⟩
abbrev main_call1_call0_v90 : Ref sig .tc := ⟨.hbm, 399, rfl⟩
abbrev main_call1_call0_c_23 : Ref sig .tc := ⟨.hbm, 400, rfl⟩
abbrev main_call1_call0_v91 : Ref sig .tc := ⟨.hbm, 401, rfl⟩
abbrev main_call1_call0_v92 : Ref sig .tc := ⟨.hbm, 402, rfl⟩
abbrev main_call1_call0_v93 : Ref sig .tc := ⟨.hbm, 403, rfl⟩
abbrev main_call1_call0_v94 : Ref sig .tc := ⟨.hbm, 404, rfl⟩
abbrev main_call1_call0_v95 : Ref sig .tc := ⟨.hbm, 405, rfl⟩
abbrev main_call1_call0_c_24 : Ref sig .tc := ⟨.hbm, 406, rfl⟩
abbrev main_call1_call0_v96 : Ref sig .tc := ⟨.hbm, 407, rfl⟩
abbrev main_call1_call0_v97 : Ref sig .tc := ⟨.hbm, 408, rfl⟩
abbrev main_call1_call0_c_25 : Ref sig .tc := ⟨.hbm, 409, rfl⟩
abbrev main_call1_call0_v98 : Ref sig .tc := ⟨.hbm, 410, rfl⟩
abbrev main_call1_call0_v99 : Ref sig .tc := ⟨.hbm, 411, rfl⟩
abbrev main_call1_call0_v100 : Ref sig .tc := ⟨.hbm, 412, rfl⟩
abbrev main_call1_call0_v101 : Ref sig .tc := ⟨.hbm, 413, rfl⟩
abbrev main_call1_call0_v102 : Ref sig .tc := ⟨.hbm, 414, rfl⟩
abbrev main_call1_call0_v103 : Ref sig .tc := ⟨.hbm, 415, rfl⟩
abbrev main_call1_call0_v104 : Ref sig .tc := ⟨.hbm, 416, rfl⟩
abbrev main_call1_call0_v105 : Ref sig .tc := ⟨.hbm, 417, rfl⟩
abbrev main_call1_call0_c_26 : Ref sig .tc := ⟨.hbm, 418, rfl⟩
abbrev main_call1_call0_v106 : Ref sig .tc := ⟨.hbm, 419, rfl⟩
abbrev main_call1_call0_v107 : Ref sig .tc := ⟨.hbm, 420, rfl⟩
abbrev main_call1_call0_v108 : Ref sig .tc := ⟨.hbm, 421, rfl⟩
abbrev main_call1_call0_c_27 : Ref sig .tc := ⟨.hbm, 422, rfl⟩
abbrev main_call1_call0_v109 : Ref sig .tc := ⟨.hbm, 423, rfl⟩
abbrev main_call1_call0_v110 : Ref sig .tc := ⟨.hbm, 424, rfl⟩
abbrev main_call1_call0_c_28 : Ref sig .tc := ⟨.hbm, 425, rfl⟩
abbrev main_call1_call0_v111 : Ref sig .tc := ⟨.hbm, 426, rfl⟩
abbrev main_call1_call0_v112 : Ref sig .tc := ⟨.hbm, 427, rfl⟩
abbrev main_call1_call0_v113 : Ref sig .tc := ⟨.hbm, 428, rfl⟩
abbrev main_call1_call0_v114 : Ref sig .tc := ⟨.hbm, 429, rfl⟩
abbrev main_call1_call0_v115 : Ref sig .tc := ⟨.hbm, 430, rfl⟩
abbrev main_call1_call0_c_29 : Ref sig .tc := ⟨.hbm, 431, rfl⟩
abbrev main_call1_call0_v116 : Ref sig .tc := ⟨.hbm, 432, rfl⟩
abbrev main_call1_call0_v117 : Ref sig .tc := ⟨.hbm, 433, rfl⟩
abbrev main_call1_call0_c_30 : Ref sig .tc := ⟨.hbm, 434, rfl⟩
abbrev main_call1_call0_v118 : Ref sig .tc := ⟨.hbm, 435, rfl⟩
abbrev main_call1_call0_v119 : Ref sig .tc := ⟨.hbm, 436, rfl⟩
abbrev main_call1_call0_v120 : Ref sig .tc := ⟨.hbm, 437, rfl⟩
abbrev main_call1_call0_v121 : Ref sig .tc := ⟨.hbm, 438, rfl⟩
abbrev main_call1_call0_v122 : Ref sig .tc := ⟨.hbm, 439, rfl⟩
abbrev main_call1_call0_c_31 : Ref sig .tc := ⟨.hbm, 440, rfl⟩
abbrev main_call1_call0_v123 : Ref sig .tc := ⟨.hbm, 441, rfl⟩
abbrev main_call1_call0_v124 : Ref sig .tc := ⟨.hbm, 442, rfl⟩
abbrev main_call1_call0_c_32 : Ref sig .tc := ⟨.hbm, 443, rfl⟩
abbrev main_call1_call0_v125 : Ref sig .tc := ⟨.hbm, 444, rfl⟩
abbrev main_call1_call0_v126 : Ref sig .tc := ⟨.hbm, 445, rfl⟩
abbrev main_call1_call0_v127 : Ref sig .tc := ⟨.hbm, 446, rfl⟩
abbrev main_call1_call0_v128 : Ref sig .tc := ⟨.hbm, 447, rfl⟩
abbrev main_call1_call0_v129 : Ref sig .tc := ⟨.hbm, 448, rfl⟩
abbrev main_call1_call0_c_33 : Ref sig .tc := ⟨.hbm, 449, rfl⟩
abbrev main_call1_call0_v130 : Ref sig .tc := ⟨.hbm, 450, rfl⟩
abbrev main_call1_call0_v131 : Ref sig .tc := ⟨.hbm, 451, rfl⟩
abbrev main_call1_call0_c_34 : Ref sig .tc := ⟨.hbm, 452, rfl⟩
abbrev main_call1_call0_v132 : Ref sig .tc := ⟨.hbm, 453, rfl⟩
abbrev main_call1_call0_v133 : Ref sig .tc := ⟨.hbm, 454, rfl⟩
abbrev main_call1_call0_v134 : Ref sig .tc := ⟨.hbm, 455, rfl⟩
abbrev main_call1_call0_v135 : Ref sig .tc := ⟨.hbm, 456, rfl⟩
abbrev main_call1_call0_v136 : Ref sig .tc := ⟨.hbm, 457, rfl⟩
abbrev main_call1_call0_v137 : Ref sig .tc := ⟨.hbm, 458, rfl⟩
abbrev main_call1_call0_v138 : Ref sig .tc := ⟨.hbm, 459, rfl⟩
abbrev main_call1_call0_v139 : Ref sig .tc := ⟨.hbm, 460, rfl⟩
abbrev main_call1_call0_c_35 : Ref sig .tc := ⟨.hbm, 461, rfl⟩
abbrev main_call1_call0_v140 : Ref sig .tc := ⟨.hbm, 462, rfl⟩
abbrev main_call1_call0_v141 : Ref sig .tc := ⟨.hbm, 463, rfl⟩
abbrev main_call1_call0_v142 : Ref sig .tc := ⟨.hbm, 464, rfl⟩
abbrev main_call1_call0_c_36 : Ref sig .tc := ⟨.hbm, 465, rfl⟩
abbrev main_call1_call0_v143 : Ref sig .tc := ⟨.hbm, 466, rfl⟩
abbrev main_call1_call0_v144 : Ref sig .tc := ⟨.hbm, 467, rfl⟩
abbrev main_call1_call0_c_37 : Ref sig .tc := ⟨.hbm, 468, rfl⟩
abbrev main_call1_call0_v145 : Ref sig .tc := ⟨.hbm, 469, rfl⟩
abbrev main_call1_call0_v146 : Ref sig .tc := ⟨.hbm, 470, rfl⟩
abbrev main_call1_call0_v147 : Ref sig .tc := ⟨.hbm, 471, rfl⟩
abbrev main_call1_call0_v148 : Ref sig .tc := ⟨.hbm, 472, rfl⟩
abbrev main_call1_call0_v149 : Ref sig .tc := ⟨.hbm, 473, rfl⟩
abbrev main_call1_call0_c_38 : Ref sig .tc := ⟨.hbm, 474, rfl⟩
abbrev main_call1_call0_v150 : Ref sig .tc := ⟨.hbm, 475, rfl⟩
abbrev main_call1_call0_v151 : Ref sig .tc := ⟨.hbm, 476, rfl⟩
abbrev main_call1_call0_c_39 : Ref sig .tc := ⟨.hbm, 477, rfl⟩
abbrev main_call1_call0_v152 : Ref sig .tc := ⟨.hbm, 478, rfl⟩
abbrev main_call1_call0_v153 : Ref sig .tc := ⟨.hbm, 479, rfl⟩
abbrev main_call1_call0_v154 : Ref sig .tc := ⟨.hbm, 480, rfl⟩
abbrev main_call1_call0_v155 : Ref sig .tc := ⟨.hbm, 481, rfl⟩
abbrev main_call1_call0_v156 : Ref sig .tc := ⟨.hbm, 482, rfl⟩
abbrev main_call1_call0_c_40 : Ref sig .tc := ⟨.hbm, 483, rfl⟩
abbrev main_call1_call0_v157 : Ref sig .tc := ⟨.hbm, 484, rfl⟩
abbrev main_call1_call0_v158 : Ref sig .tc := ⟨.hbm, 485, rfl⟩
abbrev main_call1_call0_c_41 : Ref sig .tc := ⟨.hbm, 486, rfl⟩
abbrev main_call1_call0_v159 : Ref sig .tc := ⟨.hbm, 487, rfl⟩
abbrev main_call1_call0_v160 : Ref sig .tc := ⟨.hbm, 488, rfl⟩
abbrev main_call1_call0_v161 : Ref sig .tc := ⟨.hbm, 489, rfl⟩
abbrev main_call1_call0_v162 : Ref sig .tc := ⟨.hbm, 490, rfl⟩
abbrev main_call1_call0_v163 : Ref sig .tc := ⟨.hbm, 491, rfl⟩
abbrev main_call1_call0_c_42 : Ref sig .tc := ⟨.hbm, 492, rfl⟩
abbrev main_call1_call0_v164 : Ref sig .tc := ⟨.hbm, 493, rfl⟩
abbrev main_call1_call0_v165 : Ref sig .tc := ⟨.hbm, 494, rfl⟩
abbrev main_call1_call0_c_43 : Ref sig .tc := ⟨.hbm, 495, rfl⟩
abbrev main_call1_call0_v166 : Ref sig .tc := ⟨.hbm, 496, rfl⟩
abbrev main_call1_call0_v167 : Ref sig .tc := ⟨.hbm, 497, rfl⟩
abbrev main_call1_call0_v168 : Ref sig .tc := ⟨.hbm, 498, rfl⟩
abbrev main_call1_call0_v169 : Ref sig .tc := ⟨.hbm, 499, rfl⟩
abbrev main_call1_call0_v170 : Ref sig .tc := ⟨.hbm, 500, rfl⟩
abbrev main_call1_v19_0 : Ref sig .tc := ⟨.hbm, 501, rfl⟩
abbrev main_call1_call0_v172 : Ref sig .tc := ⟨.hbm, 502, rfl⟩
abbrev main_call1_call0_v173 : Ref sig .tc := ⟨.hbm, 503, rfl⟩
abbrev main_call1_call0_c_44 : Ref sig .tc := ⟨.hbm, 504, rfl⟩
abbrev main_call1_call0_v174 : Ref sig .tc := ⟨.hbm, 505, rfl⟩
abbrev main_call1_v19_1 : Ref sig .tc := ⟨.hbm, 506, rfl⟩
abbrev main_call1_v20 : Ref sig .tc := ⟨.hbm, 507, rfl⟩
abbrev main_call1_c_2 : Ref sig .tc := ⟨.hbm, 508, rfl⟩
abbrev main_call1_v21 : Ref sig .tc := ⟨.hbm, 509, rfl⟩
abbrev main_call1_v22 : Ref sig .tc := ⟨.hbm, 510, rfl⟩
abbrev main_call1_c_3 : Ref sig .tc := ⟨.hbm, 511, rfl⟩
abbrev main_call1_v23 : Ref sig .tc := ⟨.hbm, 512, rfl⟩
abbrev main_call1_v24 : Ref sig .tc := ⟨.hbm, 513, rfl⟩
abbrev main_call1_v25 : Ref sig .tc := ⟨.hbm, 514, rfl⟩
abbrev main_call1_cst : Ref sig .tc := ⟨.hbm, 515, rfl⟩
abbrev main_call1_v26 : Ref sig .tc := ⟨.hbm, 516, rfl⟩
abbrev main_call1_v27 : Ref sig .tc := ⟨.hbm, 517, rfl⟩
abbrev main_call1_v28 : Ref sig .tc := ⟨.hbm, 518, rfl⟩
abbrev main_call1_v29 : Ref sig .tc := ⟨.hbm, 519, rfl⟩
abbrev main_call1_v30 : Ref sig .tc := ⟨.hbm, 520, rfl⟩
abbrev main_call1_v31 : Ref sig .tc := ⟨.hbm, 521, rfl⟩
abbrev main_call1_v32 : Ref sig .tc := ⟨.hbm, 522, rfl⟩
abbrev main_call1_v33 : Ref sig .tc := ⟨.hbm, 523, rfl⟩
abbrev main_v16 : Ref sig .tc := ⟨.hbm, 524, rfl⟩
abbrev main_cst_3 : Ref sig .tc := ⟨.hbm, 525, rfl⟩
abbrev main_cst_4 : Ref sig .tc := ⟨.hbm, 526, rfl⟩
abbrev main_call2_v0 : Ref sig .tc := ⟨.hbm, 527, rfl⟩
abbrev main_call2_v1 : Ref sig .tc := ⟨.hbm, 528, rfl⟩
abbrev main_call2_v2 : Ref sig .tc := ⟨.hbm, 529, rfl⟩
abbrev main_call2_v3 : Ref sig .tc := ⟨.hbm, 530, rfl⟩
abbrev main_call2_v4 : Ref sig .tc := ⟨.hbm, 531, rfl⟩
abbrev main_call2_v5 : Ref sig .tc := ⟨.hbm, 532, rfl⟩
abbrev main_call2_v6 : Ref sig .tc := ⟨.hbm, 533, rfl⟩
abbrev main_call2_v7 : Ref sig .tc := ⟨.hbm, 534, rfl⟩
abbrev main_call2_v8 : Ref sig .tc := ⟨.hbm, 535, rfl⟩
abbrev main_call2_v9 : Ref sig .tc := ⟨.hbm, 536, rfl⟩
abbrev main_call2_c : Ref sig .tc := ⟨.hbm, 537, rfl⟩
abbrev main_call2_v10 : Ref sig .tc := ⟨.hbm, 538, rfl⟩
abbrev main_call2_v11 : Ref sig .tc := ⟨.hbm, 539, rfl⟩
abbrev main_call2_c_0 : Ref sig .tc := ⟨.hbm, 540, rfl⟩
abbrev main_call2_v12 : Ref sig .tc := ⟨.hbm, 541, rfl⟩
abbrev main_call2_v13 : Ref sig .tc := ⟨.hbm, 542, rfl⟩
abbrev main_call2_v14 : Ref sig .tc := ⟨.hbm, 543, rfl⟩
abbrev main_call2_c_1 : Ref sig .tc := ⟨.hbm, 544, rfl⟩
abbrev main_call2_v15 : Ref sig .tc := ⟨.hbm, 545, rfl⟩
abbrev main_call2_v16 : Ref sig .tc := ⟨.hbm, 546, rfl⟩
abbrev main_call2_v17 : Ref sig .tc := ⟨.hbm, 547, rfl⟩
abbrev main_call2_v18 : Ref sig .tc := ⟨.hbm, 548, rfl⟩
abbrev main_call2_call0_v0 : Ref sig .tc := ⟨.hbm, 549, rfl⟩
abbrev main_call2_call0_c : Ref sig .tc := ⟨.hbm, 550, rfl⟩
abbrev main_call2_call0_v1 : Ref sig .tc := ⟨.hbm, 551, rfl⟩
abbrev main_call2_call0_v2 : Ref sig .tc := ⟨.hbm, 552, rfl⟩
abbrev main_call2_call0_v3 : Ref sig .tc := ⟨.hbm, 553, rfl⟩
abbrev main_call2_call0_v4 : Ref sig .tc := ⟨.hbm, 554, rfl⟩
abbrev main_call2_call0_v5 : Ref sig .tc := ⟨.hbm, 555, rfl⟩
abbrev main_call2_call0_v6 : Ref sig .tc := ⟨.hbm, 556, rfl⟩
abbrev main_call2_call0_c_0 : Ref sig .tc := ⟨.hbm, 557, rfl⟩
abbrev main_call2_call0_v7 : Ref sig .tc := ⟨.hbm, 558, rfl⟩
abbrev main_call2_call0_v8 : Ref sig .tc := ⟨.hbm, 559, rfl⟩
abbrev main_call2_call0_c_1 : Ref sig .tc := ⟨.hbm, 560, rfl⟩
abbrev main_call2_call0_v9 : Ref sig .tc := ⟨.hbm, 561, rfl⟩
abbrev main_call2_call0_v10 : Ref sig .tc := ⟨.hbm, 562, rfl⟩
abbrev main_call2_call0_v11 : Ref sig .tc := ⟨.hbm, 563, rfl⟩
abbrev main_call2_call0_v12 : Ref sig .tc := ⟨.hbm, 564, rfl⟩
abbrev main_call2_call0_v13 : Ref sig .tc := ⟨.hbm, 565, rfl⟩
abbrev main_call2_call0_c_2 : Ref sig .tc := ⟨.hbm, 566, rfl⟩
abbrev main_call2_call0_v14 : Ref sig .tc := ⟨.hbm, 567, rfl⟩
abbrev main_call2_call0_v15 : Ref sig .tc := ⟨.hbm, 568, rfl⟩
abbrev main_call2_call0_c_3 : Ref sig .tc := ⟨.hbm, 569, rfl⟩
abbrev main_call2_call0_v16 : Ref sig .tc := ⟨.hbm, 570, rfl⟩
abbrev main_call2_call0_v17 : Ref sig .tc := ⟨.hbm, 571, rfl⟩
abbrev main_call2_call0_v18 : Ref sig .tc := ⟨.hbm, 572, rfl⟩
abbrev main_call2_call0_v19 : Ref sig .tc := ⟨.hbm, 573, rfl⟩
abbrev main_call2_call0_v20 : Ref sig .tc := ⟨.hbm, 574, rfl⟩
abbrev main_call2_call0_c_4 : Ref sig .tc := ⟨.hbm, 575, rfl⟩
abbrev main_call2_call0_v21 : Ref sig .tc := ⟨.hbm, 576, rfl⟩
abbrev main_call2_call0_v22 : Ref sig .tc := ⟨.hbm, 577, rfl⟩
abbrev main_call2_call0_c_5 : Ref sig .tc := ⟨.hbm, 578, rfl⟩
abbrev main_call2_call0_v23 : Ref sig .tc := ⟨.hbm, 579, rfl⟩
abbrev main_call2_call0_v24 : Ref sig .tc := ⟨.hbm, 580, rfl⟩
abbrev main_call2_call0_v25 : Ref sig .tc := ⟨.hbm, 581, rfl⟩
abbrev main_call2_call0_v26 : Ref sig .tc := ⟨.hbm, 582, rfl⟩
abbrev main_call2_call0_v27 : Ref sig .tc := ⟨.hbm, 583, rfl⟩
abbrev main_call2_call0_c_6 : Ref sig .tc := ⟨.hbm, 584, rfl⟩
abbrev main_call2_call0_v28 : Ref sig .tc := ⟨.hbm, 585, rfl⟩
abbrev main_call2_call0_v29 : Ref sig .tc := ⟨.hbm, 586, rfl⟩
abbrev main_call2_call0_c_7 : Ref sig .tc := ⟨.hbm, 587, rfl⟩
abbrev main_call2_call0_v30 : Ref sig .tc := ⟨.hbm, 588, rfl⟩
abbrev main_call2_call0_v31 : Ref sig .tc := ⟨.hbm, 589, rfl⟩
abbrev main_call2_call0_v32 : Ref sig .tc := ⟨.hbm, 590, rfl⟩
abbrev main_call2_call0_v33 : Ref sig .tc := ⟨.hbm, 591, rfl⟩
abbrev main_call2_call0_v34 : Ref sig .tc := ⟨.hbm, 592, rfl⟩
abbrev main_call2_call0_v35 : Ref sig .tc := ⟨.hbm, 593, rfl⟩
abbrev main_call2_call0_v36 : Ref sig .tc := ⟨.hbm, 594, rfl⟩
abbrev main_call2_call0_v37 : Ref sig .tc := ⟨.hbm, 595, rfl⟩
abbrev main_call2_call0_c_8 : Ref sig .tc := ⟨.hbm, 596, rfl⟩
abbrev main_call2_call0_v38 : Ref sig .tc := ⟨.hbm, 597, rfl⟩
abbrev main_call2_call0_v39 : Ref sig .tc := ⟨.hbm, 598, rfl⟩
abbrev main_call2_call0_v40 : Ref sig .tc := ⟨.hbm, 599, rfl⟩
abbrev main_call2_call0_c_9 : Ref sig .tc := ⟨.hbm, 600, rfl⟩
abbrev main_call2_call0_v41 : Ref sig .tc := ⟨.hbm, 601, rfl⟩
abbrev main_call2_call0_v42 : Ref sig .tc := ⟨.hbm, 602, rfl⟩
abbrev main_call2_call0_c_10 : Ref sig .tc := ⟨.hbm, 603, rfl⟩
abbrev main_call2_call0_v43 : Ref sig .tc := ⟨.hbm, 604, rfl⟩
abbrev main_call2_call0_v44 : Ref sig .tc := ⟨.hbm, 605, rfl⟩
abbrev main_call2_call0_v45 : Ref sig .tc := ⟨.hbm, 606, rfl⟩
abbrev main_call2_call0_v46 : Ref sig .tc := ⟨.hbm, 607, rfl⟩
abbrev main_call2_call0_v47 : Ref sig .tc := ⟨.hbm, 608, rfl⟩
abbrev main_call2_call0_c_11 : Ref sig .tc := ⟨.hbm, 609, rfl⟩
abbrev main_call2_call0_v48 : Ref sig .tc := ⟨.hbm, 610, rfl⟩
abbrev main_call2_call0_v49 : Ref sig .tc := ⟨.hbm, 611, rfl⟩
abbrev main_call2_call0_c_12 : Ref sig .tc := ⟨.hbm, 612, rfl⟩
abbrev main_call2_call0_v50 : Ref sig .tc := ⟨.hbm, 613, rfl⟩
abbrev main_call2_call0_v51 : Ref sig .tc := ⟨.hbm, 614, rfl⟩
abbrev main_call2_call0_v52 : Ref sig .tc := ⟨.hbm, 615, rfl⟩
abbrev main_call2_call0_v53 : Ref sig .tc := ⟨.hbm, 616, rfl⟩
abbrev main_call2_call0_v54 : Ref sig .tc := ⟨.hbm, 617, rfl⟩
abbrev main_call2_call0_c_13 : Ref sig .tc := ⟨.hbm, 618, rfl⟩
abbrev main_call2_call0_v55 : Ref sig .tc := ⟨.hbm, 619, rfl⟩
abbrev main_call2_call0_v56 : Ref sig .tc := ⟨.hbm, 620, rfl⟩
abbrev main_call2_call0_c_14 : Ref sig .tc := ⟨.hbm, 621, rfl⟩
abbrev main_call2_call0_v57 : Ref sig .tc := ⟨.hbm, 622, rfl⟩
abbrev main_call2_call0_v58 : Ref sig .tc := ⟨.hbm, 623, rfl⟩
abbrev main_call2_call0_v59 : Ref sig .tc := ⟨.hbm, 624, rfl⟩
abbrev main_call2_call0_v60 : Ref sig .tc := ⟨.hbm, 625, rfl⟩
abbrev main_call2_call0_v61 : Ref sig .tc := ⟨.hbm, 626, rfl⟩
abbrev main_call2_call0_c_15 : Ref sig .tc := ⟨.hbm, 627, rfl⟩
abbrev main_call2_call0_v62 : Ref sig .tc := ⟨.hbm, 628, rfl⟩
abbrev main_call2_call0_v63 : Ref sig .tc := ⟨.hbm, 629, rfl⟩
abbrev main_call2_call0_c_16 : Ref sig .tc := ⟨.hbm, 630, rfl⟩
abbrev main_call2_call0_v64 : Ref sig .tc := ⟨.hbm, 631, rfl⟩
abbrev main_call2_call0_v65 : Ref sig .tc := ⟨.hbm, 632, rfl⟩
abbrev main_call2_call0_v66 : Ref sig .tc := ⟨.hbm, 633, rfl⟩
abbrev main_call2_call0_v67 : Ref sig .tc := ⟨.hbm, 634, rfl⟩
abbrev main_call2_call0_v68 : Ref sig .tc := ⟨.hbm, 635, rfl⟩
abbrev main_call2_call0_v69 : Ref sig .tc := ⟨.hbm, 636, rfl⟩
abbrev main_call2_call0_v70 : Ref sig .tc := ⟨.hbm, 637, rfl⟩
abbrev main_call2_call0_v71 : Ref sig .tc := ⟨.hbm, 638, rfl⟩
abbrev main_call2_call0_c_17 : Ref sig .tc := ⟨.hbm, 639, rfl⟩
abbrev main_call2_call0_v72 : Ref sig .tc := ⟨.hbm, 640, rfl⟩
abbrev main_call2_call0_v73 : Ref sig .tc := ⟨.hbm, 641, rfl⟩
abbrev main_call2_call0_v74 : Ref sig .tc := ⟨.hbm, 642, rfl⟩
abbrev main_call2_call0_c_18 : Ref sig .tc := ⟨.hbm, 643, rfl⟩
abbrev main_call2_call0_v75 : Ref sig .tc := ⟨.hbm, 644, rfl⟩
abbrev main_call2_call0_v76 : Ref sig .tc := ⟨.hbm, 645, rfl⟩
abbrev main_call2_call0_c_19 : Ref sig .tc := ⟨.hbm, 646, rfl⟩
abbrev main_call2_call0_v77 : Ref sig .tc := ⟨.hbm, 647, rfl⟩
abbrev main_call2_call0_v78 : Ref sig .tc := ⟨.hbm, 648, rfl⟩
abbrev main_call2_call0_v79 : Ref sig .tc := ⟨.hbm, 649, rfl⟩
abbrev main_call2_call0_v80 : Ref sig .tc := ⟨.hbm, 650, rfl⟩
abbrev main_call2_call0_v81 : Ref sig .tc := ⟨.hbm, 651, rfl⟩
abbrev main_call2_call0_c_20 : Ref sig .tc := ⟨.hbm, 652, rfl⟩
abbrev main_call2_call0_v82 : Ref sig .tc := ⟨.hbm, 653, rfl⟩
abbrev main_call2_call0_v83 : Ref sig .tc := ⟨.hbm, 654, rfl⟩
abbrev main_call2_call0_c_21 : Ref sig .tc := ⟨.hbm, 655, rfl⟩
abbrev main_call2_call0_v84 : Ref sig .tc := ⟨.hbm, 656, rfl⟩
abbrev main_call2_call0_v85 : Ref sig .tc := ⟨.hbm, 657, rfl⟩
abbrev main_call2_call0_v86 : Ref sig .tc := ⟨.hbm, 658, rfl⟩
abbrev main_call2_call0_v87 : Ref sig .tc := ⟨.hbm, 659, rfl⟩
abbrev main_call2_call0_v88 : Ref sig .tc := ⟨.hbm, 660, rfl⟩
abbrev main_call2_call0_c_22 : Ref sig .tc := ⟨.hbm, 661, rfl⟩
abbrev main_call2_call0_v89 : Ref sig .tc := ⟨.hbm, 662, rfl⟩
abbrev main_call2_call0_v90 : Ref sig .tc := ⟨.hbm, 663, rfl⟩
abbrev main_call2_call0_c_23 : Ref sig .tc := ⟨.hbm, 664, rfl⟩
abbrev main_call2_call0_v91 : Ref sig .tc := ⟨.hbm, 665, rfl⟩
abbrev main_call2_call0_v92 : Ref sig .tc := ⟨.hbm, 666, rfl⟩
abbrev main_call2_call0_v93 : Ref sig .tc := ⟨.hbm, 667, rfl⟩
abbrev main_call2_call0_v94 : Ref sig .tc := ⟨.hbm, 668, rfl⟩
abbrev main_call2_call0_v95 : Ref sig .tc := ⟨.hbm, 669, rfl⟩
abbrev main_call2_call0_c_24 : Ref sig .tc := ⟨.hbm, 670, rfl⟩
abbrev main_call2_call0_v96 : Ref sig .tc := ⟨.hbm, 671, rfl⟩
abbrev main_call2_call0_v97 : Ref sig .tc := ⟨.hbm, 672, rfl⟩
abbrev main_call2_call0_c_25 : Ref sig .tc := ⟨.hbm, 673, rfl⟩
abbrev main_call2_call0_v98 : Ref sig .tc := ⟨.hbm, 674, rfl⟩
abbrev main_call2_call0_v99 : Ref sig .tc := ⟨.hbm, 675, rfl⟩
abbrev main_call2_call0_v100 : Ref sig .tc := ⟨.hbm, 676, rfl⟩
abbrev main_call2_call0_v101 : Ref sig .tc := ⟨.hbm, 677, rfl⟩
abbrev main_call2_call0_v102 : Ref sig .tc := ⟨.hbm, 678, rfl⟩
abbrev main_call2_call0_v103 : Ref sig .tc := ⟨.hbm, 679, rfl⟩
abbrev main_call2_call0_v104 : Ref sig .tc := ⟨.hbm, 680, rfl⟩
abbrev main_call2_call0_v105 : Ref sig .tc := ⟨.hbm, 681, rfl⟩
abbrev main_call2_call0_c_26 : Ref sig .tc := ⟨.hbm, 682, rfl⟩
abbrev main_call2_call0_v106 : Ref sig .tc := ⟨.hbm, 683, rfl⟩
abbrev main_call2_call0_v107 : Ref sig .tc := ⟨.hbm, 684, rfl⟩
abbrev main_call2_call0_v108 : Ref sig .tc := ⟨.hbm, 685, rfl⟩
abbrev main_call2_call0_c_27 : Ref sig .tc := ⟨.hbm, 686, rfl⟩
abbrev main_call2_call0_v109 : Ref sig .tc := ⟨.hbm, 687, rfl⟩
abbrev main_call2_call0_v110 : Ref sig .tc := ⟨.hbm, 688, rfl⟩
abbrev main_call2_call0_c_28 : Ref sig .tc := ⟨.hbm, 689, rfl⟩
abbrev main_call2_call0_v111 : Ref sig .tc := ⟨.hbm, 690, rfl⟩
abbrev main_call2_call0_v112 : Ref sig .tc := ⟨.hbm, 691, rfl⟩
abbrev main_call2_call0_v113 : Ref sig .tc := ⟨.hbm, 692, rfl⟩
abbrev main_call2_call0_v114 : Ref sig .tc := ⟨.hbm, 693, rfl⟩
abbrev main_call2_call0_v115 : Ref sig .tc := ⟨.hbm, 694, rfl⟩
abbrev main_call2_call0_c_29 : Ref sig .tc := ⟨.hbm, 695, rfl⟩
abbrev main_call2_call0_v116 : Ref sig .tc := ⟨.hbm, 696, rfl⟩
abbrev main_call2_call0_v117 : Ref sig .tc := ⟨.hbm, 697, rfl⟩
abbrev main_call2_call0_c_30 : Ref sig .tc := ⟨.hbm, 698, rfl⟩
abbrev main_call2_call0_v118 : Ref sig .tc := ⟨.hbm, 699, rfl⟩
abbrev main_call2_call0_v119 : Ref sig .tc := ⟨.hbm, 700, rfl⟩
abbrev main_call2_call0_v120 : Ref sig .tc := ⟨.hbm, 701, rfl⟩
abbrev main_call2_call0_v121 : Ref sig .tc := ⟨.hbm, 702, rfl⟩
abbrev main_call2_call0_v122 : Ref sig .tc := ⟨.hbm, 703, rfl⟩
abbrev main_call2_call0_c_31 : Ref sig .tc := ⟨.hbm, 704, rfl⟩
abbrev main_call2_call0_v123 : Ref sig .tc := ⟨.hbm, 705, rfl⟩
abbrev main_call2_call0_v124 : Ref sig .tc := ⟨.hbm, 706, rfl⟩
abbrev main_call2_call0_c_32 : Ref sig .tc := ⟨.hbm, 707, rfl⟩
abbrev main_call2_call0_v125 : Ref sig .tc := ⟨.hbm, 708, rfl⟩
abbrev main_call2_call0_v126 : Ref sig .tc := ⟨.hbm, 709, rfl⟩
abbrev main_call2_call0_v127 : Ref sig .tc := ⟨.hbm, 710, rfl⟩
abbrev main_call2_call0_v128 : Ref sig .tc := ⟨.hbm, 711, rfl⟩
abbrev main_call2_call0_v129 : Ref sig .tc := ⟨.hbm, 712, rfl⟩
abbrev main_call2_call0_c_33 : Ref sig .tc := ⟨.hbm, 713, rfl⟩
abbrev main_call2_call0_v130 : Ref sig .tc := ⟨.hbm, 714, rfl⟩
abbrev main_call2_call0_v131 : Ref sig .tc := ⟨.hbm, 715, rfl⟩
abbrev main_call2_call0_c_34 : Ref sig .tc := ⟨.hbm, 716, rfl⟩
abbrev main_call2_call0_v132 : Ref sig .tc := ⟨.hbm, 717, rfl⟩
abbrev main_call2_call0_v133 : Ref sig .tc := ⟨.hbm, 718, rfl⟩
abbrev main_call2_call0_v134 : Ref sig .tc := ⟨.hbm, 719, rfl⟩
abbrev main_call2_call0_v135 : Ref sig .tc := ⟨.hbm, 720, rfl⟩
abbrev main_call2_call0_v136 : Ref sig .tc := ⟨.hbm, 721, rfl⟩
abbrev main_call2_call0_v137 : Ref sig .tc := ⟨.hbm, 722, rfl⟩
abbrev main_call2_call0_v138 : Ref sig .tc := ⟨.hbm, 723, rfl⟩
abbrev main_call2_call0_v139 : Ref sig .tc := ⟨.hbm, 724, rfl⟩
abbrev main_call2_call0_c_35 : Ref sig .tc := ⟨.hbm, 725, rfl⟩
abbrev main_call2_call0_v140 : Ref sig .tc := ⟨.hbm, 726, rfl⟩
abbrev main_call2_call0_v141 : Ref sig .tc := ⟨.hbm, 727, rfl⟩
abbrev main_call2_call0_v142 : Ref sig .tc := ⟨.hbm, 728, rfl⟩
abbrev main_call2_call0_c_36 : Ref sig .tc := ⟨.hbm, 729, rfl⟩
abbrev main_call2_call0_v143 : Ref sig .tc := ⟨.hbm, 730, rfl⟩
abbrev main_call2_call0_v144 : Ref sig .tc := ⟨.hbm, 731, rfl⟩
abbrev main_call2_call0_c_37 : Ref sig .tc := ⟨.hbm, 732, rfl⟩
abbrev main_call2_call0_v145 : Ref sig .tc := ⟨.hbm, 733, rfl⟩
abbrev main_call2_call0_v146 : Ref sig .tc := ⟨.hbm, 734, rfl⟩
abbrev main_call2_call0_v147 : Ref sig .tc := ⟨.hbm, 735, rfl⟩
abbrev main_call2_call0_v148 : Ref sig .tc := ⟨.hbm, 736, rfl⟩
abbrev main_call2_call0_v149 : Ref sig .tc := ⟨.hbm, 737, rfl⟩
abbrev main_call2_call0_c_38 : Ref sig .tc := ⟨.hbm, 738, rfl⟩
abbrev main_call2_call0_v150 : Ref sig .tc := ⟨.hbm, 739, rfl⟩
abbrev main_call2_call0_v151 : Ref sig .tc := ⟨.hbm, 740, rfl⟩
abbrev main_call2_call0_c_39 : Ref sig .tc := ⟨.hbm, 741, rfl⟩
abbrev main_call2_call0_v152 : Ref sig .tc := ⟨.hbm, 742, rfl⟩
abbrev main_call2_call0_v153 : Ref sig .tc := ⟨.hbm, 743, rfl⟩
abbrev main_call2_call0_v154 : Ref sig .tc := ⟨.hbm, 744, rfl⟩
abbrev main_call2_call0_v155 : Ref sig .tc := ⟨.hbm, 745, rfl⟩
abbrev main_call2_call0_v156 : Ref sig .tc := ⟨.hbm, 746, rfl⟩
abbrev main_call2_call0_c_40 : Ref sig .tc := ⟨.hbm, 747, rfl⟩
abbrev main_call2_call0_v157 : Ref sig .tc := ⟨.hbm, 748, rfl⟩
abbrev main_call2_call0_v158 : Ref sig .tc := ⟨.hbm, 749, rfl⟩
abbrev main_call2_call0_c_41 : Ref sig .tc := ⟨.hbm, 750, rfl⟩
abbrev main_call2_call0_v159 : Ref sig .tc := ⟨.hbm, 751, rfl⟩
abbrev main_call2_call0_v160 : Ref sig .tc := ⟨.hbm, 752, rfl⟩
abbrev main_call2_call0_v161 : Ref sig .tc := ⟨.hbm, 753, rfl⟩
abbrev main_call2_call0_v162 : Ref sig .tc := ⟨.hbm, 754, rfl⟩
abbrev main_call2_call0_v163 : Ref sig .tc := ⟨.hbm, 755, rfl⟩
abbrev main_call2_call0_c_42 : Ref sig .tc := ⟨.hbm, 756, rfl⟩
abbrev main_call2_call0_v164 : Ref sig .tc := ⟨.hbm, 757, rfl⟩
abbrev main_call2_call0_v165 : Ref sig .tc := ⟨.hbm, 758, rfl⟩
abbrev main_call2_call0_c_43 : Ref sig .tc := ⟨.hbm, 759, rfl⟩
abbrev main_call2_call0_v166 : Ref sig .tc := ⟨.hbm, 760, rfl⟩
abbrev main_call2_call0_v167 : Ref sig .tc := ⟨.hbm, 761, rfl⟩
abbrev main_call2_call0_v168 : Ref sig .tc := ⟨.hbm, 762, rfl⟩
abbrev main_call2_call0_v169 : Ref sig .tc := ⟨.hbm, 763, rfl⟩
abbrev main_call2_call0_v170 : Ref sig .tc := ⟨.hbm, 764, rfl⟩
abbrev main_call2_v19_0 : Ref sig .tc := ⟨.hbm, 765, rfl⟩
abbrev main_call2_call0_v172 : Ref sig .tc := ⟨.hbm, 766, rfl⟩
abbrev main_call2_call0_v173 : Ref sig .tc := ⟨.hbm, 767, rfl⟩
abbrev main_call2_call0_c_44 : Ref sig .tc := ⟨.hbm, 768, rfl⟩
abbrev main_call2_call0_v174 : Ref sig .tc := ⟨.hbm, 769, rfl⟩
abbrev main_call2_v19_1 : Ref sig .tc := ⟨.hbm, 770, rfl⟩
abbrev main_call2_v20 : Ref sig .tc := ⟨.hbm, 771, rfl⟩
abbrev main_call2_c_2 : Ref sig .tc := ⟨.hbm, 772, rfl⟩
abbrev main_call2_v21 : Ref sig .tc := ⟨.hbm, 773, rfl⟩
abbrev main_call2_v22 : Ref sig .tc := ⟨.hbm, 774, rfl⟩
abbrev main_call2_c_3 : Ref sig .tc := ⟨.hbm, 775, rfl⟩
abbrev main_call2_v23 : Ref sig .tc := ⟨.hbm, 776, rfl⟩
abbrev main_call2_v24 : Ref sig .tc := ⟨.hbm, 777, rfl⟩
abbrev main_call2_v25 : Ref sig .tc := ⟨.hbm, 778, rfl⟩
abbrev main_call2_cst : Ref sig .tc := ⟨.hbm, 779, rfl⟩
abbrev main_call2_v26 : Ref sig .tc := ⟨.hbm, 780, rfl⟩
abbrev main_call2_v27 : Ref sig .tc := ⟨.hbm, 781, rfl⟩
abbrev main_call2_v28 : Ref sig .tc := ⟨.hbm, 782, rfl⟩
abbrev main_call2_v29 : Ref sig .tc := ⟨.hbm, 783, rfl⟩
abbrev main_call2_v30 : Ref sig .tc := ⟨.hbm, 784, rfl⟩
abbrev main_call2_v31 : Ref sig .tc := ⟨.hbm, 785, rfl⟩
abbrev main_call2_v32 : Ref sig .tc := ⟨.hbm, 786, rfl⟩
abbrev main_call2_v33 : Ref sig .tc := ⟨.hbm, 787, rfl⟩
abbrev main_v17 : Ref sig .tc := ⟨.hbm, 788, rfl⟩
abbrev main_v18 : Ref sig .tc := ⟨.hbm, 789, rfl⟩
abbrev main_v19 : Ref sig .tc := ⟨.hbm, 790, rfl⟩
abbrev main_cst_5 : Ref sig .tc := ⟨.hbm, 791, rfl⟩
abbrev main_cst_6 : Ref sig .tc := ⟨.hbm, 792, rfl⟩
abbrev main_call3_v0 : Ref sig .tc := ⟨.hbm, 793, rfl⟩
abbrev main_call3_v1 : Ref sig .tc := ⟨.hbm, 794, rfl⟩
abbrev main_call3_v2 : Ref sig .tc := ⟨.hbm, 795, rfl⟩
abbrev main_call3_v3 : Ref sig .tc := ⟨.hbm, 796, rfl⟩
abbrev main_call3_v4 : Ref sig .tc := ⟨.hbm, 797, rfl⟩
abbrev main_call3_v5 : Ref sig .tc := ⟨.hbm, 798, rfl⟩
abbrev main_call3_v6 : Ref sig .tc := ⟨.hbm, 799, rfl⟩
abbrev main_call3_v7 : Ref sig .tc := ⟨.hbm, 800, rfl⟩
abbrev main_call3_v8 : Ref sig .tc := ⟨.hbm, 801, rfl⟩
abbrev main_call3_c : Ref sig .tc := ⟨.hbm, 802, rfl⟩
abbrev main_call3_v9 : Ref sig .tc := ⟨.hbm, 803, rfl⟩
abbrev main_call3_v10 : Ref sig .tc := ⟨.hbm, 804, rfl⟩
abbrev main_call3_c_0 : Ref sig .tc := ⟨.hbm, 805, rfl⟩
abbrev main_call3_v11 : Ref sig .tc := ⟨.hbm, 806, rfl⟩
abbrev main_call3_v12 : Ref sig .tc := ⟨.hbm, 807, rfl⟩
abbrev main_call3_v13 : Ref sig .tc := ⟨.hbm, 808, rfl⟩
abbrev main_call3_v14 : Ref sig .tc := ⟨.hbm, 809, rfl⟩
abbrev main_call3_call0_v0 : Ref sig .tc := ⟨.hbm, 810, rfl⟩
abbrev main_call3_call0_c : Ref sig .tc := ⟨.hbm, 811, rfl⟩
abbrev main_call3_call0_v1 : Ref sig .tc := ⟨.hbm, 812, rfl⟩
abbrev main_call3_call0_v2 : Ref sig .tc := ⟨.hbm, 813, rfl⟩
abbrev main_call3_call0_v3 : Ref sig .tc := ⟨.hbm, 814, rfl⟩
abbrev main_call3_call0_v4 : Ref sig .tc := ⟨.hbm, 815, rfl⟩
abbrev main_call3_call0_v5 : Ref sig .tc := ⟨.hbm, 816, rfl⟩
abbrev main_call3_call0_v6 : Ref sig .tc := ⟨.hbm, 817, rfl⟩
abbrev main_call3_call0_c_0 : Ref sig .tc := ⟨.hbm, 818, rfl⟩
abbrev main_call3_call0_v7 : Ref sig .tc := ⟨.hbm, 819, rfl⟩
abbrev main_call3_call0_v8 : Ref sig .tc := ⟨.hbm, 820, rfl⟩
abbrev main_call3_call0_c_1 : Ref sig .tc := ⟨.hbm, 821, rfl⟩
abbrev main_call3_call0_v9 : Ref sig .tc := ⟨.hbm, 822, rfl⟩
abbrev main_call3_call0_v10 : Ref sig .tc := ⟨.hbm, 823, rfl⟩
abbrev main_call3_call0_v11 : Ref sig .tc := ⟨.hbm, 824, rfl⟩
abbrev main_call3_call0_v12 : Ref sig .tc := ⟨.hbm, 825, rfl⟩
abbrev main_call3_call0_v13 : Ref sig .tc := ⟨.hbm, 826, rfl⟩
abbrev main_call3_call0_c_2 : Ref sig .tc := ⟨.hbm, 827, rfl⟩
abbrev main_call3_call0_v14 : Ref sig .tc := ⟨.hbm, 828, rfl⟩
abbrev main_call3_call0_v15 : Ref sig .tc := ⟨.hbm, 829, rfl⟩
abbrev main_call3_call0_c_3 : Ref sig .tc := ⟨.hbm, 830, rfl⟩
abbrev main_call3_call0_v16 : Ref sig .tc := ⟨.hbm, 831, rfl⟩
abbrev main_call3_call0_v17 : Ref sig .tc := ⟨.hbm, 832, rfl⟩
abbrev main_call3_call0_v18 : Ref sig .tc := ⟨.hbm, 833, rfl⟩
abbrev main_call3_call0_v19 : Ref sig .tc := ⟨.hbm, 834, rfl⟩
abbrev main_call3_call0_v20 : Ref sig .tc := ⟨.hbm, 835, rfl⟩
abbrev main_call3_call0_c_4 : Ref sig .tc := ⟨.hbm, 836, rfl⟩
abbrev main_call3_call0_v21 : Ref sig .tc := ⟨.hbm, 837, rfl⟩
abbrev main_call3_call0_v22 : Ref sig .tc := ⟨.hbm, 838, rfl⟩
abbrev main_call3_call0_c_5 : Ref sig .tc := ⟨.hbm, 839, rfl⟩
abbrev main_call3_call0_v23 : Ref sig .tc := ⟨.hbm, 840, rfl⟩
abbrev main_call3_call0_v24 : Ref sig .tc := ⟨.hbm, 841, rfl⟩
abbrev main_call3_call0_v25 : Ref sig .tc := ⟨.hbm, 842, rfl⟩
abbrev main_call3_call0_v26 : Ref sig .tc := ⟨.hbm, 843, rfl⟩
abbrev main_call3_call0_v27 : Ref sig .tc := ⟨.hbm, 844, rfl⟩
abbrev main_call3_call0_c_6 : Ref sig .tc := ⟨.hbm, 845, rfl⟩
abbrev main_call3_call0_v28 : Ref sig .tc := ⟨.hbm, 846, rfl⟩
abbrev main_call3_call0_v29 : Ref sig .tc := ⟨.hbm, 847, rfl⟩
abbrev main_call3_call0_c_7 : Ref sig .tc := ⟨.hbm, 848, rfl⟩
abbrev main_call3_call0_v30 : Ref sig .tc := ⟨.hbm, 849, rfl⟩
abbrev main_call3_call0_v31 : Ref sig .tc := ⟨.hbm, 850, rfl⟩
abbrev main_call3_call0_v32 : Ref sig .tc := ⟨.hbm, 851, rfl⟩
abbrev main_call3_call0_v33 : Ref sig .tc := ⟨.hbm, 852, rfl⟩
abbrev main_call3_call0_v34 : Ref sig .tc := ⟨.hbm, 853, rfl⟩
abbrev main_call3_call0_v35 : Ref sig .tc := ⟨.hbm, 854, rfl⟩
abbrev main_call3_call0_v36 : Ref sig .tc := ⟨.hbm, 855, rfl⟩
abbrev main_call3_call0_v37 : Ref sig .tc := ⟨.hbm, 856, rfl⟩
abbrev main_call3_call0_c_8 : Ref sig .tc := ⟨.hbm, 857, rfl⟩
abbrev main_call3_call0_v38 : Ref sig .tc := ⟨.hbm, 858, rfl⟩
abbrev main_call3_call0_v39 : Ref sig .tc := ⟨.hbm, 859, rfl⟩
abbrev main_call3_call0_v40 : Ref sig .tc := ⟨.hbm, 860, rfl⟩
abbrev main_call3_call0_c_9 : Ref sig .tc := ⟨.hbm, 861, rfl⟩
abbrev main_call3_call0_v41 : Ref sig .tc := ⟨.hbm, 862, rfl⟩
abbrev main_call3_call0_v42 : Ref sig .tc := ⟨.hbm, 863, rfl⟩
abbrev main_call3_call0_c_10 : Ref sig .tc := ⟨.hbm, 864, rfl⟩
abbrev main_call3_call0_v43 : Ref sig .tc := ⟨.hbm, 865, rfl⟩
abbrev main_call3_call0_v44 : Ref sig .tc := ⟨.hbm, 866, rfl⟩
abbrev main_call3_call0_v45 : Ref sig .tc := ⟨.hbm, 867, rfl⟩
abbrev main_call3_call0_v46 : Ref sig .tc := ⟨.hbm, 868, rfl⟩
abbrev main_call3_call0_v47 : Ref sig .tc := ⟨.hbm, 869, rfl⟩
abbrev main_call3_call0_c_11 : Ref sig .tc := ⟨.hbm, 870, rfl⟩
abbrev main_call3_call0_v48 : Ref sig .tc := ⟨.hbm, 871, rfl⟩
abbrev main_call3_call0_v49 : Ref sig .tc := ⟨.hbm, 872, rfl⟩
abbrev main_call3_call0_c_12 : Ref sig .tc := ⟨.hbm, 873, rfl⟩
abbrev main_call3_call0_v50 : Ref sig .tc := ⟨.hbm, 874, rfl⟩
abbrev main_call3_call0_v51 : Ref sig .tc := ⟨.hbm, 875, rfl⟩
abbrev main_call3_call0_v52 : Ref sig .tc := ⟨.hbm, 876, rfl⟩
abbrev main_call3_call0_v53 : Ref sig .tc := ⟨.hbm, 877, rfl⟩
abbrev main_call3_call0_v54 : Ref sig .tc := ⟨.hbm, 878, rfl⟩
abbrev main_call3_call0_c_13 : Ref sig .tc := ⟨.hbm, 879, rfl⟩
abbrev main_call3_call0_v55 : Ref sig .tc := ⟨.hbm, 880, rfl⟩
abbrev main_call3_call0_v56 : Ref sig .tc := ⟨.hbm, 881, rfl⟩
abbrev main_call3_call0_c_14 : Ref sig .tc := ⟨.hbm, 882, rfl⟩
abbrev main_call3_call0_v57 : Ref sig .tc := ⟨.hbm, 883, rfl⟩
abbrev main_call3_call0_v58 : Ref sig .tc := ⟨.hbm, 884, rfl⟩
abbrev main_call3_call0_v59 : Ref sig .tc := ⟨.hbm, 885, rfl⟩
abbrev main_call3_call0_v60 : Ref sig .tc := ⟨.hbm, 886, rfl⟩
abbrev main_call3_call0_v61 : Ref sig .tc := ⟨.hbm, 887, rfl⟩
abbrev main_call3_call0_c_15 : Ref sig .tc := ⟨.hbm, 888, rfl⟩
abbrev main_call3_call0_v62 : Ref sig .tc := ⟨.hbm, 889, rfl⟩
abbrev main_call3_call0_v63 : Ref sig .tc := ⟨.hbm, 890, rfl⟩
abbrev main_call3_call0_c_16 : Ref sig .tc := ⟨.hbm, 891, rfl⟩
abbrev main_call3_call0_v64 : Ref sig .tc := ⟨.hbm, 892, rfl⟩
abbrev main_call3_call0_v65 : Ref sig .tc := ⟨.hbm, 893, rfl⟩
abbrev main_call3_call0_v66 : Ref sig .tc := ⟨.hbm, 894, rfl⟩
abbrev main_call3_call0_v67 : Ref sig .tc := ⟨.hbm, 895, rfl⟩
abbrev main_call3_call0_v68 : Ref sig .tc := ⟨.hbm, 896, rfl⟩
abbrev main_call3_call0_v69 : Ref sig .tc := ⟨.hbm, 897, rfl⟩
abbrev main_call3_call0_v70 : Ref sig .tc := ⟨.hbm, 898, rfl⟩
abbrev main_call3_call0_v71 : Ref sig .tc := ⟨.hbm, 899, rfl⟩
abbrev main_call3_call0_c_17 : Ref sig .tc := ⟨.hbm, 900, rfl⟩
abbrev main_call3_call0_v72 : Ref sig .tc := ⟨.hbm, 901, rfl⟩
abbrev main_call3_call0_v73 : Ref sig .tc := ⟨.hbm, 902, rfl⟩
abbrev main_call3_call0_v74 : Ref sig .tc := ⟨.hbm, 903, rfl⟩
abbrev main_call3_call0_c_18 : Ref sig .tc := ⟨.hbm, 904, rfl⟩
abbrev main_call3_call0_v75 : Ref sig .tc := ⟨.hbm, 905, rfl⟩
abbrev main_call3_call0_v76 : Ref sig .tc := ⟨.hbm, 906, rfl⟩
abbrev main_call3_call0_c_19 : Ref sig .tc := ⟨.hbm, 907, rfl⟩
abbrev main_call3_call0_v77 : Ref sig .tc := ⟨.hbm, 908, rfl⟩
abbrev main_call3_call0_v78 : Ref sig .tc := ⟨.hbm, 909, rfl⟩
abbrev main_call3_call0_v79 : Ref sig .tc := ⟨.hbm, 910, rfl⟩
abbrev main_call3_call0_v80 : Ref sig .tc := ⟨.hbm, 911, rfl⟩
abbrev main_call3_call0_v81 : Ref sig .tc := ⟨.hbm, 912, rfl⟩
abbrev main_call3_call0_c_20 : Ref sig .tc := ⟨.hbm, 913, rfl⟩
abbrev main_call3_call0_v82 : Ref sig .tc := ⟨.hbm, 914, rfl⟩
abbrev main_call3_call0_v83 : Ref sig .tc := ⟨.hbm, 915, rfl⟩
abbrev main_call3_call0_c_21 : Ref sig .tc := ⟨.hbm, 916, rfl⟩
abbrev main_call3_call0_v84 : Ref sig .tc := ⟨.hbm, 917, rfl⟩
abbrev main_call3_call0_v85 : Ref sig .tc := ⟨.hbm, 918, rfl⟩
abbrev main_call3_call0_v86 : Ref sig .tc := ⟨.hbm, 919, rfl⟩
abbrev main_call3_call0_v87 : Ref sig .tc := ⟨.hbm, 920, rfl⟩
abbrev main_call3_call0_v88 : Ref sig .tc := ⟨.hbm, 921, rfl⟩
abbrev main_call3_call0_c_22 : Ref sig .tc := ⟨.hbm, 922, rfl⟩
abbrev main_call3_call0_v89 : Ref sig .tc := ⟨.hbm, 923, rfl⟩
abbrev main_call3_call0_v90 : Ref sig .tc := ⟨.hbm, 924, rfl⟩
abbrev main_call3_call0_c_23 : Ref sig .tc := ⟨.hbm, 925, rfl⟩
abbrev main_call3_call0_v91 : Ref sig .tc := ⟨.hbm, 926, rfl⟩
abbrev main_call3_call0_v92 : Ref sig .tc := ⟨.hbm, 927, rfl⟩
abbrev main_call3_call0_v93 : Ref sig .tc := ⟨.hbm, 928, rfl⟩
abbrev main_call3_call0_v94 : Ref sig .tc := ⟨.hbm, 929, rfl⟩
abbrev main_call3_call0_v95 : Ref sig .tc := ⟨.hbm, 930, rfl⟩
abbrev main_call3_call0_c_24 : Ref sig .tc := ⟨.hbm, 931, rfl⟩
abbrev main_call3_call0_v96 : Ref sig .tc := ⟨.hbm, 932, rfl⟩
abbrev main_call3_call0_v97 : Ref sig .tc := ⟨.hbm, 933, rfl⟩
abbrev main_call3_call0_c_25 : Ref sig .tc := ⟨.hbm, 934, rfl⟩
abbrev main_call3_call0_v98 : Ref sig .tc := ⟨.hbm, 935, rfl⟩
abbrev main_call3_call0_v99 : Ref sig .tc := ⟨.hbm, 936, rfl⟩
abbrev main_call3_call0_v100 : Ref sig .tc := ⟨.hbm, 937, rfl⟩
abbrev main_call3_call0_v101 : Ref sig .tc := ⟨.hbm, 938, rfl⟩
abbrev main_call3_call0_v102 : Ref sig .tc := ⟨.hbm, 939, rfl⟩
abbrev main_call3_call0_v103 : Ref sig .tc := ⟨.hbm, 940, rfl⟩
abbrev main_call3_call0_v104 : Ref sig .tc := ⟨.hbm, 941, rfl⟩
abbrev main_call3_call0_v105 : Ref sig .tc := ⟨.hbm, 942, rfl⟩
abbrev main_call3_call0_c_26 : Ref sig .tc := ⟨.hbm, 943, rfl⟩
abbrev main_call3_call0_v106 : Ref sig .tc := ⟨.hbm, 944, rfl⟩
abbrev main_call3_call0_v107 : Ref sig .tc := ⟨.hbm, 945, rfl⟩
abbrev main_call3_call0_v108 : Ref sig .tc := ⟨.hbm, 946, rfl⟩
abbrev main_call3_call0_c_27 : Ref sig .tc := ⟨.hbm, 947, rfl⟩
abbrev main_call3_call0_v109 : Ref sig .tc := ⟨.hbm, 948, rfl⟩
abbrev main_call3_call0_v110 : Ref sig .tc := ⟨.hbm, 949, rfl⟩
abbrev main_call3_call0_c_28 : Ref sig .tc := ⟨.hbm, 950, rfl⟩
abbrev main_call3_call0_v111 : Ref sig .tc := ⟨.hbm, 951, rfl⟩
abbrev main_call3_call0_v112 : Ref sig .tc := ⟨.hbm, 952, rfl⟩
abbrev main_call3_call0_v113 : Ref sig .tc := ⟨.hbm, 953, rfl⟩
abbrev main_call3_call0_v114 : Ref sig .tc := ⟨.hbm, 954, rfl⟩
abbrev main_call3_call0_v115 : Ref sig .tc := ⟨.hbm, 955, rfl⟩
abbrev main_call3_call0_c_29 : Ref sig .tc := ⟨.hbm, 956, rfl⟩
abbrev main_call3_call0_v116 : Ref sig .tc := ⟨.hbm, 957, rfl⟩
abbrev main_call3_call0_v117 : Ref sig .tc := ⟨.hbm, 958, rfl⟩
abbrev main_call3_call0_c_30 : Ref sig .tc := ⟨.hbm, 959, rfl⟩
abbrev main_call3_call0_v118 : Ref sig .tc := ⟨.hbm, 960, rfl⟩
abbrev main_call3_call0_v119 : Ref sig .tc := ⟨.hbm, 961, rfl⟩
abbrev main_call3_call0_v120 : Ref sig .tc := ⟨.hbm, 962, rfl⟩
abbrev main_call3_call0_v121 : Ref sig .tc := ⟨.hbm, 963, rfl⟩
abbrev main_call3_call0_v122 : Ref sig .tc := ⟨.hbm, 964, rfl⟩
abbrev main_call3_call0_c_31 : Ref sig .tc := ⟨.hbm, 965, rfl⟩
abbrev main_call3_call0_v123 : Ref sig .tc := ⟨.hbm, 966, rfl⟩
abbrev main_call3_call0_v124 : Ref sig .tc := ⟨.hbm, 967, rfl⟩
abbrev main_call3_call0_c_32 : Ref sig .tc := ⟨.hbm, 968, rfl⟩
abbrev main_call3_call0_v125 : Ref sig .tc := ⟨.hbm, 969, rfl⟩
abbrev main_call3_call0_v126 : Ref sig .tc := ⟨.hbm, 970, rfl⟩
abbrev main_call3_call0_v127 : Ref sig .tc := ⟨.hbm, 971, rfl⟩
abbrev main_call3_call0_v128 : Ref sig .tc := ⟨.hbm, 972, rfl⟩
abbrev main_call3_call0_v129 : Ref sig .tc := ⟨.hbm, 973, rfl⟩
abbrev main_call3_call0_c_33 : Ref sig .tc := ⟨.hbm, 974, rfl⟩
abbrev main_call3_call0_v130 : Ref sig .tc := ⟨.hbm, 975, rfl⟩
abbrev main_call3_call0_v131 : Ref sig .tc := ⟨.hbm, 976, rfl⟩
abbrev main_call3_call0_c_34 : Ref sig .tc := ⟨.hbm, 977, rfl⟩
abbrev main_call3_call0_v132 : Ref sig .tc := ⟨.hbm, 978, rfl⟩
abbrev main_call3_call0_v133 : Ref sig .tc := ⟨.hbm, 979, rfl⟩
abbrev main_call3_call0_v134 : Ref sig .tc := ⟨.hbm, 980, rfl⟩
abbrev main_call3_call0_v135 : Ref sig .tc := ⟨.hbm, 981, rfl⟩
abbrev main_call3_call0_v136 : Ref sig .tc := ⟨.hbm, 982, rfl⟩
abbrev main_call3_call0_v137 : Ref sig .tc := ⟨.hbm, 983, rfl⟩
abbrev main_call3_call0_v138 : Ref sig .tc := ⟨.hbm, 984, rfl⟩
abbrev main_call3_call0_v139 : Ref sig .tc := ⟨.hbm, 985, rfl⟩
abbrev main_call3_call0_c_35 : Ref sig .tc := ⟨.hbm, 986, rfl⟩
abbrev main_call3_call0_v140 : Ref sig .tc := ⟨.hbm, 987, rfl⟩
abbrev main_call3_call0_v141 : Ref sig .tc := ⟨.hbm, 988, rfl⟩
abbrev main_call3_call0_v142 : Ref sig .tc := ⟨.hbm, 989, rfl⟩
abbrev main_call3_call0_c_36 : Ref sig .tc := ⟨.hbm, 990, rfl⟩
abbrev main_call3_call0_v143 : Ref sig .tc := ⟨.hbm, 991, rfl⟩
abbrev main_call3_call0_v144 : Ref sig .tc := ⟨.hbm, 992, rfl⟩
abbrev main_call3_call0_c_37 : Ref sig .tc := ⟨.hbm, 993, rfl⟩
abbrev main_call3_call0_v145 : Ref sig .tc := ⟨.hbm, 994, rfl⟩
abbrev main_call3_call0_v146 : Ref sig .tc := ⟨.hbm, 995, rfl⟩
abbrev main_call3_call0_v147 : Ref sig .tc := ⟨.hbm, 996, rfl⟩
abbrev main_call3_call0_v148 : Ref sig .tc := ⟨.hbm, 997, rfl⟩
abbrev main_call3_call0_v149 : Ref sig .tc := ⟨.hbm, 998, rfl⟩
abbrev main_call3_call0_c_38 : Ref sig .tc := ⟨.hbm, 999, rfl⟩
abbrev main_call3_call0_v150 : Ref sig .tc := ⟨.hbm, 1000, rfl⟩
abbrev main_call3_call0_v151 : Ref sig .tc := ⟨.hbm, 1001, rfl⟩
abbrev main_call3_call0_c_39 : Ref sig .tc := ⟨.hbm, 1002, rfl⟩
abbrev main_call3_call0_v152 : Ref sig .tc := ⟨.hbm, 1003, rfl⟩
abbrev main_call3_call0_v153 : Ref sig .tc := ⟨.hbm, 1004, rfl⟩
abbrev main_call3_call0_v154 : Ref sig .tc := ⟨.hbm, 1005, rfl⟩
abbrev main_call3_call0_v155 : Ref sig .tc := ⟨.hbm, 1006, rfl⟩
abbrev main_call3_call0_v156 : Ref sig .tc := ⟨.hbm, 1007, rfl⟩
abbrev main_call3_call0_c_40 : Ref sig .tc := ⟨.hbm, 1008, rfl⟩
abbrev main_call3_call0_v157 : Ref sig .tc := ⟨.hbm, 1009, rfl⟩
abbrev main_call3_call0_v158 : Ref sig .tc := ⟨.hbm, 1010, rfl⟩
abbrev main_call3_call0_c_41 : Ref sig .tc := ⟨.hbm, 1011, rfl⟩
abbrev main_call3_call0_v159 : Ref sig .tc := ⟨.hbm, 1012, rfl⟩
abbrev main_call3_call0_v160 : Ref sig .tc := ⟨.hbm, 1013, rfl⟩
abbrev main_call3_call0_v161 : Ref sig .tc := ⟨.hbm, 1014, rfl⟩
abbrev main_call3_call0_v162 : Ref sig .tc := ⟨.hbm, 1015, rfl⟩
abbrev main_call3_call0_v163 : Ref sig .tc := ⟨.hbm, 1016, rfl⟩
abbrev main_call3_call0_c_42 : Ref sig .tc := ⟨.hbm, 1017, rfl⟩
abbrev main_call3_call0_v164 : Ref sig .tc := ⟨.hbm, 1018, rfl⟩
abbrev main_call3_call0_v165 : Ref sig .tc := ⟨.hbm, 1019, rfl⟩
abbrev main_call3_call0_c_43 : Ref sig .tc := ⟨.hbm, 1020, rfl⟩
abbrev main_call3_call0_v166 : Ref sig .tc := ⟨.hbm, 1021, rfl⟩
abbrev main_call3_call0_v167 : Ref sig .tc := ⟨.hbm, 1022, rfl⟩
abbrev main_call3_call0_v168 : Ref sig .tc := ⟨.hbm, 1023, rfl⟩
abbrev main_call3_call0_v169 : Ref sig .tc := ⟨.hbm, 1024, rfl⟩
abbrev main_call3_call0_v170 : Ref sig .tc := ⟨.hbm, 1025, rfl⟩
abbrev main_call3_v15_0 : Ref sig .tc := ⟨.hbm, 1026, rfl⟩
abbrev main_call3_call0_v172 : Ref sig .tc := ⟨.hbm, 1027, rfl⟩
abbrev main_call3_call0_v173 : Ref sig .tc := ⟨.hbm, 1028, rfl⟩
abbrev main_call3_call0_c_44 : Ref sig .tc := ⟨.hbm, 1029, rfl⟩
abbrev main_call3_call0_v174 : Ref sig .tc := ⟨.hbm, 1030, rfl⟩
abbrev main_call3_v15_1 : Ref sig .tc := ⟨.hbm, 1031, rfl⟩
abbrev main_call3_v16 : Ref sig .tc := ⟨.hbm, 1032, rfl⟩
abbrev main_call3_c_1 : Ref sig .tc := ⟨.hbm, 1033, rfl⟩
abbrev main_call3_v17 : Ref sig .tc := ⟨.hbm, 1034, rfl⟩
abbrev main_call3_v18 : Ref sig .tc := ⟨.hbm, 1035, rfl⟩
abbrev main_call3_c_2 : Ref sig .tc := ⟨.hbm, 1036, rfl⟩
abbrev main_call3_v19 : Ref sig .tc := ⟨.hbm, 1037, rfl⟩
abbrev main_call3_v20 : Ref sig .tc := ⟨.hbm, 1038, rfl⟩
abbrev main_call3_v21 : Ref sig .tc := ⟨.hbm, 1039, rfl⟩
abbrev main_call3_cst : Ref sig .tc := ⟨.hbm, 1040, rfl⟩
abbrev main_call3_v22 : Ref sig .tc := ⟨.hbm, 1041, rfl⟩
abbrev main_call3_v23 : Ref sig .tc := ⟨.hbm, 1042, rfl⟩
abbrev main_call3_v24 : Ref sig .tc := ⟨.hbm, 1043, rfl⟩
abbrev main_call3_v25 : Ref sig .tc := ⟨.hbm, 1044, rfl⟩
abbrev main_call3_v26 : Ref sig .tc := ⟨.hbm, 1045, rfl⟩
abbrev main_call3_v27 : Ref sig .tc := ⟨.hbm, 1046, rfl⟩
abbrev main_call3_v28 : Ref sig .tc := ⟨.hbm, 1047, rfl⟩
abbrev main_call3_v29 : Ref sig .tc := ⟨.hbm, 1048, rfl⟩
abbrev main_v20 : Ref sig .tc := ⟨.hbm, 1049, rfl⟩
abbrev main_cst_7 : Ref sig .tc := ⟨.hbm, 1050, rfl⟩
abbrev main_cst_8 : Ref sig .tc := ⟨.hbm, 1051, rfl⟩
abbrev main_call4_v0 : Ref sig .tc := ⟨.hbm, 1052, rfl⟩
abbrev main_call4_v1 : Ref sig .tc := ⟨.hbm, 1053, rfl⟩
abbrev main_call4_v2 : Ref sig .tc := ⟨.hbm, 1054, rfl⟩
abbrev main_call4_v3 : Ref sig .tc := ⟨.hbm, 1055, rfl⟩
abbrev main_call4_v4 : Ref sig .tc := ⟨.hbm, 1056, rfl⟩
abbrev main_call4_v5 : Ref sig .tc := ⟨.hbm, 1057, rfl⟩
abbrev main_call4_v6 : Ref sig .tc := ⟨.hbm, 1058, rfl⟩
abbrev main_call4_v7 : Ref sig .tc := ⟨.hbm, 1059, rfl⟩
abbrev main_call4_v8 : Ref sig .tc := ⟨.hbm, 1060, rfl⟩
abbrev main_call4_c : Ref sig .tc := ⟨.hbm, 1061, rfl⟩
abbrev main_call4_v9 : Ref sig .tc := ⟨.hbm, 1062, rfl⟩
abbrev main_call4_v10 : Ref sig .tc := ⟨.hbm, 1063, rfl⟩
abbrev main_call4_c_0 : Ref sig .tc := ⟨.hbm, 1064, rfl⟩
abbrev main_call4_v11 : Ref sig .tc := ⟨.hbm, 1065, rfl⟩
abbrev main_call4_v12 : Ref sig .tc := ⟨.hbm, 1066, rfl⟩
abbrev main_call4_v13 : Ref sig .tc := ⟨.hbm, 1067, rfl⟩
abbrev main_call4_v14 : Ref sig .tc := ⟨.hbm, 1068, rfl⟩
abbrev main_call4_call0_v0 : Ref sig .tc := ⟨.hbm, 1069, rfl⟩
abbrev main_call4_call0_c : Ref sig .tc := ⟨.hbm, 1070, rfl⟩
abbrev main_call4_call0_v1 : Ref sig .tc := ⟨.hbm, 1071, rfl⟩
abbrev main_call4_call0_v2 : Ref sig .tc := ⟨.hbm, 1072, rfl⟩
abbrev main_call4_call0_v3 : Ref sig .tc := ⟨.hbm, 1073, rfl⟩
abbrev main_call4_call0_v4 : Ref sig .tc := ⟨.hbm, 1074, rfl⟩
abbrev main_call4_call0_v5 : Ref sig .tc := ⟨.hbm, 1075, rfl⟩
abbrev main_call4_call0_v6 : Ref sig .tc := ⟨.hbm, 1076, rfl⟩
abbrev main_call4_call0_c_0 : Ref sig .tc := ⟨.hbm, 1077, rfl⟩
abbrev main_call4_call0_v7 : Ref sig .tc := ⟨.hbm, 1078, rfl⟩
abbrev main_call4_call0_v8 : Ref sig .tc := ⟨.hbm, 1079, rfl⟩
abbrev main_call4_call0_c_1 : Ref sig .tc := ⟨.hbm, 1080, rfl⟩
abbrev main_call4_call0_v9 : Ref sig .tc := ⟨.hbm, 1081, rfl⟩
abbrev main_call4_call0_v10 : Ref sig .tc := ⟨.hbm, 1082, rfl⟩
abbrev main_call4_call0_v11 : Ref sig .tc := ⟨.hbm, 1083, rfl⟩
abbrev main_call4_call0_v12 : Ref sig .tc := ⟨.hbm, 1084, rfl⟩
abbrev main_call4_call0_v13 : Ref sig .tc := ⟨.hbm, 1085, rfl⟩
abbrev main_call4_call0_c_2 : Ref sig .tc := ⟨.hbm, 1086, rfl⟩
abbrev main_call4_call0_v14 : Ref sig .tc := ⟨.hbm, 1087, rfl⟩
abbrev main_call4_call0_v15 : Ref sig .tc := ⟨.hbm, 1088, rfl⟩
abbrev main_call4_call0_c_3 : Ref sig .tc := ⟨.hbm, 1089, rfl⟩
abbrev main_call4_call0_v16 : Ref sig .tc := ⟨.hbm, 1090, rfl⟩
abbrev main_call4_call0_v17 : Ref sig .tc := ⟨.hbm, 1091, rfl⟩
abbrev main_call4_call0_v18 : Ref sig .tc := ⟨.hbm, 1092, rfl⟩
abbrev main_call4_call0_v19 : Ref sig .tc := ⟨.hbm, 1093, rfl⟩
abbrev main_call4_call0_v20 : Ref sig .tc := ⟨.hbm, 1094, rfl⟩
abbrev main_call4_call0_c_4 : Ref sig .tc := ⟨.hbm, 1095, rfl⟩
abbrev main_call4_call0_v21 : Ref sig .tc := ⟨.hbm, 1096, rfl⟩
abbrev main_call4_call0_v22 : Ref sig .tc := ⟨.hbm, 1097, rfl⟩
abbrev main_call4_call0_c_5 : Ref sig .tc := ⟨.hbm, 1098, rfl⟩
abbrev main_call4_call0_v23 : Ref sig .tc := ⟨.hbm, 1099, rfl⟩
abbrev main_call4_call0_v24 : Ref sig .tc := ⟨.hbm, 1100, rfl⟩
abbrev main_call4_call0_v25 : Ref sig .tc := ⟨.hbm, 1101, rfl⟩
abbrev main_call4_call0_v26 : Ref sig .tc := ⟨.hbm, 1102, rfl⟩
abbrev main_call4_call0_v27 : Ref sig .tc := ⟨.hbm, 1103, rfl⟩
abbrev main_call4_call0_c_6 : Ref sig .tc := ⟨.hbm, 1104, rfl⟩
abbrev main_call4_call0_v28 : Ref sig .tc := ⟨.hbm, 1105, rfl⟩
abbrev main_call4_call0_v29 : Ref sig .tc := ⟨.hbm, 1106, rfl⟩
abbrev main_call4_call0_c_7 : Ref sig .tc := ⟨.hbm, 1107, rfl⟩
abbrev main_call4_call0_v30 : Ref sig .tc := ⟨.hbm, 1108, rfl⟩
abbrev main_call4_call0_v31 : Ref sig .tc := ⟨.hbm, 1109, rfl⟩
abbrev main_call4_call0_v32 : Ref sig .tc := ⟨.hbm, 1110, rfl⟩
abbrev main_call4_call0_v33 : Ref sig .tc := ⟨.hbm, 1111, rfl⟩
abbrev main_call4_call0_v34 : Ref sig .tc := ⟨.hbm, 1112, rfl⟩
abbrev main_call4_call0_v35 : Ref sig .tc := ⟨.hbm, 1113, rfl⟩
abbrev main_call4_call0_v36 : Ref sig .tc := ⟨.hbm, 1114, rfl⟩
abbrev main_call4_call0_v37 : Ref sig .tc := ⟨.hbm, 1115, rfl⟩
abbrev main_call4_call0_c_8 : Ref sig .tc := ⟨.hbm, 1116, rfl⟩
abbrev main_call4_call0_v38 : Ref sig .tc := ⟨.hbm, 1117, rfl⟩
abbrev main_call4_call0_v39 : Ref sig .tc := ⟨.hbm, 1118, rfl⟩
abbrev main_call4_call0_v40 : Ref sig .tc := ⟨.hbm, 1119, rfl⟩
abbrev main_call4_call0_c_9 : Ref sig .tc := ⟨.hbm, 1120, rfl⟩
abbrev main_call4_call0_v41 : Ref sig .tc := ⟨.hbm, 1121, rfl⟩
abbrev main_call4_call0_v42 : Ref sig .tc := ⟨.hbm, 1122, rfl⟩
abbrev main_call4_call0_c_10 : Ref sig .tc := ⟨.hbm, 1123, rfl⟩
abbrev main_call4_call0_v43 : Ref sig .tc := ⟨.hbm, 1124, rfl⟩
abbrev main_call4_call0_v44 : Ref sig .tc := ⟨.hbm, 1125, rfl⟩
abbrev main_call4_call0_v45 : Ref sig .tc := ⟨.hbm, 1126, rfl⟩
abbrev main_call4_call0_v46 : Ref sig .tc := ⟨.hbm, 1127, rfl⟩
abbrev main_call4_call0_v47 : Ref sig .tc := ⟨.hbm, 1128, rfl⟩
abbrev main_call4_call0_c_11 : Ref sig .tc := ⟨.hbm, 1129, rfl⟩
abbrev main_call4_call0_v48 : Ref sig .tc := ⟨.hbm, 1130, rfl⟩
abbrev main_call4_call0_v49 : Ref sig .tc := ⟨.hbm, 1131, rfl⟩
abbrev main_call4_call0_c_12 : Ref sig .tc := ⟨.hbm, 1132, rfl⟩
abbrev main_call4_call0_v50 : Ref sig .tc := ⟨.hbm, 1133, rfl⟩
abbrev main_call4_call0_v51 : Ref sig .tc := ⟨.hbm, 1134, rfl⟩
abbrev main_call4_call0_v52 : Ref sig .tc := ⟨.hbm, 1135, rfl⟩
abbrev main_call4_call0_v53 : Ref sig .tc := ⟨.hbm, 1136, rfl⟩
abbrev main_call4_call0_v54 : Ref sig .tc := ⟨.hbm, 1137, rfl⟩
abbrev main_call4_call0_c_13 : Ref sig .tc := ⟨.hbm, 1138, rfl⟩
abbrev main_call4_call0_v55 : Ref sig .tc := ⟨.hbm, 1139, rfl⟩
abbrev main_call4_call0_v56 : Ref sig .tc := ⟨.hbm, 1140, rfl⟩
abbrev main_call4_call0_c_14 : Ref sig .tc := ⟨.hbm, 1141, rfl⟩
abbrev main_call4_call0_v57 : Ref sig .tc := ⟨.hbm, 1142, rfl⟩
abbrev main_call4_call0_v58 : Ref sig .tc := ⟨.hbm, 1143, rfl⟩
abbrev main_call4_call0_v59 : Ref sig .tc := ⟨.hbm, 1144, rfl⟩
abbrev main_call4_call0_v60 : Ref sig .tc := ⟨.hbm, 1145, rfl⟩
abbrev main_call4_call0_v61 : Ref sig .tc := ⟨.hbm, 1146, rfl⟩
abbrev main_call4_call0_c_15 : Ref sig .tc := ⟨.hbm, 1147, rfl⟩
abbrev main_call4_call0_v62 : Ref sig .tc := ⟨.hbm, 1148, rfl⟩
abbrev main_call4_call0_v63 : Ref sig .tc := ⟨.hbm, 1149, rfl⟩
abbrev main_call4_call0_c_16 : Ref sig .tc := ⟨.hbm, 1150, rfl⟩
abbrev main_call4_call0_v64 : Ref sig .tc := ⟨.hbm, 1151, rfl⟩
abbrev main_call4_call0_v65 : Ref sig .tc := ⟨.hbm, 1152, rfl⟩
abbrev main_call4_call0_v66 : Ref sig .tc := ⟨.hbm, 1153, rfl⟩
abbrev main_call4_call0_v67 : Ref sig .tc := ⟨.hbm, 1154, rfl⟩
abbrev main_call4_call0_v68 : Ref sig .tc := ⟨.hbm, 1155, rfl⟩
abbrev main_call4_call0_v69 : Ref sig .tc := ⟨.hbm, 1156, rfl⟩
abbrev main_call4_call0_v70 : Ref sig .tc := ⟨.hbm, 1157, rfl⟩
abbrev main_call4_call0_v71 : Ref sig .tc := ⟨.hbm, 1158, rfl⟩
abbrev main_call4_call0_c_17 : Ref sig .tc := ⟨.hbm, 1159, rfl⟩
abbrev main_call4_call0_v72 : Ref sig .tc := ⟨.hbm, 1160, rfl⟩
abbrev main_call4_call0_v73 : Ref sig .tc := ⟨.hbm, 1161, rfl⟩
abbrev main_call4_call0_v74 : Ref sig .tc := ⟨.hbm, 1162, rfl⟩
abbrev main_call4_call0_c_18 : Ref sig .tc := ⟨.hbm, 1163, rfl⟩
abbrev main_call4_call0_v75 : Ref sig .tc := ⟨.hbm, 1164, rfl⟩
abbrev main_call4_call0_v76 : Ref sig .tc := ⟨.hbm, 1165, rfl⟩
abbrev main_call4_call0_c_19 : Ref sig .tc := ⟨.hbm, 1166, rfl⟩
abbrev main_call4_call0_v77 : Ref sig .tc := ⟨.hbm, 1167, rfl⟩
abbrev main_call4_call0_v78 : Ref sig .tc := ⟨.hbm, 1168, rfl⟩
abbrev main_call4_call0_v79 : Ref sig .tc := ⟨.hbm, 1169, rfl⟩
abbrev main_call4_call0_v80 : Ref sig .tc := ⟨.hbm, 1170, rfl⟩
abbrev main_call4_call0_v81 : Ref sig .tc := ⟨.hbm, 1171, rfl⟩
abbrev main_call4_call0_c_20 : Ref sig .tc := ⟨.hbm, 1172, rfl⟩
abbrev main_call4_call0_v82 : Ref sig .tc := ⟨.hbm, 1173, rfl⟩
abbrev main_call4_call0_v83 : Ref sig .tc := ⟨.hbm, 1174, rfl⟩
abbrev main_call4_call0_c_21 : Ref sig .tc := ⟨.hbm, 1175, rfl⟩
abbrev main_call4_call0_v84 : Ref sig .tc := ⟨.hbm, 1176, rfl⟩
abbrev main_call4_call0_v85 : Ref sig .tc := ⟨.hbm, 1177, rfl⟩
abbrev main_call4_call0_v86 : Ref sig .tc := ⟨.hbm, 1178, rfl⟩
abbrev main_call4_call0_v87 : Ref sig .tc := ⟨.hbm, 1179, rfl⟩
abbrev main_call4_call0_v88 : Ref sig .tc := ⟨.hbm, 1180, rfl⟩
abbrev main_call4_call0_c_22 : Ref sig .tc := ⟨.hbm, 1181, rfl⟩
abbrev main_call4_call0_v89 : Ref sig .tc := ⟨.hbm, 1182, rfl⟩
abbrev main_call4_call0_v90 : Ref sig .tc := ⟨.hbm, 1183, rfl⟩
abbrev main_call4_call0_c_23 : Ref sig .tc := ⟨.hbm, 1184, rfl⟩
abbrev main_call4_call0_v91 : Ref sig .tc := ⟨.hbm, 1185, rfl⟩
abbrev main_call4_call0_v92 : Ref sig .tc := ⟨.hbm, 1186, rfl⟩
abbrev main_call4_call0_v93 : Ref sig .tc := ⟨.hbm, 1187, rfl⟩
abbrev main_call4_call0_v94 : Ref sig .tc := ⟨.hbm, 1188, rfl⟩
abbrev main_call4_call0_v95 : Ref sig .tc := ⟨.hbm, 1189, rfl⟩
abbrev main_call4_call0_c_24 : Ref sig .tc := ⟨.hbm, 1190, rfl⟩
abbrev main_call4_call0_v96 : Ref sig .tc := ⟨.hbm, 1191, rfl⟩
abbrev main_call4_call0_v97 : Ref sig .tc := ⟨.hbm, 1192, rfl⟩
abbrev main_call4_call0_c_25 : Ref sig .tc := ⟨.hbm, 1193, rfl⟩
abbrev main_call4_call0_v98 : Ref sig .tc := ⟨.hbm, 1194, rfl⟩
abbrev main_call4_call0_v99 : Ref sig .tc := ⟨.hbm, 1195, rfl⟩
abbrev main_call4_call0_v100 : Ref sig .tc := ⟨.hbm, 1196, rfl⟩
abbrev main_call4_call0_v101 : Ref sig .tc := ⟨.hbm, 1197, rfl⟩
abbrev main_call4_call0_v102 : Ref sig .tc := ⟨.hbm, 1198, rfl⟩
abbrev main_call4_call0_v103 : Ref sig .tc := ⟨.hbm, 1199, rfl⟩
abbrev main_call4_call0_v104 : Ref sig .tc := ⟨.hbm, 1200, rfl⟩
abbrev main_call4_call0_v105 : Ref sig .tc := ⟨.hbm, 1201, rfl⟩
abbrev main_call4_call0_c_26 : Ref sig .tc := ⟨.hbm, 1202, rfl⟩
abbrev main_call4_call0_v106 : Ref sig .tc := ⟨.hbm, 1203, rfl⟩
abbrev main_call4_call0_v107 : Ref sig .tc := ⟨.hbm, 1204, rfl⟩
abbrev main_call4_call0_v108 : Ref sig .tc := ⟨.hbm, 1205, rfl⟩
abbrev main_call4_call0_c_27 : Ref sig .tc := ⟨.hbm, 1206, rfl⟩
abbrev main_call4_call0_v109 : Ref sig .tc := ⟨.hbm, 1207, rfl⟩
abbrev main_call4_call0_v110 : Ref sig .tc := ⟨.hbm, 1208, rfl⟩
abbrev main_call4_call0_c_28 : Ref sig .tc := ⟨.hbm, 1209, rfl⟩
abbrev main_call4_call0_v111 : Ref sig .tc := ⟨.hbm, 1210, rfl⟩
abbrev main_call4_call0_v112 : Ref sig .tc := ⟨.hbm, 1211, rfl⟩
abbrev main_call4_call0_v113 : Ref sig .tc := ⟨.hbm, 1212, rfl⟩
abbrev main_call4_call0_v114 : Ref sig .tc := ⟨.hbm, 1213, rfl⟩
abbrev main_call4_call0_v115 : Ref sig .tc := ⟨.hbm, 1214, rfl⟩
abbrev main_call4_call0_c_29 : Ref sig .tc := ⟨.hbm, 1215, rfl⟩
abbrev main_call4_call0_v116 : Ref sig .tc := ⟨.hbm, 1216, rfl⟩
abbrev main_call4_call0_v117 : Ref sig .tc := ⟨.hbm, 1217, rfl⟩
abbrev main_call4_call0_c_30 : Ref sig .tc := ⟨.hbm, 1218, rfl⟩
abbrev main_call4_call0_v118 : Ref sig .tc := ⟨.hbm, 1219, rfl⟩
abbrev main_call4_call0_v119 : Ref sig .tc := ⟨.hbm, 1220, rfl⟩
abbrev main_call4_call0_v120 : Ref sig .tc := ⟨.hbm, 1221, rfl⟩
abbrev main_call4_call0_v121 : Ref sig .tc := ⟨.hbm, 1222, rfl⟩
abbrev main_call4_call0_v122 : Ref sig .tc := ⟨.hbm, 1223, rfl⟩
abbrev main_call4_call0_c_31 : Ref sig .tc := ⟨.hbm, 1224, rfl⟩
abbrev main_call4_call0_v123 : Ref sig .tc := ⟨.hbm, 1225, rfl⟩
abbrev main_call4_call0_v124 : Ref sig .tc := ⟨.hbm, 1226, rfl⟩
abbrev main_call4_call0_c_32 : Ref sig .tc := ⟨.hbm, 1227, rfl⟩
abbrev main_call4_call0_v125 : Ref sig .tc := ⟨.hbm, 1228, rfl⟩
abbrev main_call4_call0_v126 : Ref sig .tc := ⟨.hbm, 1229, rfl⟩
abbrev main_call4_call0_v127 : Ref sig .tc := ⟨.hbm, 1230, rfl⟩
abbrev main_call4_call0_v128 : Ref sig .tc := ⟨.hbm, 1231, rfl⟩
abbrev main_call4_call0_v129 : Ref sig .tc := ⟨.hbm, 1232, rfl⟩
abbrev main_call4_call0_c_33 : Ref sig .tc := ⟨.hbm, 1233, rfl⟩
abbrev main_call4_call0_v130 : Ref sig .tc := ⟨.hbm, 1234, rfl⟩
abbrev main_call4_call0_v131 : Ref sig .tc := ⟨.hbm, 1235, rfl⟩
abbrev main_call4_call0_c_34 : Ref sig .tc := ⟨.hbm, 1236, rfl⟩
abbrev main_call4_call0_v132 : Ref sig .tc := ⟨.hbm, 1237, rfl⟩
abbrev main_call4_call0_v133 : Ref sig .tc := ⟨.hbm, 1238, rfl⟩
abbrev main_call4_call0_v134 : Ref sig .tc := ⟨.hbm, 1239, rfl⟩
abbrev main_call4_call0_v135 : Ref sig .tc := ⟨.hbm, 1240, rfl⟩
abbrev main_call4_call0_v136 : Ref sig .tc := ⟨.hbm, 1241, rfl⟩
abbrev main_call4_call0_v137 : Ref sig .tc := ⟨.hbm, 1242, rfl⟩
abbrev main_call4_call0_v138 : Ref sig .tc := ⟨.hbm, 1243, rfl⟩
abbrev main_call4_call0_v139 : Ref sig .tc := ⟨.hbm, 1244, rfl⟩
abbrev main_call4_call0_c_35 : Ref sig .tc := ⟨.hbm, 1245, rfl⟩
abbrev main_call4_call0_v140 : Ref sig .tc := ⟨.hbm, 1246, rfl⟩
abbrev main_call4_call0_v141 : Ref sig .tc := ⟨.hbm, 1247, rfl⟩
abbrev main_call4_call0_v142 : Ref sig .tc := ⟨.hbm, 1248, rfl⟩
abbrev main_call4_call0_c_36 : Ref sig .tc := ⟨.hbm, 1249, rfl⟩
abbrev main_call4_call0_v143 : Ref sig .tc := ⟨.hbm, 1250, rfl⟩
abbrev main_call4_call0_v144 : Ref sig .tc := ⟨.hbm, 1251, rfl⟩
abbrev main_call4_call0_c_37 : Ref sig .tc := ⟨.hbm, 1252, rfl⟩
abbrev main_call4_call0_v145 : Ref sig .tc := ⟨.hbm, 1253, rfl⟩
abbrev main_call4_call0_v146 : Ref sig .tc := ⟨.hbm, 1254, rfl⟩
abbrev main_call4_call0_v147 : Ref sig .tc := ⟨.hbm, 1255, rfl⟩
abbrev main_call4_call0_v148 : Ref sig .tc := ⟨.hbm, 1256, rfl⟩
abbrev main_call4_call0_v149 : Ref sig .tc := ⟨.hbm, 1257, rfl⟩
abbrev main_call4_call0_c_38 : Ref sig .tc := ⟨.hbm, 1258, rfl⟩
abbrev main_call4_call0_v150 : Ref sig .tc := ⟨.hbm, 1259, rfl⟩
abbrev main_call4_call0_v151 : Ref sig .tc := ⟨.hbm, 1260, rfl⟩
abbrev main_call4_call0_c_39 : Ref sig .tc := ⟨.hbm, 1261, rfl⟩
abbrev main_call4_call0_v152 : Ref sig .tc := ⟨.hbm, 1262, rfl⟩
abbrev main_call4_call0_v153 : Ref sig .tc := ⟨.hbm, 1263, rfl⟩
abbrev main_call4_call0_v154 : Ref sig .tc := ⟨.hbm, 1264, rfl⟩
abbrev main_call4_call0_v155 : Ref sig .tc := ⟨.hbm, 1265, rfl⟩
abbrev main_call4_call0_v156 : Ref sig .tc := ⟨.hbm, 1266, rfl⟩
abbrev main_call4_call0_c_40 : Ref sig .tc := ⟨.hbm, 1267, rfl⟩
abbrev main_call4_call0_v157 : Ref sig .tc := ⟨.hbm, 1268, rfl⟩
abbrev main_call4_call0_v158 : Ref sig .tc := ⟨.hbm, 1269, rfl⟩
abbrev main_call4_call0_c_41 : Ref sig .tc := ⟨.hbm, 1270, rfl⟩
abbrev main_call4_call0_v159 : Ref sig .tc := ⟨.hbm, 1271, rfl⟩
abbrev main_call4_call0_v160 : Ref sig .tc := ⟨.hbm, 1272, rfl⟩
abbrev main_call4_call0_v161 : Ref sig .tc := ⟨.hbm, 1273, rfl⟩
abbrev main_call4_call0_v162 : Ref sig .tc := ⟨.hbm, 1274, rfl⟩
abbrev main_call4_call0_v163 : Ref sig .tc := ⟨.hbm, 1275, rfl⟩
abbrev main_call4_call0_c_42 : Ref sig .tc := ⟨.hbm, 1276, rfl⟩
abbrev main_call4_call0_v164 : Ref sig .tc := ⟨.hbm, 1277, rfl⟩
abbrev main_call4_call0_v165 : Ref sig .tc := ⟨.hbm, 1278, rfl⟩
abbrev main_call4_call0_c_43 : Ref sig .tc := ⟨.hbm, 1279, rfl⟩
abbrev main_call4_call0_v166 : Ref sig .tc := ⟨.hbm, 1280, rfl⟩
abbrev main_call4_call0_v167 : Ref sig .tc := ⟨.hbm, 1281, rfl⟩
abbrev main_call4_call0_v168 : Ref sig .tc := ⟨.hbm, 1282, rfl⟩
abbrev main_call4_call0_v169 : Ref sig .tc := ⟨.hbm, 1283, rfl⟩
abbrev main_call4_call0_v170 : Ref sig .tc := ⟨.hbm, 1284, rfl⟩
abbrev main_call4_v15_0 : Ref sig .tc := ⟨.hbm, 1285, rfl⟩
abbrev main_call4_call0_v172 : Ref sig .tc := ⟨.hbm, 1286, rfl⟩
abbrev main_call4_call0_v173 : Ref sig .tc := ⟨.hbm, 1287, rfl⟩
abbrev main_call4_call0_c_44 : Ref sig .tc := ⟨.hbm, 1288, rfl⟩
abbrev main_call4_call0_v174 : Ref sig .tc := ⟨.hbm, 1289, rfl⟩
abbrev main_call4_v15_1 : Ref sig .tc := ⟨.hbm, 1290, rfl⟩
abbrev main_call4_v16 : Ref sig .tc := ⟨.hbm, 1291, rfl⟩
abbrev main_call4_c_1 : Ref sig .tc := ⟨.hbm, 1292, rfl⟩
abbrev main_call4_v17 : Ref sig .tc := ⟨.hbm, 1293, rfl⟩
abbrev main_call4_v18 : Ref sig .tc := ⟨.hbm, 1294, rfl⟩
abbrev main_call4_c_2 : Ref sig .tc := ⟨.hbm, 1295, rfl⟩
abbrev main_call4_v19 : Ref sig .tc := ⟨.hbm, 1296, rfl⟩
abbrev main_call4_v20 : Ref sig .tc := ⟨.hbm, 1297, rfl⟩
abbrev main_call4_v21 : Ref sig .tc := ⟨.hbm, 1298, rfl⟩
abbrev main_call4_cst : Ref sig .tc := ⟨.hbm, 1299, rfl⟩
abbrev main_call4_v22 : Ref sig .tc := ⟨.hbm, 1300, rfl⟩
abbrev main_call4_v23 : Ref sig .tc := ⟨.hbm, 1301, rfl⟩
abbrev main_call4_v24 : Ref sig .tc := ⟨.hbm, 1302, rfl⟩
abbrev main_call4_v25 : Ref sig .tc := ⟨.hbm, 1303, rfl⟩
abbrev main_call4_v26 : Ref sig .tc := ⟨.hbm, 1304, rfl⟩
abbrev main_call4_v27 : Ref sig .tc := ⟨.hbm, 1305, rfl⟩
abbrev main_call4_v28 : Ref sig .tc := ⟨.hbm, 1306, rfl⟩
abbrev main_call4_v29 : Ref sig .tc := ⟨.hbm, 1307, rfl⟩
abbrev main_v21 : Ref sig .tc := ⟨.hbm, 1308, rfl⟩
abbrev main_v22 : Ref sig .tc := ⟨.hbm, 1309, rfl⟩
abbrev main_v23 : Ref sig .tc := ⟨.hbm, 1310, rfl⟩
abbrev main_v24 : Ref sig .tc := ⟨.hbm, 1311, rfl⟩
abbrev main_v25 : Ref sig .tc := ⟨.hbm, 1312, rfl⟩
abbrev main_v26 : Ref sig .tc := ⟨.hbm, 1313, rfl⟩
abbrev main_v27 : Ref sig .tc := ⟨.hbm, 1314, rfl⟩
abbrev main_v28 : Ref sig .tc := ⟨.hbm, 1315, rfl⟩
abbrev main_v29 : Ref sig .tc := ⟨.hbm, 1316, rfl⟩
abbrev main_v30 : Ref sig .tc := ⟨.hbm, 1317, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨3, ![16, 9, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x2304 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x256x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![16, 3, 3], ![false, false, false]⟩

def k2_cond2 (i : grid2.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S256x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  bcast_S_S1 : S_.BroadcastsInDim S1 (![] : Fin 0 → Fin S1.rank)
  concatenates_S1_S1_S2_d0 : Shape.Concatenates [S1, S1] S2 0
  slices_S2_S1_0 : S2.Slices ![0] S1
  shapeCasts_S1_S_ : S1.ShapeCasts S_
  slices_S2_S1_1 : S2.Slices ![1] S1
  bcast_S_S4 : S_.BroadcastsInDim S4 (![] : Fin 0 → Fin S4.rank)
  natLt_32_64 : 32 < 64
  bcast_S4_S4x1_0 : S4.BroadcastsInDim S4x1 (![0] : Fin 1 → Fin S4x1.rank)
  concatenates_S4x1_S4x1_S4x2_d1 : Shape.Concatenates [S4x1, S4x1] S4x2 1
  slices_S4x2_S1x2_0_0 : S4x2.Slices ![0, 0] S1x2
  shapeCasts_S1x2_S2 : S1x2.ShapeCasts S2
  slices_S4x2_S1x2_1_0 : S4x2.Slices ![1, 0] S1x2
  slices_S4x2_S1x2_2_0 : S4x2.Slices ![2, 0] S1x2
  slices_S4x2_S1x2_3_0 : S4x2.Slices ![3, 0] S1x2
  bcast_S_S1x1 : S_.BroadcastsInDim S1x1 (![] : Fin 0 → Fin S1x1.rank)
  bcast_S_S2304x768 : S_.BroadcastsInDim S2304x768 (![] : Fin 0 → Fin S2304x768.rank)
  bcast_S1x1_S2304x768_0_1 : S1x1.BroadcastsInDim S2304x768 (![0, 1] : Fin 2 → Fin S2304x768.rank)
  bcast_S_S768x768 : S_.BroadcastsInDim S768x768 (![] : Fin 0 → Fin S768x768.rank)
  bcast_S1x1_S768x768_0_1 : S1x1.BroadcastsInDim S768x768 (![0, 1] : Fin 2 → Fin S768x768.rank)
  transposes_S2304x768_S768x2304_1_0 : S2304x768.Transposes [1, 0] S768x2304
  transposes_S768x768_S768x768_1_0 : S768x768.Transposes [1, 0] S768x768
  bcast_S_S2304 : S_.BroadcastsInDim S2304 (![] : Fin 0 → Fin S2304.rank)
  bcast_S1_S2304_0 : S1.BroadcastsInDim S2304 (![0] : Fin 1 → Fin S2304.rank)
  bcast_S_S768 : S_.BroadcastsInDim S768 (![] : Fin 0 → Fin S768.rank)
  bcast_S1_S768_0 : S1.BroadcastsInDim S768 (![0] : Fin 1 → Fin S768.rank)
  shapeCasts_S32x256x768_S8192x768 : S32x256x768.ShapeCasts S8192x768
  shapeCasts_S2304_S1x2304 : S2304.ShapeCasts S1x2304
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  shapeCasts_S8192x2304_S32x256x2304 : S8192x2304.ShapeCasts S32x256x2304
  inb_S1x256x2304_S1x256x2304_0_0_0 : ∀ a, (![0, 0, 0] : Fin 3 → Nat) a + S1x256x2304.size a ≤ S1x256x2304.size a
  h_S1x256x2304 : 0 < S1x256x2304.numel
  shapeCasts_S1x256x2304_S256x2304 : S1x256x2304.ShapeCasts S256x2304
  slices_S256x2304_o0_0_S256x768 : S256x2304.Slices ![0, 0] S256x768
  slices_S256x2304_o0_768_S256x768 : S256x2304.Slices ![0, 768] S256x768
  slices_S256x2304_o0_1536_S256x768 : S256x2304.Slices ![0, 1536] S256x768
  slices_S256x768_o0_0_S256x64 : S256x768.Slices ![0, 0] S256x64
  reduces_S256x256_S256 : S256x256.Reduces [1] S256
  shapeCasts_S256_S256x1 : S256.ShapeCasts S256x1
  broadcasts_S256x1_S256x256 : S256x1.Broadcasts S256x256
  broadcasts_S256x1_S256x64 : S256x1.Broadcasts S256x64
  slices_S256x768_o0_64_S256x64 : S256x768.Slices ![0, 64] S256x64
  slices_S256x768_o0_128_S256x64 : S256x768.Slices ![0, 128] S256x64
  slices_S256x768_o0_192_S256x64 : S256x768.Slices ![0, 192] S256x64
  slices_S256x768_o0_256_S256x64 : S256x768.Slices ![0, 256] S256x64
  slices_S256x768_o0_320_S256x64 : S256x768.Slices ![0, 320] S256x64
  slices_S256x768_o0_384_S256x64 : S256x768.Slices ![0, 384] S256x64
  slices_S256x768_o0_448_S256x64 : S256x768.Slices ![0, 448] S256x64
  slices_S256x768_o0_512_S256x64 : S256x768.Slices ![0, 512] S256x64
  slices_S256x768_o0_576_S256x64 : S256x768.Slices ![0, 576] S256x64
  slices_S256x768_o0_640_S256x64 : S256x768.Slices ![0, 640] S256x64
  slices_S256x768_o0_704_S256x64 : S256x768.Slices ![0, 704] S256x64
  concatenates_S256x64_S256x64_S256x64_S256x64_S256x64_S256x64_S256x64_S256x64_S256x64_S256x64_S256x64_S256x64_S256x768_d1 : Shape.Concatenates [S256x64, S256x64, S256x64, S256x64, S256x64, S256x64, S256x64, S256x64, S256x64, S256x64, S256x64, S256x64] S256x768 1
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  shapeCasts_S768_S1x768 : S768.ShapeCasts S1x768
  shapeCasts_S8192x768_S32x256x768 : S8192x768.ShapeCasts S32x256x768
  dot_S512x256_S256x256_S512x256_1_0_0_1_n_n_wf : DotDims.WF S512x256 S256x256 S512x256 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x768.size a
  hwx0_0 : ∀ i : grid0.Coords, EltTy.bits .f32 = 32 ∨ (Rect.block (s := S8192x768) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S768x2304.size a
  hwx0_1 : ∀ i : grid0.Coords, EltTy.bits .f32 = 32 ∨ (Rect.block (s := S768x2304) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x2304.size a
  hwx0_2 : ∀ i : grid0.Coords, EltTy.bits .f32 = 32 ∨ (Rect.block (s := S1x2304) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S8192x2304.size a
  hwx0_3 : ∀ i : grid0.Coords, EltTy.bits .f32 = 32 ∨ (Rect.block (s := S8192x2304) S512x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x2304.size a ≤ S32x256x2304.size a
  hwx1_0 : ∀ i : grid1.Coords, EltTy.bits .f32 = 32 ∨ (Rect.block (s := S32x256x2304) S1x256x2304.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x256x768.size a ≤ S32x256x768.size a
  hwx1_1 : ∀ i : grid1.Coords, EltTy.bits .f32 = 32 ∨ (Rect.block (s := S32x256x768) S1x256x768.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x768.size a
  hwx2_0 : ∀ i : grid2.Coords, EltTy.bits .f32 = 32 ∨ (Rect.block (s := S8192x768) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S768x768.size a
  hwx2_1 : ∀ i : grid2.Coords, EltTy.bits .f32 = 32 ∨ (Rect.block (s := S768x768) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x768.size a
  hwx2_2 : ∀ i : grid2.Coords, EltTy.bits .f32 = 32 ∨ (Rect.block (s := S1x768) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S8192x768.size a
  hwx2_3 : ∀ i : grid2.Coords, EltTy.bits .f32 = 32 ∨ (Rect.block (s := S8192x768) S512x256.size (cc2_transform_3 i) (hinb2_3 i)).WholeWords (EltTy.packing .f32)

variable [Facts₀]

def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_v22) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S512x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v25) S1x256x2304.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x256x768.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v27) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S256x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v28) S1x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v29) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== Proof.KerValue.lean ====
/-
  What the fused kernel leaves in its result array, at the ideal values. The grid has one point per batch element;
  point b reads batch row b of the input and the whole of both weight matrices and bias rows (the host casts before
  the region are the identity over the extended reals, the biases reshaped to one row), and writes batch row b of
  the result. The blocks of the 32 points tile the result array, so entry (b, n, j) of the result is entry (n, j)
  of the body's value on batch row b: the attention stage's product with the second weight matrix plus its bias.
-/
import proofs.«175035_g2000205867183153_pallasbulk_1319_2_alg».proof.Defs
import proofs.«175035_g2000205867183153_pallasbulk_1319_2_alg».proof.Proof.Gen.KernelIdeal.Frame
import proofs.«175035_g2000205867183153_pallasbulk_1319_2_alg».proof.Proof.Gen.KernelIdeal.Value
import Idealize.ShloMosaic.Lib.ValueIdx

noncomputable section

namespace Cert.KernelIdeal.KerValue

open Cert.KernelIdeal Cert.KernelIdeal.Gen Idealize.ShloMosaic Idealize.ShloMosaic.TcCoe Idealize.SL.Sem
open Idealize.ShloMosaic.Pipeline (Dat)
open Idealize.ShloMosaic.ValueIdx (ix1 ix2 ix3)

variable (m : (ℓ : Loc nD τ sig) → Buf (Elt Ideal) ℓ) (ρ : Dev nD → PrngReg)

/-! ## The arrays the region finds

The three casts to bf16 are the identity over the extended reals, so the region finds the activations and the two
weight matrices as launched; the two biases it finds re-laid as one-row matrices. -/

/-- The activations, cast to bf16: over the extended reals the array as launched. -/
theorem V_v0 (c : Dev nD) : @Eq (S32x256x768.Idx → EReal) (V m c main_v0) (m ((c : Thread nD τ).loc main_arg0)) := by
  dsimp only [Gen.V, Gen.hostOps0]; after_results
  rfl

/-- The q/k/v weights, cast to bf16: the array as launched. -/
theorem V_v1 (c : Dev nD) : @Eq (S768x2304.Idx → EReal) (V m c main_v1) (m ((c : Thread nD τ).loc main_arg1)) := by
  dsimp only [Gen.V, Gen.hostOps0]; after_results
  rfl

/-- The projection weights, cast to bf16: the array as launched. -/
theorem V_v2 (c : Dev nD) : @Eq (S768x768.Idx → EReal) (V m c main_v2) (m ((c : Thread nD τ).loc main_arg2)) := by
  dsimp only [Gen.V, Gen.hostOps0]; after_results
  rfl

/-- The q/k/v bias as a one-row matrix. -/
theorem V_v3 (c : Dev nD) : @Eq (S1x2304.Idx → EReal) (V m c main_v3)
    (shapeCast S1x2304 (m ((c : Thread nD τ).loc main_arg3) : S2304.Idx → EReal) shapeCasts_S2304_S1x2304) := by
  dsimp only [Gen.V, Gen.hostOps0]; after_results
  rfl

/-- The projection bias as a one-row matrix. -/
theorem V_v4 (c : Dev nD) : @Eq (S1x768.Idx → EReal) (V m c main_v4)
    (shapeCast S1x768 (m ((c : Thread nD τ).loc main_arg4) : S768.Idx → EReal) shapeCasts_S768_S1x768) := by
  dsimp only [Gen.V, Gen.hostOps0]; after_results
  rfl

/-! ## The output array as one function of the five arguments

Batch element `b` of the output is the body's result on batch element `b` of the activations and the whole of the
weights and biases: entry `(b, r, j)` is entry `(0, r, j)` of that block. -/

/-- The fused kernel's output: at `(b, r, j)` the body's block, computed from activations block `b`, the weights and
    the one-row biases, read at `(0, r, j)`. -/
def KOut (x : S32x256x768.Idx → EReal) (wq : S768x2304.Idx → EReal) (wp : S768x768.Idx → EReal)
    (bq : S2304.Idx → EReal) (bp : S768.Idx → EReal) : S32x256x768.Idx → EReal := fun i =>
  Gen.out0_5 (F := Ideal) (fun y : S1x256x768.Idx => x (ix3 (i 0) (y 1) (y 2))) wq
    (shapeCast S1x2304 bq shapeCasts_S2304_S1x2304) wp (shapeCast S1x768 bp shapeCasts_S768_S1x768)
    (ix3 (0 : Fin 1) (i 1) (i 2))

/-- The printed index maps over the 32 grid points: the activations' and the output's blocks are batch element `t`,
    every other window is its whole array. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The grid has 32 points, one per batch element. -/
theorem N_eq : cfg0.N = 32 := N_0

/-- The block reads, for ANY function `f` of the five input blocks: what the body leaves at point `t`, when it is `f`
    of the windows' blocks there, is block `t` of the array whose batch element `b` is `f` of batch element `b` of the
    activations and the whole of the weights and the one-row biases. The activations' window reads batch element `t`,
    the four other windows their whole arrays, and the output's block sits at batch element `t`. -/
theorem flushed_of (f : Vec Ideal S1x256x768 .bf16 → Vec Ideal S768x2304 .bf16 → Vec Ideal S1x2304 .f32
      → Vec Ideal S768x768 .bf16 → Vec Ideal S1x768 .f32 → Vec Ideal S1x256x768 .f32) (c : Dev nD) (t : Fin cfg0.N) :
    (cfg0.win 5).cut (grid0.coords t) (f (iblk m c 0 t) (iblk m c 1 t) (iblk m c 2 t) (iblk m c 3 t) (iblk m c 4 t))
      = ((cfg0.win 5).blk t).view.read (Elt Ideal) (fun i : S32x256x768.Idx =>
          f (fun y : S1x256x768.Idx => m ((c : Thread nD τ).loc main_arg0) (ix3 (i 0) (y 1) (y 2)))
            (m ((c : Thread nD τ).loc main_arg1))
            (shapeCast S1x2304 (m ((c : Thread nD τ).loc main_arg3) : S2304.Idx → EReal) shapeCasts_S2304_S1x2304)
            (m ((c : Thread nD τ).loc main_arg2))
            (shapeCast S1x768 (m ((c : Thread nD τ).loc main_arg4) : S768.Idx → EReal) shapeCasts_S768_S1x768)
            (ix3 (0 : Fin 1) (i 1) (i 2))) := by
  obtain ⟨a00, a01, a02, a10, a11, a20, a21, a30, a31, a40, a41, a50, a51, a52⟩ := idx_facts t
  funext j
  have hj0 : (j 0).val < 1 := (j 0).isLt
  have hj1 : (j 1).val < 256 := (j 1).isLt
  have hj2 : (j 2).val < 768 := (j 2).isLt
  have e0 : (iblk m c 0 t : S1x256x768.Idx → EReal)
      = fun y : S1x256x768.Idx => m ((c : Thread nD τ).loc main_arg0) (ix3 ((((cfg0.win 5).blk t).view.emb j) 0) (y 1) (y 2)) := by
    funext y
    have hy0 : (y 0).val < 1 := (y 0).isLt
    show V m c main_v0 (((cfg0.win 0).blk t).view.emb y) = _
    rw [V_v0]
    refine congrArg _ (funext fun a => Fin.ext ?_)
    match a with
    | ⟨0, _⟩ => show win0_0.index t (0 : Fin 3) * 1 + 1 * (y 0).val = win0_5.index t (0 : Fin 3) * 1 + 1 * (j 0).val; omega
    | ⟨1, _⟩ => show win0_0.index t (1 : Fin 3) * 256 + 1 * (y 1).val = (y 1).val; omega
    | ⟨2, _⟩ => show win0_0.index t (2 : Fin 3) * 768 + 1 * (y 2).val = (y 2).val; omega
  have e1 : (iblk m c 1 t : S768x2304.Idx → EReal) = m ((c : Thread nD τ).loc main_arg1) := by
    funext y
    show V m c main_v1 (((cfg0.win 1).blk t).view.emb y) = _
    rw [V_v1]
    refine congrArg _ (funext fun a => Fin.ext ?_)
    match a with
    | ⟨0, _⟩ => show win0_1.index t (0 : Fin 2) * 768 + 1 * (y 0).val = (y 0).val; omega
    | ⟨1, _⟩ => show win0_1.index t (1 : Fin 2) * 2304 + 1 * (y 1).val = (y 1).val; omega
  have e2 : (iblk m c 2 t : S1x2304.Idx → EReal)
      = shapeCast S1x2304 (m ((c : Thread nD τ).loc main_arg3) : S2304.Idx → EReal) shapeCasts_S2304_S1x2304 := by
    funext y
    show V m c main_v3 (((cfg0.win 2).blk t).view.emb y) = _
    rw [V_v3]
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 2304 + 1 * (y 1).val = (y 1).val; omega
  have e3 : (iblk m c 3 t : S768x768.Idx → EReal) = m ((c : Thread nD τ).loc main_arg2) := by
    funext y
    show V m c main_v2 (((cfg0.win 3).blk t).view.emb y) = _
    rw [V_v2]
    refine congrArg _ (funext fun a => Fin.ext ?_)
    match a with
    | ⟨0, _⟩ => show win0_3.index t (0 : Fin 2) * 768 + 1 * (y 0).val = (y 0).val; omega
    | ⟨1, _⟩ => show win0_3.index t (1 : Fin 2) * 768 + 1 * (y 1).val = (y 1).val; omega
  have e4 : (iblk m c 4 t : S1x768.Idx → EReal)
      = shapeCast S1x768 (m ((c : Thread nD τ).loc main_arg4) : S768.Idx → EReal) shapeCasts_S768_S1x768 := by
    funext y
    show V m c main_v4 (((cfg0.win 4).blk t).view.emb y) = _
    rw [V_v4]
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 768 + 1 * (y 1).val = (y 1).val; omega
  have ej : j = ix3 (0 : Fin 1) ((((cfg0.win 5).blk t).view.emb j) 1) ((((cfg0.win 5).blk t).view.emb j) 2) := by
    funext a; apply Fin.ext
    match a with
    | ⟨0, _⟩ => show (j 0).val = 0; omega
    | ⟨1, _⟩ => show (j 1).val = win0_5.index t (1 : Fin 3) * 256 + 1 * (j 1).val; omega
    | ⟨2, _⟩ => show (j 2).val = win0_5.index t (2 : Fin 3) * 768 + 1 * (j 2).val; omega
  show f (iblk m c 0 t) (iblk m c 1 t) (iblk m c 2 t) (iblk m c 3 t) (iblk m c 4 t) j
    = f (fun y : S1x256x768.Idx => m ((c : Thread nD τ).loc main_arg0) (ix3 ((((cfg0.win 5).blk t).view.emb j) 0) (y 1) (y 2)))
        (m ((c : Thread nD τ).loc main_arg1))
        (shapeCast S1x2304 (m ((c : Thread nD τ).loc main_arg3) : S2304.Idx → EReal) shapeCasts_S2304_S1x2304)
        (m ((c : Thread nD τ).loc main_arg2))
        (shapeCast S1x768 (m ((c : Thread nD τ).loc main_arg4) : S768.Idx → EReal) shapeCasts_S768_S1x768)
        (ix3 (0 : Fin 1) ((((cfg0.win 5).blk t).view.emb j) 1) ((((cfg0.win 5).blk t).view.emb j) 2))
  rw [e0, e1, e2, e3, e4]
  exact congrArg _ ej

/-- WHAT POINT `t` WRITES BACK is block `t` of `KOut` of the argument arrays. -/
theorem flushed_eq (c : Dev nD) (t : Fin cfg0.N) :
    (dats m 0 c).flushed 5 t = ((cfg0.win 5).blk t).view.read (Elt Ideal)
      (KOut (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  exact flushed_of m out0_5 c t

/-- An index of the array is in point `t`'s block iff each coordinate is in the block's range on its axis. -/
theorem mem_blk (t : Fin cfg0.N) (i : S32x256x768.Idx) :
    i ∈ ((cfg0.win 5).blk t).view.set ↔ ∀ a : Fin 3, win0_5.index t a * S1x256x768.size a ≤ (i a).val
      ∧ (i a).val < win0_5.index t a * S1x256x768.size a + S1x256x768.size a := by
  show i ∈ ((View.whole main_v5).slice (win0_5.rect t)).set ↔ _
  rw [View.set_slice_whole, Rect.mem_set_unit]
  exact Iff.rfl

/-- THE COVER: index `(b, r, j)` is in the block of the point `b`, and every point writes its block back. -/
theorem cover (i : S32x256x768.Idx) :
    ∃ t : Fin cfg0.N, (cfg0.win 5).flush t = true ∧ i ∈ ((cfg0.win 5).blk t).view.set := by
  have hi0 : (i 0).val < 32 := (i 0).isLt
  have hi1 : (i 1).val < 256 := (i 1).isLt
  have hi2 : (i 2).val < 768 := (i 2).isLt
  refine ⟨⟨(i 0).val, by rw [N_eq]; exact hi0⟩, flush0_5 _, ?_⟩
  rw [mem_blk]
  obtain ⟨-, -, -, -, -, -, -, -, -, -, -, a50, a51, a52⟩ := idx_facts ⟨(i 0).val, by rw [N_eq]; exact hi0⟩
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    rw [a50]; show (i 0).val * 1 ≤ (i 0).val ∧ (i 0).val < (i 0).val * 1 + 1; omega
  | ⟨1, _⟩ =>
    show win0_5.index ⟨(i 0).val, _⟩ (1 : Fin 3) * 256 ≤ (i 1).val ∧ (i 1).val < win0_5.index ⟨(i 0).val, _⟩ (1 : Fin 3) * 256 + 256
    rw [a51]; omega
  | ⟨2, _⟩ =>
    show win0_5.index ⟨(i 0).val, _⟩ (2 : Fin 3) * 768 ≤ (i 2).val ∧ (i 2).val < win0_5.index ⟨(i 0).val, _⟩ (2 : Fin 3) * 768 + 768
    rw [a52]; omega

/-- THE ARRAY after the run is `KOut` of the five argument arrays. -/
theorem final (c : Dev nD) : (dats m 0 c).arrAt 5 cfg0.N
    = KOut (m ((c : Thread nD τ).loc main_arg0)) (m ((c : Thread nD τ).loc main_arg1)) (m ((c : Thread nD τ).loc main_arg2))
        (m ((c : Thread nD τ).loc main_arg3)) (m ((c : Thread nD τ).loc main_arg4)) :=
  (dats m 0 c).arrAt_eq_of_cover 5 _ (fun t _ => flushed_eq m c t) cover

/-- The run: the result is `KOut` of the arguments as launched, and the arguments end unchanged. -/
theorem run : θ_run (defs (F := Ideal)) (onTc (τ := τ) (main (F := Ideal))) ⟨m, fun _ => 0, ρ⟩ (fun r => ∀ c : Dev nD,
      r.2.mem ((c.tc : Thread nD τ).loc main_v5)
        = KOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (final m c), (h c).2⟩) (Value.run_blocks m ρ)

section Pay

variable {F : FTy → Type} [FloatOps F]

/-! ## The body's block as one vector term

The body stores once, the whole block, so what it leaves is that store's payload: the attention output of the
256 rows (all twelve heads side by side) times the projection weights, plus the projection bias on every row,
re-laid as a one-element batch. -/

theorem hz3 : (![0, 0, 0] : Fin 3 → Nat) = fun _ => 0 := funext fun a => by fin_cases a <;> rfl
theorem hz2 : (![0, 0] : Fin 2 → Nat) = fun _ => 0 := funext fun a => by fin_cases a <;> rfl

/-- The 256x768 matrix the bias is added to: the twelve heads' attention outputs, computed from the q/k/v rows
    `x0 · x1 + x2`, side by side, times the projection weights `x3`. -/
def KProj (x0 : Vec F S1x256x768 .bf16) (x1 : Vec F S768x2304 .bf16) (x2 : Vec F S1x2304 .f32) (x3 : Vec F S768x768 .bf16) :
    FVec F S256x768 .f32 :=
  k0_pay24 (k0_pay3 x0 x1 x2) (k0_pay4 x0 x1 x2) (k0_pay5 x0 x1 x2) (k0_pay6 x0 x1 x2) (k0_pay8 (k0_pay5 x0 x1 x2) (k0_pay7 x0 x1 x2)) (k0_pay9 (k0_pay3 x0 x1 x2) (k0_pay4 x0 x1 x2) (k0_pay5 x0 x1 x2)) (k0_pay10 (k0_pay3 x0 x1 x2) (k0_pay4 x0 x1 x2) (k0_pay5 x0 x1 x2)) (k0_pay12 (k0_pay5 x0 x1 x2) (k0_pay11 (k0_pay3 x0 x1 x2) (k0_pay4 x0 x1 x2))) (k0_pay13 (k0_pay3 x0 x1 x2) (k0_pay4 x0 x1 x2) (k0_pay5 x0 x1 x2)) (k0_pay17 (k0_pay15 (k0_pay3 x0 x1 x2) (k0_pay4 x0 x1 x2) (k0_pay5 x0 x1 x2)) (k0_pay16 (k0_pay3 x0 x1 x2) (k0_pay4 x0 x1 x2))) (k0_pay18 (k0_pay3 x0 x1 x2) (k0_pay4 x0 x1 x2) (k0_pay5 x0 x1 x2)) (k0_pay19 (k0_pay3 x0 x1 x2) (k0_pay4 x0 x1 x2) (k0_pay5 x0 x1 x2)) (k0_pay21 (k0_pay3 x0 x1 x2) (k0_pay4 x0 x1 x2)) (k0_pay22 (k0_pay3 x0 x1 x2) (k0_pay4 x0 x1 x2)) (k0_pay23 (k0_pay5 x0 x1 x2)) x3

/-- What the body leaves in the output block is its one store's payload. -/
theorem out_pay (x0 : Vec F S1x256x768 .bf16) (x1 : Vec F S768x2304 .bf16) (x2 : Vec F S1x2304 .f32) (x3 : Vec F S768x768 .bf16)
    (x4 : Vec F S1x768 .f32) : out0_5 x0 x1 x2 x3 x4 = k0_pay1 (KProj x0 x1 x2 x3) x4 := by
  unfold out0_5 KProj
  rw [View.canon_unit_zero hz3]
  simp only [View.ld_unit_zero (S := S1x256x768) hz3, View.ld_unit_zero (S := S768x2304) hz2,
    View.ld_unit_zero (S := S1x2304) hz2, View.ld_unit_zero (S := S768x768) hz2, View.ld_unit_zero (S := S1x768) hz2]

/-- The last payload at an index: entry `(0, r, j)` is entry `(r, j)` of the matrix plus entry `j` of the bias row. -/
theorem pay1_apply (A : FVec F S256x768 .f32) (b : Vec F S1x768 .f32) (y : S1x256x768.Idx) :
    k0_pay1 A b y = FloatOps.addf (A (ix2 (y 1) (y 2))) (b (ix2 (0 : Fin 1) (y 2))) := by
  have hy0 : (y 0).val < 1 := (y 0).isLt
  have hy1 : (y 1).val < 256 := (y 1).isLt
  have hy2 : (y 2).val < 768 := (y 2).isLt
  show (shapeCast S1x256x768 (addf A (broadcastTo S256x768 (shapeCast S1x768 b shapeCasts_S1x768_S1x768) broadcasts_S1x768_S256x768))
    shapeCasts_S256x768_S1x256x768) y = _
  refine (shapeCast_apply _ _ y (ix2 (y 1) (y 2) : S256x768.Idx) (by
    rw [Shape.rowMajor_val_two, Shape.rowMajor_val_three]
    show (y 1).val * 768 + (y 2).val = ((y 0).val * 256 + (y 1).val) * 768 + (y 2).val; omega)).trans ?_
  show FloatOps.addf (A (ix2 (y 1) (y 2)))
    (broadcastTo S256x768 (shapeCast S1x768 b shapeCasts_S1x768_S1x768) broadcasts_S1x768_S256x768 (ix2 (y 1) (y 2))) = _
  congr 1
  refine (broadcastTo_apply _ _ (ix2 (y 1) (y 2) : S256x768.Idx) (ix2 (0 : Fin 1) (y 2) : S1x768.Idx) (fun a => match a with
    | ⟨0, _⟩ => by show 0 = (if (1 : Nat) = 1 then 0 else (y 1).val); rw [if_pos rfl]
    | ⟨1, _⟩ => by show (y 2).val = (if (768 : Nat) = 1 then 0 else (y 2).val); rw [if_neg (by decide)])).trans ?_
  exact shapeCast_apply _ _ _ _ rfl

/-- The body's block at an index. -/
theorem out_apply (x0 : Vec F S1x256x768 .bf16) (x1 : Vec F S768x2304 .bf16) (x2 : Vec F S1x2304 .f32) (x3 : Vec F S768x768 .bf16)
    (x4 : Vec F S1x768 .f32) (y : S1x256x768.Idx) :
    out0_5 x0 x1 x2 x3 x4 y = FloatOps.addf (KProj x0 x1 x2 x3 (ix2 (y 1) (y 2))) (x4 (ix2 (0 : Fin 1) (y 2))) := by
  rw [out_pay, pay1_apply]

end Pay

/-- THE OUTPUT AT AN INDEX: entry `(b, r, j)` is entry `(r, j)` of the projected attention output of batch element `b`
    plus entry `j` of the projection bias. -/
theorem KOut_apply (x : S32x256x768.Idx → EReal) (wq : S768x2304.Idx → EReal) (wp : S768x768.Idx → EReal)
    (bq : S2304.Idx → EReal) (bp : S768.Idx → EReal) (i : S32x256x768.Idx) :
    KOut x wq wp bq bp i
      = KProj (F := Ideal) (fun y : S1x256x768.Idx => x (ix3 (i 0) (y 1) (y 2))) wq
          (shapeCast S1x2304 bq shapeCasts_S2304_S1x2304) wp (ix2 (i 1) (i 2)) + bp (ix1 (i 2)) := by
  have hi2 : (i 2).val < 768 := (i 2).isLt
  unfold KOut
  rw [out_apply]
  show KProj (F := Ideal) (fun y : S1x256x768.Idx => x (ix3 (i 0) (y 1) (y 2))) wq
      (shapeCast S1x2304 bq shapeCasts_S2304_S1x2304) wp (ix2 (i 1) (i 2))
    + shapeCast S1x768 bp shapeCasts_S768_S1x768 (ix2 (0 : Fin 1) (i 2)) = _
  rw [shapeCast_apply bp shapeCasts_S768_S1x768 (ix2 (0 : Fin 1) (i 2)) (ix1 (i 2)) (by
    rw [Shape.rowMajor_val_one, Shape.rowMajor_val_two]
    show (i 2).val = 0 * 768 + (i 2).val; omega)]

end Cert.KernelIdeal.KerValue

end
-- ==== Proof.RefLin0.lean ====
/-
  The tiled linear kernel of region 0 of the reference program (`x @ w + b` by 512 × 256 output tiles, the contraction
  axis cut in three blocks of 256 accumulated in a scratch buffer): its proof data at a parameter `V`, the buffer contents
  when the region is entered; the body obligation; the region invariant entered from and left to the class invariant.
-/
import proofs.«175035_g2000205867183153_pallasbulk_1319_2_alg».proof.Proof.Gen.ReferenceIdeal.Launch
import proofs.«175035_g2000205867183153_pallasbulk_1319_2_alg».proof.Proof.Gen.ReferenceIdeal.Skeleton
import proofs.«175035_g2000205867183153_pallasbulk_1319_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Lin0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # The tiled linear kernel of region 0: the frame half, at the entry contents `V`

The grid is `(i, j, k)` with `k` innermost and of extent 3. At every point the body adds the product of the `x` tile `(i, k)`
and the `w` tile `(k, j)` to a scratch accumulator, which it zeroes first at `k = 0`; at `k = 2` it stores the accumulator
plus the bias row into the output tile `(i, j)`, which is idle at the other points. -/

section Region
variable (V : (c : Dev nD) → (b : Ref sig .tc) → Buf (Elt F) ((c : Thread nD τ).loc b))

/-! ## The body's rectangles and what its stores leave -/

abbrev rT : Rect S512x256 := Rect.unit (s := S512x256) ![0, 0] S512x256.size inb_S512x256_S512x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

theorem off0 : (![0, 0] : Fin 2 → Nat) = fun _ => 0 := by funext a; fin_cases a <;> rfl

/-- The accumulator after the zeroing store. -/
def zeroAcc : Vec F S512x256 .f32 := k0_pay1 (F := F)

/-- The accumulator after one accumulation step: what it held plus the product of the two tiles. -/
def stepAcc (a : Vec F S512x256 .f32) (x : Vec F S512x256 .f32) (w : Vec F S256x256 .f32) : Vec F S512x256 .f32 :=
  k0_pay2 a x w

/-- The output tile as stored at `k = 2`: the accumulator plus the bias row. -/
def outVal (a : Vec F S512x256 .f32) (b : Vec F S1x256 .f32) : Vec F S512x256 .f32 :=
  k0_pay3 a b

/-- A store through the whole rectangle covers the buffer. -/
theorem coverT (p0 : Vec F S512x256 .f32) (L : List (View.Piece (Elt F) S512x256 .f32)) (y : S512x256.Idx) :
    ∃ pc ∈ ((⟨rT, p0⟩ : View.Piece (Elt F) S512x256 .f32) :: L), y ∈ pc.1.set :=
  ⟨_, List.mem_cons_self, View.mem_set_unit_zero off0 inb_S512x256_S512x256_0_0 y⟩

/-- What a view reads after a last store through the whole rectangle is that store's payload. -/
theorem read_writes_T {sg : RefSig} {κ : Kind} {sp : Space} (v : View sg κ sp S512x256 .f32) (f : v.ty.Contents (Elt F)) (p0 : Vec F S512x256 .f32)
    (L : List (View.Piece (Elt F) S512x256 .f32)) :
    v.read (Elt F) (v.writes (Elt F) f ((⟨rT, p0⟩ : View.Piece (Elt F) S512x256 .f32) :: L)) = p0 := by
  rw [View.read_writes_eq_canon _ _ _ (coverT p0 L), View.canon_cons_unit_zero off0]

/-- A load through a whole rectangle reads the contents. -/
theorem readAt_T {sg : RefSig} {κ : Kind} {sp : Space} (v : View sg κ sp S512x256 .f32) (f : v.ty.Contents (Elt F)) :
    v.readAt (Elt F) rT.toLoadRect f = v.read (Elt F) f := (View.readAt_eq_ld v f rT).trans (View.ld_unit_zero off0 _ _)
theorem readAt_W {sg : RefSig} {κ : Kind} {sp : Space} (v : View sg κ sp S256x256 .f32) (f : v.ty.Contents (Elt F)) :
    v.readAt (Elt F) rW.toLoadRect f = v.read (Elt F) f := (View.readAt_eq_ld v f rW).trans (View.ld_unit_zero off0 _ _)
theorem readAt_B {sg : RefSig} {κ : Kind} {sp : Space} (v : View sg κ sp S1x256 .f32) (f : v.ty.Contents (Elt F)) :
    v.readAt (Elt F) rB.toLoadRect f = v.read (Elt F) f := (View.readAt_eq_ld v f rB).trans (View.ld_unit_zero off0 _ _)
/-- A load through the whole rectangle after a store through it reads the store's payload. -/
theorem readCov_T {sg : RefSig} {κ : Kind} {sp : Space} (v : View sg κ sp S512x256 .f32) (p0 : Vec F S512x256 .f32) :
    v.readCov [(⟨rT, p0⟩ : View.Piece (Elt F) S512x256 .f32)] rT.toLoadRect = p0 := View.readCov_unit_zero v off0 _ p0

/-! ## The body's branch conditions -/

/-- The condition of the body's first `scf.if` (`k = 0`), from the grid coordinates. -/
abbrev cond1 (i : grid0.Coords) : Prop := (Scalar.cmpi .ne (Scalar.extui (Scalar.cmpi .eq (BitVec.ofNat 32 (i 2).val) 0#32)) 0#32) = 1#1
/-- The condition of the body's second `scf.if` (`k = 2`). -/
abbrev cond2 (i : grid0.Coords) : Prop := k0_cond2 i = 1#1

theorem hcond1 : ∀ t : Fin cfg0.N, cond1 (grid0.coords t) ↔ t.val % 3 = 0 :=
  (by decide +kernel : ∀ t : Fin grid0.N, cond1 (grid0.coords t) ↔ t.val % 3 = 0)
theorem hcond2 : ∀ t : Fin cfg0.N, cond2 (grid0.coords t) ↔ t.val % 3 = 2 :=
  (by decide +kernel : ∀ t : Fin grid0.N, cond2 (grid0.coords t) ↔ t.val % 3 = 2)

/-- The inputs are never idle. -/
theorem liveAt_0 : ∀ t : Fin cfg0.N, cfg0.idle 0 (grid0.coords t) = false := by decide +kernel
theorem liveAt_1 : ∀ t : Fin cfg0.N, cfg0.idle 1 (grid0.coords t) = false := by decide +kernel
theorem liveAt_2 : ∀ t : Fin cfg0.N, cfg0.idle 2 (grid0.coords t) = false := by decide +kernel
/-- The output is idle, and not written back, exactly off `k = 2`. -/
theorem idleAt_3 : ∀ t : Fin cfg0.N, t.val % 3 ≠ 2 → cfg0.idle 3 (grid0.coords t) = true := by decide +kernel
theorem noFlush_3 : ∀ t : Fin cfg0.N, t.val % 3 ≠ 2 → (cfg0.win 3).flush t = false := by decide +kernel
theorem liveAt_3 : ∀ t : Fin cfg0.N, t.val % 3 = 2 → cfg0.idle 3 (grid0.coords t) = false := by decide +kernel

/-! ## The body's triple, case by case -/

set_option maxHeartbeats 1000000 in
/-- `k = 0`: the scratch, at anything, is zeroed and then accumulated into; the output tile is handed back untouched. -/
theorem run_A (c : Dev nD) (E : Set ℕ) (i : grid0.Coords)
    (arg3 : Memref sig .tc .vmem S512x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S512x256 .f32) (harg6 : arg6.IsWhole)
    (arg7 : Memref sig .tc .vmem S512x256 .f32) (harg7 : arg7.IsWhole)
    (hc1 : cond1 i) (hc2 : ¬cond2 i)
    (x0 : Vec F S512x256 .f32) (x1 : Vec F S256x256 .f32) (x2 : Vec F S1x256 .f32) (xi3 : Vec F S512x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (stepAcc zeroAcc x0 x1)) -∗ K ⟨⟩))
      ⊢ wp frame (wpE (defs₀ (F := F)) Variants.none c none) E (cc0__linear_bias_kernel i arg3 harg3 arg4 harg4 arg5 harg5 arg6 harg6 arg7 harg7) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  sl_unfold_run_names
  rw [read_writes_T, readCov_T, readAt_T, readAt_W]
  rfl

set_option maxHeartbeats 1000000 in
/-- `k = 1`: the scratch is accumulated into; the output tile is handed back untouched. -/
theorem run_B (c : Dev nD) (E : Set ℕ) (i : grid0.Coords)
    (arg3 : Memref sig .tc .vmem S512x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S512x256 .f32) (harg6 : arg6.IsWhole)
    (arg7 : Memref sig .tc .vmem S512x256 .f32) (harg7 : arg7.IsWhole)
    (hc1 : ¬cond1 i) (hc2 : ¬cond2 i)
    (x0 : Vec F S512x256 .f32) (x1 : Vec F S256x256 .f32) (x2 : Vec F S1x256 .f32) (xi3 : Vec F S512x256 .f32) (xs : Vec F S512x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (stepAcc xs x0 x1)) -∗ K ⟨⟩))
      ⊢ wp frame (wpE (defs₀ (F := F)) Variants.none c none) E (cc0__linear_bias_kernel i arg3 harg3 arg4 harg4 arg5 harg5 arg6 harg6 arg7 harg7) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  rw [read_writes_T, readAt_T, readAt_T, readAt_W]
  rfl

set_option maxHeartbeats 1000000 in
/-- `k = 2`: the scratch is accumulated into, and the output tile, at anything, is stored whole from it and the bias row. -/
theorem run_C (c : Dev nD) (E : Set ℕ) (i : grid0.Coords)
    (arg3 : Memref sig .tc .vmem S512x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S512x256 .f32) (harg6 : arg6.IsWhole)
    (arg7 : Memref sig .tc .vmem S512x256 .f32) (harg7 : arg7.IsWhole)
    (hc1 : ¬cond1 i) (hc2 : cond2 i)
    (x0 : Vec F S512x256 .f32) (x1 : Vec F S256x256 .f32) (x2 : Vec F S1x256 .f32) (xs : Vec F S512x256 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (outVal (stepAcc xs x0 x1) x2)
            ∗ owns (c : Thread nD τ) arg7 fullShare (stepAcc xs x0 x1)) -∗ K ⟨⟩))
      ⊢ wp frame (wpE (defs₀ (F := F)) Variants.none c none) E (cc0__linear_bias_kernel i arg3 harg3 arg4 harg4 arg5 harg5 arg6 harg6 arg7 harg7) K := by
  simp only [cc0__linear_bias_kernel_eq_skeleton]; unfold cc0__linear_bias_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    rw [read_writes_T, readCov_T, readAt_T, readAt_T, readAt_W, readAt_B]
    rfl
  iexists _; isplitr
  swap; · iexact HS
  ipureintro
  sl_unfold_run_names
  rw [read_writes_T, readAt_T, readAt_T, readAt_W]
  rfl

/-! ## The windows' blocks -/

/-- Window `w`'s block at point `t`, read off its array as the region finds it (`V`). -/
noncomputable def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not, for any proof data
    whose array is `V`'s and whose body leaves the block in place (the bias row is fetched at `k = 0` only: its block
    index does not move along `k`). -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

theorem N_pos : 0 < cfg0.N := by have : cfg0.N = 432 := N_0; omega

/-- The grid point of a position counted past the grid's end (never read there). -/
noncomputable def pt (n : ℕ) : Fin cfg0.N := ⟨n % cfg0.N, Nat.mod_lt _ N_pos⟩

theorem pt_val (t : Fin cfg0.N) : pt t.val = t := Fin.ext (Nat.mod_eq_of_lt t.isLt)

/-- What the scratch accumulator holds AFTER the body at position `n`: at `k = 0` the step from zero, else the step from
    what the position before left: `0 + Σ_{k' ≤ k} x(i, k') · w(k', j)`, summed in the order of `k'`. -/
def accAfter (c : Dev nD) : ℕ → Vec F S512x256 .f32
  | 0 => stepAcc zeroAcc (iblk V c 0 (pt 0)) (iblk V c 1 (pt 0))
  | n + 1 => stepAcc (if (n + 1) % 3 = 0 then zeroAcc else accAfter c n) (iblk V c 0 (pt (n + 1))) (iblk V c 1 (pt (n + 1)))

theorem accAfter_succ (c : Dev nD) (n : ℕ) :
    accAfter V c (n + 1) = stepAcc (if (n + 1) % 3 = 0 then zeroAcc else accAfter V c n) (iblk V c 0 (pt (n + 1))) (iblk V c 1 (pt (n + 1))) := rfl

theorem accAfter_reset (c : Dev nD) (t : Fin cfg0.N) (h : t.val % 3 = 0) :
    accAfter V c t.val = stepAcc zeroAcc (iblk V c 0 t) (iblk V c 1 t) := by
  obtain ⟨n, hn⟩ := t
  cases n with
  | zero =>
    show accAfter V c 0 = _
    unfold accAfter; rw [show pt 0 = (⟨0, hn⟩ : Fin cfg0.N) from pt_val ⟨0, hn⟩]
  | succ n =>
    show accAfter V c (n + 1) = _
    rw [accAfter_succ, if_pos h, show pt (n + 1) = (⟨n + 1, hn⟩ : Fin cfg0.N) from pt_val ⟨n + 1, hn⟩]

theorem accAfter_step (c : Dev nD) (t : Fin cfg0.N) (h : t.val % 3 ≠ 0) :
    accAfter V c t.val = stepAcc (accAfter V c (t.val - 1)) (iblk V c 0 t) (iblk V c 1 t) := by
  obtain ⟨n, hn⟩ := t
  cases n with
  | zero => exact absurd (Nat.zero_mod _) h
  | succ n =>
    show accAfter V c (n + 1) = stepAcc (accAfter V c n) (iblk V c 0 ⟨n + 1, hn⟩) (iblk V c 1 ⟨n + 1, hn⟩)
    rw [accAfter_succ, if_neg h, show pt (n + 1) = (⟨n + 1, hn⟩ : Fin cfg0.N) from pt_val ⟨n + 1, hn⟩]

/-- The scratch accumulator BEFORE position `t` (named when `t` is not at the start of a `k`-run). -/
def acc (c : Dev nD) (t : Fin (cfg0.N + 1)) : Vec F S512x256 .f32 := accAfter V c (t.val - 1)

/-! ## The region invariant -/

/-- The scratch accumulator as a memref. -/
abbrev scM : Memref sig .tc .vmem S512x256 .f32 := Memref.whole cc0_scratch0

/-- Everything of the class invariant but the scratch accumulator: the other scoped buffers that are no staging buffer of
    this call, at some contents each, and the generator register at some state. -/
def PhiRest (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The region invariant before position `t`: the class invariant with the scratch accumulator split out and, inside a
    `k`-run, at the partial sum the positions before left. -/
def Phi (c : Dev nD) (t : Fin (cfg0.N + 1)) : sProp 𝕄 :=
  iprop(PhiRest (F := F) c ∗ ∃ d, owns (c : Thread nD τ) scM fullShare d ∗ ⌜t.val % 3 ≠ 0 → d = acc V c t⌝)

/-- The scoped rest with the scratch accumulator's buffer split out. -/
theorem scopedRest_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- The class invariant yields the scratch accumulator, at some contents, beside the rest; -/
theorem PhiA_split (c : Dev nD) :
    (Pipeline.ΦA spec0 c : sProp 𝕄) ⊢ iprop((∃ d, owns (c : Thread nD τ) scM fullShare d) ∗ PhiRest (F := F) c) := by
  unfold Pipeline.ΦA PhiRest
  rw [scopedRest_split]
  simp only [scM, owns_whole]
  iintro ⟨⟨Hs, Hr⟩, Hg⟩
  isplitl [Hs]
  · iexact Hs
  isplitl [Hr]
  · iexact Hr
  iexact Hg

/-- and is given back by them. -/
theorem PhiA_join (c : Dev nD) :
    iprop((∃ d, owns (c : Thread nD τ) scM fullShare d) ∗ PhiRest (F := F) c) ⊢ (Pipeline.ΦA spec0 c : sProp 𝕄) := by
  unfold Pipeline.ΦA PhiRest
  rw [scopedRest_split]
  simp only [scM, owns_whole]
  iintro ⟨Hs, Hr, Hg⟩
  isplitl [Hs Hr]
  · isplitl [Hs]
    · iexact Hs
    iexact Hr
  iexact Hg

/-! ## The pipeline's proof data -/

/-- The proof data of the pipeline on core `c`: the arrays as the region finds them (`V`); after the body at point `t` each
    input's buffer at its block and the output's at the accumulated sum plus the bias row (consulted at `k = 2` only: at the
    other points the window is idle and the buffer is handed back as found); the invariant `Phi`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outVal (accAfter V c t.val) (iblk V c 2 t)
  Φ t := Phi V c t
  q _ := fullShare
  owed _ := 0

/-- The proof data's arrays are the region-entry contents. -/
theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = outVal (accAfter V c t.val) (iblk V c 2 t) := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

theorem Phi_castSucc (c : Dev nD) (t : Fin cfg0.N) : (dat V c).Φ t.castSucc = Phi V c t.castSucc := by dsimp only [dat]
theorem Phi_succ (c : Dev nD) (t : Fin cfg0.N) : (dat V c).Φ t.succ = Phi V c t.succ := by dsimp only [dat]

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point: the inputs' memrefs hold their blocks; the closed forms of the two conditions say which of the
    three cases the point is in; the invariant hands the body the scratch accumulator (at the partial sum inside a `k`-run)
    and takes it back at this point's partial sum; at `k ≠ 2` the output's buffer is handed back as found. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl, Phi_castSucc, Phi_succ]
  rw [show (dat V c).leavesExact 0 t = owns (c : Thread nD τ) (st0_0 t) fullShare ((dat V c).after 0 t) from by
        unfold Dat.leavesExact; rw [liveAt_0 t], after_0,
      show (dat V c).leavesExact 1 t = owns (c : Thread nD τ) (st0_1 t) fullShare ((dat V c).after 1 t) from by
        unfold Dat.leavesExact; rw [liveAt_1 t], after_1,
      show (dat V c).leavesExact 2 t = owns (c : Thread nD τ) (st0_2 t) fullShare ((dat V c).after 2 t) from by
        unfold Dat.leavesExact; rw [liveAt_2 t], after_2]
  unfold Phi acc
  have hs : (t.succ : Fin (cfg0.N + 1)).val - 1 = t.val := by rw [Fin.val_succ]; omega
  have hcs : (t.castSucc : Fin (cfg0.N + 1)).val = t.val := Fin.coe_castSucc t
  by_cases h0 : t.val % 3 = 0
  · -- k = 0
    have h2 : ¬ t.val % 3 = 2 := by omega
    rw [Dat.leavesExact_idle (dat V c) 3 t (idleAt_3 t h2) (noFlush_3 t h2)]
    iintro ⟨⟨Hrest, ⟨%ds, HS, -⟩⟩, Ho, ⟨%d0, H0⟩, ⟨%d1, H1⟩, ⟨%d2, H2⟩, ⟨%d3, H3⟩⟩
    iapply (run_A c Set.univ (grid0.coords t) _ _ _ _ _ _ _ _ _ _ ((hcond1 t).mpr h0) (fun h => h2 ((hcond2 t).mp h))
      (iblk V c 0 t) (iblk V c 1 t) (iblk V c 2 t) ((dat V c).before 3 t d3) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [Hrest HS]
    · isplitl [Hrest]; · iexact Hrest
      iexists _; isplitl [HS]; · iexact HS
      ipureintro; intro _; rw [hs]; exact (accAfter_reset V c t h0).symm
    isplitl [Ho]; · iexact Ho
    isplitl [H0]; · iexact H0
    isplitl [H1]; · iexact H1
    isplitl [H2]; · iexact H2
    iexists _; iexact H3
  · by_cases h2 : t.val % 3 = 2
    · -- k = 2
      rw [show (dat V c).leavesExact 3 t = owns (c : Thread nD τ) (st0_3 t) fullShare ((dat V c).after 3 t) from by
        unfold Dat.leavesExact; rw [liveAt_3 t h2], after_3]
      iintro ⟨⟨Hrest, ⟨%ds, HS, %hds⟩⟩, Ho, ⟨%d0, H0⟩, ⟨%d1, H1⟩, ⟨%d2, H2⟩, ⟨%d3, H3⟩⟩
      have hds' : ds = accAfter V c (t.val - 1) := by rw [← hcs]; exact hds (by rw [hcs]; exact h0)
      subst hds'
      iapply (run_C c Set.univ (grid0.coords t) _ _ _ _ _ _ _ _ _ _ (fun h => h0 ((hcond1 t).mp h)) ((hcond2 t).mpr h2)
        (iblk V c 0 t) (iblk V c 1 t) (iblk V c 2 t) (accAfter V c (t.val - 1)) _)
      isplitl [H0]; · iexact H0
      isplitl [H1]; · iexact H1
      isplitl [H2]; · iexact H2
      isplitl [H3]; · iexists _; iexact H3
      isplitl [HS]; · iexact HS
      iintro ⟨H0, H1, H2, H3, HS⟩
      rw [← accAfter_step V c t h0]
      isplitl [Hrest HS]
      · isplitl [Hrest]; · iexact Hrest
        iexists _; isplitl [HS]; · iexact HS
        ipureintro; intro _; rw [hs]
      isplitl [Ho]; · iexact Ho
      isplitl [H0]; · iexact H0
      isplitl [H1]; · iexact H1
      isplitl [H2]; · iexact H2
      iexact H3
    · -- k = 1
      rw [Dat.leavesExact_idle (dat V c) 3 t (idleAt_3 t h2) (noFlush_3 t h2)]
      iintro ⟨⟨Hrest, ⟨%ds, HS, %hds⟩⟩, Ho, ⟨%d0, H0⟩, ⟨%d1, H1⟩, ⟨%d2, H2⟩, ⟨%d3, H3⟩⟩
      have hds' : ds = accAfter V c (t.val - 1) := by rw [← hcs]; exact hds (by rw [hcs]; exact h0)
      subst hds'
      iapply (run_B c Set.univ (grid0.coords t) _ _ _ _ _ _ _ _ _ _ (fun h => h0 ((hcond1 t).mp h)) (fun h => h2 ((hcond2 t).mp h))
        (iblk V c 0 t) (iblk V c 1 t) (iblk V c 2 t) ((dat V c).before 3 t d3) (accAfter V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      rw [← accAfter_step V c t h0]
      isplitl [Hrest HS]
      · isplitl [Hrest]; · iexact Hrest
        iexists _; isplitl [HS]; · iexact HS
        ipureintro; intro _; rw [hs]
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region (the class invariant) is the invariant before the first point. -/
theorem phi_in (c : Dev nD) : Pipeline.ΦA spec0 c ⊢ (dat V c).Φ 0 := by
  rw [show (dat V c).Φ 0 = Phi V c 0 from by dsimp only [dat]]
  refine (PhiA_split c).trans ?_
  unfold Phi
  iintro ⟨⟨%d, HS⟩, Hr⟩
  isplitl [Hr]
  · iexact Hr
  iexists d; isplitl [HS]
  · iexact HS
  ipureintro; intro h; exact absurd (Nat.zero_mod 3) h

/-- The invariant after the last point gives the class invariant back: the accumulator's contents are forgotten. -/
theorem phi_out (c : Dev nD) : (dat V c).Φ (Fin.last _) ⊢ Pipeline.ΦA spec0 c := by
  rw [show (dat V c).Φ (Fin.last _) = Phi V c (Fin.last _) from by dsimp only [dat]]
  refine BIBase.Entails.trans ?_ (PhiA_join c)
  unfold Phi
  iintro ⟨Hr, ⟨%d, HS, -⟩⟩
  isplitl [HS]
  · iexists d; iexact HS
  iexact Hr

end Region
end Cert.ReferenceIdeal.Lin0
end
-- ==== Proof.RefAttn.lean ====
/- The attention region of the reference program (region 1 of @main, `cc1__mha_kernel` on the grid (32,)), at a
   parameter `V`: the TensorCore's buffer contents when the region is entered. Window 0 is the input block
   1x256x2304 of the array 32x256x2304 at block index (b,0,0), window 1 the output block 1x256x768 of the array
   32x256x768 at (b,0,0). The body loads the whole input block, computes, and stores the whole output block: one
   control case, no scratch. Here: each window's block at a point, the output buffer after the body as a function of
   the input block, the body's triple, the pipeline's proof data and its body obligation, and the value the region
   leaves in its output array: batch row `b` of the result is the body's function of batch row `b` of the input. -/
import proofs.«175035_g2000205867183153_pallasbulk_1319_2_alg».proof.Proof.Gen.ReferenceIdeal.Launch
import proofs.«175035_g2000205867183153_pallasbulk_1319_2_alg».proof.Proof.Gen.ReferenceIdeal.Skeleton
import proofs.«175035_g2000205867183153_pallasbulk_1319_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdxCoords
import Idealize.ShloMosaic.Lib.Ring
import Idealize.ShloMosaic.Lib.Tactic

-- membership in a rectangle of these extents recurses once per coordinate of the long axes
set_option maxRecDepth 16384

noncomputable section

namespace Cert.ReferenceIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.ReferenceIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): the window is uncut and
    never idle, and where it is not fetched its block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole input block. -/
abbrev rIn : Rect S1x256x2304 := Rect.unit (s := S1x256x2304) ![0, 0, 0] S1x256x2304.size inb_S1x256x2304_S1x256x2304_0_0_0
/-- The whole output block. -/
abbrev rOut : Rect S1x256x768 := Rect.unit (s := S1x256x768) ![0, 0, 0] S1x256x768.size inb_S1x256x768_S1x256x768_0_0_0

/-! ## What the body leaves in the output window's buffer -/

/-- The value the body stores, as a function of the input block: the projections q (scaled), k, v of the loaded
    block, the twelve heads' normalised attention outputs, concatenated (the payloads are the skeleton's). -/
def pay (x0 : Vec F S1x256x2304 .f32) : Vec F S1x256x768 .f32 :=
  k1_pay1 (k1_pay3 (View.ld x0 rIn)) (k1_pay4 (View.ld x0 rIn)) (k1_pay5 (View.ld x0 rIn)) (k1_pay6 (View.ld x0 rIn)) (k1_pay7 (View.ld x0 rIn)) (k1_pay10 (k1_pay8 (View.ld x0 rIn)) (k1_pay9 (View.ld x0 rIn))) (k1_pay11 (k1_pay3 (View.ld x0 rIn)) (k1_pay4 (View.ld x0 rIn)) (k1_pay5 (View.ld x0 rIn))) (k1_pay12 (k1_pay3 (View.ld x0 rIn)) (k1_pay4 (View.ld x0 rIn)) (k1_pay5 (View.ld x0 rIn))) (k1_pay16 (k1_pay13 (k1_pay5 (View.ld x0 rIn))) (k1_pay14 (k1_pay3 (View.ld x0 rIn))) (k1_pay15 (k1_pay4 (View.ld x0 rIn)))) (k1_pay17 (k1_pay3 (View.ld x0 rIn)) (k1_pay4 (View.ld x0 rIn)) (k1_pay5 (View.ld x0 rIn))) (k1_pay18 (k1_pay3 (View.ld x0 rIn)) (k1_pay4 (View.ld x0 rIn)) (k1_pay5 (View.ld x0 rIn))) (k1_pay19 (k1_pay3 (View.ld x0 rIn)) (k1_pay4 (View.ld x0 rIn)) (k1_pay5 (View.ld x0 rIn))) (k1_pay20 (k1_pay3 (View.ld x0 rIn)) (k1_pay4 (View.ld x0 rIn)) (k1_pay5 (View.ld x0 rIn))) (k1_pay22 (k1_pay3 (View.ld x0 rIn)) (k1_pay5 (View.ld x0 rIn))) (k1_pay23 (k1_pay3 (View.ld x0 rIn)) (k1_pay4 (View.ld x0 rIn)) (k1_pay5 (View.ld x0 rIn))) (k1_pay24 (F := F))

/-- Window 1's staging buffer after the body, from the input window's block: its one store as a piece. -/
def out1 (x0 : Vec F S1x256x2304 .f32) : Vec F S1x256x768 .f32 :=
  View.canon [⟨rOut, pay x0⟩]

/-- The store tiles the buffer (checked by evaluation), so it covers it. -/
theorem cover1 (p0 : Vec F S1x256x768 .f32) (y : S1x256x768.Idx) :
    ∃ pc ∈ ([⟨rOut, p0⟩] : List (View.Piece (Elt F) S1x256x768 .f32)), y ∈ pc.1.set :=
  View.cover_of_tiled [⟨rOut, p0⟩] S1x256x768.size (by rfl) y

/-! ## The body's triple -/

set_option maxHeartbeats 1000000 in
/-- The kernel body on whole staging memrefs, the input's at read contents `x0` and the output's at anything, runs to
    the continuation holding the input's as it was and the output's at `out1 x0`: the printed functions are their
    skeletons, which the symbolic executor runs through every part call. -/
theorem sound_kernel (c : Dev nD) (E : Set ℕ) (i : grid1.Coords) (arg1 : Memref sig .tc .vmem S1x256x2304 .f32) (harg1 : arg1.IsWhole) (arg2 : Memref sig .tc .vmem S1x256x768 .f32) (harg2 : arg2.IsWhole)
    (x0 : Vec F S1x256x2304 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out1 x0)) -∗ K ⟨⟩))
      ⊢ wp frame (wpE (defs₀ (F := F)) Variants.none c none) E (cc1__mha_kernel i arg1 harg1 arg2 harg2) K := by
  simp only [cc1__mha_kernel_eq_skeleton]; unfold cc1__mha_kernel_skel
  simp only [k1_part1_eq_skeleton]; unfold k1_part1_skel
  simp only [k1_part2_eq_skeleton]; unfold k1_part2_skel
  simp only [k1_part3_eq_skeleton]; unfold k1_part3_skel
  simp only [k1_part4_eq_skeleton]; unfold k1_part4_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  try dsimp only
  unfold out1 pay
  exact View.read_writes_eq_canon _ _ _ (cover1 _)

/-! ## The pipeline's proof data -/

/-- The proof data of the attention pipeline on core `c`: the arrays as the region finds them (`V`); after the body
    at point `t` the input's buffer at its block and the output's at `out1` of the input block; the invariant: the
    scoped rest and the generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => out1 (iblk V c 0 t)
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = out1 (iblk V c 0 t) := by dsimp only [dat]

/-- The input's current staging buffer holds its block at every point, fetched there or not. -/
theorem before_0 (c : Dev nD) (t : Fin cfg1.N) (d) : (dat V c).before 0 t d = iblk V c 0 t :=
  before_0_of V (dat V c) (A_eq V c 0) (after_0 V c) t d

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t))

/-- The body at any point: the input's memref holds its block (`before_0`), so `sound_kernel` applies; the
    invariant and the core's `owes` pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ (grid1.coords t) _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant at the region's two ends -/

/-- The invariant at the first point and after the last is the class's: the scoped rest and the generator
    register, untouched. -/
theorem Phi_first (c : Dev nD) : (dat V c).Φ 0 = Pipeline.ΦA spec1 c := rfl
theorem Phi_last (c : Dev nD) : (dat V c).Φ (Fin.last _) = Pipeline.ΦA spec1 c := rfl
theorem phi_in (c : Dev nD) : (Pipeline.ΦA spec1 c : sProp 𝕄) ⊢ (dat V c).Φ 0 := .rfl
theorem phi_out (c : Dev nD) : (dat V c).Φ (Fin.last _) ⊢ (Pipeline.ΦA spec1 c : sProp 𝕄) := .rfl

/-! ## The value the region leaves in its arrays -/

/-- The grid is the 32 batch rows. -/
theorem N_eq : cfg1.N = 32 := N_1

/-- The printed index maps, decided over the grid: at point `t` both windows sit at block index `(t, 0, 0)`. -/
theorem idx_facts : ∀ t : Fin cfg1.N, win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0 :=
  (by decide +kernel : ∀ t : Fin grid1.N, _)

/-- The batch row of grid point `t`. -/
abbrev rowOf (t : Fin cfg1.N) : Fin 32 := ⟨t.val, N_eq ▸ t.isLt⟩

/-- Batch row `b` of the input array as the region finds it, as a block. -/
def rowIn (c : Dev nD) (b : Fin 32) : Vec F S1x256x2304 .f32 :=
  fun y => (V c (Pipeline.arrRef spec1 0) : S32x256x2304.Idx → Elt F .f32) (ix3 b (y 1) (y 2))

/-- What the output array ends holding: batch row `b` is the body's function of batch row `b` of the input. -/
def G (c : Dev nD) : S32x256x768.Idx → Elt F .f32 :=
  fun i => out1 (rowIn V c (i 0)) (ix3 (0 : Fin 1) (i 1) (i 2))

/-- The input window's block at point `t` is batch row `t` of the input array. -/
theorem iblk_eq (c : Dev nD) (t : Fin cfg1.N) : iblk V c 0 t = rowIn V c (rowOf t) := by
  obtain ⟨e0, e1, e2, -, -, -⟩ := idx_facts t
  funext y
  unfold iblk rowIn
  rw [View.read_apply]
  show (V c main_v25 : S32x256x2304.Idx → Elt F .f32) _ = (V c main_v25 : S32x256x2304.Idx → Elt F .f32) _
  congr 1
  funext a
  apply Fin.ext
  match a with
  | ⟨0, _⟩ => show win1_0.index t (0 : Fin 3) * 1 + 1 * (y 0).val = t.val; have hy : (y 0).val < 1 := (y 0).isLt; omega
  | ⟨1, _⟩ => show win1_0.index t (1 : Fin 3) * 256 + 1 * (y 1).val = (y 1).val; omega
  | ⟨2, _⟩ => show win1_0.index t (2 : Fin 3) * 2304 + 1 * (y 2).val = (y 2).val; omega

/-- A family of output blocks, one per batch row, read at point `t`'s row is block `t` of the array that
    stacks the family along the batch axis. -/
theorem cut_eq_read (g : Fin 32 → S1x256x768.Idx → Elt F .f32) (t : Fin cfg1.N) :
    (cfg1.win 1).cut (grid1.coords t) (g (rowOf t))
      = ((cfg1.win 1).blk t).view.read (Elt F) (fun i : S32x256x768.Idx => g (i 0) (ix3 (0 : Fin 1) (i 1) (i 2))) := by
  obtain ⟨-, -, -, e0, e1, e2⟩ := idx_facts t
  funext j
  rw [View.read_apply]
  show g (rowOf t) j = g ((((cfg1.win 1).blk t).view.emb j) 0) (ix3 (0 : Fin 1) ((((cfg1.win 1).blk t).view.emb j) 1) ((((cfg1.win 1).blk t).view.emb j) 2))
  have h0 : (((cfg1.win 1).blk t).view.emb j) 0 = rowOf t := by
    apply Fin.ext
    show win1_1.index t (0 : Fin 3) * 1 + 1 * (j 0).val = t.val
    have hj : (j 0).val < 1 := (j 0).isLt
    omega
  have h1 : (ix3 (0 : Fin 1) ((((cfg1.win 1).blk t).view.emb j) 1) ((((cfg1.win 1).blk t).view.emb j) 2) : S1x256x768.Idx) = j := by
    funext a
    apply Fin.ext
    match a with
    | ⟨0, _⟩ => show (0 : Nat) = (j 0).val; have hj : (j 0).val < 1 := (j 0).isLt; omega
    | ⟨1, _⟩ => show win1_1.index t (1 : Fin 3) * 256 + 1 * (j 1).val = (j 1).val; omega
    | ⟨2, _⟩ => show win1_1.index t (2 : Fin 3) * 768 + 1 * (j 2).val = (j 2).val; omega
  rw [h0, h1]

/-- What point `t` writes back is block `t` of `G`. -/
theorem flushed_eq (c : Dev nD) (t : Fin cfg1.N) :
    (dat V c).flushed 1 t = ((cfg1.win 1).blk t).view.read (Elt F) (G V c) := by
  show (cfg1.win 1).cut (grid1.coords t) ((dat V c).after 1 t) = _
  rw [after_1, iblk_eq]
  unfold G
  exact cut_eq_read (fun b => out1 (rowIn V c b)) t

/-- An index of the output array is in point `t`'s block iff each coordinate is in the block's range on its axis. -/
theorem mem_blk (t : Fin cfg1.N) (i : S32x256x768.Idx) :
    i ∈ ((cfg1.win 1).blk t).view.set ↔ ∀ a : Fin 3, win1_1.index t a * S1x256x768.size a ≤ (i a).val ∧ (i a).val < win1_1.index t a * S1x256x768.size a + S1x256x768.size a := by
  show i ∈ ((View.whole main_v26).slice (win1_1.rect t)).set ↔ _
  rw [View.set_slice_whole, Rect.mem_set_unit]
  exact Iff.rfl

/-- Every index of the output array is in the block of the point of its batch row. -/
theorem covered (i : S32x256x768.Idx) :
    ∃ t : Fin cfg1.N, (cfg1.win 1).flush t = true ∧ i ∈ ((cfg1.win 1).blk t).view.set := by
  have hN : (i 0).val < cfg1.N := N_eq ▸ (i 0).isLt
  obtain ⟨-, -, -, e0', e1, e2⟩ := idx_facts ⟨(i 0).val, hN⟩
  have e0 : win1_1.index ⟨(i 0).val, hN⟩ (0 : Fin 3) = (i 0).val := e0'
  refine ⟨⟨(i 0).val, hN⟩, flush1_1 _, ?_⟩
  rw [mem_blk]
  intro a
  have h1 : (i 1 : Nat) < 256 := (i 1).isLt
  have h2 : (i 2 : Nat) < 768 := (i 2).isLt
  match a with
  | ⟨0, _⟩ => show win1_1.index ⟨(i 0).val, hN⟩ (0 : Fin 3) * 1 ≤ (i 0 : Nat) ∧ (i 0 : Nat) < win1_1.index ⟨(i 0).val, hN⟩ (0 : Fin 3) * 1 + 1; rw [e0]; omega
  | ⟨1, _⟩ => show win1_1.index ⟨(i 0).val, hN⟩ (1 : Fin 3) * 256 ≤ (i 1 : Nat) ∧ (i 1 : Nat) < win1_1.index ⟨(i 0).val, hN⟩ (1 : Fin 3) * 256 + 256; rw [e1]; omega
  | ⟨2, _⟩ => show win1_1.index ⟨(i 0).val, hN⟩ (2 : Fin 3) * 768 ≤ (i 2 : Nat) ∧ (i 2 : Nat) < win1_1.index ⟨(i 0).val, hN⟩ (2 : Fin 3) * 768 + 768; rw [e2]; omega

/-- THE OUTPUT ARRAY after the region: batch row `b` holds the body's function of batch row `b` of the input
    array as the region found it. -/
theorem arr_out (c : Dev nD) : (dat V c).arrAt 1 cfg1.N = G V c :=
  (dat V c).arrAt_eq_of_cover 1 (G V c) (fun t _ => flushed_eq V c t) covered

/-- The input array is as the region found it. -/
theorem arr_in (c : Dev nD) : (dat V c).arrAt 0 cfg1.N = V c (Pipeline.arrRef spec1 0) := by
  rw [(dat V c).arrAt_in 0 rfl cfg1.N, A_eq]

end Cert.ReferenceIdeal.Attn

end
-- ==== Proof.RefLin2.lean ====
/-
  The tiled linear kernel of region 2 of the reference program (`x @ w + b` by 512 × 256 output tiles, the contraction
  axis cut in three blocks of 256 accumulated in a scratch buffer): its proof data at a parameter `V`, the buffer contents
  when the region is entered; the body obligation; the region invariant entered from and left to the class invariant.
-/
import proofs.«175035_g2000205867183153_pallasbulk_1319_2_alg».proof.Proof.Gen.ReferenceIdeal.Launch
import proofs.«175035_g2000205867183153_pallasbulk_1319_2_alg».proof.Proof.Gen.ReferenceIdeal.Skeleton
import proofs.«175035_g2000205867183153_pallasbulk_1319_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.ReferenceIdeal.Lin2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! # The tiled linear kernel of region 2: the frame half, at the entry contents `V`

The grid is `(i, j, k)` with `k` innermost and of extent 3. At every point the body adds the product of the `x` tile `(i, k)`
and the `w` tile `(k, j)` to a scratch accumulator, which it zeroes first at `k = 0`; at `k = 2` it stores the accumulator
plus the bias row into the output tile `(i, j)`, which is idle at the other points. -/

section Region
variable (V : (c : Dev nD) → (b : Ref sig .tc) → Buf (Elt F) ((c : Thread nD τ).loc b))

/-! ## The body's rectangles and what its stores leave -/

abbrev rT : Rect S512x256 := Rect.unit (s := S512x256) ![0, 0] S512x256.size inb_S512x256_S512x256_0_0
abbrev rW : Rect S256x256 := Rect.unit (s := S256x256) ![0, 0] S256x256.size inb_S256x256_S256x256_0_0
abbrev rB : Rect S1x256 := Rect.unit (s := S1x256) ![0, 0] S1x256.size inb_S1x256_S1x256_0_0

theorem off0 : (![0, 0] : Fin 2 → Nat) = fun _ => 0 := by funext a; fin_cases a <;> rfl

/-- The accumulator after the zeroing store. -/
def zeroAcc : Vec F S512x256 .f32 := k2_pay1 (F := F)

/-- The accumulator after one accumulation step: what it held plus the product of the two tiles. -/
def stepAcc (a : Vec F S512x256 .f32) (x : Vec F S512x256 .f32) (w : Vec F S256x256 .f32) : Vec F S512x256 .f32 :=
  k2_pay2 a x w

/-- The output tile as stored at `k = 2`: the accumulator plus the bias row. -/
def outVal (a : Vec F S512x256 .f32) (b : Vec F S1x256 .f32) : Vec F S512x256 .f32 :=
  k2_pay3 a b

/-- A store through the whole rectangle covers the buffer. -/
theorem coverT (p0 : Vec F S512x256 .f32) (L : List (View.Piece (Elt F) S512x256 .f32)) (y : S512x256.Idx) :
    ∃ pc ∈ ((⟨rT, p0⟩ : View.Piece (Elt F) S512x256 .f32) :: L), y ∈ pc.1.set :=
  ⟨_, List.mem_cons_self, View.mem_set_unit_zero off0 inb_S512x256_S512x256_0_0 y⟩

/-- What a view reads after a last store through the whole rectangle is that store's payload. -/
theorem read_writes_T {sg : RefSig} {κ : Kind} {sp : Space} (v : View sg κ sp S512x256 .f32) (f : v.ty.Contents (Elt F)) (p0 : Vec F S512x256 .f32)
    (L : List (View.Piece (Elt F) S512x256 .f32)) :
    v.read (Elt F) (v.writes (Elt F) f ((⟨rT, p0⟩ : View.Piece (Elt F) S512x256 .f32) :: L)) = p0 := by
  rw [View.read_writes_eq_canon _ _ _ (coverT p0 L), View.canon_cons_unit_zero off0]

/-- A load through a whole rectangle reads the contents. -/
theorem readAt_T {sg : RefSig} {κ : Kind} {sp : Space} (v : View sg κ sp S512x256 .f32) (f : v.ty.Contents (Elt F)) :
    v.readAt (Elt F) rT.toLoadRect f = v.read (Elt F) f := (View.readAt_eq_ld v f rT).trans (View.ld_unit_zero off0 _ _)
theorem readAt_W {sg : RefSig} {κ : Kind} {sp : Space} (v : View sg κ sp S256x256 .f32) (f : v.ty.Contents (Elt F)) :
    v.readAt (Elt F) rW.toLoadRect f = v.read (Elt F) f := (View.readAt_eq_ld v f rW).trans (View.ld_unit_zero off0 _ _)
theorem readAt_B {sg : RefSig} {κ : Kind} {sp : Space} (v : View sg κ sp S1x256 .f32) (f : v.ty.Contents (Elt F)) :
    v.readAt (Elt F) rB.toLoadRect f = v.read (Elt F) f := (View.readAt_eq_ld v f rB).trans (View.ld_unit_zero off0 _ _)
/-- A load through the whole rectangle after a store through it reads the store's payload. -/
theorem readCov_T {sg : RefSig} {κ : Kind} {sp : Space} (v : View sg κ sp S512x256 .f32) (p0 : Vec F S512x256 .f32) :
    v.readCov [(⟨rT, p0⟩ : View.Piece (Elt F) S512x256 .f32)] rT.toLoadRect = p0 := View.readCov_unit_zero v off0 _ p0

/-! ## The body's branch conditions -/

/-- The condition of the body's first `scf.if` (`k = 0`), from the grid coordinates. -/
abbrev cond1 (i : grid2.Coords) : Prop := (Scalar.cmpi .ne (Scalar.extui (Scalar.cmpi .eq (BitVec.ofNat 32 (i 2).val) 0#32)) 0#32) = 1#1
/-- The condition of the body's second `scf.if` (`k = 2`). -/
abbrev cond2 (i : grid2.Coords) : Prop := k2_cond2 i = 1#1

theorem hcond1 : ∀ t : Fin cfg2.N, cond1 (grid2.coords t) ↔ t.val % 3 = 0 :=
  (by decide +kernel : ∀ t : Fin grid2.N, cond1 (grid2.coords t) ↔ t.val % 3 = 0)
theorem hcond2 : ∀ t : Fin cfg2.N, cond2 (grid2.coords t) ↔ t.val % 3 = 2 :=
  (by decide +kernel : ∀ t : Fin grid2.N, cond2 (grid2.coords t) ↔ t.val % 3 = 2)

/-- The inputs are never idle. -/
theorem liveAt_0 : ∀ t : Fin cfg2.N, cfg2.idle 0 (grid2.coords t) = false := by decide +kernel
theorem liveAt_1 : ∀ t : Fin cfg2.N, cfg2.idle 1 (grid2.coords t) = false := by decide +kernel
theorem liveAt_2 : ∀ t : Fin cfg2.N, cfg2.idle 2 (grid2.coords t) = false := by decide +kernel
/-- The output is idle, and not written back, exactly off `k = 2`. -/
theorem idleAt_3 : ∀ t : Fin cfg2.N, t.val % 3 ≠ 2 → cfg2.idle 3 (grid2.coords t) = true := by decide +kernel
theorem noFlush_3 : ∀ t : Fin cfg2.N, t.val % 3 ≠ 2 → (cfg2.win 3).flush t = false := by decide +kernel
theorem liveAt_3 : ∀ t : Fin cfg2.N, t.val % 3 = 2 → cfg2.idle 3 (grid2.coords t) = false := by decide +kernel

/-! ## The body's triple, case by case -/

set_option maxHeartbeats 1000000 in
/-- `k = 0`: the scratch, at anything, is zeroed and then accumulated into; the output tile is handed back untouched. -/
theorem run_A (c : Dev nD) (E : Set ℕ) (i : grid2.Coords)
    (arg3 : Memref sig .tc .vmem S512x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S512x256 .f32) (harg6 : arg6.IsWhole)
    (arg7 : Memref sig .tc .vmem S512x256 .f32) (harg7 : arg7.IsWhole)
    (hc1 : cond1 i) (hc2 : ¬cond2 i)
    (x0 : Vec F S512x256 .f32) (x1 : Vec F S256x256 .f32) (x2 : Vec F S1x256 .f32) (xi3 : Vec F S512x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (stepAcc zeroAcc x0 x1)) -∗ K ⟨⟩))
      ⊢ wp frame (wpE (defs₀ (F := F)) Variants.none c none) E (cc2__linear_bias_kernel i arg3 harg3 arg4 harg4 arg5 harg5 arg6 harg6 arg7 harg7) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  subst hf0; subst hf1; subst hf2; subst hf3
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  sl_unfold_run_names
  rw [read_writes_T, readCov_T, readAt_T, readAt_W]
  rfl

set_option maxHeartbeats 1000000 in
/-- `k = 1`: the scratch is accumulated into; the output tile is handed back untouched. -/
theorem run_B (c : Dev nD) (E : Set ℕ) (i : grid2.Coords)
    (arg3 : Memref sig .tc .vmem S512x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S512x256 .f32) (harg6 : arg6.IsWhole)
    (arg7 : Memref sig .tc .vmem S512x256 .f32) (harg7 : arg7.IsWhole)
    (hc1 : ¬cond1 i) (hc2 : ¬cond2 i)
    (x0 : Vec F S512x256 .f32) (x1 : Vec F S256x256 .f32) (x2 : Vec F S1x256 .f32) (xi3 : Vec F S512x256 .f32) (xs : Vec F S512x256 .f32)
    (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare xi3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare xi3
            ∗ owns (c : Thread nD τ) arg7 fullShare (stepAcc xs x0 x1)) -∗ K ⟨⟩))
      ⊢ wp frame (wpE (defs₀ (F := F)) Variants.none c none) E (cc2__linear_bias_kernel i arg3 harg3 arg4 harg4 arg5 harg5 arg6 harg6 arg7 harg7) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact HS
  ipureintro
  rw [read_writes_T, readAt_T, readAt_T, readAt_W]
  rfl

set_option maxHeartbeats 1000000 in
/-- `k = 2`: the scratch is accumulated into, and the output tile, at anything, is stored whole from it and the bias row. -/
theorem run_C (c : Dev nD) (E : Set ℕ) (i : grid2.Coords)
    (arg3 : Memref sig .tc .vmem S512x256 .f32) (harg3 : arg3.IsWhole) (arg4 : Memref sig .tc .vmem S256x256 .f32) (harg4 : arg4.IsWhole)
    (arg5 : Memref sig .tc .vmem S1x256 .f32) (harg5 : arg5.IsWhole) (arg6 : Memref sig .tc .vmem S512x256 .f32) (harg6 : arg6.IsWhole)
    (arg7 : Memref sig .tc .vmem S512x256 .f32) (harg7 : arg7.IsWhole)
    (hc1 : ¬cond1 i) (hc2 : cond2 i)
    (x0 : Vec F S512x256 .f32) (x1 : Vec F S256x256 .f32) (x2 : Vec F S1x256 .f32) (xs : Vec F S512x256 .f32)
    (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (outVal (stepAcc xs x0 x1) x2)
            ∗ owns (c : Thread nD τ) arg7 fullShare (stepAcc xs x0 x1)) -∗ K ⟨⟩))
      ⊢ wp frame (wpE (defs₀ (F := F)) Variants.none c none) E (cc2__linear_bias_kernel i arg3 harg3 arg4 harg4 arg5 harg5 arg6 harg6 arg7 harg7) K := by
  simp only [cc2__linear_bias_kernel_eq_skeleton]; unfold cc2__linear_bias_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  subst hf0; subst hf1; subst hf2; subst hfs
  sl_exec (disch := first | exact hc1 | exact hc2)
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]
  · iexists _; isplitr
    swap; · iexact H3
    ipureintro
    sl_unfold_run_names
    rw [read_writes_T, readCov_T, readAt_T, readAt_T, readAt_W, readAt_B]
    rfl
  iexists _; isplitr
  swap; · iexact HS
  ipureintro
  sl_unfold_run_names
  rw [read_writes_T, readAt_T, readAt_T, readAt_W]
  rfl

/-! ## The windows' blocks -/

/-- Window `w`'s block at point `t`, read off its array as the region finds it (`V`). -/
noncomputable def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof data
    whose array is `V`'s and whose body leaves the block in place (the bias row is fetched at `k = 0` only: its block
    index does not move along `k`). -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The accumulation -/

theorem N_pos : 0 < cfg2.N := by have : cfg2.N = 144 := N_2; omega

/-- The grid point of a position counted past the grid's end (never read there). -/
noncomputable def pt (n : ℕ) : Fin cfg2.N := ⟨n % cfg2.N, Nat.mod_lt _ N_pos⟩

theorem pt_val (t : Fin cfg2.N) : pt t.val = t := Fin.ext (Nat.mod_eq_of_lt t.isLt)

/-- What the scratch accumulator holds AFTER the body at position `n`: at `k = 0` the step from zero, else the step from
    what the position before left: `0 + Σ_{k' ≤ k} x(i, k') · w(k', j)`, summed in the order of `k'`. -/
def accAfter (c : Dev nD) : ℕ → Vec F S512x256 .f32
  | 0 => stepAcc zeroAcc (iblk V c 0 (pt 0)) (iblk V c 1 (pt 0))
  | n + 1 => stepAcc (if (n + 1) % 3 = 0 then zeroAcc else accAfter c n) (iblk V c 0 (pt (n + 1))) (iblk V c 1 (pt (n + 1)))

theorem accAfter_succ (c : Dev nD) (n : ℕ) :
    accAfter V c (n + 1) = stepAcc (if (n + 1) % 3 = 0 then zeroAcc else accAfter V c n) (iblk V c 0 (pt (n + 1))) (iblk V c 1 (pt (n + 1))) := rfl

theorem accAfter_reset (c : Dev nD) (t : Fin cfg2.N) (h : t.val % 3 = 0) :
    accAfter V c t.val = stepAcc zeroAcc (iblk V c 0 t) (iblk V c 1 t) := by
  obtain ⟨n, hn⟩ := t
  cases n with
  | zero =>
    show accAfter V c 0 = _
    unfold accAfter; rw [show pt 0 = (⟨0, hn⟩ : Fin cfg2.N) from pt_val ⟨0, hn⟩]
  | succ n =>
    show accAfter V c (n + 1) = _
    rw [accAfter_succ, if_pos h, show pt (n + 1) = (⟨n + 1, hn⟩ : Fin cfg2.N) from pt_val ⟨n + 1, hn⟩]

theorem accAfter_step (c : Dev nD) (t : Fin cfg2.N) (h : t.val % 3 ≠ 0) :
    accAfter V c t.val = stepAcc (accAfter V c (t.val - 1)) (iblk V c 0 t) (iblk V c 1 t) := by
  obtain ⟨n, hn⟩ := t
  cases n with
  | zero => exact absurd (Nat.zero_mod _) h
  | succ n =>
    show accAfter V c (n + 1) = stepAcc (accAfter V c n) (iblk V c 0 ⟨n + 1, hn⟩) (iblk V c 1 ⟨n + 1, hn⟩)
    rw [accAfter_succ, if_neg h, show pt (n + 1) = (⟨n + 1, hn⟩ : Fin cfg2.N) from pt_val ⟨n + 1, hn⟩]

/-- The scratch accumulator BEFORE position `t` (named when `t` is not at the start of a `k`-run). -/
def acc (c : Dev nD) (t : Fin (cfg2.N + 1)) : Vec F S512x256 .f32 := accAfter V c (t.val - 1)

/-! ## The region invariant -/

/-- The scratch accumulator as a memref. -/
abbrev scM : Memref sig .tc .vmem S512x256 .f32 := Memref.whole cc2_scratch0

/-- Everything of the class invariant but the scratch accumulator: the other scoped buffers that are no staging buffer of
    this call, at some contents each, and the generator register at some state. -/
def PhiRest (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The region invariant before position `t`: the class invariant with the scratch accumulator split out and, inside a
    `k`-run, at the partial sum the positions before left. -/
def Phi (c : Dev nD) (t : Fin (cfg2.N + 1)) : sProp 𝕄 :=
  iprop(PhiRest (F := F) c ∗ ∃ d, owns (c : Thread nD τ) scM fullShare d ∗ ⌜t.val % 3 ≠ 0 → d = acc V c t⌝)

/-- The scoped rest with the scratch accumulator's buffer split out. -/
theorem scopedRest_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The class invariant yields the scratch accumulator, at some contents, beside the rest; -/
theorem PhiA_split (c : Dev nD) :
    (Pipeline.ΦA spec2 c : sProp 𝕄) ⊢ iprop((∃ d, owns (c : Thread nD τ) scM fullShare d) ∗ PhiRest (F := F) c) := by
  unfold Pipeline.ΦA PhiRest
  rw [scopedRest_split]
  simp only [scM, owns_whole]
  iintro ⟨⟨Hs, Hr⟩, Hg⟩
  isplitl [Hs]
  · iexact Hs
  isplitl [Hr]
  · iexact Hr
  iexact Hg

/-- and is given back by them. -/
theorem PhiA_join (c : Dev nD) :
    iprop((∃ d, owns (c : Thread nD τ) scM fullShare d) ∗ PhiRest (F := F) c) ⊢ (Pipeline.ΦA spec2 c : sProp 𝕄) := by
  unfold Pipeline.ΦA PhiRest
  rw [scopedRest_split]
  simp only [scM, owns_whole]
  iintro ⟨Hs, Hr, Hg⟩
  isplitl [Hs Hr]
  · isplitl [Hs]
    · iexact Hs
    iexact Hr
  iexact Hg

/-! ## The pipeline's proof data -/

/-- The proof data of the pipeline on core `c`: the arrays as the region finds them (`V`); after the body at point `t` each
    input's buffer at its block and the output's at the accumulated sum plus the bias row (consulted at `k = 2` only: at the
    other points the window is idle and the buffer is handed back as found); the invariant `Phi`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => outVal (accAfter V c t.val) (iblk V c 2 t)
  Φ t := Phi V c t
  q _ := fullShare
  owed _ := 0

/-- The proof data's arrays are the region-entry contents. -/
theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = outVal (accAfter V c t.val) (iblk V c 2 t) := by dsimp only [dat]

theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

theorem Phi_castSucc (c : Dev nD) (t : Fin cfg2.N) : (dat V c).Φ t.castSucc = Phi V c t.castSucc := by dsimp only [dat]
theorem Phi_succ (c : Dev nD) (t : Fin cfg2.N) : (dat V c).Φ t.succ = Phi V c t.succ := by dsimp only [dat]

/-! ## The body obligation, at a generic point -/

def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d)))

def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4000000 in
/-- The body at any point: the inputs' memrefs hold their blocks; the closed forms of the two conditions say which of the
    three cases the point is in; the invariant hands the body the scratch accumulator (at the partial sum inside a `k`-run)
    and takes it back at this point's partial sum; at `k ≠ 2` the output's buffer is handed back as found. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl, Phi_castSucc, Phi_succ]
  rw [show (dat V c).leavesExact 0 t = owns (c : Thread nD τ) (st2_0 t) fullShare ((dat V c).after 0 t) from by
        unfold Dat.leavesExact; rw [liveAt_0 t], after_0,
      show (dat V c).leavesExact 1 t = owns (c : Thread nD τ) (st2_1 t) fullShare ((dat V c).after 1 t) from by
        unfold Dat.leavesExact; rw [liveAt_1 t], after_1,
      show (dat V c).leavesExact 2 t = owns (c : Thread nD τ) (st2_2 t) fullShare ((dat V c).after 2 t) from by
        unfold Dat.leavesExact; rw [liveAt_2 t], after_2]
  unfold Phi acc
  have hs : (t.succ : Fin (cfg2.N + 1)).val - 1 = t.val := by rw [Fin.val_succ]; omega
  have hcs : (t.castSucc : Fin (cfg2.N + 1)).val = t.val := Fin.coe_castSucc t
  by_cases h0 : t.val % 3 = 0
  · -- k = 0
    have h2 : ¬ t.val % 3 = 2 := by omega
    rw [Dat.leavesExact_idle (dat V c) 3 t (idleAt_3 t h2) (noFlush_3 t h2)]
    iintro ⟨⟨Hrest, ⟨%ds, HS, -⟩⟩, Ho, ⟨%d0, H0⟩, ⟨%d1, H1⟩, ⟨%d2, H2⟩, ⟨%d3, H3⟩⟩
    iapply (run_A c Set.univ (grid2.coords t) _ _ _ _ _ _ _ _ _ _ ((hcond1 t).mpr h0) (fun h => h2 ((hcond2 t).mp h))
      (iblk V c 0 t) (iblk V c 1 t) (iblk V c 2 t) ((dat V c).before 3 t d3) _)
    isplitl [H0]; · iexact H0
    isplitl [H1]; · iexact H1
    isplitl [H2]; · iexact H2
    isplitl [H3]; · iexact H3
    isplitl [HS]; · iexists _; iexact HS
    iintro ⟨H0, H1, H2, H3, HS⟩
    isplitl [Hrest HS]
    · isplitl [Hrest]; · iexact Hrest
      iexists _; isplitl [HS]; · iexact HS
      ipureintro; intro _; rw [hs]; exact (accAfter_reset V c t h0).symm
    isplitl [Ho]; · iexact Ho
    isplitl [H0]; · iexact H0
    isplitl [H1]; · iexact H1
    isplitl [H2]; · iexact H2
    iexists _; iexact H3
  · by_cases h2 : t.val % 3 = 2
    · -- k = 2
      rw [show (dat V c).leavesExact 3 t = owns (c : Thread nD τ) (st2_3 t) fullShare ((dat V c).after 3 t) from by
        unfold Dat.leavesExact; rw [liveAt_3 t h2], after_3]
      iintro ⟨⟨Hrest, ⟨%ds, HS, %hds⟩⟩, Ho, ⟨%d0, H0⟩, ⟨%d1, H1⟩, ⟨%d2, H2⟩, ⟨%d3, H3⟩⟩
      have hds' : ds = accAfter V c (t.val - 1) := by rw [← hcs]; exact hds (by rw [hcs]; exact h0)
      subst hds'
      iapply (run_C c Set.univ (grid2.coords t) _ _ _ _ _ _ _ _ _ _ (fun h => h0 ((hcond1 t).mp h)) ((hcond2 t).mpr h2)
        (iblk V c 0 t) (iblk V c 1 t) (iblk V c 2 t) (accAfter V c (t.val - 1)) _)
      isplitl [H0]; · iexact H0
      isplitl [H1]; · iexact H1
      isplitl [H2]; · iexact H2
      isplitl [H3]; · iexists _; iexact H3
      isplitl [HS]; · iexact HS
      iintro ⟨H0, H1, H2, H3, HS⟩
      rw [← accAfter_step V c t h0]
      isplitl [Hrest HS]
      · isplitl [Hrest]; · iexact Hrest
        iexists _; isplitl [HS]; · iexact HS
        ipureintro; intro _; rw [hs]
      isplitl [Ho]; · iexact Ho
      isplitl [H0]; · iexact H0
      isplitl [H1]; · iexact H1
      isplitl [H2]; · iexact H2
      iexact H3
    · -- k = 1
      rw [Dat.leavesExact_idle (dat V c) 3 t (idleAt_3 t h2) (noFlush_3 t h2)]
      iintro ⟨⟨Hrest, ⟨%ds, HS, %hds⟩⟩, Ho, ⟨%d0, H0⟩, ⟨%d1, H1⟩, ⟨%d2, H2⟩, ⟨%d3, H3⟩⟩
      have hds' : ds = accAfter V c (t.val - 1) := by rw [← hcs]; exact hds (by rw [hcs]; exact h0)
      subst hds'
      iapply (run_B c Set.univ (grid2.coords t) _ _ _ _ _ _ _ _ _ _ (fun h => h0 ((hcond1 t).mp h)) (fun h => h2 ((hcond2 t).mp h))
        (iblk V c 0 t) (iblk V c 1 t) (iblk V c 2 t) ((dat V c).before 3 t d3) (accAfter V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      rw [← accAfter_step V c t h0]
      isplitl [Hrest HS]
      · isplitl [Hrest]; · iexact Hrest
        iexists _; isplitl [HS]; · iexact HS
        ipureintro; intro _; rw [hs]
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W2, bigSep_W2]
  exact sound_body V c t

/-- What the launch hands the region (the class invariant) is the invariant before the first point. -/
theorem phi_in (c : Dev nD) : Pipeline.ΦA spec2 c ⊢ (dat V c).Φ 0 := by
  rw [show (dat V c).Φ 0 = Phi V c 0 from by dsimp only [dat]]
  refine (PhiA_split c).trans ?_
  unfold Phi
  iintro ⟨⟨%d, HS⟩, Hr⟩
  isplitl [Hr]
  · iexact Hr
  iexists d; isplitl [HS]
  · iexact HS
  ipureintro; intro h; exact absurd (Nat.zero_mod 3) h

/-- The invariant after the last point gives the class invariant back: the accumulator's contents are forgotten. -/
theorem phi_out (c : Dev nD) : (dat V c).Φ (Fin.last _) ⊢ Pipeline.ΦA spec2 c := by
  rw [show (dat V c).Φ (Fin.last _) = Phi V c (Fin.last _) from by dsimp only [dat]]
  refine BIBase.Entails.trans ?_ (PhiA_join c)
  unfold Phi
  iintro ⟨Hr, ⟨%d, HS, -⟩⟩
  isplitl [HS]
  · iexists d; iexact HS
  iexact Hr

end Region
end Cert.ReferenceIdeal.Lin2
end
-- ==== Proof.RefRun.lean ====
/-
  The reference program's run. Its @main is eleven stretches of host operations that draw and discard random
  initial weights (none of them touches an argument or a buffer a region reads), the two reshapes that flatten the
  input to 8192 rows and turn the first bias into a row, the first tiled linear region, a reshape to batches, the
  attention region, the reshapes back to rows and of the second bias, the second tiled linear region, and the final
  reshape to batches. The buffer contents at each boundary are folded from the launch memory: a host stretch
  rewrites the buffers it writes, a region replaces its output array by what its write-backs leave and keeps every
  other buffer. Every segment runs from the previous boundary's contents to the next; at the end the result buffer
  holds the fold's value and each argument, which no segment writes, its launch contents.
-/
import proofs.«175035_g2000205867183153_pallasbulk_1319_2_alg».proof.Proof.Gen.ReferenceIdeal.Launch
import proofs.«175035_g2000205867183153_pallasbulk_1319_2_alg».proof.Proof.Gen.ReferenceIdeal.Skeleton
import proofs.«175035_g2000205867183153_pallasbulk_1319_2_alg».proof.Proof.Gen.ReferenceIdeal.Points
import proofs.«175035_g2000205867183153_pallasbulk_1319_2_alg».proof.Proof.RefLin0
import proofs.«175035_g2000205867183153_pallasbulk_1319_2_alg».proof.Proof.RefAttn
import proofs.«175035_g2000205867183153_pallasbulk_1319_2_alg».proof.Proof.RefLin2
import Idealize.ShloMosaic.PureOps.Ideal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Host stretches: none allocates, and which buffers each leaves alone -/

theorem hostOps0_fresh : (hostOps0 : List (HloOp τ sig (Elt Ideal))).Forall fun op => op.fresh = ∅ :=
  List.forall_iff_forall_mem.mpr (by decide +kernel)
theorem hostOps0_1_fresh : (hostOps0_1 : List (HloOp τ sig (Elt Ideal))).Forall fun op => op.fresh = ∅ :=
  List.forall_iff_forall_mem.mpr (by decide +kernel)
theorem hostOps0_2_fresh : (hostOps0_2 : List (HloOp τ sig (Elt Ideal))).Forall fun op => op.fresh = ∅ :=
  List.forall_iff_forall_mem.mpr (by decide +kernel)
theorem hostOps0_3_fresh : (hostOps0_3 : List (HloOp τ sig (Elt Ideal))).Forall fun op => op.fresh = ∅ :=
  List.forall_iff_forall_mem.mpr (by decide +kernel)
theorem hostOps0_4_fresh : (hostOps0_4 : List (HloOp τ sig (Elt Ideal))).Forall fun op => op.fresh = ∅ :=
  List.forall_iff_forall_mem.mpr (by decide +kernel)
theorem hostOps0_5_fresh : (hostOps0_5 : List (HloOp τ sig (Elt Ideal))).Forall fun op => op.fresh = ∅ :=
  List.forall_iff_forall_mem.mpr (by decide +kernel)
theorem hostOps0_6_fresh : (hostOps0_6 : List (HloOp τ sig (Elt Ideal))).Forall fun op => op.fresh = ∅ :=
  List.forall_iff_forall_mem.mpr (by decide +kernel)
theorem hostOps0_7_fresh : (hostOps0_7 : List (HloOp τ sig (Elt Ideal))).Forall fun op => op.fresh = ∅ :=
  List.forall_iff_forall_mem.mpr (by decide +kernel)
theorem hostOps0_8_fresh : (hostOps0_8 : List (HloOp τ sig (Elt Ideal))).Forall fun op => op.fresh = ∅ :=
  List.forall_iff_forall_mem.mpr (by decide +kernel)
theorem hostOps0_9_fresh : (hostOps0_9 : List (HloOp τ sig (Elt Ideal))).Forall fun op => op.fresh = ∅ :=
  List.forall_iff_forall_mem.mpr (by decide +kernel)
theorem hostOps0_10_fresh : (hostOps0_10 : List (HloOp τ sig (Elt Ideal))).Forall fun op => op.fresh = ∅ :=
  List.forall_iff_forall_mem.mpr (by decide +kernel)
theorem hostOps1_fresh : (hostOps1 : List (HloOp τ sig (Elt Ideal))).Forall fun op => op.fresh = ∅ :=
  List.forall_iff_forall_mem.mpr (by decide +kernel)
theorem hostOps2_fresh : (hostOps2 : List (HloOp τ sig (Elt Ideal))).Forall fun op => op.fresh = ∅ :=
  List.forall_iff_forall_mem.mpr (by decide +kernel)
theorem hostOps3_fresh : (hostOps3 : List (HloOp τ sig (Elt Ideal))).Forall fun op => op.fresh = ∅ :=
  List.forall_iff_forall_mem.mpr (by decide +kernel)

/-- A buffer that no operation of a stretch writes keeps its contents through the stretch. -/
theorem keep (ops : List (HloOp τ sig (Elt Ideal))) (W : Valuation τ sig (Elt Ideal)) (b : Ref sig .tc)
    (h : ∀ op ∈ ops, (Proc.devRef (τ := τ) .tc b : DevRef τ sig) ∉ op.writes) :
    StableHlo.after ops W (Proc.devRef .tc b) = W (Proc.devRef .tc b) :=
  StableHlo.after_of_forall_not_mem ops W h

/-! ## The buffer contents at each segment boundary -/

/-- Core `c`'s buffers at launch. -/
abbrev W0 : Dev nD → Valuation τ sig (Elt Ideal) := fun c b => (s₀ m ρ).mem ((c : Dev nD), b)
abbrev W1 : Dev nD → Valuation τ sig (Elt Ideal) := fun c => StableHlo.after hostOps0 (W0 m ρ c)
abbrev W2 : Dev nD → Valuation τ sig (Elt Ideal) := fun c => StableHlo.after hostOps0_1 (W1 m ρ c)
abbrev W3 : Dev nD → Valuation τ sig (Elt Ideal) := fun c => StableHlo.after hostOps0_2 (W2 m ρ c)
abbrev W4 : Dev nD → Valuation τ sig (Elt Ideal) := fun c => StableHlo.after hostOps0_3 (W3 m ρ c)
abbrev W5 : Dev nD → Valuation τ sig (Elt Ideal) := fun c => StableHlo.after hostOps0_4 (W4 m ρ c)
abbrev W6 : Dev nD → Valuation τ sig (Elt Ideal) := fun c => StableHlo.after hostOps0_5 (W5 m ρ c)
abbrev W7 : Dev nD → Valuation τ sig (Elt Ideal) := fun c => StableHlo.after hostOps0_6 (W6 m ρ c)
abbrev W8 : Dev nD → Valuation τ sig (Elt Ideal) := fun c => StableHlo.after hostOps0_7 (W7 m ρ c)
abbrev W9 : Dev nD → Valuation τ sig (Elt Ideal) := fun c => StableHlo.after hostOps0_8 (W8 m ρ c)
abbrev W10 : Dev nD → Valuation τ sig (Elt Ideal) := fun c => StableHlo.after hostOps0_9 (W9 m ρ c)
abbrev W11 : Dev nD → Valuation τ sig (Elt Ideal) := fun c => StableHlo.after hostOps0_10 (W10 m ρ c)

/-- The TensorCore's references at region 0's entry. -/
abbrev V11 : (c : Dev nD) → (b : Ref sig .tc) → Buf (Elt Ideal) ((c : Thread nD τ).loc b) := fun c b => W11 m ρ c b
def W12 (c : Dev nD) : Valuation τ sig (Elt Ideal) :=
  Pipeline.withArrays spec0 c (W11 m ρ c) fun w => (Lin0.dat (V11 m ρ) c).arrAt w cfg0.N
theorem W12_arr (c : Dev nD) (w : Fin cfg0.W) :
    W12 m ρ c (Proc.devRef .tc (Pipeline.arrRef spec0 w)) = (Lin0.dat (V11 m ρ) c).arrAt w cfg0.N := by
  unfold W12; exact Pipeline.withArrays_arr spec0 launch0.win.arr_inj c _ _ w
theorem W12_of_ne (c : Dev nD) (b : Ref sig .tc) (hb : ∀ w, Pipeline.arrRef spec0 w ≠ b) :
    W12 m ρ c (Proc.devRef .tc b) = W11 m ρ c (Proc.devRef .tc b) := by
  unfold W12; exact Pipeline.withArrays_of_ne spec0 c _ _ b hb
abbrev V12 : (c : Dev nD) → (b : Ref sig .tc) → Buf (Elt Ideal) ((c : Thread nD τ).loc b) := fun c b => W12 m ρ c b
theorem hF0 (c : Dev nD) (w : Fin cfg0.W) : (Lin0.dat (V11 m ρ) c).arrAt w cfg0.N = V12 m ρ c (Pipeline.arrRef spec0 w) :=
  (W12_arr m ρ c w).symm
theorem hrest0 (c : Dev nD) : ∀ b, b ∉ Finset.univ.image (Pipeline.arrRef spec0) → V12 m ρ c b = V11 m ρ c b :=
  fun b hb => W12_of_ne m ρ c b fun w e => hb (Finset.mem_image.mpr ⟨w, Finset.mem_univ _, e⟩)

abbrev W13 : Dev nD → Valuation τ sig (Elt Ideal) := fun c => StableHlo.after hostOps1 (W12 m ρ c)
abbrev V13 : (c : Dev nD) → (b : Ref sig .tc) → Buf (Elt Ideal) ((c : Thread nD τ).loc b) := fun c b => W13 m ρ c b
def W14 (c : Dev nD) : Valuation τ sig (Elt Ideal) :=
  Pipeline.withArrays spec1 c (W13 m ρ c) fun w => (Attn.dat (V13 m ρ) c).arrAt w cfg1.N
theorem W14_arr (c : Dev nD) (w : Fin cfg1.W) :
    W14 m ρ c (Proc.devRef .tc (Pipeline.arrRef spec1 w)) = (Attn.dat (V13 m ρ) c).arrAt w cfg1.N := by
  unfold W14; exact Pipeline.withArrays_arr spec1 launch1.win.arr_inj c _ _ w
theorem W14_of_ne (c : Dev nD) (b : Ref sig .tc) (hb : ∀ w, Pipeline.arrRef spec1 w ≠ b) :
    W14 m ρ c (Proc.devRef .tc b) = W13 m ρ c (Proc.devRef .tc b) := by
  unfold W14; exact Pipeline.withArrays_of_ne spec1 c _ _ b hb
abbrev V14 : (c : Dev nD) → (b : Ref sig .tc) → Buf (Elt Ideal) ((c : Thread nD τ).loc b) := fun c b => W14 m ρ c b
theorem hF1 (c : Dev nD) (w : Fin cfg1.W) : (Attn.dat (V13 m ρ) c).arrAt w cfg1.N = V14 m ρ c (Pipeline.arrRef spec1 w) :=
  (W14_arr m ρ c w).symm
theorem hrest1 (c : Dev nD) : ∀ b, b ∉ Finset.univ.image (Pipeline.arrRef spec1) → V14 m ρ c b = V13 m ρ c b :=
  fun b hb => W14_of_ne m ρ c b fun w e => hb (Finset.mem_image.mpr ⟨w, Finset.mem_univ _, e⟩)

abbrev W15 : Dev nD → Valuation τ sig (Elt Ideal) := fun c => StableHlo.after hostOps2 (W14 m ρ c)
abbrev V15 : (c : Dev nD) → (b : Ref sig .tc) → Buf (Elt Ideal) ((c : Thread nD τ).loc b) := fun c b => W15 m ρ c b
def W16 (c : Dev nD) : Valuation τ sig (Elt Ideal) :=
  Pipeline.withArrays spec2 c (W15 m ρ c) fun w => (Lin2.dat (V15 m ρ) c).arrAt w cfg2.N
theorem W16_arr (c : Dev nD) (w : Fin cfg2.W) :
    W16 m ρ c (Proc.devRef .tc (Pipeline.arrRef spec2 w)) = (Lin2.dat (V15 m ρ) c).arrAt w cfg2.N := by
  unfold W16; exact Pipeline.withArrays_arr spec2 launch2.win.arr_inj c _ _ w
theorem W16_of_ne (c : Dev nD) (b : Ref sig .tc) (hb : ∀ w, Pipeline.arrRef spec2 w ≠ b) :
    W16 m ρ c (Proc.devRef .tc b) = W15 m ρ c (Proc.devRef .tc b) := by
  unfold W16; exact Pipeline.withArrays_of_ne spec2 c _ _ b hb
abbrev V16 : (c : Dev nD) → (b : Ref sig .tc) → Buf (Elt Ideal) ((c : Thread nD τ).loc b) := fun c b => W16 m ρ c b
theorem hF2 (c : Dev nD) (w : Fin cfg2.W) : (Lin2.dat (V15 m ρ) c).arrAt w cfg2.N = V16 m ρ c (Pipeline.arrRef spec2 w) :=
  (W16_arr m ρ c w).symm
theorem hrest2 (c : Dev nD) : ∀ b, b ∉ Finset.univ.image (Pipeline.arrRef spec2) → V16 m ρ c b = V15 m ρ c b :=
  fun b hb => W16_of_ne m ρ c b fun w e => hb (Finset.mem_image.mpr ⟨w, Finset.mem_univ _, e⟩)

abbrev W17 : Dev nD → Valuation τ sig (Elt Ideal) := fun c => StableHlo.after hostOps3 (W16 m ρ c)

/-! ## The proof data family and the thread state -/

/-- No pipeline has a prefetched table. -/
abbrev adm : (p : Fin 3) → (pcfgs (F := Ideal) p).Adm := fun p => (cfgs p).toPCfg_adm
/-- Every pipeline's proof data, each at its region's entry contents. -/
def pdats : (p : Fin 3) → (c : Dev nD) → Dat τ (Elt Ideal) Unit ℕ (UR sig nD τ) ℕ (Pipeline.pin (pcfgs (F := Ideal)) adm p) c
  | ⟨0, _⟩ => fun c => Lin0.dat (V11 m ρ) c
  | ⟨1, _⟩ => fun c => Attn.dat (V13 m ρ) c
  | ⟨2, _⟩ => fun c => Lin2.dat (V15 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W17 m ρ c) ∗ ∃ r, prngReg c r)

set_option backward.isDefEq.respectTransparency.types false in
/-- Region 0 over the thread state: entered with every unscoped buffer at the boundary contents before it, left with
    them at the contents after it; its arrays are split out of the unscoped buffers and put back at what the
    write-backs leave; the generator register goes into the region's invariant and comes back. -/
def reg0 : Pipeline.RegionSeg (pcfgs (F := Ideal)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Lin0.body_obligation (V11 m ρ) c).loose
  hwaits := Pipeline.hwaits_of_owed_zero _ _ _ _ L lv 0 fun _ _ => rfl
  pre c := iprop(StableHlo.held (c : Thread nD τ) (Pipeline.ucRefs τ sig) (W11 m ρ c) ∗ R c)
  post c := iprop(StableHlo.held (c : Thread nD τ) (Pipeline.ucRefs τ sig) (W12 m ρ c) ∗ R c)
  X c := iprop(∃ r, prngReg c r)
  Y c := iprop(∃ r, prngReg c r)
  Z c := Pipeline.unscopedRest (Ix := Unit) (Name := ℕ) (U := UR sig nD τ) (Lvl := ℕ) spec0 c (V11 m ρ c)
  hentry c := by
    rw [Pipeline.ownSems0_none]
    have hsplit := Pipeline.arrays_of_unscopedBufs (p := 0) (pcfgs (F := Ideal)) adm (pdats m ρ) launch0.win launch0.arr_whole c
      ((pdats m ρ 0 c).share_full fun _ => rfl) (V11 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (Lin0.dat (V11 m ρ) c).Φ 0 from rfl]
    iintro ⟨Hp, -, Hr⟩
    iapply (Lin0.phi_in (V11 m ρ) c)
    unfold Pipeline.ΦA
    isplitl [Hr]; · iexact Hr
    iexact Hp
  hout c := by
    rw [Pipeline.ownSems0_none, show (pdats m ρ 0 c).Φ (Fin.last _) = (Lin0.dat (V11 m ρ) c).Φ (Fin.last _) from rfl]
    iintro H
    ihave H2 := (Lin0.phi_out (V11 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 0) (pcfgs (F := Ideal)) adm (Ix := Unit) (Name := ℕ) (U := UR sig nD τ) (Lvl := ℕ)
      launch0.win launch0.arr_whole c (pdats m ρ) ((pdats m ρ 0 c).share_full fun _ => rfl)
      (V11 m ρ c) (V12 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary contents before it, left with
    them at the contents after it; its arrays are split out of the unscoped buffers and put back at what the
    write-backs leave; the generator register goes into the region's invariant and comes back. -/
def reg1 : Pipeline.RegionSeg (pcfgs (F := Ideal)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V13 m ρ) c).loose
  hwaits := Pipeline.hwaits_of_owed_zero _ _ _ _ L lv 1 fun _ _ => rfl
  pre c := iprop(StableHlo.held (c : Thread nD τ) (Pipeline.ucRefs τ sig) (W13 m ρ c) ∗ R c)
  post c := iprop(StableHlo.held (c : Thread nD τ) (Pipeline.ucRefs τ sig) (W14 m ρ c) ∗ R c)
  X c := iprop(∃ r, prngReg c r)
  Y c := iprop(∃ r, prngReg c r)
  Z c := Pipeline.unscopedRest (Ix := Unit) (Name := ℕ) (U := UR sig nD τ) (Lvl := ℕ) spec1 c (V13 m ρ c)
  hentry c := by
    rw [Pipeline.ownSems0_none]
    have hsplit := Pipeline.arrays_of_unscopedBufs (p := 1) (pcfgs (F := Ideal)) adm (pdats m ρ) launch1.win launch1.arr_whole c
      ((pdats m ρ 1 c).share_full fun _ => rfl) (V13 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (Attn.dat (V13 m ρ) c).Φ 0 from rfl]
    iintro ⟨Hp, -, Hr⟩
    iapply (Attn.phi_in (V13 m ρ) c)
    unfold Pipeline.ΦA
    isplitl [Hr]; · iexact Hr
    iexact Hp
  hout c := by
    rw [Pipeline.ownSems0_none, show (pdats m ρ 1 c).Φ (Fin.last _) = (Attn.dat (V13 m ρ) c).Φ (Fin.last _) from rfl]
    iintro H
    ihave H2 := (Attn.phi_out (V13 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 1) (pcfgs (F := Ideal)) adm (Ix := Unit) (Name := ℕ) (U := UR sig nD τ) (Lvl := ℕ)
      launch1.win launch1.arr_whole c (pdats m ρ) ((pdats m ρ 1 c).share_full fun _ => rfl)
      (V13 m ρ c) (V14 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the boundary contents before it, left with
    them at the contents after it; its arrays are split out of the unscoped buffers and put back at what the
    write-backs leave; the generator register goes into the region's invariant and comes back. -/
def reg2 : Pipeline.RegionSeg (pcfgs (F := Ideal)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (Lin2.body_obligation (V15 m ρ) c).loose
  hwaits := Pipeline.hwaits_of_owed_zero _ _ _ _ L lv 2 fun _ _ => rfl
  pre c := iprop(StableHlo.held (c : Thread nD τ) (Pipeline.ucRefs τ sig) (W15 m ρ c) ∗ R c)
  post c := iprop(StableHlo.held (c : Thread nD τ) (Pipeline.ucRefs τ sig) (W16 m ρ c) ∗ R c)
  X c := iprop(∃ r, prngReg c r)
  Y c := iprop(∃ r, prngReg c r)
  Z c := Pipeline.unscopedRest (Ix := Unit) (Name := ℕ) (U := UR sig nD τ) (Lvl := ℕ) spec2 c (V15 m ρ c)
  hentry c := by
    rw [Pipeline.ownSems0_none]
    have hsplit := Pipeline.arrays_of_unscopedBufs (p := 2) (pcfgs (F := Ideal)) adm (pdats m ρ) launch2.win launch2.arr_whole c
      ((pdats m ρ 2 c).share_full fun _ => rfl) (V15 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (Lin2.dat (V15 m ρ) c).Φ 0 from rfl]
    iintro ⟨Hp, -, Hr⟩
    iapply (Lin2.phi_in (V15 m ρ) c)
    unfold Pipeline.ΦA
    isplitl [Hr]; · iexact Hr
    iexact Hp
  hout c := by
    rw [Pipeline.ownSems0_none, show (pdats m ρ 2 c).Φ (Fin.last _) = (Lin2.dat (V15 m ρ) c).Φ (Fin.last _) from rfl]
    iintro H
    ihave H2 := (Lin2.phi_out (V15 m ρ) c) $$ H
    unfold Pipeline.ΦA
    icases H2 with ⟨Hr, Hp⟩
    isplitl [Hp]; · iexact Hp
    isplitr; · iempintro
    iexact Hr
  hexit c := by
    have hjoin := Pipeline.unscopedBufs_of_arrays (p := 2) (pcfgs (F := Ideal)) adm (Ix := Unit) (Name := ℕ) (U := UR sig nD τ) (Lvl := ℕ)
      launch2.win launch2.arr_whole c (pdats m ρ) ((pdats m ρ 2 c).share_full fun _ => rfl)
      (V15 m ρ c) (V16 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := Ideal)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .region (reg0 m ρ),
    .host (hseg hostOps1 hostOps1_sub hostOps1_fresh (W12 m ρ)),
    .region (reg1 m ρ),
    .host (hseg hostOps2 hostOps2_sub hostOps2_fresh (W14 m ρ)),
    .region (reg2 m ρ),
    .host (hseg hostOps3 hostOps3_sub hostOps3_fresh (W16 m ρ)) ]

/-- @main is the run of the segments. -/
theorem main_run (c : Dev nD) : main (F := Ideal) c = Pipeline.Seg.run (segs m ρ) := (main_chain c).trans (by chain_rfl)

/-! ## The arguments end as launched -/

theorem W17_main_arg0 (c : Dev nD) : W17 m ρ c (Proc.devRef .tc main_arg0) = m ((c : Thread nD τ).loc main_arg0) :=
  calc W17 m ρ c (Proc.devRef .tc main_arg0)
    _ = W16 m ρ c (Proc.devRef .tc main_arg0) := keep hostOps3 _ main_arg0 (by decide +kernel)
    _ = W15 m ρ c (Proc.devRef .tc main_arg0) := W16_of_ne m ρ c main_arg0 (by decide)
    _ = W14 m ρ c (Proc.devRef .tc main_arg0) := keep hostOps2 _ main_arg0 (by decide +kernel)
    _ = W13 m ρ c (Proc.devRef .tc main_arg0) := W14_of_ne m ρ c main_arg0 (by decide)
    _ = W12 m ρ c (Proc.devRef .tc main_arg0) := keep hostOps1 _ main_arg0 (by decide +kernel)
    _ = W11 m ρ c (Proc.devRef .tc main_arg0) := W12_of_ne m ρ c main_arg0 (by decide)
    _ = W10 m ρ c (Proc.devRef .tc main_arg0) := keep hostOps0_10 _ main_arg0 (by decide +kernel)
    _ = W9 m ρ c (Proc.devRef .tc main_arg0) := keep hostOps0_9 _ main_arg0 (by decide +kernel)
    _ = W8 m ρ c (Proc.devRef .tc main_arg0) := keep hostOps0_8 _ main_arg0 (by decide +kernel)
    _ = W7 m ρ c (Proc.devRef .tc main_arg0) := keep hostOps0_7 _ main_arg0 (by decide +kernel)
    _ = W6 m ρ c (Proc.devRef .tc main_arg0) := keep hostOps0_6 _ main_arg0 (by decide +kernel)
    _ = W5 m ρ c (Proc.devRef .tc main_arg0) := keep hostOps0_5 _ main_arg0 (by decide +kernel)
    _ = W4 m ρ c (Proc.devRef .tc main_arg0) := keep hostOps0_4 _ main_arg0 (by decide +kernel)
    _ = W3 m ρ c (Proc.devRef .tc main_arg0) := keep hostOps0_3 _ main_arg0 (by decide +kernel)
    _ = W2 m ρ c (Proc.devRef .tc main_arg0) := keep hostOps0_2 _ main_arg0 (by decide +kernel)
    _ = W1 m ρ c (Proc.devRef .tc main_arg0) := keep hostOps0_1 _ main_arg0 (by decide +kernel)
    _ = W0 m ρ c (Proc.devRef .tc main_arg0) := keep hostOps0 _ main_arg0 (by decide +kernel)
    _ = m ((c : Thread nD τ).loc main_arg0) := rfl

theorem W17_main_arg1 (c : Dev nD) : W17 m ρ c (Proc.devRef .tc main_arg1) = m ((c : Thread nD τ).loc main_arg1) :=
  calc W17 m ρ c (Proc.devRef .tc main_arg1)
    _ = W16 m ρ c (Proc.devRef .tc main_arg1) := keep hostOps3 _ main_arg1 (by decide +kernel)
    _ = W15 m ρ c (Proc.devRef .tc main_arg1) := W16_of_ne m ρ c main_arg1 (by decide)
    _ = W14 m ρ c (Proc.devRef .tc main_arg1) := keep hostOps2 _ main_arg1 (by decide +kernel)
    _ = W13 m ρ c (Proc.devRef .tc main_arg1) := W14_of_ne m ρ c main_arg1 (by decide)
    _ = W12 m ρ c (Proc.devRef .tc main_arg1) := keep hostOps1 _ main_arg1 (by decide +kernel)
    _ = W11 m ρ c (Proc.devRef .tc main_arg1) := (W12_arr m ρ c 1).trans (((Lin0.dat (V11 m ρ) c).arrAt_in 1 rfl _).trans (Lin0.A_eq (V11 m ρ) c 1))
    _ = W10 m ρ c (Proc.devRef .tc main_arg1) := keep hostOps0_10 _ main_arg1 (by decide +kernel)
    _ = W9 m ρ c (Proc.devRef .tc main_arg1) := keep hostOps0_9 _ main_arg1 (by decide +kernel)
    _ = W8 m ρ c (Proc.devRef .tc main_arg1) := keep hostOps0_8 _ main_arg1 (by decide +kernel)
    _ = W7 m ρ c (Proc.devRef .tc main_arg1) := keep hostOps0_7 _ main_arg1 (by decide +kernel)
    _ = W6 m ρ c (Proc.devRef .tc main_arg1) := keep hostOps0_6 _ main_arg1 (by decide +kernel)
    _ = W5 m ρ c (Proc.devRef .tc main_arg1) := keep hostOps0_5 _ main_arg1 (by decide +kernel)
    _ = W4 m ρ c (Proc.devRef .tc main_arg1) := keep hostOps0_4 _ main_arg1 (by decide +kernel)
    _ = W3 m ρ c (Proc.devRef .tc main_arg1) := keep hostOps0_3 _ main_arg1 (by decide +kernel)
    _ = W2 m ρ c (Proc.devRef .tc main_arg1) := keep hostOps0_2 _ main_arg1 (by decide +kernel)
    _ = W1 m ρ c (Proc.devRef .tc main_arg1) := keep hostOps0_1 _ main_arg1 (by decide +kernel)
    _ = W0 m ρ c (Proc.devRef .tc main_arg1) := keep hostOps0 _ main_arg1 (by decide +kernel)
    _ = m ((c : Thread nD τ).loc main_arg1) := rfl

theorem W17_main_arg2 (c : Dev nD) : W17 m ρ c (Proc.devRef .tc main_arg2) = m ((c : Thread nD τ).loc main_arg2) :=
  calc W17 m ρ c (Proc.devRef .tc main_arg2)
    _ = W16 m ρ c (Proc.devRef .tc main_arg2) := keep hostOps3 _ main_arg2 (by decide +kernel)
    _ = W15 m ρ c (Proc.devRef .tc main_arg2) := (W16_arr m ρ c 1).trans (((Lin2.dat (V15 m ρ) c).arrAt_in 1 rfl _).trans (Lin2.A_eq (V15 m ρ) c 1))
    _ = W14 m ρ c (Proc.devRef .tc main_arg2) := keep hostOps2 _ main_arg2 (by decide +kernel)
    _ = W13 m ρ c (Proc.devRef .tc main_arg2) := W14_of_ne m ρ c main_arg2 (by decide)
    _ = W12 m ρ c (Proc.devRef .tc main_arg2) := keep hostOps1 _ main_arg2 (by decide +kernel)
    _ = W11 m ρ c (Proc.devRef .tc main_arg2) := W12_of_ne m ρ c main_arg2 (by decide)
    _ = W10 m ρ c (Proc.devRef .tc main_arg2) := keep hostOps0_10 _ main_arg2 (by decide +kernel)
    _ = W9 m ρ c (Proc.devRef .tc main_arg2) := keep hostOps0_9 _ main_arg2 (by decide +kernel)
    _ = W8 m ρ c (Proc.devRef .tc main_arg2) := keep hostOps0_8 _ main_arg2 (by decide +kernel)
    _ = W7 m ρ c (Proc.devRef .tc main_arg2) := keep hostOps0_7 _ main_arg2 (by decide +kernel)
    _ = W6 m ρ c (Proc.devRef .tc main_arg2) := keep hostOps0_6 _ main_arg2 (by decide +kernel)
    _ = W5 m ρ c (Proc.devRef .tc main_arg2) := keep hostOps0_5 _ main_arg2 (by decide +kernel)
    _ = W4 m ρ c (Proc.devRef .tc main_arg2) := keep hostOps0_4 _ main_arg2 (by decide +kernel)
    _ = W3 m ρ c (Proc.devRef .tc main_arg2) := keep hostOps0_3 _ main_arg2 (by decide +kernel)
    _ = W2 m ρ c (Proc.devRef .tc main_arg2) := keep hostOps0_2 _ main_arg2 (by decide +kernel)
    _ = W1 m ρ c (Proc.devRef .tc main_arg2) := keep hostOps0_1 _ main_arg2 (by decide +kernel)
    _ = W0 m ρ c (Proc.devRef .tc main_arg2) := keep hostOps0 _ main_arg2 (by decide +kernel)
    _ = m ((c : Thread nD τ).loc main_arg2) := rfl

theorem W17_main_arg3 (c : Dev nD) : W17 m ρ c (Proc.devRef .tc main_arg3) = m ((c : Thread nD τ).loc main_arg3) :=
  calc W17 m ρ c (Proc.devRef .tc main_arg3)
    _ = W16 m ρ c (Proc.devRef .tc main_arg3) := keep hostOps3 _ main_arg3 (by decide +kernel)
    _ = W15 m ρ c (Proc.devRef .tc main_arg3) := W16_of_ne m ρ c main_arg3 (by decide)
    _ = W14 m ρ c (Proc.devRef .tc main_arg3) := keep hostOps2 _ main_arg3 (by decide +kernel)
    _ = W13 m ρ c (Proc.devRef .tc main_arg3) := W14_of_ne m ρ c main_arg3 (by decide)
    _ = W12 m ρ c (Proc.devRef .tc main_arg3) := keep hostOps1 _ main_arg3 (by decide +kernel)
    _ = W11 m ρ c (Proc.devRef .tc main_arg3) := W12_of_ne m ρ c main_arg3 (by decide)
    _ = W10 m ρ c (Proc.devRef .tc main_arg3) := keep hostOps0_10 _ main_arg3 (by decide +kernel)
    _ = W9 m ρ c (Proc.devRef .tc main_arg3) := keep hostOps0_9 _ main_arg3 (by decide +kernel)
    _ = W8 m ρ c (Proc.devRef .tc main_arg3) := keep hostOps0_8 _ main_arg3 (by decide +kernel)
    _ = W7 m ρ c (Proc.devRef .tc main_arg3) := keep hostOps0_7 _ main_arg3 (by decide +kernel)
    _ = W6 m ρ c (Proc.devRef .tc main_arg3) := keep hostOps0_6 _ main_arg3 (by decide +kernel)
    _ = W5 m ρ c (Proc.devRef .tc main_arg3) := keep hostOps0_5 _ main_arg3 (by decide +kernel)
    _ = W4 m ρ c (Proc.devRef .tc main_arg3) := keep hostOps0_4 _ main_arg3 (by decide +kernel)
    _ = W3 m ρ c (Proc.devRef .tc main_arg3) := keep hostOps0_3 _ main_arg3 (by decide +kernel)
    _ = W2 m ρ c (Proc.devRef .tc main_arg3) := keep hostOps0_2 _ main_arg3 (by decide +kernel)
    _ = W1 m ρ c (Proc.devRef .tc main_arg3) := keep hostOps0_1 _ main_arg3 (by decide +kernel)
    _ = W0 m ρ c (Proc.devRef .tc main_arg3) := keep hostOps0 _ main_arg3 (by decide +kernel)
    _ = m ((c : Thread nD τ).loc main_arg3) := rfl

theorem W17_main_arg4 (c : Dev nD) : W17 m ρ c (Proc.devRef .tc main_arg4) = m ((c : Thread nD τ).loc main_arg4) :=
  calc W17 m ρ c (Proc.devRef .tc main_arg4)
    _ = W16 m ρ c (Proc.devRef .tc main_arg4) := keep hostOps3 _ main_arg4 (by decide +kernel)
    _ = W15 m ρ c (Proc.devRef .tc main_arg4) := W16_of_ne m ρ c main_arg4 (by decide)
    _ = W14 m ρ c (Proc.devRef .tc main_arg4) := keep hostOps2 _ main_arg4 (by decide +kernel)
    _ = W13 m ρ c (Proc.devRef .tc main_arg4) := W14_of_ne m ρ c main_arg4 (by decide)
    _ = W12 m ρ c (Proc.devRef .tc main_arg4) := keep hostOps1 _ main_arg4 (by decide +kernel)
    _ = W11 m ρ c (Proc.devRef .tc main_arg4) := W12_of_ne m ρ c main_arg4 (by decide)
    _ = W10 m ρ c (Proc.devRef .tc main_arg4) := keep hostOps0_10 _ main_arg4 (by decide +kernel)
    _ = W9 m ρ c (Proc.devRef .tc main_arg4) := keep hostOps0_9 _ main_arg4 (by decide +kernel)
    _ = W8 m ρ c (Proc.devRef .tc main_arg4) := keep hostOps0_8 _ main_arg4 (by decide +kernel)
    _ = W7 m ρ c (Proc.devRef .tc main_arg4) := keep hostOps0_7 _ main_arg4 (by decide +kernel)
    _ = W6 m ρ c (Proc.devRef .tc main_arg4) := keep hostOps0_6 _ main_arg4 (by decide +kernel)
    _ = W5 m ρ c (Proc.devRef .tc main_arg4) := keep hostOps0_5 _ main_arg4 (by decide +kernel)
    _ = W4 m ρ c (Proc.devRef .tc main_arg4) := keep hostOps0_4 _ main_arg4 (by decide +kernel)
    _ = W3 m ρ c (Proc.devRef .tc main_arg4) := keep hostOps0_3 _ main_arg4 (by decide +kernel)
    _ = W2 m ρ c (Proc.devRef .tc main_arg4) := keep hostOps0_2 _ main_arg4 (by decide +kernel)
    _ = W1 m ρ c (Proc.devRef .tc main_arg4) := keep hostOps0_1 _ main_arg4 (by decide +kernel)
    _ = W0 m ρ c (Proc.devRef .tc main_arg4) := keep hostOps0 _ main_arg4 (by decide +kernel)
    _ = m ((c : Thread nD τ).loc main_arg4) := rfl

set_option backward.isDefEq.respectTransparency.types false in
/-- The reference run: every weakly fair execution of @main terminates without a fault, the result array ends at the fold's contents and the argument arrays end as launched. -/
theorem value_run : θ_run defs (onTc (τ := τ) (main (F := Ideal))) ⟨m, fun _ => 0, ρ⟩ (fun r => ∀ c : Dev nD,
      r.2.mem ((c.tc : Thread nD τ).loc main_v30) = W17 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show (iprop(StableHlo.held (c : Thread nD τ) (Pipeline.ucRefs τ sig) (W17 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c => ⟨h c _ (mem_uc main_v30 (by decide)), (h c _ (mem_uc main_arg0 (by decide))).trans (W17_main_arg0 m ρ c),
      (h c _ (mem_uc main_arg1 (by decide))).trans (W17_main_arg1 m ρ c),
      (h c _ (mem_uc main_arg2 (by decide))).trans (W17_main_arg2 m ρ c),
      (h c _ (mem_uc main_arg3 (by decide))).trans (W17_main_arg3 m ρ c),
      (h c _ (mem_uc main_arg4 (by decide))).trans (W17_main_arg4 m ρ c)⟩)

/-- The frame alone: the reference runs and its argument arrays end as launched. -/
theorem frame_run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (value_run m ρ)

end Cert.ReferenceIdeal.Run

end
-- ==== Proof.RefValue.lean ====
import proofs.«175035_g2000205867183153_pallasbulk_1319_2_alg».proof.Proof.RefRun
import Idealize.ShloMosaic.Lib.StableHlo.Run
import Idealize.ShloMosaic.Lib.Pipeline.Value
import Idealize.ShloMosaic.Lib.ValueIdx

set_option maxRecDepth 16384

noncomputable section

namespace Cert.ReferenceIdeal.Run

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-! ## The arguments as the regions find them -/

theorem W10_arg0 (c : Dev nD) : W10 m ρ c (Proc.devRef .tc main_arg0) = m ((c : Thread nD τ).loc main_arg0) :=
  calc W10 m ρ c (Proc.devRef .tc main_arg0)
    _ = W9 m ρ c (Proc.devRef .tc main_arg0) := keep hostOps0_9 _ main_arg0 (by decide +kernel)
    _ = W8 m ρ c (Proc.devRef .tc main_arg0) := keep hostOps0_8 _ main_arg0 (by decide +kernel)
    _ = W7 m ρ c (Proc.devRef .tc main_arg0) := keep hostOps0_7 _ main_arg0 (by decide +kernel)
    _ = W6 m ρ c (Proc.devRef .tc main_arg0) := keep hostOps0_6 _ main_arg0 (by decide +kernel)
    _ = W5 m ρ c (Proc.devRef .tc main_arg0) := keep hostOps0_5 _ main_arg0 (by decide +kernel)
    _ = W4 m ρ c (Proc.devRef .tc main_arg0) := keep hostOps0_4 _ main_arg0 (by decide +kernel)
    _ = W3 m ρ c (Proc.devRef .tc main_arg0) := keep hostOps0_3 _ main_arg0 (by decide +kernel)
    _ = W2 m ρ c (Proc.devRef .tc main_arg0) := keep hostOps0_2 _ main_arg0 (by decide +kernel)
    _ = W1 m ρ c (Proc.devRef .tc main_arg0) := keep hostOps0_1 _ main_arg0 (by decide +kernel)
    _ = W0 m ρ c (Proc.devRef .tc main_arg0) := keep hostOps0 _ main_arg0 (by decide +kernel)
    _ = m ((c : Thread nD τ).loc main_arg0) := rfl

theorem W10_arg3 (c : Dev nD) : W10 m ρ c (Proc.devRef .tc main_arg3) = m ((c : Thread nD τ).loc main_arg3) :=
  calc W10 m ρ c (Proc.devRef .tc main_arg3)
    _ = W9 m ρ c (Proc.devRef .tc main_arg3) := keep hostOps0_9 _ main_arg3 (by decide +kernel)
    _ = W8 m ρ c (Proc.devRef .tc main_arg3) := keep hostOps0_8 _ main_arg3 (by decide +kernel)
    _ = W7 m ρ c (Proc.devRef .tc main_arg3) := keep hostOps0_7 _ main_arg3 (by decide +kernel)
    _ = W6 m ρ c (Proc.devRef .tc main_arg3) := keep hostOps0_6 _ main_arg3 (by decide +kernel)
    _ = W5 m ρ c (Proc.devRef .tc main_arg3) := keep hostOps0_5 _ main_arg3 (by decide +kernel)
    _ = W4 m ρ c (Proc.devRef .tc main_arg3) := keep hostOps0_4 _ main_arg3 (by decide +kernel)
    _ = W3 m ρ c (Proc.devRef .tc main_arg3) := keep hostOps0_3 _ main_arg3 (by decide +kernel)
    _ = W2 m ρ c (Proc.devRef .tc main_arg3) := keep hostOps0_2 _ main_arg3 (by decide +kernel)
    _ = W1 m ρ c (Proc.devRef .tc main_arg3) := keep hostOps0_1 _ main_arg3 (by decide +kernel)
    _ = W0 m ρ c (Proc.devRef .tc main_arg3) := keep hostOps0 _ main_arg3 (by decide +kernel)
    _ = m ((c : Thread nD τ).loc main_arg3) := rfl

theorem W11_arg1 (c : Dev nD) : W11 m ρ c (Proc.devRef .tc main_arg1) = m ((c : Thread nD τ).loc main_arg1) :=
  calc W11 m ρ c (Proc.devRef .tc main_arg1)
    _ = W10 m ρ c (Proc.devRef .tc main_arg1) := keep hostOps0_10 _ main_arg1 (by decide +kernel)
    _ = W9 m ρ c (Proc.devRef .tc main_arg1) := keep hostOps0_9 _ main_arg1 (by decide +kernel)
    _ = W8 m ρ c (Proc.devRef .tc main_arg1) := keep hostOps0_8 _ main_arg1 (by decide +kernel)
    _ = W7 m ρ c (Proc.devRef .tc main_arg1) := keep hostOps0_7 _ main_arg1 (by decide +kernel)
    _ = W6 m ρ c (Proc.devRef .tc main_arg1) := keep hostOps0_6 _ main_arg1 (by decide +kernel)
    _ = W5 m ρ c (Proc.devRef .tc main_arg1) := keep hostOps0_5 _ main_arg1 (by decide +kernel)
    _ = W4 m ρ c (Proc.devRef .tc main_arg1) := keep hostOps0_4 _ main_arg1 (by decide +kernel)
    _ = W3 m ρ c (Proc.devRef .tc main_arg1) := keep hostOps0_3 _ main_arg1 (by decide +kernel)
    _ = W2 m ρ c (Proc.devRef .tc main_arg1) := keep hostOps0_2 _ main_arg1 (by decide +kernel)
    _ = W1 m ρ c (Proc.devRef .tc main_arg1) := keep hostOps0_1 _ main_arg1 (by decide +kernel)
    _ = W0 m ρ c (Proc.devRef .tc main_arg1) := keep hostOps0 _ main_arg1 (by decide +kernel)
    _ = m ((c : Thread nD τ).loc main_arg1) := rfl

theorem W14_arg4 (c : Dev nD) : W14 m ρ c (Proc.devRef .tc main_arg4) = m ((c : Thread nD τ).loc main_arg4) :=
  calc W14 m ρ c (Proc.devRef .tc main_arg4)
    _ = W13 m ρ c (Proc.devRef .tc main_arg4) := W14_of_ne m ρ c main_arg4 (by decide)
    _ = W12 m ρ c (Proc.devRef .tc main_arg4) := keep hostOps1 _ main_arg4 (by decide +kernel)
    _ = W11 m ρ c (Proc.devRef .tc main_arg4) := W12_of_ne m ρ c main_arg4 (by decide)
    _ = W10 m ρ c (Proc.devRef .tc main_arg4) := keep hostOps0_10 _ main_arg4 (by decide +kernel)
    _ = W9 m ρ c (Proc.devRef .tc main_arg4) := keep hostOps0_9 _ main_arg4 (by decide +kernel)
    _ = W8 m ρ c (Proc.devRef .tc main_arg4) := keep hostOps0_8 _ main_arg4 (by decide +kernel)
    _ = W7 m ρ c (Proc.devRef .tc main_arg4) := keep hostOps0_7 _ main_arg4 (by decide +kernel)
    _ = W6 m ρ c (Proc.devRef .tc main_arg4) := keep hostOps0_6 _ main_arg4 (by decide +kernel)
    _ = W5 m ρ c (Proc.devRef .tc main_arg4) := keep hostOps0_5 _ main_arg4 (by decide +kernel)
    _ = W4 m ρ c (Proc.devRef .tc main_arg4) := keep hostOps0_4 _ main_arg4 (by decide +kernel)
    _ = W3 m ρ c (Proc.devRef .tc main_arg4) := keep hostOps0_3 _ main_arg4 (by decide +kernel)
    _ = W2 m ρ c (Proc.devRef .tc main_arg4) := keep hostOps0_2 _ main_arg4 (by decide +kernel)
    _ = W1 m ρ c (Proc.devRef .tc main_arg4) := keep hostOps0_1 _ main_arg4 (by decide +kernel)
    _ = W0 m ρ c (Proc.devRef .tc main_arg4) := keep hostOps0 _ main_arg4 (by decide +kernel)
    _ = m ((c : Thread nD τ).loc main_arg4) := rfl

theorem W15_arg2 (c : Dev nD) : W15 m ρ c (Proc.devRef .tc main_arg2) = m ((c : Thread nD τ).loc main_arg2) :=
  calc W15 m ρ c (Proc.devRef .tc main_arg2)
    _ = W14 m ρ c (Proc.devRef .tc main_arg2) := keep hostOps2 _ main_arg2 (by decide +kernel)
    _ = W13 m ρ c (Proc.devRef .tc main_arg2) := W14_of_ne m ρ c main_arg2 (by decide)
    _ = W12 m ρ c (Proc.devRef .tc main_arg2) := keep hostOps1 _ main_arg2 (by decide +kernel)
    _ = W11 m ρ c (Proc.devRef .tc main_arg2) := W12_of_ne m ρ c main_arg2 (by decide)
    _ = W10 m ρ c (Proc.devRef .tc main_arg2) := keep hostOps0_10 _ main_arg2 (by decide +kernel)
    _ = W9 m ρ c (Proc.devRef .tc main_arg2) := keep hostOps0_9 _ main_arg2 (by decide +kernel)
    _ = W8 m ρ c (Proc.devRef .tc main_arg2) := keep hostOps0_8 _ main_arg2 (by decide +kernel)
    _ = W7 m ρ c (Proc.devRef .tc main_arg2) := keep hostOps0_7 _ main_arg2 (by decide +kernel)
    _ = W6 m ρ c (Proc.devRef .tc main_arg2) := keep hostOps0_6 _ main_arg2 (by decide +kernel)
    _ = W5 m ρ c (Proc.devRef .tc main_arg2) := keep hostOps0_5 _ main_arg2 (by decide +kernel)
    _ = W4 m ρ c (Proc.devRef .tc main_arg2) := keep hostOps0_4 _ main_arg2 (by decide +kernel)
    _ = W3 m ρ c (Proc.devRef .tc main_arg2) := keep hostOps0_3 _ main_arg2 (by decide +kernel)
    _ = W2 m ρ c (Proc.devRef .tc main_arg2) := keep hostOps0_2 _ main_arg2 (by decide +kernel)
    _ = W1 m ρ c (Proc.devRef .tc main_arg2) := keep hostOps0_1 _ main_arg2 (by decide +kernel)
    _ = W0 m ρ c (Proc.devRef .tc main_arg2) := keep hostOps0 _ main_arg2 (by decide +kernel)
    _ = m ((c : Thread nD τ).loc main_arg2) := rfl

/-! ## What each region's windows hold when it is entered -/

/-- The two reshapes before region 0, from any contents. -/
theorem reshape_x (Wp : Valuation τ sig (Elt Ideal)) : (StableHlo.after hostOps0_10 Wp (Proc.devRef .tc main_v22) : S8192x768.Idx → EReal)
    = shapeCast S8192x768 (Wp (Proc.devRef .tc main_arg0) : S32x256x768.Idx → EReal) shapeCasts_S32x256x768_S8192x768 := by
  dsimp only [hostOps0_10]; after_results; rfl
theorem reshape_b (Wp : Valuation τ sig (Elt Ideal)) : (StableHlo.after hostOps0_10 Wp (Proc.devRef .tc main_v23) : S1x2304.Idx → EReal)
    = shapeCast S1x2304 (Wp (Proc.devRef .tc main_arg3) : S2304.Idx → EReal) shapeCasts_S2304_S1x2304 := by
  dsimp only [hostOps0_10]; after_results; rfl
/-- Region 0 reads the input flattened to rows, -/
theorem entry0_x (c : Dev nD) : (W11 m ρ c (Proc.devRef .tc main_v22) : S8192x768.Idx → EReal)
    = shapeCast S8192x768 (m ((c : Thread nD τ).loc main_arg0) : S32x256x768.Idx → EReal) shapeCasts_S32x256x768_S8192x768 :=
  (reshape_x (W10 m ρ c)).trans (congrArg (fun v : S32x256x768.Idx → EReal => shapeCast S8192x768 v shapeCasts_S32x256x768_S8192x768) (W10_arg0 m ρ c))
/-- the first weight matrix as launched, -/
theorem entry0_w (c : Dev nD) : W11 m ρ c (Proc.devRef .tc main_arg1) = m ((c : Thread nD τ).loc main_arg1) := W11_arg1 m ρ c
/-- and the first bias as one row. -/
theorem entry0_b (c : Dev nD) : (W11 m ρ c (Proc.devRef .tc main_v23) : S1x2304.Idx → EReal)
    = shapeCast S1x2304 (m ((c : Thread nD τ).loc main_arg3) : S2304.Idx → EReal) shapeCasts_S2304_S1x2304 :=
  (reshape_b (W10 m ρ c)).trans (congrArg (fun v : S2304.Idx → EReal => shapeCast S1x2304 v shapeCasts_S2304_S1x2304) (W10_arg3 m ρ c))
/-- Region 1 reads region 0's result split into batches. -/
theorem entry1_qkv (c : Dev nD) : (W13 m ρ c (Proc.devRef .tc main_v25) : S32x256x2304.Idx → EReal)
    = shapeCast S32x256x2304 (W12 m ρ c (Proc.devRef .tc main_v24) : S8192x2304.Idx → EReal) shapeCasts_S8192x2304_S32x256x2304 := by
  dsimp only [W13, hostOps1]; after_results; rfl
/-- Region 2 reads region 1's result flattened to rows, -/
theorem entry2_y (c : Dev nD) : (W15 m ρ c (Proc.devRef .tc main_v27) : S8192x768.Idx → EReal)
    = shapeCast S8192x768 (W14 m ρ c (Proc.devRef .tc main_v26) : S32x256x768.Idx → EReal) shapeCasts_S32x256x768_S8192x768 := by
  dsimp only [W15, hostOps2]; after_results; rfl
/-- the second weight matrix as launched, -/
theorem entry2_w (c : Dev nD) : W15 m ρ c (Proc.devRef .tc main_arg2) = m ((c : Thread nD τ).loc main_arg2) := W15_arg2 m ρ c
/-- and the second bias as one row. -/
theorem entry2_b (c : Dev nD) : (W15 m ρ c (Proc.devRef .tc main_v28) : S1x768.Idx → EReal)
    = shapeCast S1x768 (m ((c : Thread nD τ).loc main_arg4) : S768.Idx → EReal) shapeCasts_S768_S1x768 := by
  rw [← W14_arg4 m ρ c]
  dsimp only [W15, hostOps2]; after_results; rfl
/-- The result is region 2's output split into batches. -/
theorem result_eq (c : Dev nD) : (W17 m ρ c (Proc.devRef .tc main_v30) : S32x256x768.Idx → EReal)
    = shapeCast S32x256x768 (W16 m ρ c (Proc.devRef .tc main_v29) : S8192x768.Idx → EReal) shapeCasts_S8192x768_S32x256x768 := by
  dsimp only [W17, hostOps3]; after_results; rfl

end Cert.ReferenceIdeal.Run

end
-- ==== Proof.AttnSame.lean ====
/- The attention core of the reference's attention kernel and of the fused kernel is ONE function of the
   projected block. `attn qkv`: cut the 256x2304 block into q (scaled by 1/8), k, v of 768 columns each; per
   head of 64 columns, the scores q_h k_hᵀ, minus their row maximum, exponentiated, their row sums, the product with
   v_h, times the reciprocal of the row sums; the twelve heads side by side. The reference's stored value is `attn`
   of its loaded block at any float instance; at exact extended reals, where a change of float format is the
   identity and a product's precision attribute is not read, the fused kernel's value before its output
   projection is `attn` of its own projected block. -/
import proofs.«175035_g2000205867183153_pallasbulk_1319_2_alg».proof.Proof.RefAttn
import proofs.«175035_g2000205867183153_pallasbulk_1319_2_alg».proof.Proof.Gen.KernelIdeal.Skeleton
import Idealize.ShloMosaic.Lib.ValueLayout

set_option synthInstance.maxSize 4096

noncomputable section

namespace Cert.ReferenceIdeal.AttnSame

open Idealize.ShloMosaic Idealize.SL.Sem
open Idealize.ShloMosaic.TcCoe Idealize.ShloMosaic.ValueIdx
open Cert.ReferenceIdeal.Gen

section Generic

variable {F : FTy → Type} [FloatOps F]

/-- One head: from its 64 columns of q (already scaled), k and v, the normalised attention output. -/
def head (q k v : FVec F S256x64 .f32) : FVec F S256x64 .f32 :=
  have z : FVec F S256x256 .f32 := constant S256x256 .f32 0x00000000#32
  have s : FVec F S256x256 .f32 := matmul dot_S256x64_S256x64_S256x256_1_1_0_0_n_n (some .fp32) q k z
  have m : FVec F S256 .f32 := multiReduction .maximumf [1] S256 s 0xFF800000#32 reduces_S256x256_S256 (.inl rfl) rfl
  have m1 : FVec F S256x1 .f32 := shapeCast S256x1 m shapeCasts_S256_S256x1
  have mb : FVec F S256x256 .f32 := broadcastTo S256x256 m1 broadcasts_S256x1_S256x256
  have d : FVec F S256x256 .f32 := subf s mb
  have e : FVec F S256x256 .f32 := exp d
  have l : FVec F S256 .f32 := multiReduction .add [1] S256 e 0x00000000#32 reduces_S256x256_S256 (.inl rfl) rfl
  have l1 : FVec F S256x1 .f32 := shapeCast S256x1 l shapeCasts_S256_S256x1
  have z' : FVec F S256x64 .f32 := constant S256x64 .f32 0x00000000#32
  have o : FVec F S256x64 .f32 := matmul dot_S256x256_S256x64_S256x64_1_0_0_1_n_n (some .fp32) e v z'
  have one : F .f32 := Scalar.ofBits .f32 0x3F800000#32
  have ones : FVec F S256x1 .f32 := broadcast S256x1 one
  have r : FVec F S256x1 .f32 := divf ones l1
  have rb : FVec F S256x64 .f32 := broadcastTo S256x64 r broadcasts_S256x1_S256x64
  mulf o rb

/-- The scaled queries: the first 768 columns, times 1/8. -/
def qOf (qkv : FVec F S256x2304 .f32) : FVec F S256x768 .f32 :=
  mulf (extractStridedSlice S256x768 ![0, 0] qkv slices_S256x2304_o0_0_S256x768) (broadcast S256x768 (Scalar.ofBits .f32 0x3E000000#32))
/-- The keys: the next 768 columns. -/
def kOf (qkv : FVec F S256x2304 .f32) : FVec F S256x768 .f32 :=
  extractStridedSlice S256x768 ![0, 768] qkv slices_S256x2304_o0_768_S256x768
/-- The values: the last 768 columns. -/
def vOf (qkv : FVec F S256x2304 .f32) : FVec F S256x768 .f32 :=
  extractStridedSlice S256x768 ![0, 1536] qkv slices_S256x2304_o0_1536_S256x768

/-- The twelve heads of given q, k, v, side by side. -/
def heads (q k v : FVec F S256x768 .f32) : FVec F S256x768 .f32 :=
  concatenate S256x768 1 [
      ⟨S256x64, head (extractStridedSlice S256x64 ![0, 0] q slices_S256x768_o0_0_S256x64) (extractStridedSlice S256x64 ![0, 0] k slices_S256x768_o0_0_S256x64) (extractStridedSlice S256x64 ![0, 0] v slices_S256x768_o0_0_S256x64)⟩,
      ⟨S256x64, head (extractStridedSlice S256x64 ![0, 64] q slices_S256x768_o0_64_S256x64) (extractStridedSlice S256x64 ![0, 64] k slices_S256x768_o0_64_S256x64) (extractStridedSlice S256x64 ![0, 64] v slices_S256x768_o0_64_S256x64)⟩,
      ⟨S256x64, head (extractStridedSlice S256x64 ![0, 128] q slices_S256x768_o0_128_S256x64) (extractStridedSlice S256x64 ![0, 128] k slices_S256x768_o0_128_S256x64) (extractStridedSlice S256x64 ![0, 128] v slices_S256x768_o0_128_S256x64)⟩,
      ⟨S256x64, head (extractStridedSlice S256x64 ![0, 192] q slices_S256x768_o0_192_S256x64) (extractStridedSlice S256x64 ![0, 192] k slices_S256x768_o0_192_S256x64) (extractStridedSlice S256x64 ![0, 192] v slices_S256x768_o0_192_S256x64)⟩,
      ⟨S256x64, head (extractStridedSlice S256x64 ![0, 256] q slices_S256x768_o0_256_S256x64) (extractStridedSlice S256x64 ![0, 256] k slices_S256x768_o0_256_S256x64) (extractStridedSlice S256x64 ![0, 256] v slices_S256x768_o0_256_S256x64)⟩,
      ⟨S256x64, head (extractStridedSlice S256x64 ![0, 320] q slices_S256x768_o0_320_S256x64) (extractStridedSlice S256x64 ![0, 320] k slices_S256x768_o0_320_S256x64) (extractStridedSlice S256x64 ![0, 320] v slices_S256x768_o0_320_S256x64)⟩,
      ⟨S256x64, head (extractStridedSlice S256x64 ![0, 384] q slices_S256x768_o0_384_S256x64) (extractStridedSlice S256x64 ![0, 384] k slices_S256x768_o0_384_S256x64) (extractStridedSlice S256x64 ![0, 384] v slices_S256x768_o0_384_S256x64)⟩,
      ⟨S256x64, head (extractStridedSlice S256x64 ![0, 448] q slices_S256x768_o0_448_S256x64) (extractStridedSlice S256x64 ![0, 448] k slices_S256x768_o0_448_S256x64) (extractStridedSlice S256x64 ![0, 448] v slices_S256x768_o0_448_S256x64)⟩,
      ⟨S256x64, head (extractStridedSlice S256x64 ![0, 512] q slices_S256x768_o0_512_S256x64) (extractStridedSlice S256x64 ![0, 512] k slices_S256x768_o0_512_S256x64) (extractStridedSlice S256x64 ![0, 512] v slices_S256x768_o0_512_S256x64)⟩,
      ⟨S256x64, head (extractStridedSlice S256x64 ![0, 576] q slices_S256x768_o0_576_S256x64) (extractStridedSlice S256x64 ![0, 576] k slices_S256x768_o0_576_S256x64) (extractStridedSlice S256x64 ![0, 576] v slices_S256x768_o0_576_S256x64)⟩,
      ⟨S256x64, head (extractStridedSlice S256x64 ![0, 640] q slices_S256x768_o0_640_S256x64) (extractStridedSlice S256x64 ![0, 640] k slices_S256x768_o0_640_S256x64) (extractStridedSlice S256x64 ![0, 640] v slices_S256x768_o0_640_S256x64)⟩,
      ⟨S256x64, head (extractStridedSlice S256x64 ![0, 704] q slices_S256x768_o0_704_S256x64) (extractStridedSlice S256x64 ![0, 704] k slices_S256x768_o0_704_S256x64) (extractStridedSlice S256x64 ![0, 704] v slices_S256x768_o0_704_S256x64)⟩]
    concatenates_S256x64_S256x64_S256x64_S256x64_S256x64_S256x64_S256x64_S256x64_S256x64_S256x64_S256x64_S256x64_S256x768_d1

/-- The attention core as a function of the projected block. -/
def attn (qkv : FVec F S256x2304 .f32) : FVec F S256x768 .f32 :=
  heads (qOf qkv) (kOf qkv) (vOf qkv)

/-- THE REFERENCE: the value its attention kernel stores is `attn` of its loaded block (read as 256x2304),
    read as 1x256x768 — at any float instance. -/
theorem ref_pay_ld (x0 : Vec F S1x256x2304 .f32) :
    Attn.pay x0 = shapeCast S1x256x768 (attn (k1_pay2 (View.ld x0 Attn.rIn))) shapeCasts_S256x768_S1x256x768 := rfl

theorem hz3 : (![0, 0, 0] : Fin 3 → Nat) = fun _ => 0 := funext fun a => by fin_cases a <;> rfl

/-- The same with the load of the whole block read as the block. -/
theorem ref_pay_eq (x0 : Vec F S1x256x2304 .f32) :
    Attn.pay x0 = shapeCast S1x256x768 (attn (k1_pay2 x0)) shapeCasts_S256x768_S1x256x768 := by
  rw [ref_pay_ld, View.ld_unit_zero (S := S1x256x2304) hz3]

/-- So the output block the reference's attention kernel leaves is that value. -/
theorem ref_out1_eq (x0 : Vec F S1x256x2304 .f32) :
    Attn.out1 x0 = shapeCast S1x256x768 (attn (k1_pay2 x0)) shapeCasts_S256x768_S1x256x768 := by
  unfold Attn.out1
  rw [View.canon_unit_zero hz3, ref_pay_eq]

end Generic

section Value

variable {F : FTy → Type} [FloatOps F]

/-- The loaded block read as 256x2304, at an index. -/
theorem pay2_apply (x0 : Vec F S1x256x2304 .f32) (r : Fin 256) (j : Fin 2304) :
    k1_pay2 x0 (ix2 r j) = x0 (ix3 (0 : Fin 1) r j) :=
  shapeCast_1ab_ab_apply _ _ r j

/-- THE REFERENCE'S ATTENTION REGION, at an index of its result array: batch row `i 0` of the result is `attn` of
    batch row `i 0` of the array the region reads, as the region finds it (`V`), read as 256x2304. -/
theorem G_apply (V : (c : Dev nD) → (b : Ref sig .tc) → Buf (Elt F) ((c : Thread nD τ).loc b)) (c : Dev nD) (i : S32x256x768.Idx) :
    Attn.G V c i = attn (k1_pay2 (Attn.rowIn V c (i 0))) (ix2 (i 1) (i 2)) := by
  unfold Attn.G
  rw [ref_out1_eq]
  exact shapeCast_ab_1ab_apply _ _ (0 : Fin 1) (i 1) (i 2)

/-- and that row, read as 256x2304, at an index. -/
theorem rowIn_apply (V : (c : Dev nD) → (b : Ref sig .tc) → Buf (Elt F) ((c : Thread nD τ).loc b)) (c : Dev nD) (b : Fin 32) (r : Fin 256) (j : Fin 2304) :
    k1_pay2 (Attn.rowIn V c b) (ix2 r j) = (V c (Pipeline.arrRef spec1 0) : S32x256x2304.Idx → Elt F .f32) (ix3 b r j) := by
  rw [pay2_apply]; rfl

end Value

section AtIdeal

/-! At exact extended reals a change of float format is the identity and a product does not read its precision
    attribute, so each head of the fused kernel is `head` of its 64 columns of the kernel's q, k, v. -/

theorem kh0 (v0 : Vec Ideal Cert.KernelIdeal.S1x256x768 .bf16) (v2 : Vec Ideal Cert.KernelIdeal.S768x2304 .bf16) (v5 : Vec Ideal Cert.KernelIdeal.S1x2304 .f32) :
    Cert.KernelIdeal.Gen.k0_pay6 v0 v2 v5
      = head (F := Ideal) (extractStridedSlice S256x64 ![0, 0] (Cert.KernelIdeal.Gen.k0_pay3 v0 v2 v5) slices_S256x768_o0_0_S256x64) (extractStridedSlice S256x64 ![0, 0] (Cert.KernelIdeal.Gen.k0_pay4 v0 v2 v5) slices_S256x768_o0_0_S256x64) (extractStridedSlice S256x64 ![0, 0] (Cert.KernelIdeal.Gen.k0_pay5 v0 v2 v5) slices_S256x768_o0_0_S256x64) := rfl
theorem kh1 (v0 : Vec Ideal Cert.KernelIdeal.S1x256x768 .bf16) (v2 : Vec Ideal Cert.KernelIdeal.S768x2304 .bf16) (v5 : Vec Ideal Cert.KernelIdeal.S1x2304 .f32) :
    Cert.KernelIdeal.Gen.k0_pay8 (Cert.KernelIdeal.Gen.k0_pay5 v0 v2 v5) (Cert.KernelIdeal.Gen.k0_pay7 v0 v2 v5)
      = head (F := Ideal) (extractStridedSlice S256x64 ![0, 64] (Cert.KernelIdeal.Gen.k0_pay3 v0 v2 v5) slices_S256x768_o0_64_S256x64) (extractStridedSlice S256x64 ![0, 64] (Cert.KernelIdeal.Gen.k0_pay4 v0 v2 v5) slices_S256x768_o0_64_S256x64) (extractStridedSlice S256x64 ![0, 64] (Cert.KernelIdeal.Gen.k0_pay5 v0 v2 v5) slices_S256x768_o0_64_S256x64) := rfl
theorem kh2 (Q K V : FVec Ideal Cert.KernelIdeal.S256x768 .bf16) :
    Cert.KernelIdeal.Gen.k0_pay9 Q K V
      = head (F := Ideal) (extractStridedSlice S256x64 ![0, 128] Q slices_S256x768_o0_128_S256x64) (extractStridedSlice S256x64 ![0, 128] K slices_S256x768_o0_128_S256x64) (extractStridedSlice S256x64 ![0, 128] V slices_S256x768_o0_128_S256x64) := rfl
theorem kh3 (Q K V : FVec Ideal Cert.KernelIdeal.S256x768 .bf16) :
    Cert.KernelIdeal.Gen.k0_pay10 Q K V
      = head (F := Ideal) (extractStridedSlice S256x64 ![0, 192] Q slices_S256x768_o0_192_S256x64) (extractStridedSlice S256x64 ![0, 192] K slices_S256x768_o0_192_S256x64) (extractStridedSlice S256x64 ![0, 192] V slices_S256x768_o0_192_S256x64) := rfl
theorem kh4 (Q K V : FVec Ideal Cert.KernelIdeal.S256x768 .bf16) :
    Cert.KernelIdeal.Gen.k0_pay12 V (Cert.KernelIdeal.Gen.k0_pay11 Q K)
      = head (F := Ideal) (extractStridedSlice S256x64 ![0, 256] Q slices_S256x768_o0_256_S256x64) (extractStridedSlice S256x64 ![0, 256] K slices_S256x768_o0_256_S256x64) (extractStridedSlice S256x64 ![0, 256] V slices_S256x768_o0_256_S256x64) := rfl
theorem kh5 (Q K V : FVec Ideal Cert.KernelIdeal.S256x768 .bf16) :
    Cert.KernelIdeal.Gen.k0_pay13 Q K V
      = head (F := Ideal) (extractStridedSlice S256x64 ![0, 320] Q slices_S256x768_o0_320_S256x64) (extractStridedSlice S256x64 ![0, 320] K slices_S256x768_o0_320_S256x64) (extractStridedSlice S256x64 ![0, 320] V slices_S256x768_o0_320_S256x64) := rfl
theorem kh6 (Q K V : FVec Ideal Cert.KernelIdeal.S256x768 .bf16) :
    Cert.KernelIdeal.Gen.k0_pay17 (Cert.KernelIdeal.Gen.k0_pay15 Q K V) (Cert.KernelIdeal.Gen.k0_pay16 Q K)
      = head (F := Ideal) (extractStridedSlice S256x64 ![0, 384] Q slices_S256x768_o0_384_S256x64) (extractStridedSlice S256x64 ![0, 384] K slices_S256x768_o0_384_S256x64) (extractStridedSlice S256x64 ![0, 384] V slices_S256x768_o0_384_S256x64) := rfl
theorem kh7 (Q K V : FVec Ideal Cert.KernelIdeal.S256x768 .bf16) :
    Cert.KernelIdeal.Gen.k0_pay18 Q K V
      = head (F := Ideal) (extractStridedSlice S256x64 ![0, 448] Q slices_S256x768_o0_448_S256x64) (extractStridedSlice S256x64 ![0, 448] K slices_S256x768_o0_448_S256x64) (extractStridedSlice S256x64 ![0, 448] V slices_S256x768_o0_448_S256x64) := rfl
theorem kh8 (Q K V : FVec Ideal Cert.KernelIdeal.S256x768 .bf16) :
    Cert.KernelIdeal.Gen.k0_pay19 Q K V
      = head (F := Ideal) (extractStridedSlice S256x64 ![0, 512] Q slices_S256x768_o0_512_S256x64) (extractStridedSlice S256x64 ![0, 512] K slices_S256x768_o0_512_S256x64) (extractStridedSlice S256x64 ![0, 512] V slices_S256x768_o0_512_S256x64) := rfl

/-- The kernel's last part, its first nine heads given: the tenth from its row sums, exponentials and values, the
    last two whole; the twelve side by side, times the output weights. -/
theorem k24 (Q K V : FVec Ideal Cert.KernelIdeal.S256x768 .bf16) (h0 h1 h2 h3 h4 h5 h6 h7 h8 : FVec Ideal Cert.KernelIdeal.S256x64 .f32) (w : Vec Ideal Cert.KernelIdeal.S768x768 .bf16) :
    Cert.KernelIdeal.Gen.k0_pay24 Q K V h0 h1 h2 h3 h4 h5 h6 h7 h8 (Cert.KernelIdeal.Gen.k0_pay21 Q K) (Cert.KernelIdeal.Gen.k0_pay22 Q K) (Cert.KernelIdeal.Gen.k0_pay23 V) w
      = matmul (φ₁ := .f32) (φ₂ := .bf16) Cert.KernelIdeal.dot_S256x768_S768x768_S256x768_1_0_0_1_n_n none
          (concatenate S256x768 1 [
          ⟨S256x64, h0⟩,
          ⟨S256x64, h1⟩,
          ⟨S256x64, h2⟩,
          ⟨S256x64, h3⟩,
          ⟨S256x64, h4⟩,
          ⟨S256x64, h5⟩,
          ⟨S256x64, h6⟩,
          ⟨S256x64, h7⟩,
          ⟨S256x64, h8⟩,
          ⟨S256x64, head (F := Ideal) (extractStridedSlice S256x64 ![0, 576] Q slices_S256x768_o0_576_S256x64) (extractStridedSlice S256x64 ![0, 576] K slices_S256x768_o0_576_S256x64) (extractStridedSlice S256x64 ![0, 576] V slices_S256x768_o0_576_S256x64)⟩,
          ⟨S256x64, head (F := Ideal) (extractStridedSlice S256x64 ![0, 640] Q slices_S256x768_o0_640_S256x64) (extractStridedSlice S256x64 ![0, 640] K slices_S256x768_o0_640_S256x64) (extractStridedSlice S256x64 ![0, 640] V slices_S256x768_o0_640_S256x64)⟩,
          ⟨S256x64, head (F := Ideal) (extractStridedSlice S256x64 ![0, 704] Q slices_S256x768_o0_704_S256x64) (extractStridedSlice S256x64 ![0, 704] K slices_S256x768_o0_704_S256x64) (extractStridedSlice S256x64 ![0, 704] V slices_S256x768_o0_704_S256x64)⟩]
            concatenates_S256x64_S256x64_S256x64_S256x64_S256x64_S256x64_S256x64_S256x64_S256x64_S256x64_S256x64_S256x64_S256x768_d1 : FVec Ideal S256x768 .f32)
          (shapeCast Cert.KernelIdeal.S768x768 w Cert.KernelIdeal.Gen.shapeCasts_S768x768_S768x768 : FVec Ideal Cert.KernelIdeal.S768x768 .bf16)
          (constant Cert.KernelIdeal.S256x768 .f32 0x00000000#32) := rfl

/-- The kernel's q, k, v are those of its projected block. -/
theorem kq (v0 : Vec Ideal Cert.KernelIdeal.S1x256x768 .bf16) (v2 : Vec Ideal Cert.KernelIdeal.S768x2304 .bf16) (v5 : Vec Ideal Cert.KernelIdeal.S1x2304 .f32) : (Cert.KernelIdeal.Gen.k0_pay3 v0 v2 v5 : FVec Ideal S256x768 .f32) = qOf (Cert.KernelIdeal.Gen.k0_pay2 v0 v2 v5) := rfl
theorem kk (v0 : Vec Ideal Cert.KernelIdeal.S1x256x768 .bf16) (v2 : Vec Ideal Cert.KernelIdeal.S768x2304 .bf16) (v5 : Vec Ideal Cert.KernelIdeal.S1x2304 .f32) : (Cert.KernelIdeal.Gen.k0_pay4 v0 v2 v5 : FVec Ideal S256x768 .f32) = kOf (Cert.KernelIdeal.Gen.k0_pay2 v0 v2 v5) := rfl
theorem kv (v0 : Vec Ideal Cert.KernelIdeal.S1x256x768 .bf16) (v2 : Vec Ideal Cert.KernelIdeal.S768x2304 .bf16) (v5 : Vec Ideal Cert.KernelIdeal.S1x2304 .f32) : (Cert.KernelIdeal.Gen.k0_pay5 v0 v2 v5 : FVec Ideal S256x768 .f32) = vOf (Cert.KernelIdeal.Gen.k0_pay2 v0 v2 v5) := rfl

/-- THE FUSED KERNEL, at exact extended reals: the value it multiplies by the output projection's weights — its
    twelve heads side by side — is `attn` of its own projected block `x W_qkv + b_qkv` (`k0_pay2`). The left side
    is the argument of `k0_pay1` in the kernel's stored value, as its frame names it. -/
theorem ker_y_eq (v0 : Vec Ideal Cert.KernelIdeal.S1x256x768 .bf16) (v2 : Vec Ideal Cert.KernelIdeal.S768x2304 .bf16) (v5 : Vec Ideal Cert.KernelIdeal.S1x2304 .f32)
    (w : Vec Ideal Cert.KernelIdeal.S768x768 .bf16) :
    Cert.KernelIdeal.Gen.k0_pay24 (Cert.KernelIdeal.Gen.k0_pay3 v0 v2 v5) (Cert.KernelIdeal.Gen.k0_pay4 v0 v2 v5) (Cert.KernelIdeal.Gen.k0_pay5 v0 v2 v5) (Cert.KernelIdeal.Gen.k0_pay6 v0 v2 v5) (Cert.KernelIdeal.Gen.k0_pay8 (Cert.KernelIdeal.Gen.k0_pay5 v0 v2 v5) (Cert.KernelIdeal.Gen.k0_pay7 v0 v2 v5)) (Cert.KernelIdeal.Gen.k0_pay9 (Cert.KernelIdeal.Gen.k0_pay3 v0 v2 v5) (Cert.KernelIdeal.Gen.k0_pay4 v0 v2 v5) (Cert.KernelIdeal.Gen.k0_pay5 v0 v2 v5)) (Cert.KernelIdeal.Gen.k0_pay10 (Cert.KernelIdeal.Gen.k0_pay3 v0 v2 v5) (Cert.KernelIdeal.Gen.k0_pay4 v0 v2 v5) (Cert.KernelIdeal.Gen.k0_pay5 v0 v2 v5)) (Cert.KernelIdeal.Gen.k0_pay12 (Cert.KernelIdeal.Gen.k0_pay5 v0 v2 v5) (Cert.KernelIdeal.Gen.k0_pay11 (Cert.KernelIdeal.Gen.k0_pay3 v0 v2 v5) (Cert.KernelIdeal.Gen.k0_pay4 v0 v2 v5))) (Cert.KernelIdeal.Gen.k0_pay13 (Cert.KernelIdeal.Gen.k0_pay3 v0 v2 v5) (Cert.KernelIdeal.Gen.k0_pay4 v0 v2 v5) (Cert.KernelIdeal.Gen.k0_pay5 v0 v2 v5)) (Cert.KernelIdeal.Gen.k0_pay17 (Cert.KernelIdeal.Gen.k0_pay15 (Cert.KernelIdeal.Gen.k0_pay3 v0 v2 v5) (Cert.KernelIdeal.Gen.k0_pay4 v0 v2 v5) (Cert.KernelIdeal.Gen.k0_pay5 v0 v2 v5)) (Cert.KernelIdeal.Gen.k0_pay16 (Cert.KernelIdeal.Gen.k0_pay3 v0 v2 v5) (Cert.KernelIdeal.Gen.k0_pay4 v0 v2 v5))) (Cert.KernelIdeal.Gen.k0_pay18 (Cert.KernelIdeal.Gen.k0_pay3 v0 v2 v5) (Cert.KernelIdeal.Gen.k0_pay4 v0 v2 v5) (Cert.KernelIdeal.Gen.k0_pay5 v0 v2 v5)) (Cert.KernelIdeal.Gen.k0_pay19 (Cert.KernelIdeal.Gen.k0_pay3 v0 v2 v5) (Cert.KernelIdeal.Gen.k0_pay4 v0 v2 v5) (Cert.KernelIdeal.Gen.k0_pay5 v0 v2 v5)) (Cert.KernelIdeal.Gen.k0_pay21 (Cert.KernelIdeal.Gen.k0_pay3 v0 v2 v5) (Cert.KernelIdeal.Gen.k0_pay4 v0 v2 v5)) (Cert.KernelIdeal.Gen.k0_pay22 (Cert.KernelIdeal.Gen.k0_pay3 v0 v2 v5) (Cert.KernelIdeal.Gen.k0_pay4 v0 v2 v5)) (Cert.KernelIdeal.Gen.k0_pay23 (Cert.KernelIdeal.Gen.k0_pay5 v0 v2 v5)) w
      = matmul (φ₁ := .f32) (φ₂ := .bf16) Cert.KernelIdeal.dot_S256x768_S768x768_S256x768_1_0_0_1_n_n none
          (attn (F := Ideal) (Cert.KernelIdeal.Gen.k0_pay2 v0 v2 v5))
          (shapeCast Cert.KernelIdeal.S768x768 w Cert.KernelIdeal.Gen.shapeCasts_S768x768_S768x768 : FVec Ideal Cert.KernelIdeal.S768x768 .bf16)
          (constant Cert.KernelIdeal.S256x768 .f32 0x00000000#32) := by
  rw [kh0, kh1, kh2, kh3, kh4, kh5, kh6, kh7, kh8, k24, kq, kk, kv]
  rfl

end AtIdeal

end Cert.ReferenceIdeal.AttnSame

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.KerLin.lean ====
/-
  The two linear layers of the fused kernel's body read at an index, at the ideal values: the projection to
  queries, keys and values is a row of the input block against a column of the first weight matrix plus the
  bias entry, and the output projection is a row of the attention result against a column of the second weight
  matrix plus its bias entry.
-/
import proofs.«175035_g2000205867183153_pallasbulk_1319_2_alg».proof.Proof.Gen.KernelIdeal.Skeleton
import proofs.«175035_g2000205867183153_pallasbulk_1319_2_alg».proof.Proof.LibRowOps
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.KerLin

open Cert.KernelIdeal Cert.KernelIdeal.Gen Idealize.ShloMosaic Idealize.ShloMosaic.ValueIdx

/-- The first product contracts the block's columns with the weight's rows. -/
theorem dot_qkv_plain : dot_S256x768_S768x2304_S256x2304_1_0_0_1_n_n = DotDims.plain 256 768 2304 :=
  Cert.RowLib.dotDims_eq_plain _ rfl rfl rfl rfl rfl rfl

/-- So does the second. -/
theorem dot_proj_plain : dot_S256x768_S768x768_S256x768_1_0_0_1_n_n = DotDims.plain 256 768 768 :=
  Cert.RowLib.dotDims_eq_plain _ rfl rfl rfl rfl rfl rfl

/-- Entry (n, j) of the projected block: row n of the input block against column j of the weights, plus bias j. -/
theorem qkv_apply (x0 : Vec Ideal S1x256x768 .bf16) (wq : Vec Ideal S768x2304 .bf16) (bq : Vec Ideal S1x2304 .f32)
    (n : Fin 256) (j : Fin 2304) :
    k0_pay2 (F := Ideal) x0 wq bq (ix2 n j)
      = (∑ k : Fin 768, x0 (ix3 (0 : Fin 1) n k) * wq (ix2 k j)) + bq (ix2 (0 : Fin 1) j) := by
  unfold k0_pay2
  rw [addf_apply, dot_qkv_plain, Cert.RowLib.matmul_plain_zero_ix2, broadcastTo_1b_ab_apply, shapeCast_self, shapeCast_self]
  refine congrArg (· + bq (ix2 (0 : Fin 1) j)) (Finset.sum_congr rfl fun k _ => ?_)
  rw [shapeCast_1ab_ab_apply]

/-- Entry (n, j) of the output block: entry (n, j) of the product plus bias j. -/
theorem out_apply (Y : FVec Ideal S256x768 .f32) (bp : Vec Ideal S1x768 .f32) (n : Fin 256) (j : Fin 768) :
    k0_pay1 (F := Ideal) Y bp (ix3 (0 : Fin 1) n j) = Y (ix2 n j) + bp (ix2 (0 : Fin 1) j) := by
  unfold k0_pay1
  rw [shapeCast_ab_1ab_apply, addf_apply, broadcastTo_1b_ab_apply, shapeCast_self]

/-- Entry (n, j) of the output product: row n of the attention result against column j of the weights. -/
theorem proj_apply {φ₁ φ₂ : FTy} (Y : FVec Ideal S256x768 φ₁) (wp : FVec Ideal S768x768 φ₂) (n : Fin 256) (j : Fin 768) :
    matmul dot_S256x768_S768x768_S256x768_1_0_0_1_n_n none Y wp (constant S256x768 .f32 0x00000000#32) (ix2 n j)
      = ∑ k : Fin 768, Y (ix2 n k) * wp (ix2 k j) := by
  rw [dot_proj_plain, Cert.RowLib.matmul_plain_zero_ix2]

end Cert.KernelIdeal.KerLin

end
-- ==== Proof.LibReindex.lean ====
/-
  Re-indexing finite sums over consecutive indices. A sum over `n = a * b` indices is a double sum over `a`
  blocks of `b` indices each, the index written `i * b + j` or `b * i + j`; a sum over `n = a + b + c` indices
  is the sum of its three consecutive blocks. All over an arbitrary additive commutative monoid.
-/
import Mathlib.Algebra.BigOperators.Fin
import Mathlib.Logic.Equiv.Fin.Basic

namespace Cert.LibReindex

open scoped BigOperators

variable {M : Type*} [AddCommMonoid M]

/-- Position `j` of block `i`, among `a` blocks of `b`, lies below `a * b`. -/
theorem mul_add_lt {a b : ℕ} (i : Fin a) (j : Fin b) : i.val * b + j.val < a * b :=
  calc i.val * b + j.val < i.val * b + b := Nat.add_lt_add_left j.isLt _
    _ = (i.val + 1) * b := (Nat.succ_mul _ _).symm
    _ ≤ a * b := Nat.mul_le_mul_right _ i.isLt

/-- The same with the block size written first. -/
theorem mul_add_lt' {a b : ℕ} (i : Fin a) (j : Fin b) : b * i.val + j.val < a * b :=
  Nat.mul_comm b i.val ▸ mul_add_lt i j

/-- A sum over `n = a * b` indices is the double sum over `a` blocks of `b`: the index is `i * b + j`. -/
theorem sum_mul_add {n : ℕ} (a b : ℕ) (hn : n = a * b) (f : Fin n → M) :
    ∑ r : Fin n, f r = ∑ i : Fin a, ∑ j : Fin b, f ⟨i.val * b + j.val, hn ▸ mul_add_lt i j⟩ := by
  subst hn
  rw [← Equiv.sum_comp finProdFinEquiv f, Fintype.sum_prod_type]
  refine Finset.sum_congr rfl fun i _ => Finset.sum_congr rfl fun j _ => congrArg f (Fin.ext ?_)
  show j.val + b * i.val = i.val * b + j.val
  rw [Nat.add_comm, Nat.mul_comm]

/-- A sum over `n = a * b` indices is the double sum over `a` blocks of `b`: the index is `b * i + j`. -/
theorem sum_mul_add' {n : ℕ} (a b : ℕ) (hn : n = a * b) (f : Fin n → M) :
    ∑ r : Fin n, f r = ∑ i : Fin a, ∑ j : Fin b, f ⟨b * i.val + j.val, hn ▸ mul_add_lt' i j⟩ := by
  rw [sum_mul_add a b hn f]
  refine Finset.sum_congr rfl fun i _ => Finset.sum_congr rfl fun j _ => congrArg f (Fin.ext ?_)
  show i.val * b + j.val = b * i.val + j.val
  rw [Nat.mul_comm]

/-- A sum over `n = a + b + c` indices is the sum of its three consecutive blocks. -/
theorem sum_three_blocks {n : ℕ} (a b c : ℕ) (hn : n = a + b + c) (f : Fin n → M) :
    ∑ k : Fin n, f k
      = (∑ i : Fin a, f ⟨i.val, by omega⟩ + ∑ i : Fin b, f ⟨a + i.val, by omega⟩)
        + ∑ i : Fin c, f ⟨a + b + i.val, by omega⟩ := by
  subst hn
  rw [Fin.sum_univ_add, Fin.sum_univ_add]
  rfl

end Cert.LibReindex
-- ==== Proof.LibRowCast.lean ====
/-
  General reads at an index of a reshape that splits the row axis of an [a·b, c] array into [a, b, c], or merges
  it back: row p·b + q of the flat array is row q of slab p.
-/
import Idealize.ShloMosaic.Lib.ValueIdx
import Idealize.ShloMosaic.Lib.ValueLayout
import Idealize.ShloMosaic.Lib.Pipeline.Value

noncomputable section

namespace Cert.RowCast

open Idealize.ShloMosaic Idealize.ShloMosaic.ValueIdx

variable {α : Type}

/-- Row q of slab p, among a slabs of b rows, lies below a·b. -/
theorem row_lt {n a b : ℕ} (hn : n = a * b) (p : Fin a) (q : Fin b) : p.val * b + q.val < n := by
  subst hn
  calc p.val * b + q.val < p.val * b + b := Nat.add_lt_add_left q.isLt _
    _ = (p.val + 1) * b := (Nat.succ_mul _ _).symm
    _ ≤ a * b := Nat.mul_le_mul_right _ p.isLt

/-- An [n, c] array with n = a·b cast to [a, b, c] reads, at (p, q, r), the operand at (p·b + q, r). -/
theorem shapeCast_split_apply {n a b c : ℕ} (hn : n = a * b) (v : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ v h (ix3 p q r) = v (ix2 ⟨p.val * b + q.val, row_lt hn p q⟩ r) :=
  shapeCast_apply v h _ _ (by
    rw [Shape.rowMajor_val_three, Shape.rowMajor_val_two]
    rfl)

/-- An [a, b, c] array cast to [n, c] with n = a·b reads, at (p·b + q, r), the operand at (p, q, r). -/
theorem shapeCast_merge_apply {n a b c : ℕ} (hn : n = a * b) (v : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ v h (ix2 ⟨p.val * b + q.val, row_lt hn p q⟩ r) = v (ix3 p q r) :=
  shapeCast_apply v h _ _ (by
    rw [Shape.rowMajor_val_three, Shape.rowMajor_val_two]
    rfl)

end Cert.RowCast

end
-- ==== Proof.RefLin0Val.lean ====
/-
  The value of the tiled linear kernel of region 0 at the ideal values: the result array after the region holds, at
  `(r, n)`, the three 256-blocks of the contraction of row `r` of `x` with column `n` of `w`, added in order onto zero,
  plus the bias at `n`; the input arrays are unchanged.
-/
import proofs.«175035_g2000205867183153_pallasbulk_1319_2_alg».proof.Proof.RefLin0
import proofs.«175035_g2000205867183153_pallasbulk_1319_2_alg».proof.Proof.LibRowOps
import Idealize.ShloMosaic.Lib.ValueIdx
import Idealize.ShloMosaic.Lib.ValueIdxCoords
import Idealize.ShloMosaic.PureOps.Ideal.Laws

set_option maxRecDepth 16384

noncomputable section

open scoped BigOperators

namespace Cert.ReferenceIdeal.Lin0

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx
open Cert.ReferenceIdeal Cert.ReferenceIdeal.Gen

/-! ## The payloads at an index, at the ideal values -/

theorem zeroAcc_apply (y : S512x256.Idx) : (zeroAcc : Vec Ideal S512x256 .f32) y = 0 := by
  unfold zeroAcc k0_pay1
  simp only [shapeCast_self]
  exact Ideal.ofBits_zero_f32

theorem stepAcc_apply (a : Vec Ideal S512x256 .f32) (x : Vec Ideal S512x256 .f32) (w : Vec Ideal S256x256 .f32) (p : Fin 512) (q : Fin 256) :
    stepAcc a x w (ix2 p q) = a (ix2 p q) + ∑ k : Fin 256, x (ix2 p k) * w (ix2 k q) := by
  unfold stepAcc k0_pay2
  simp only [shapeCast_self]
  rw [addf_apply, Cert.RowLib.dotDims_eq_plain dot_S512x256_S256x256_S512x256_1_0_0_1_n_n rfl rfl rfl rfl rfl rfl,
    Cert.RowLib.matmul_plain_zero_ix2]

theorem outVal_apply (a : Vec Ideal S512x256 .f32) (b : Vec Ideal S1x256 .f32) (p : Fin 512) (q : Fin 256) :
    outVal a b (ix2 p q) = a (ix2 p q) + b (ix2 (0 : Fin 1) q) := by
  unfold outVal k0_pay3
  simp only [shapeCast_self]
  rw [addf_apply, broadcastTo_apply b broadcasts_S1x256_S512x256 (ix2 p q) (ix2 (0 : Fin 1) q) (fun ax => by
    match ax with
    | ⟨0, _⟩ => rfl
    | ⟨1, _⟩ => rfl)]

/-! ## The windows' block indices in closed form: the point `t` is `(i, j, k) = (t / 27, t / 3 % 9, t % 3)` -/

theorem idx_0 : ∀ t : Fin cfg0.N, win0_0.index t 0 = t.val / 27 ∧ win0_0.index t 1 = t.val % 3 :=
  (by decide +kernel : ∀ t : Fin grid0.N, win0_0.index t 0 = t.val / 27 ∧ win0_0.index t 1 = t.val % 3)
theorem idx_1 : ∀ t : Fin cfg0.N, win0_1.index t 0 = t.val % 3 ∧ win0_1.index t 1 = t.val / 3 % 9 :=
  (by decide +kernel : ∀ t : Fin grid0.N, win0_1.index t 0 = t.val % 3 ∧ win0_1.index t 1 = t.val / 3 % 9)
theorem idx_2 : ∀ t : Fin cfg0.N, win0_2.index t 0 = 0 ∧ win0_2.index t 1 = t.val / 3 % 9 :=
  (by decide +kernel : ∀ t : Fin grid0.N, win0_2.index t 0 = 0 ∧ win0_2.index t 1 = t.val / 3 % 9)
theorem idx_3 : ∀ t : Fin cfg0.N, win0_3.index t 0 = t.val / 27 ∧ win0_3.index t 1 = t.val / 3 % 9 :=
  (by decide +kernel : ∀ t : Fin grid0.N, win0_3.index t 0 = t.val / 27 ∧ win0_3.index t 1 = t.val / 3 % 9)

section Value
variable (V : (c : Dev nD) → (b : Ref sig .tc) → Buf (Elt Ideal) ((c : Thread nD τ).loc b))

/-! ## The region's three input arrays as the region finds them -/

/-- `x`: 8192 rows of 768. -/
abbrev Xa (c : Dev nD) : S8192x768.Idx → EReal := V c (Pipeline.arrRef spec0 0)
/-- `w`: 768 rows of 2304. -/
abbrev Wa (c : Dev nD) : S768x2304.Idx → EReal := V c (Pipeline.arrRef spec0 1)
/-- `b`: one row of 2304. -/
abbrev Ba (c : Dev nD) : S1x2304.Idx → EReal := V c (Pipeline.arrRef spec0 2)

/-! ## The windows' blocks read at an index: the arrays at the block's offset -/

theorem iblk0_apply (c : Dev nD) (t : Fin cfg0.N) (p : Fin 512) (q : Fin 256) (g : S8192x768.Idx)
    (h0 : (g 0).val = t.val / 27 * 512 + p.val) (h1 : (g 1).val = t.val % 3 * 256 + q.val) :
    (iblk V c 0 t : Vec Ideal S512x256 .f32) (ix2 p q) = Xa V c g := by
  unfold iblk
  rw [View.read_apply]
  show V c main_v22 _ = V c main_v22 g
  congr 1
  funext a; apply Fin.ext
  match a with
  | ⟨0, _⟩ => show win0_0.index t 0 * 512 + 1 * p.val = (g 0).val; rw [(idx_0 t).1, h0]; omega
  | ⟨1, _⟩ => show win0_0.index t 1 * 256 + 1 * q.val = (g 1).val; rw [(idx_0 t).2, h1]; omega

theorem iblk1_apply (c : Dev nD) (t : Fin cfg0.N) (p : Fin 256) (q : Fin 256) (g : S768x2304.Idx)
    (h0 : (g 0).val = t.val % 3 * 256 + p.val) (h1 : (g 1).val = t.val / 3 % 9 * 256 + q.val) :
    (iblk V c 1 t : Vec Ideal S256x256 .f32) (ix2 p q) = Wa V c g := by
  unfold iblk
  rw [View.read_apply]
  show V c main_arg1 _ = V c main_arg1 g
  congr 1
  funext a; apply Fin.ext
  match a with
  | ⟨0, _⟩ => show win0_1.index t 0 * 256 + 1 * p.val = (g 0).val; rw [(idx_1 t).1, h0]; omega
  | ⟨1, _⟩ => show win0_1.index t 1 * 256 + 1 * q.val = (g 1).val; rw [(idx_1 t).2, h1]; omega

theorem iblk2_apply (c : Dev nD) (t : Fin cfg0.N) (q : Fin 256) (g : S1x2304.Idx)
    (h1 : (g 1).val = t.val / 3 % 9 * 256 + q.val) :
    (iblk V c 2 t : Vec Ideal S1x256 .f32) (ix2 (0 : Fin 1) q) = Ba V c g := by
  unfold iblk
  rw [View.read_apply]
  show V c main_v23 _ = V c main_v23 g
  congr 1
  funext a; apply Fin.ext
  match a with
  | ⟨0, _⟩ => show win0_2.index t 0 * 1 + 1 * 0 = (g 0).val; rw [(idx_2 t).1]; have := idx2_lt0 g; omega
  | ⟨1, _⟩ => show win0_2.index t 1 * 256 + 1 * q.val = (g 1).val; rw [(idx_2 t).2, h1]; omega

/-! ## The result array -/

/-- One block of the contraction: the products of row `i 0` of `x` and column `i 1` of `w` over the 256 contraction
    positions from `o`. -/
def dotBlk (c : Dev nD) (o : ℕ) (ho : o + 256 ≤ 768) (i : S8192x2304.Idx) : EReal :=
  ∑ k : Fin 256, Xa V c (ix2 (i 0 : Fin 8192) (⟨o + k.val, by have := k.isLt; omega⟩ : Fin 768))
    * Wa V c (ix2 (⟨o + k.val, by have := k.isLt; omega⟩ : Fin 768) (i 1 : Fin 2304))

/-- What the region leaves in its result array: at `(r, n)` the three blocks of the contraction of row `r` of `x` with
    column `n` of `w`, added in order onto zero, plus the bias at `n`. -/
def G (c : Dev nD) : S8192x2304.Idx → EReal := fun i =>
  (((0 + dotBlk V c 0 (by omega) i) + dotBlk V c 256 (by omega) i) + dotBlk V c 512 (by omega) i)
    + Ba V c (ix2 (0 : Fin 1) (i 1 : Fin 2304))

/-- The contraction block at point `t'` of the `k`-run, read off the two tiles, is the array's. -/
theorem dot_eq (c : Dev nD) (t' : Fin cfg0.N) (x : Vec Ideal S512x256 .f32) (w : Vec Ideal S256x256 .f32)
    (hx : x = iblk V c 0 t') (hw : w = iblk V c 1 t') (p : Fin 512) (q : Fin 256) (o : ℕ) (ho : o + 256 ≤ 768) (g : S8192x2304.Idx)
    (hk : t'.val % 3 * 256 = o) (h0 : (g 0).val = t'.val / 27 * 512 + p.val) (h1 : (g 1).val = t'.val / 3 % 9 * 256 + q.val) :
    (∑ k : Fin 256, x (ix2 p k) * w (ix2 k q)) = dotBlk V c o ho g := by
  subst hx hw
  unfold dotBlk
  refine Finset.sum_congr rfl fun k _ => ?_
  rw [iblk0_apply V c t' p k (ix2 (g 0 : Fin 8192) (⟨o + k.val, by have := k.isLt; omega⟩ : Fin 768)) h0 (by show o + k.val = _; omega),
    iblk1_apply V c t' k q (ix2 (⟨o + k.val, by have := k.isLt; omega⟩ : Fin 768) (g 1 : Fin 2304)) (by show o + k.val = _; omega) h1]

set_option maxHeartbeats 1000000 in
/-- What a point with `k = 2` writes back is its block of `G`. -/
theorem flushed_eq (c : Dev nD) (t : Fin cfg0.N) (hf : (cfg0.win 3).flush t = true) :
    (dat V c).flushed 3 t = ((cfg0.win 3).blk t).view.read (Elt Ideal) (G V c) := by
  have h2 : t.val % 3 = 2 := (flush0_3 t).mp hf
  have hN : t.val < 432 := lt_of_lt_of_eq t.isLt N_0
  have hlt : t.val < cfg0.N := t.isLt
  have e2 : accAfter V c t.val = stepAcc (accAfter V c (t.val - 1)) (iblk V c 0 t) (iblk V c 1 t) :=
    accAfter_step V c t (by omega)
  have e1 : accAfter V c (t.val - 1) = stepAcc (accAfter V c (t.val - 1 - 1)) (iblk V c 0 ⟨t.val - 1, by omega⟩) (iblk V c 1 ⟨t.val - 1, by omega⟩) :=
    accAfter_step V c ⟨t.val - 1, by omega⟩ (by show (t.val - 1) % 3 ≠ 0; omega)
  have e0 : accAfter V c (t.val - 1 - 1) = stepAcc zeroAcc (iblk V c 0 ⟨t.val - 1 - 1, by omega⟩) (iblk V c 1 ⟨t.val - 1 - 1, by omega⟩) :=
    accAfter_reset V c ⟨t.val - 1 - 1, by omega⟩ (by show (t.val - 1 - 1) % 3 = 0; omega)
  show (cfg0.win 3).cut (grid0.coords t) ((dat V c).after 3 t) = _
  rw [after_3]
  funext y
  obtain ⟨p, q, rfl⟩ : ∃ (p : Fin 512) (q : Fin 256), y = ix2 p q := ⟨y 0, y 1, eq_ix2 y⟩
  rw [View.read_apply]
  show outVal (accAfter V c t.val) (iblk V c 2 t) (ix2 p q) = G V c (((cfg0.win 3).blk t).view.emb (ix2 p q))
  generalize hg : ((cfg0.win 3).blk t).view.emb (ix2 p q) = g
  have hg0 : (g 0).val = t.val / 27 * 512 + p.val := by
    rw [← hg]; show win0_3.index t 0 * 512 + 1 * p.val = _; rw [(idx_3 t).1]; omega
  have hg1 : (g 1).val = t.val / 3 % 9 * 256 + q.val := by
    rw [← hg]; show win0_3.index t 1 * 256 + 1 * q.val = _; rw [(idx_3 t).2]; omega
  rw [outVal_apply, e2, stepAcc_apply, e1, stepAcc_apply, e0, stepAcc_apply, zeroAcc_apply]
  unfold G
  rw [dot_eq V c ⟨t.val - 1 - 1, by omega⟩ _ _ rfl rfl p q 0 (by omega) g (by show (t.val - 1 - 1) % 3 * 256 = 0; omega)
        (by show _ = (t.val - 1 - 1) / 27 * 512 + p.val; omega) (by show _ = (t.val - 1 - 1) / 3 % 9 * 256 + q.val; omega),
    dot_eq V c ⟨t.val - 1, by omega⟩ _ _ rfl rfl p q 256 (by omega) g (by show (t.val - 1) % 3 * 256 = 256; omega)
        (by show _ = (t.val - 1) / 27 * 512 + p.val; omega) (by show _ = (t.val - 1) / 3 % 9 * 256 + q.val; omega),
    dot_eq V c t _ _ rfl rfl p q 512 (by omega) g (by omega) hg0 hg1,
    iblk2_apply V c t q (ix2 (0 : Fin 1) (g 1 : Fin 2304)) hg1]

/-- THE VALUE: the result array after the region (every element of it is under the block of a point with `k = 2`). -/
theorem arr_out (c : Dev nD) : (dat (F := Ideal) V c).arrAt 3 cfg0.N = G V c :=
  (dat V c).arrAt_eq_of_cover 3 (G V c) (flushed_eq V c) fun i => by
    have hi0 : (i 0 : Nat) < 8192 := (i 0).isLt
    have hi1 : (i 1 : Nat) < 2304 := (i 1).isLt
    have hN : cfg0.N = 432 := N_0
    obtain ⟨t, ht⟩ : ∃ t : Fin cfg0.N, t.val = (i 0 : Nat) / 512 * 27 + (i 1 : Nat) / 256 * 3 + 2 :=
      ⟨⟨(i 0 : Nat) / 512 * 27 + (i 1 : Nat) / 256 * 3 + 2, by rw [hN]; omega⟩, rfl⟩
    refine ⟨t, (flush0_3 t).mpr (by rw [ht]; omega), ?_⟩
    show i ∈ ((View.whole main_v24).slice (win0_3.rect t)).set
    rw [View.set_slice_whole, Rect.mem_set_unit]
    intro a
    match a with
    | ⟨0, _⟩ =>
      show win0_3.index t 0 * 512 ≤ (i 0 : Nat) ∧ (i 0 : Nat) < win0_3.index t 0 * 512 + 512
      rw [(idx_3 t).1, ht]; omega
    | ⟨1, _⟩ =>
      show win0_3.index t 1 * 256 ≤ (i 1 : Nat) ∧ (i 1 : Nat) < win0_3.index t 1 * 256 + 256
      rw [(idx_3 t).2, ht]; omega

/-- The input arrays are as the region found them. -/
theorem arr_in (c : Dev nD) (w : Fin cfg0.W) (hw : w ≠ 3) : (dat (F := Ideal) V c).arrAt w cfg0.N = V c (Pipeline.arrRef spec0 w) := by
  have hin : (cfg0.win w).isOut = false := by
    match w with
    | ⟨0, _⟩ => rfl
    | ⟨1, _⟩ => rfl
    | ⟨2, _⟩ => rfl
    | ⟨3, _⟩ => exact absurd rfl hw
  exact ((dat V c).arrAt_in w hin _).trans (A_eq V c w)

end Value

section ValueAt
variable (V : (c : Dev nD) → (b : Ref sig .tc) → Buf (Elt Ideal) ((c : Thread nD τ).loc b))

/-- The value spelt out at an element `(r, n)`: `((0 + Σ_{k<256} x(r,k)·w(k,n)) + Σ_{k<256} x(r,256+k)·w(256+k,n)) + Σ_{k<256} x(r,512+k)·w(512+k,n)) + b(0,n)`. -/
theorem arr_out_apply (c : Dev nD) (i : S8192x2304.Idx) :
    (dat (F := Ideal) V c).arrAt 3 cfg0.N i
      = (((0 + ∑ k : Fin 256, Xa V c (ix2 (i 0 : Fin 8192) (⟨k.val, by have := k.isLt; omega⟩ : Fin 768)) * Wa V c (ix2 (⟨k.val, by have := k.isLt; omega⟩ : Fin 768) (i 1 : Fin 2304)))
          + ∑ k : Fin 256, Xa V c (ix2 (i 0 : Fin 8192) (⟨256 + k.val, by have := k.isLt; omega⟩ : Fin 768)) * Wa V c (ix2 (⟨256 + k.val, by have := k.isLt; omega⟩ : Fin 768) (i 1 : Fin 2304)))
          + ∑ k : Fin 256, Xa V c (ix2 (i 0 : Fin 8192) (⟨512 + k.val, by have := k.isLt; omega⟩ : Fin 768)) * Wa V c (ix2 (⟨512 + k.val, by have := k.isLt; omega⟩ : Fin 768) (i 1 : Fin 2304)))
        + Ba V c (ix2 (0 : Fin 1) (i 1 : Fin 2304)) := by
  rw [arr_out]
  unfold G dotBlk
  simp only [Nat.zero_add]

end ValueAt

end Cert.ReferenceIdeal.Lin0
end
-- ==== Proof.RefLin2Val.lean ====
/-
  The value of the tiled linear kernel of region 2 at the ideal values: the result array after the region holds, at
  `(r, n)`, the three 256-blocks of the contraction of row `r` of `x` with column `n` of `w`, added in order onto zero,
  plus the bias at `n`; the input arrays are unchanged.
-/
import proofs.«175035_g2000205867183153_pallasbulk_1319_2_alg».proof.Proof.RefLin2
import proofs.«175035_g2000205867183153_pallasbulk_1319_2_alg».proof.Proof.LibRowOps
import Idealize.ShloMosaic.Lib.ValueIdx
import Idealize.ShloMosaic.Lib.ValueIdxCoords
import Idealize.ShloMosaic.PureOps.Ideal.Laws

set_option maxRecDepth 16384

noncomputable section

open scoped BigOperators

namespace Cert.ReferenceIdeal.Lin2

open Idealize.ShloMosaic Idealize.ShloMosaic.TcCoe Idealize.ShloMosaic.Tactic
open Idealize.SL Idealize.SL.Sem
open Idealize.ShloMosaic.Pipeline (Dat Cfg Window BodyObligation cellOf)
open Idealize.ShloMosaic.ValueIdx
open Cert.ReferenceIdeal Cert.ReferenceIdeal.Gen

/-! ## The payloads at an index, at the ideal values -/

theorem zeroAcc_apply (y : S512x256.Idx) : (zeroAcc : Vec Ideal S512x256 .f32) y = 0 := by
  unfold zeroAcc k2_pay1
  simp only [shapeCast_self]
  exact Ideal.ofBits_zero_f32

theorem stepAcc_apply (a : Vec Ideal S512x256 .f32) (x : Vec Ideal S512x256 .f32) (w : Vec Ideal S256x256 .f32) (p : Fin 512) (q : Fin 256) :
    stepAcc a x w (ix2 p q) = a (ix2 p q) + ∑ k : Fin 256, x (ix2 p k) * w (ix2 k q) := by
  unfold stepAcc k2_pay2
  simp only [shapeCast_self]
  rw [addf_apply, Cert.RowLib.dotDims_eq_plain dot_S512x256_S256x256_S512x256_1_0_0_1_n_n rfl rfl rfl rfl rfl rfl,
    Cert.RowLib.matmul_plain_zero_ix2]

theorem outVal_apply (a : Vec Ideal S512x256 .f32) (b : Vec Ideal S1x256 .f32) (p : Fin 512) (q : Fin 256) :
    outVal a b (ix2 p q) = a (ix2 p q) + b (ix2 (0 : Fin 1) q) := by
  unfold outVal k2_pay3
  simp only [shapeCast_self]
  rw [addf_apply, broadcastTo_apply b broadcasts_S1x256_S512x256 (ix2 p q) (ix2 (0 : Fin 1) q) (fun ax => by
    match ax with
    | ⟨0, _⟩ => rfl
    | ⟨1, _⟩ => rfl)]

/-! ## The windows' block indices in closed form: the point `t` is `(i, j, k) = (t / 9, t / 3 % 3, t % 3)` -/

theorem idx_0 : ∀ t : Fin cfg2.N, win2_0.index t 0 = t.val / 9 ∧ win2_0.index t 1 = t.val % 3 :=
  (by decide +kernel : ∀ t : Fin grid2.N, win2_0.index t 0 = t.val / 9 ∧ win2_0.index t 1 = t.val % 3)
theorem idx_1 : ∀ t : Fin cfg2.N, win2_1.index t 0 = t.val % 3 ∧ win2_1.index t 1 = t.val / 3 % 3 :=
  (by decide +kernel : ∀ t : Fin grid2.N, win2_1.index t 0 = t.val % 3 ∧ win2_1.index t 1 = t.val / 3 % 3)
theorem idx_2 : ∀ t : Fin cfg2.N, win2_2.index t 0 = 0 ∧ win2_2.index t 1 = t.val / 3 % 3 :=
  (by decide +kernel : ∀ t : Fin grid2.N, win2_2.index t 0 = 0 ∧ win2_2.index t 1 = t.val / 3 % 3)
theorem idx_3 : ∀ t : Fin cfg2.N, win2_3.index t 0 = t.val / 9 ∧ win2_3.index t 1 = t.val / 3 % 3 :=
  (by decide +kernel : ∀ t : Fin grid2.N, win2_3.index t 0 = t.val / 9 ∧ win2_3.index t 1 = t.val / 3 % 3)

section Value
variable (V : (c : Dev nD) → (b : Ref sig .tc) → Buf (Elt Ideal) ((c : Thread nD τ).loc b))

/-! ## The region's three input arrays as the region finds them -/

/-- `x`: 8192 rows of 768. -/
abbrev Xa (c : Dev nD) : S8192x768.Idx → EReal := V c (Pipeline.arrRef spec2 0)
/-- `w`: 768 rows of 768. -/
abbrev Wa (c : Dev nD) : S768x768.Idx → EReal := V c (Pipeline.arrRef spec2 1)
/-- `b`: one row of 768. -/
abbrev Ba (c : Dev nD) : S1x768.Idx → EReal := V c (Pipeline.arrRef spec2 2)

/-! ## The windows' blocks read at an index: the arrays at the block's offset -/

theorem iblk0_apply (c : Dev nD) (t : Fin cfg2.N) (p : Fin 512) (q : Fin 256) (g : S8192x768.Idx)
    (h0 : (g 0).val = t.val / 9 * 512 + p.val) (h1 : (g 1).val = t.val % 3 * 256 + q.val) :
    (iblk V c 0 t : Vec Ideal S512x256 .f32) (ix2 p q) = Xa V c g := by
  unfold iblk
  rw [View.read_apply]
  show V c main_v27 _ = V c main_v27 g
  congr 1
  funext a; apply Fin.ext
  match a with
  | ⟨0, _⟩ => show win2_0.index t 0 * 512 + 1 * p.val = (g 0).val; rw [(idx_0 t).1, h0]; omega
  | ⟨1, _⟩ => show win2_0.index t 1 * 256 + 1 * q.val = (g 1).val; rw [(idx_0 t).2, h1]; omega

theorem iblk1_apply (c : Dev nD) (t : Fin cfg2.N) (p : Fin 256) (q : Fin 256) (g : S768x768.Idx)
    (h0 : (g 0).val = t.val % 3 * 256 + p.val) (h1 : (g 1).val = t.val / 3 % 3 * 256 + q.val) :
    (iblk V c 1 t : Vec Ideal S256x256 .f32) (ix2 p q) = Wa V c g := by
  unfold iblk
  rw [View.read_apply]
  show V c main_arg2 _ = V c main_arg2 g
  congr 1
  funext a; apply Fin.ext
  match a with
  | ⟨0, _⟩ => show win2_1.index t 0 * 256 + 1 * p.val = (g 0).val; rw [(idx_1 t).1, h0]; omega
  | ⟨1, _⟩ => show win2_1.index t 1 * 256 + 1 * q.val = (g 1).val; rw [(idx_1 t).2, h1]; omega

theorem iblk2_apply (c : Dev nD) (t : Fin cfg2.N) (q : Fin 256) (g : S1x768.Idx)
    (h1 : (g 1).val = t.val / 3 % 3 * 256 + q.val) :
    (iblk V c 2 t : Vec Ideal S1x256 .f32) (ix2 (0 : Fin 1) q) = Ba V c g := by
  unfold iblk
  rw [View.read_apply]
  show V c main_v28 _ = V c main_v28 g
  congr 1
  funext a; apply Fin.ext
  match a with
  | ⟨0, _⟩ => show win2_2.index t 0 * 1 + 1 * 0 = (g 0).val; rw [(idx_2 t).1]; have := idx2_lt0 g; omega
  | ⟨1, _⟩ => show win2_2.index t 1 * 256 + 1 * q.val = (g 1).val; rw [(idx_2 t).2, h1]; omega

/-! ## The result array -/

/-- One block of the contraction: the products of row `i 0` of `x` and column `i 1` of `w` over the 256 contraction
    positions from `o`. -/
def dotBlk (c : Dev nD) (o : ℕ) (ho : o + 256 ≤ 768) (i : S8192x768.Idx) : EReal :=
  ∑ k : Fin 256, Xa V c (ix2 (i 0 : Fin 8192) (⟨o + k.val, by have := k.isLt; omega⟩ : Fin 768))
    * Wa V c (ix2 (⟨o + k.val, by have := k.isLt; omega⟩ : Fin 768) (i 1 : Fin 768))

/-- What the region leaves in its result array: at `(r, n)` the three blocks of the contraction of row `r` of `x` with
    column `n` of `w`, added in order onto zero, plus the bias at `n`. -/
def G (c : Dev nD) : S8192x768.Idx → EReal := fun i =>
  (((0 + dotBlk V c 0 (by omega) i) + dotBlk V c 256 (by omega) i) + dotBlk V c 512 (by omega) i)
    + Ba V c (ix2 (0 : Fin 1) (i 1 : Fin 768))

/-- The contraction block at point `t'` of the `k`-run, read off the two tiles, is the array's. -/
theorem dot_eq (c : Dev nD) (t' : Fin cfg2.N) (x : Vec Ideal S512x256 .f32) (w : Vec Ideal S256x256 .f32)
    (hx : x = iblk V c 0 t') (hw : w = iblk V c 1 t') (p : Fin 512) (q : Fin 256) (o : ℕ) (ho : o + 256 ≤ 768) (g : S8192x768.Idx)
    (hk : t'.val % 3 * 256 = o) (h0 : (g 0).val = t'.val / 9 * 512 + p.val) (h1 : (g 1).val = t'.val / 3 % 3 * 256 + q.val) :
    (∑ k : Fin 256, x (ix2 p k) * w (ix2 k q)) = dotBlk V c o ho g := by
  subst hx hw
  unfold dotBlk
  refine Finset.sum_congr rfl fun k _ => ?_
  rw [iblk0_apply V c t' p k (ix2 (g 0 : Fin 8192) (⟨o + k.val, by have := k.isLt; omega⟩ : Fin 768)) h0 (by show o + k.val = _; omega),
    iblk1_apply V c t' k q (ix2 (⟨o + k.val, by have := k.isLt; omega⟩ : Fin 768) (g 1 : Fin 768)) (by show o + k.val = _; omega) h1]

set_option maxHeartbeats 1000000 in
/-- What a point with `k = 2` writes back is its block of `G`. -/
theorem flushed_eq (c : Dev nD) (t : Fin cfg2.N) (hf : (cfg2.win 3).flush t = true) :
    (dat V c).flushed 3 t = ((cfg2.win 3).blk t).view.read (Elt Ideal) (G V c) := by
  have h2 : t.val % 3 = 2 := (flush2_3 t).mp hf
  have hN : t.val < 144 := lt_of_lt_of_eq t.isLt N_2
  have hlt : t.val < cfg2.N := t.isLt
  have e2 : accAfter V c t.val = stepAcc (accAfter V c (t.val - 1)) (iblk V c 0 t) (iblk V c 1 t) :=
    accAfter_step V c t (by omega)
  have e1 : accAfter V c (t.val - 1) = stepAcc (accAfter V c (t.val - 1 - 1)) (iblk V c 0 ⟨t.val - 1, by omega⟩) (iblk V c 1 ⟨t.val - 1, by omega⟩) :=
    accAfter_step V c ⟨t.val - 1, by omega⟩ (by show (t.val - 1) % 3 ≠ 0; omega)
  have e0 : accAfter V c (t.val - 1 - 1) = stepAcc zeroAcc (iblk V c 0 ⟨t.val - 1 - 1, by omega⟩) (iblk V c 1 ⟨t.val - 1 - 1, by omega⟩) :=
    accAfter_reset V c ⟨t.val - 1 - 1, by omega⟩ (by show (t.val - 1 - 1) % 3 = 0; omega)
  show (cfg2.win 3).cut (grid2.coords t) ((dat V c).after 3 t) = _
  rw [after_3]
  funext y
  obtain ⟨p, q, rfl⟩ : ∃ (p : Fin 512) (q : Fin 256), y = ix2 p q := ⟨y 0, y 1, eq_ix2 y⟩
  rw [View.read_apply]
  show outVal (accAfter V c t.val) (iblk V c 2 t) (ix2 p q) = G V c (((cfg2.win 3).blk t).view.emb (ix2 p q))
  generalize hg : ((cfg2.win 3).blk t).view.emb (ix2 p q) = g
  have hg0 : (g 0).val = t.val / 9 * 512 + p.val := by
    rw [← hg]; show win2_3.index t 0 * 512 + 1 * p.val = _; rw [(idx_3 t).1]; omega
  have hg1 : (g 1).val = t.val / 3 % 3 * 256 + q.val := by
    rw [← hg]; show win2_3.index t 1 * 256 + 1 * q.val = _; rw [(idx_3 t).2]; omega
  rw [outVal_apply, e2, stepAcc_apply, e1, stepAcc_apply, e0, stepAcc_apply, zeroAcc_apply]
  unfold G
  rw [dot_eq V c ⟨t.val - 1 - 1, by omega⟩ _ _ rfl rfl p q 0 (by omega) g (by show (t.val - 1 - 1) % 3 * 256 = 0; omega)
        (by show _ = (t.val - 1 - 1) / 9 * 512 + p.val; omega) (by show _ = (t.val - 1 - 1) / 3 % 3 * 256 + q.val; omega),
    dot_eq V c ⟨t.val - 1, by omega⟩ _ _ rfl rfl p q 256 (by omega) g (by show (t.val - 1) % 3 * 256 = 256; omega)
        (by show _ = (t.val - 1) / 9 * 512 + p.val; omega) (by show _ = (t.val - 1) / 3 % 3 * 256 + q.val; omega),
    dot_eq V c t _ _ rfl rfl p q 512 (by omega) g (by omega) hg0 hg1,
    iblk2_apply V c t q (ix2 (0 : Fin 1) (g 1 : Fin 768)) hg1]

/-- THE VALUE: the result array after the region (every element of it is under the block of a point with `k = 2`). -/
theorem arr_out (c : Dev nD) : (dat (F := Ideal) V c).arrAt 3 cfg2.N = G V c :=
  (dat V c).arrAt_eq_of_cover 3 (G V c) (flushed_eq V c) fun i => by
    have hi0 : (i 0 : Nat) < 8192 := (i 0).isLt
    have hi1 : (i 1 : Nat) < 768 := (i 1).isLt
    have hN : cfg2.N = 144 := N_2
    obtain ⟨t, ht⟩ : ∃ t : Fin cfg2.N, t.val = (i 0 : Nat) / 512 * 9 + (i 1 : Nat) / 256 * 3 + 2 :=
      ⟨⟨(i 0 : Nat) / 512 * 9 + (i 1 : Nat) / 256 * 3 + 2, by rw [hN]; omega⟩, rfl⟩
    refine ⟨t, (flush2_3 t).mpr (by rw [ht]; omega), ?_⟩
    show i ∈ ((View.whole main_v29).slice (win2_3.rect t)).set
    rw [View.set_slice_whole, Rect.mem_set_unit]
    intro a
    match a with
    | ⟨0, _⟩ =>
      show win2_3.index t 0 * 512 ≤ (i 0 : Nat) ∧ (i 0 : Nat) < win2_3.index t 0 * 512 + 512
      rw [(idx_3 t).1, ht]; omega
    | ⟨1, _⟩ =>
      show win2_3.index t 1 * 256 ≤ (i 1 : Nat) ∧ (i 1 : Nat) < win2_3.index t 1 * 256 + 256
      rw [(idx_3 t).2, ht]; omega

/-- The input arrays are as the region found them. -/
theorem arr_in (c : Dev nD) (w : Fin cfg2.W) (hw : w ≠ 3) : (dat (F := Ideal) V c).arrAt w cfg2.N = V c (Pipeline.arrRef spec2 w) := by
  have hin : (cfg2.win w).isOut = false := by
    match w with
    | ⟨0, _⟩ => rfl
    | ⟨1, _⟩ => rfl
    | ⟨2, _⟩ => rfl
    | ⟨3, _⟩ => exact absurd rfl hw
  exact ((dat V c).arrAt_in w hin _).trans (A_eq V c w)

end Value

section ValueAt
variable (V : (c : Dev nD) → (b : Ref sig .tc) → Buf (Elt Ideal) ((c : Thread nD τ).loc b))

/-- The value spelt out at an element `(r, n)`: `((0 + Σ_{k<256} x(r,k)·w(k,n)) + Σ_{k<256} x(r,256+k)·w(256+k,n)) + Σ_{k<256} x(r,512+k)·w(512+k,n)) + b(0,n)`. -/
theorem arr_out_apply (c : Dev nD) (i : S8192x768.Idx) :
    (dat (F := Ideal) V c).arrAt 3 cfg2.N i
      = (((0 + ∑ k : Fin 256, Xa V c (ix2 (i 0 : Fin 8192) (⟨k.val, by have := k.isLt; omega⟩ : Fin 768)) * Wa V c (ix2 (⟨k.val, by have := k.isLt; omega⟩ : Fin 768) (i 1 : Fin 768)))
          + ∑ k : Fin 256, Xa V c (ix2 (i 0 : Fin 8192) (⟨256 + k.val, by have := k.isLt; omega⟩ : Fin 768)) * Wa V c (ix2 (⟨256 + k.val, by have := k.isLt; omega⟩ : Fin 768) (i 1 : Fin 768)))
          + ∑ k : Fin 256, Xa V c (ix2 (i 0 : Fin 8192) (⟨512 + k.val, by have := k.isLt; omega⟩ : Fin 768)) * Wa V c (ix2 (⟨512 + k.val, by have := k.isLt; omega⟩ : Fin 768) (i 1 : Fin 768)))
        + Ba V c (ix2 (0 : Fin 1) (i 1 : Fin 768)) := by
  rw [arr_out]
  unfold G dotBlk
  simp only [Nat.zero_add]

end ValueAt

end Cert.ReferenceIdeal.Lin2
end
-- ==== Proof.RefChain.lean ====
/- The reference program's result, entry by entry, as a function of its arguments: the three regions' values
   chained through the reshapes between them. Region 0 leaves x W_qkv + b_qkv (rows flattened); the attention
   region leaves, batch row by batch row, the attention core of its rows; region 2 leaves y W_proj + b_proj. -/
import proofs.«175035_g2000205867183153_pallasbulk_1319_2_alg».proof.Proof.RefValue
import proofs.«175035_g2000205867183153_pallasbulk_1319_2_alg».proof.Proof.RefLin0Val
import proofs.«175035_g2000205867183153_pallasbulk_1319_2_alg».proof.Proof.RefLin2Val
import proofs.«175035_g2000205867183153_pallasbulk_1319_2_alg».proof.Proof.AttnSame
import proofs.«175035_g2000205867183153_pallasbulk_1319_2_alg».proof.Proof.LibReindex
import proofs.«175035_g2000205867183153_pallasbulk_1319_2_alg».proof.Proof.LibRowCast
import Idealize.ShloMosaic.Lib.ValueLayout

set_option maxRecDepth 16384

noncomputable section

namespace Cert.ReferenceIdeal.Chain

open Cert.ReferenceIdeal Cert.ReferenceIdeal.Gen Cert.ReferenceIdeal.Run
open Idealize.ShloMosaic Idealize.ShloMosaic.TcCoe Idealize.SL.Sem Idealize.ShloMosaic.ValueIdx
open Idealize.ShloMosaic.Pipeline (Dat)
open scoped BigOperators

/-! ## The linear regions' arrays, typed -/

/-- Region 0's arrays at contents `V`: the rows, the weights, the bias row, and its result after the region. -/
abbrev X0 (V : (c : Dev nD) → (b : Ref sig .tc) → Buf (Elt Ideal) ((c : Thread nD τ).loc b)) (c : Dev nD) : S8192x768.Idx → EReal := V c (Pipeline.arrRef spec0 0)
abbrev Wt0 (V : (c : Dev nD) → (b : Ref sig .tc) → Buf (Elt Ideal) ((c : Thread nD τ).loc b)) (c : Dev nD) : S768x2304.Idx → EReal := V c (Pipeline.arrRef spec0 1)
abbrev Bi0 (V : (c : Dev nD) → (b : Ref sig .tc) → Buf (Elt Ideal) ((c : Thread nD τ).loc b)) (c : Dev nD) : S1x2304.Idx → EReal := V c (Pipeline.arrRef spec0 2)
abbrev Out0 (V : (c : Dev nD) → (b : Ref sig .tc) → Buf (Elt Ideal) ((c : Thread nD τ).loc b)) (c : Dev nD) : S8192x2304.Idx → EReal := (Lin0.dat (F := Ideal) V c).arrAt 3 cfg0.N
/-- Region 2's, likewise. -/
abbrev X2 (V : (c : Dev nD) → (b : Ref sig .tc) → Buf (Elt Ideal) ((c : Thread nD τ).loc b)) (c : Dev nD) : S8192x768.Idx → EReal := V c (Pipeline.arrRef spec2 0)
abbrev Wt2 (V : (c : Dev nD) → (b : Ref sig .tc) → Buf (Elt Ideal) ((c : Thread nD τ).loc b)) (c : Dev nD) : S768x768.Idx → EReal := V c (Pipeline.arrRef spec2 1)
abbrev Bi2 (V : (c : Dev nD) → (b : Ref sig .tc) → Buf (Elt Ideal) ((c : Thread nD τ).loc b)) (c : Dev nD) : S1x768.Idx → EReal := V c (Pipeline.arrRef spec2 2)
abbrev Out2 (V : (c : Dev nD) → (b : Ref sig .tc) → Buf (Elt Ideal) ((c : Thread nD τ).loc b)) (c : Dev nD) : S8192x768.Idx → EReal := (Lin2.dat (F := Ideal) V c).arrAt 3 cfg2.N

/-! ## The linear regions' values, as hypotheses -/

/-- Region 0's result array, entry by entry: row `r` of its first window's array times column `j` of its second's,
    plus entry `j` of its third's one row — at any contents `V` the region is entered with. -/
abbrev HL0 : Prop := ∀ (V : (c : Dev nD) → (b : Ref sig .tc) → Buf (Elt Ideal) ((c : Thread nD τ).loc b)) (c : Dev nD) (r : Fin 8192) (j : Fin 2304),
  Out0 V c (ix2 r j) = (∑ k : Fin 768, X0 V c (ix2 r k) * Wt0 V c (ix2 k j)) + Bi0 V c (ix2 (0 : Fin 1) j)

/-- Region 2's result array, entry by entry, likewise. -/
abbrev HL2 : Prop := ∀ (V : (c : Dev nD) → (b : Ref sig .tc) → Buf (Elt Ideal) ((c : Thread nD τ).loc b)) (c : Dev nD) (r : Fin 8192) (j : Fin 768),
  Out2 V c (ix2 r j) = (∑ k : Fin 768, X2 V c (ix2 r k) * Wt2 V c (ix2 k j)) + Bi2 V c (ix2 (0 : Fin 1) j)

/-- A sum over 768 indices taken as three consecutive blocks of 256 from zero is the sum. -/
theorem sum_blocks_256 (f : Fin 768 → EReal) :
    ((((0 : EReal) + ∑ k : Fin 256, f ⟨k.val, by omega⟩) + ∑ k : Fin 256, f ⟨256 + k.val, by omega⟩)
      + ∑ k : Fin 256, f ⟨512 + k.val, by omega⟩) = ∑ k : Fin 768, f k := by
  rw [zero_add, Cert.LibReindex.sum_three_blocks 256 256 256 rfl f]

variable (m : (ℓ : Loc nD τ sig) → Buf (Elt Ideal) ℓ) (ρ : Dev nD → PrngReg)

/-! ## The arguments, typed -/

/-- The input x, the two weight matrices and the two biases, as launched. -/
abbrev argX (c : Dev nD) : S32x256x768.Idx → EReal := m ((c : Thread nD τ).loc main_arg0)
abbrev argWqkv (c : Dev nD) : S768x2304.Idx → EReal := m ((c : Thread nD τ).loc main_arg1)
abbrev argWproj (c : Dev nD) : S768x768.Idx → EReal := m ((c : Thread nD τ).loc main_arg2)
abbrev argBqkv (c : Dev nD) : S2304.Idx → EReal := m ((c : Thread nD τ).loc main_arg3)
abbrev argBproj (c : Dev nD) : S768.Idx → EReal := m ((c : Thread nD τ).loc main_arg4)

/-! ## The projected block of batch row `b` -/

/-- Batch row `b` of x W_qkv + b_qkv, from the arguments. -/
def Qref (c : Dev nD) (b : Fin 32) : FVec Ideal S256x2304 .f32 := fun i =>
  (∑ k : Fin 768, argX m c (ix3 b (i 0) k) * argWqkv m c (ix2 k (i 1))) + argBqkv m c (ix1 (i 1))

/-- Flat row `b·256 + r` is below 8192. -/
theorem row_lt (b : Fin 32) (r : Fin 256) : b.val * 256 + r.val < 8192 := Cert.RowCast.row_lt (by norm_num : 8192 = 32 * 256) b r

/-- Region 0's value, from the three blocks of its contraction added in order onto zero. -/
theorem hL0 : HL0 := fun V c r j => by
  rw [show Out0 V c (ix2 r j) = (Lin0.dat (F := Ideal) V c).arrAt 3 cfg0.N (ix2 r j) from rfl, Lin0.arr_out_apply V c (ix2 r j)]
  exact congrArg (· + Bi0 V c (ix2 (0 : Fin 1) j)) (sum_blocks_256 fun k => X0 V c (ix2 r k) * Wt0 V c (ix2 k j))

/-- Region 2's value, likewise. -/
theorem hL2 : HL2 := fun V c r j => by
  rw [show Out2 V c (ix2 r j) = (Lin2.dat (F := Ideal) V c).arrAt 3 cfg2.N (ix2 r j) from rfl, Lin2.arr_out_apply V c (ix2 r j)]
  exact congrArg (· + Bi2 V c (ix2 (0 : Fin 1) j)) (sum_blocks_256 fun k => X2 V c (ix2 r k) * Wt2 V c (ix2 k j))

/-- The block the attention region reads at batch row `b`, read as 256x2304, is `Qref`. -/
theorem qkv_ref (c : Dev nD) (b : Fin 32) : k1_pay2 (Attn.rowIn (V13 m ρ) c b) = Qref m c b := by
  funext i
  obtain ⟨r, j, rfl⟩ : ∃ r j, i = ix2 r j := ⟨i 0, i 1, eq_ix2 i⟩
  rw [AttnSame.rowIn_apply]
  rw [show (V13 m ρ c (Pipeline.arrRef spec1 0) : S32x256x2304.Idx → EReal) = (W13 m ρ c (Proc.devRef .tc main_v25) : S32x256x2304.Idx → EReal) from rfl]
  rw [entry1_qkv, Cert.RowCast.shapeCast_split_apply (by norm_num : 8192 = 32 * 256)]
  have h12 : (W12 m ρ c (Proc.devRef .tc main_v24) : S8192x2304.Idx → EReal) = Out0 (V11 m ρ) c := W12_arr m ρ c 3
  rw [h12, hL0 (V11 m ρ) c ⟨b.val * 256 + r.val, _⟩ j]
  have hx : X0 (V11 m ρ) c = shapeCast S8192x768 (argX m c) shapeCasts_S32x256x768_S8192x768 := entry0_x m ρ c
  have hw : Wt0 (V11 m ρ) c = argWqkv m c := entry0_w m ρ c
  have hb : Bi0 (V11 m ρ) c = shapeCast S1x2304 (argBqkv m c) shapeCasts_S2304_S1x2304 := entry0_b m ρ c
  rw [hx, hw, hb, shapeCast_a_1a_apply]
  show _ = (∑ k : Fin 768, argX m c (ix3 b r k) * argWqkv m c (ix2 k j)) + argBqkv m c (ix1 j)
  congr 1
  refine Finset.sum_congr rfl fun k _ => ?_
  rw [Cert.RowCast.shapeCast_merge_apply (by norm_num : 8192 = 32 * 256)]

/-! ## The result -/

/-- THE REFERENCE'S RESULT, entry by entry: at batch row `b`, row `n`, column `j`, the attention core of batch row
    `b` of x W_qkv + b_qkv, times W_proj, plus b_proj. -/
theorem ref_apply (c : Dev nD) (b : Fin 32) (n : Fin 256) (j : Fin 768) :
    (W17 m ρ c (Proc.devRef .tc main_v30) : S32x256x768.Idx → EReal) (ix3 b n j)
      = (∑ k : Fin 768, AttnSame.attn (F := Ideal) (Qref m c b) (ix2 n k) * argWproj m c (ix2 k j)) + argBproj m c (ix1 j) := by
  rw [result_eq, Cert.RowCast.shapeCast_split_apply (by norm_num : 8192 = 32 * 256)]
  have h16 : (W16 m ρ c (Proc.devRef .tc main_v29) : S8192x768.Idx → EReal) = Out2 (V15 m ρ) c := W16_arr m ρ c 3
  rw [h16, hL2 (V15 m ρ) c ⟨b.val * 256 + n.val, _⟩ j]
  have hx : X2 (V15 m ρ) c = shapeCast S8192x768 (W14 m ρ c (Proc.devRef .tc main_v26) : S32x256x768.Idx → EReal) shapeCasts_S32x256x768_S8192x768 := entry2_y m ρ c
  have hw : Wt2 (V15 m ρ) c = argWproj m c := entry2_w m ρ c
  have hb : Bi2 (V15 m ρ) c = shapeCast S1x768 (argBproj m c) shapeCasts_S768_S1x768 := entry2_b m ρ c
  rw [hx, hw, hb, shapeCast_a_1a_apply]
  congr 1
  refine Finset.sum_congr rfl fun k _ => ?_
  rw [Cert.RowCast.shapeCast_merge_apply (by norm_num : 8192 = 32 * 256)]
  have h14 : (W14 m ρ c (Proc.devRef .tc main_v26) : S32x256x768.Idx → EReal) = (Attn.dat (F := Ideal) (V13 m ρ) c).arrAt 1 cfg1.N := W14_arr m ρ c 1
  rw [h14, Attn.arr_out, AttnSame.G_apply, qkv_ref]

end Cert.ReferenceIdeal.Chain

end
-- ==== Proof.Bridge.lean ====
/-
  The two programs' results are one function of the arguments. Entry (b, n, j) of either result is
  Σ_k A_b(n, k) · Wproj(k, j) + bproj(j), where A_b is the attention function of the projected block
  Q_b(n, j) = Σ_k x(b, n, k) · Wqkv(k, j) + bqkv(j): the kernel computes each sum over its 768 indices at once, the
  reference as zero plus three consecutive blocks of 256, and over the extended reals these agree.
-/
import proofs.«175035_g2000205867183153_pallasbulk_1319_2_alg».proof.Proof.RefValue
import proofs.«175035_g2000205867183153_pallasbulk_1319_2_alg».proof.Proof.AttnSame
import proofs.«175035_g2000205867183153_pallasbulk_1319_2_alg».proof.Proof.KerValue
import proofs.«175035_g2000205867183153_pallasbulk_1319_2_alg».proof.Proof.KerLin
import proofs.«175035_g2000205867183153_pallasbulk_1319_2_alg».proof.Proof.LibReindex
import proofs.«175035_g2000205867183153_pallasbulk_1319_2_alg».proof.Proof.LibRowCast
import proofs.«175035_g2000205867183153_pallasbulk_1319_2_alg».proof.Proof.RefChain
import Idealize.ShloMosaic.PureOps.Ideal.Laws

set_option maxRecDepth 16384

noncomputable section

open scoped BigOperators

namespace Cert.Bridge

open Idealize.ShloMosaic Idealize.ShloMosaic.TcCoe Idealize.SL.Sem Idealize.ShloMosaic.ValueIdx

/-! ## The kernel's result entry by entry -/

/-- The kernel's attention stage and output product: the attention function of the projected block, times the
    second weight matrix. -/
theorem kproj_eq (x0 : Vec Ideal Cert.KernelIdeal.S1x256x768 .bf16) (wq : Vec Ideal Cert.KernelIdeal.S768x2304 .bf16) (bq : Vec Ideal Cert.KernelIdeal.S1x2304 .f32)
    (wp : Vec Ideal Cert.KernelIdeal.S768x768 .bf16) :
    Cert.KernelIdeal.KerValue.KProj (F := Ideal) x0 wq bq wp
      = matmul (φ₁ := .f32) (φ₂ := .bf16) Cert.KernelIdeal.dot_S256x768_S768x768_S256x768_1_0_0_1_n_n none
          (Cert.ReferenceIdeal.AttnSame.attn (F := Ideal) (Cert.KernelIdeal.Gen.k0_pay2 x0 wq bq))
          (shapeCast Cert.KernelIdeal.S768x768 wp Cert.KernelIdeal.Gen.shapeCasts_S768x768_S768x768 : FVec Ideal Cert.KernelIdeal.S768x768 .bf16)
          (constant Cert.KernelIdeal.S256x768 .f32 0x00000000#32) := by
  unfold Cert.KernelIdeal.KerValue.KProj
  exact Cert.ReferenceIdeal.AttnSame.ker_y_eq x0 wq bq wp

/-- Entry (b, n, j) of the kernel's result. -/
theorem kout_apply (x : Cert.KernelIdeal.S32x256x768.Idx → EReal) (wq : Cert.KernelIdeal.S768x2304.Idx → EReal) (wp : Cert.KernelIdeal.S768x768.Idx → EReal)
    (bq : Cert.KernelIdeal.S2304.Idx → EReal) (bp : Cert.KernelIdeal.S768.Idx → EReal) (b : Fin 32) (n : Fin 256) (j : Fin 768) :
    Cert.KernelIdeal.KerValue.KOut x wq wp bq bp (ix3 b n j)
      = (∑ k : Fin 768, Cert.ReferenceIdeal.AttnSame.attn (F := Ideal)
            (Cert.KernelIdeal.Gen.k0_pay2 (F := Ideal) (fun y : Cert.KernelIdeal.S1x256x768.Idx => x (ix3 b (y 1) (y 2))) wq
              (shapeCast Cert.KernelIdeal.S1x2304 bq Cert.KernelIdeal.Gen.shapeCasts_S2304_S1x2304)) (ix2 n k) * wp (ix2 k j))
        + bp (ix1 j) := by
  rw [Cert.KernelIdeal.KerValue.KOut_apply, kproj_eq]
  refine congrArg (· + bp (ix1 j)) ?_
  refine (Cert.KernelIdeal.KerLin.proj_apply _ _ n j).trans ?_
  refine Finset.sum_congr rfl fun k _ => ?_
  rw [shapeCast_self]

/-- Entry (n, j) of the kernel's projected block for batch element b: row (b, n) of the input against column j of
    the first weight matrix, plus bias j. -/
theorem kqkv_apply (x : Cert.KernelIdeal.S32x256x768.Idx → EReal) (wq : Cert.KernelIdeal.S768x2304.Idx → EReal) (bq : Cert.KernelIdeal.S2304.Idx → EReal)
    (b : Fin 32) (n : Fin 256) (j : Fin 2304) :
    Cert.KernelIdeal.Gen.k0_pay2 (F := Ideal) (fun y : Cert.KernelIdeal.S1x256x768.Idx => x (ix3 b (y 1) (y 2))) wq
        (shapeCast Cert.KernelIdeal.S1x2304 bq Cert.KernelIdeal.Gen.shapeCasts_S2304_S1x2304) (ix2 n j)
      = (∑ k : Fin 768, x (ix3 b n k) * wq (ix2 k j)) + bq (ix1 j) := by
  rw [Cert.KernelIdeal.KerLin.qkv_apply, shapeCast_a_1a_apply]

/-! ## The two results are one function -/

/-- The reference's result array, at the end of its run, is the kernel's function of the arguments: entry by entry
    both are the attention result's row against a column of the second weight matrix plus a bias entry, the
    attention taken of the same projected block. -/
theorem same (m : (ℓ : Loc Cert.ReferenceIdeal.nD Cert.ReferenceIdeal.τ Cert.ReferenceIdeal.sig) → Buf (Elt Ideal) ℓ) (ρ : Dev Cert.ReferenceIdeal.nD → PrngReg) (c : Dev Cert.ReferenceIdeal.nD) :
    (Cert.ReferenceIdeal.Run.W17 m ρ c (Proc.devRef .tc Cert.ReferenceIdeal.main_v30) : Cert.ReferenceIdeal.S32x256x768.Idx → EReal)
      = Cert.KernelIdeal.KerValue.KOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
          (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
          (m ((c.tc : Thread Cert.ReferenceIdeal.nD Cert.ReferenceIdeal.τ).loc Cert.ReferenceIdeal.main_arg4)) := by
  funext i
  obtain ⟨b, n, j, rfl⟩ : ∃ (b : Fin 32) (n : Fin 256) (j : Fin 768), i = ix3 b n j := ⟨i 0, i 1, i 2, eq_ix3 i⟩
  rw [Cert.ReferenceIdeal.Chain.ref_apply, kout_apply]
  refine congrArg (· + _) (Finset.sum_congr rfl fun k _ => ?_)
  refine congrArg (fun Q => Cert.ReferenceIdeal.AttnSame.attn (F := Ideal) Q (ix2 n k) * _) ?_
  funext q
  obtain ⟨r, s, rfl⟩ : ∃ (r : Fin 256) (s : Fin 2304), q = ix2 r s := ⟨q 0, q 1, eq_ix2 q⟩
  rw [kqkv_apply]
  rfl

end Cert.Bridge

end
-- ==== Proof.lean ====
/-
  The fused attention block against its three-stage reference, at the ideal values.

  The kernel computes, for each of the 32 batch elements, the projection of a 256×768 input block to queries, keys
  and values (one matrix product with a 768×2304 weight plus a bias row), twelve heads of softmax attention over
  64-column slices (queries scaled by 1/8; scores, row maximum subtracted, exponential, row sum, product with the
  values, division by the row sum), the heads concatenated, and the output projection (a product with a 768×768
  weight plus a bias row). The reference computes the same three stages as three tiled passes over all 8192 rows:
  a matrix product accumulated over three blocks of 256 contracted indices into a scratch accumulator, the
  attention per batch element, and a second product accumulated the same way, with reshapes between them.

  Over the extended reals a change of float format is the identity, and a sum over 768 indices is the sum of its
  three blocks of 256 in order (addition is associative and zero is neutral), so both linear stages agree entry by
  entry; the attention stage is one function of the projected block in both programs. No law used here needs the
  inputs to be finite. The idealization rewrote no operation, so the preservation claim is trivial.
-/
import proofs.«175035_g2000205867183153_pallasbulk_1319_2_alg».proof.Defs
import proofs.«175035_g2000205867183153_pallasbulk_1319_2_alg».proof.Proof.Gen.Kernel
import proofs.«175035_g2000205867183153_pallasbulk_1319_2_alg».proof.Proof.Gen.Kernel.Frame
import proofs.«175035_g2000205867183153_pallasbulk_1319_2_alg».proof.Proof.Gen.KernelIdeal
import proofs.«175035_g2000205867183153_pallasbulk_1319_2_alg».proof.Proof.Gen.KernelIdeal.Frame
import proofs.«175035_g2000205867183153_pallasbulk_1319_2_alg».proof.Proof.Gen.ReferenceIdeal
import proofs.«175035_g2000205867183153_pallasbulk_1319_2_alg».proof.Proof.Gen.Pre_finite_inputs
import proofs.«175035_g2000205867183153_pallasbulk_1319_2_alg».proof.Proof.KerValue
import proofs.«175035_g2000205867183153_pallasbulk_1319_2_alg».proof.Proof.RefRun
import proofs.«175035_g2000205867183153_pallasbulk_1319_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's three regions and the host operations around them run and leave the arguments unchanged. -/
theorem frame_ri : Cert.frame_ReferenceIdeal := fun m ρ _ => Cert.ReferenceIdeal.Run.frame_run m ρ

/-- No operation was rewritten. -/
theorem preserves : Cert.preserves_Kernel_KernelIdeal := trivial

/-- At the ideal values the kernel's result array ends at its value function of the arguments and the reference's at
    the fold of its run, of arguments that agree; the two are one function. -/
theorem algebraic : Cert.algebraic_KernelIdeal_ReferenceIdeal := by
  intro m ρ m' ρ' _ hagree
  refine ⟨fun c => Cert.KernelIdeal.KerValue.KOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KerValue.run m ρ, ?_⟩
  refine (θ_run Cert.ReferenceIdeal.defs _ _).mono (fun _ h c => ⟨(h c).1.trans ?_, (h c).2⟩)
    (Cert.ReferenceIdeal.Run.value_run m' ρ')
  beta_reduce
  rw [← (hagree c).1, ← (hagree c).2.1, ← (hagree c).2.2.1, ← (hagree c).2.2.2.1, ← (hagree c).2.2.2.2]
  exact Cert.Bridge.same m' ρ' c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
